-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S16x1 .f32 .bf16
  ∧ IdealRules.truncf_extf.Statement Cert.KernelIdeal.S16x32768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S16 : Shape := ⟨1, ![16]⟩
abbrev S16x32 : Shape := ⟨2, ![16, 32]⟩
abbrev S1x16 : Shape := ⟨2, ![1, 16]⟩
abbrev S1 : Shape := ⟨1, ![1]⟩
abbrev S64x32 : Shape := ⟨2, ![64, 32]⟩
abbrev S64 : Shape := ⟨1, ![64]⟩
abbrev S256x64 : Shape := ⟨2, ![256, 64]⟩
abbrev S256 : Shape := ⟨1, ![256]⟩
abbrev S_ : Shape := ⟨0, ![]⟩
abbrev S15 : Shape := ⟨1, ![15]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  slices_S16_S15_0 : S16.Slices ![0] S15
  slices_S16_S1_15 : S16.Slices ![15] S1
  bcast_S_S15 : S_.BroadcastsInDim S15 (![] : Fin 0 → Fin S15.rank)
  reducesTo_S15_S_d0 : S15.ReducesTo [0] S_

variable [Facts]

def fn_part5 {F : FTy → Type} [FloatOps F] (main_arg1 : IVec S16 32) (main_v83 : IVec S_ 1) (main_v84 : IVec S15 32) (main_v85 : IVec S1 32) : IVec S_ 1 :=
  let main_c_32 : IVec S_ 32 := constantI S_ 32 32768#32
  let main_v86 : IVec S15 32 := broadcastInDim S15 ![] bcast_S_S15 main_c_32
  let main_v87 : IVec S15 32 := minsi main_v84 main_v86
  let main_c_33 : IVec S_ 32 := constantI S_ 32 0#32
  let main_v88 : IVec S_ 32 := (fun x v => Host.reduce IntOp.addi x v reducesTo_S15_S_d0 h_S_) main_v87 main_c_33
  let main_c_34 : IVec S_ 32 := constantI S_ 32 1#32
  let main_v89 : IVec S16 32 := broadcastInDim S16 ![] bcast_S_S16 main_c_34
  let main_v90 : IVec S16 1 := cmpi .sge main_arg1 main_v89
  let main_c_35 : IVec S_ 1 := constantI S_ 1 1#1
  let main_v91 : IVec S_ 1 := (fun x v => Host.reduce IntOp.andi x v reducesTo_S16_S_d0 h_S_) main_v90 main_c_35
  let main_c_36 : IVec S_ 32 := constantI S_ 32 32768#32
  let main_v92 : IVec S_ 1 := cmpi .slt main_v88 main_c_36
  let main_v93 : IVec S_ 1 := andi main_v91 main_v92
  let main_c_37 : IVec S_ 32 := constantI S_ 32 2147483647#32
  let main_v94 : IVec S_ 32 := subi main_c_37 main_v88
  let main_v95 : IVec S1 32 := broadcastInDim S1 ![] bcast_S_S1 main_v94
  let main_v96 : IVec S1 1 := cmpi .sle main_v85 main_v95
  let main_c_38 : IVec S_ 1 := constantI S_ 1 1#1
  let main_v97 : IVec S_ 1 := (fun x v => Host.reduce IntOp.andi x v reducesTo_S1_S_d0 h_S_) main_v96 main_c_38
  let main_v98 : IVec S_ 1 := andi main_v93 main_v97
  let main_v99 : IVec S_ 1 := andi main_v83 main_v98
  main_v99

def fn_part4 {F : FTy → Type} [FloatOps F] (main_arg1 : IVec S16 32) (main_arg15 : FVec F S256 .f32) (main_arg16 : FVec F S256 .f32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : IVec S15 32 := (extractStridedSlice S15 ![0] · slices_S16_S15_0) main_arg1
  let main_v85 : IVec S1 32 := (extractStridedSlice S1 ![15] · slices_S16_S1_15) main_arg1
  fn_part5 (F := F) main_arg1 main_v83 main_v84 main_v85

def fn_part3 {F : FTy → Type} [FloatOps F] (main_arg1 : IVec S16 32) (main_arg12 : FVec F S64 .f32) (main_arg13 : FVec F S64 .f32) (main_arg14 : FVec F S256x64 .f32) (main_arg15 : FVec F S256 .f32) (main_arg16 : FVec F S256 .f32) (main_arg17 : FVec F S256 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S256x64 .f32 := Host.absf main_arg14
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg1 main_arg15 main_arg16 main_arg17 main_v63 main_v67

def fn_part2 {F : FTy → Type} [FloatOps F] (main_arg1 : IVec S16 32) (main_arg8 : FVec F S1 .f32) (main_arg9 : FVec F S1 .f32) (main_arg10 : FVec F S64x32 .f32) (main_arg11 : FVec F S64 .f32) (main_arg12 : FVec F S64 .f32) (main_arg13 : FVec F S64 .f32) (main_arg14 : FVec F S256x64 .f32) (main_arg15 : FVec F S256 .f32) (main_arg16 : FVec F S256 .f32) (main_arg17 : FVec F S256 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_arg16 main_arg17 main_v48 main_v49 main_v50

def fn_part1 {F : FTy → Type} [FloatOps F] (main_arg1 : IVec S16 32) (main_arg5 : FVec F S16 .f32) (main_arg6 : FVec F S1x16 .f32) (main_arg7 : FVec F S1 .f32) (main_arg8 : FVec F S1 .f32) (main_arg9 : FVec F S1 .f32) (main_arg10 : FVec F S64x32 .f32) (main_arg11 : FVec F S64 .f32) (main_arg12 : FVec F S64 .f32) (main_arg13 : FVec F S64 .f32) (main_arg14 : FVec F S256x64 .f32) (main_arg15 : FVec F S256 .f32) (main_arg16 : FVec F S256 .f32) (main_arg17 : FVec F S256 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S32768x32 .f32) (main_arg1 : IVec S16 32) (main_arg2 : FVec F S16x32 .f32) (main_arg3 : FVec F S16 .f32) (main_arg4 : FVec F S16 .f32) (main_arg5 : FVec F S16 .f32) (main_arg6 : FVec F S1x16 .f32) (main_arg7 : FVec F S1 .f32) (main_arg8 : FVec F S1 .f32) (main_arg9 : FVec F S1 .f32) (main_arg10 : FVec F S64x32 .f32) (main_arg11 : FVec F S64 .f32) (main_arg12 : FVec F S64 .f32) (main_arg13 : FVec F S64 .f32) (main_arg14 : FVec F S256x64 .f32) (main_arg15 : FVec F S256 .f32) (main_arg16 : FVec F S256 .f32) (main_arg17 : FVec F S256 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S32768x32 : Shape := ⟨2, ![32768, 32]⟩
abbrev S16 : Shape := ⟨1, ![16]⟩
abbrev S16x32 : Shape := ⟨2, ![16, 32]⟩
abbrev S1x16 : Shape := ⟨2, ![1, 16]⟩
abbrev S1 : Shape := ⟨1, ![1]⟩
abbrev S64x32 : Shape := ⟨2, ![64, 32]⟩
abbrev S64 : Shape := ⟨1, ![64]⟩
abbrev S256x64 : Shape := ⟨2, ![256, 64]⟩
abbrev S256 : Shape := ⟨1, ![256]⟩
abbrev S16x256 : Shape := ⟨2, ![16, 256]⟩
abbrev S16x16 : Shape := ⟨2, ![16, 16]⟩
abbrev S16x1 : Shape := ⟨2, ![16, 1]⟩
abbrev S1x1 : Shape := ⟨2, ![1, 1]⟩
abbrev S1x64 : Shape := ⟨2, ![1, 64]⟩
abbrev S1x256 : Shape := ⟨2, ![1, 256]⟩
abbrev S16x32768 : Shape := ⟨2, ![16, 32768]⟩
abbrev S32768 : Shape := ⟨1, ![32768]⟩
abbrev S1x32768 : Shape := ⟨2, ![1, 32768]⟩
abbrev S16x64 : Shape := ⟨2, ![16, 64]⟩

abbrev nBuf : Space → Nat
  | .hbm => 19
  | .vmem => 19
  | .smem => 0
  | _ => 0

abbrev bufTy : (tb : Table) → Fin (tcTables nBuf tb) → BufTy
  | .hbm, ⟨0, _⟩ => ⟨S32768x32, .f32⟩
  | .hbm, ⟨1, _⟩ => ⟨S16, .i32⟩
  | .hbm, ⟨2, _⟩ => ⟨S16x32, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1x16, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S64x32, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S256x64, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S16x256, .f32⟩
  | .local _ .vmem, ⟨0, _⟩ => ⟨S32768x32, .f32⟩
  | .local _ .vmem, ⟨1, _⟩ => ⟨S16, .i32⟩
  | .local _ .vmem, ⟨2, _⟩ => ⟨S16x32, .f32⟩
  | .local _ .vmem, ⟨3, _⟩ => ⟨S16, .f32⟩
  | .local _ .vmem, ⟨4, _⟩ => ⟨S16, .f32⟩
  | .local _ .vmem, ⟨5, _⟩ => ⟨S16, .f32⟩
  | .local _ .vmem, ⟨6, _⟩ => ⟨S1x16, .f32⟩
  | .local _ .vmem, ⟨7, _⟩ => ⟨S1, .f32⟩
  | .local _ .vmem, ⟨8, _⟩ => ⟨S1, .f32⟩
  | .local _ .vmem, ⟨9, _⟩ => ⟨S1, .f32⟩
  | .local _ .vmem, ⟨10, _⟩ => ⟨S64x32, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S256x64, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S16x256, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S32768x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

class Facts₀ : Prop where
  inb_S32768x32_S32768x32_0_0 : ∀ a, (![0, 0] : Fin 2 → Nat) a + S32768x32.size a ≤ S32768x32.size a
  h_S32768x32 : 0 < S32768x32.numel
  bitsLt_bf16_f32 : FTy.bits .bf16 < FTy.bits .f32
  iota_S16x16_d0_w32 : S16x16.Iotas .tc 32 [0]
  iota_S16x16_d1_w32 : S16x16.Iotas .tc 32 [1]
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S16x16 : S1x16.Broadcasts S16x16
  reduces_S16x16_S16 : S16x16.Reduces [1] S16
  shapeCasts_S16_S16x1 : S16.ShapeCasts S16x1
  inb_S1x16_S1x16_0_0 : ∀ a, (![0, 0] : Fin 2 → Nat) a + S1x16.size a ≤ S1x16.size a
  h_S1x16 : 0 < S1x16.numel
  inb_S1_S1_0 : ∀ a, (![0] : Fin 1 → Nat) a + S1.size a ≤ S1.size a
  h_S1 : 0 < S1.numel
  shapeCasts_S1_S1x1 : S1.ShapeCasts S1x1
  inb_S64_S64_0 : ∀ a, (![0] : Fin 1 → Nat) a + S64.size a ≤ S64.size a
  h_S64 : 0 < S64.numel
  shapeCasts_S64_S1x64 : S64.ShapeCasts S1x64
  inb_S256_S256_0 : ∀ a, (![0] : Fin 1 → Nat) a + S256.size a ≤ S256.size a
  h_S256 : 0 < S256.numel
  shapeCasts_S256_S1x256 : S256.ShapeCasts S1x256
  inb_S16x32_S16x32_0_0 : ∀ a, (![0, 0] : Fin 2 → Nat) a + S16x32.size a ≤ S16x32.size a
  h_S16x32 : 0 < S16x32.numel
  broadcasts_S16x1_S16x32768 : S16x1.Broadcasts S16x32768
  reduces_S16x32768_S16 : S16x32768.Reduces [1] S16
  reduces_S16x32768_S32768 : S16x32768.Reduces [0] S32768
  shapeCasts_S32768_S1x32768 : S32768.ShapeCasts S1x32768
  broadcasts_S1x1_S1x32768 : S1x1.Broadcasts S1x32768
  reduces_S1x32768_S1 : S1x32768.Reduces [1] S1
  iota_S1x32768_d1_w32 : S1x32768.Iotas .tc 32 [1]
  broadcasts_S1x32768_S16x32768 : S1x32768.Broadcasts S16x32768
  shapeCasts_S1x32768_S1x32768 : S1x32768.ShapeCasts S1x32768
  broadcasts_S16x1_S16x32 : S16x1.Broadcasts S16x32
  inb_S64x32_S64x32_0_0 : ∀ a, (![0, 0] : Fin 2 → Nat) a + S64x32.size a ≤ S64x32.size a
  h_S64x32 : 0 < S64x32.numel
  broadcasts_S1x64_S16x64 : S1x64.Broadcasts S16x64
  reduces_S16x64_S64 : S16x64.Reduces [0] S64
  inb_S256x64_S256x64_0_0 : ∀ a, (![0, 0] : Fin 2 → Nat) a + S256x64.size a ≤ S256x64.size a
  h_S256x64 : 0 < S256x64.numel
  broadcasts_S1x256_S16x256 : S1x256.Broadcasts S16x256
  reduces_S16x256_S256 : S16x256.Reduces [0] S256
  reduces_S16x256_S16 : S16x256.Reduces [1] S16
  broadcasts_S16x1_S16x256 : S16x1.Broadcasts S16x256
  inb_S16x256_S16x256_0_0 : ∀ a, (![0, 0] : Fin 2 → Nat) a + S16x256.size a ≤ S16x256.size a
  h_S16x256 : 0 < S16x256.numel
  dot_S16x32_S32768x32_S16x32768_1_1_0_0_n_n_wf : DotDims.WF S16x32 S32768x32 S16x32768 [1] [1] [0] [0] [] []
  dot_S16x32768_S32768x32_S16x32_1_0_0_1_n_n_wf : DotDims.WF S16x32768 S32768x32 S16x32 [1] [0] [0] [1] [] []
  dot_S16x32_S64x32_S16x64_1_1_0_0_n_n_wf : DotDims.WF S16x32 S64x32 S16x64 [1] [1] [0] [0] [] []
  dot_S16x64_S256x64_S16x256_1_1_0_0_n_n_wf : DotDims.WF S16x64 S256x64 S16x256 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole

variable [Facts₀]

def dot_S16x32_S32768x32_S16x32768_1_1_0_0_n_n : DotDims S16x32 S32768x32 S16x32768 where
  lhsContracting := [1]
  rhsContracting := [1]
  lhsNonContracting := [0]
  rhsNonContracting := [0]
  lhsBatch := []
  rhsBatch := []
  wf := dot_S16x32_S32768x32_S16x32768_1_1_0_0_n_n_wf
def dot_S16x32768_S32768x32_S16x32_1_0_0_1_n_n : DotDims S16x32768 S32768x32 S16x32 where
  lhsContracting := [1]
  rhsContracting := [0]
  lhsNonContracting := [0]
  rhsNonContracting := [1]
  lhsBatch := []
  rhsBatch := []
  wf := dot_S16x32768_S32768x32_S16x32_1_0_0_1_n_n_wf
def dot_S16x32_S64x32_S16x64_1_1_0_0_n_n : DotDims S16x32 S64x32 S16x64 where
  lhsContracting := [1]
  rhsContracting := [1]
  lhsNonContracting := [0]
  rhsNonContracting := [0]
  lhsBatch := []
  rhsBatch := []
  wf := dot_S16x32_S64x32_S16x64_1_1_0_0_n_n_wf
def dot_S16x64_S256x64_S16x256_1_1_0_0_n_n : DotDims S16x64 S256x64 S16x256 where
  lhsContracting := [1]
  rhsContracting := [1]
  lhsNonContracting := [0]
  rhsNonContracting := [0]
  lhsBatch := []
  rhsBatch := []
  wf := dot_S16x64_S256x64_S16x256_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_arg10) false false (stage0_10 0) (sem0_10 0) (Memref.isWhole_whole _) (hstage0_10 0)

abbrev win0_11 : Pipeline.Window sig grid0 :=
  Pipeline.Window.whole (Memref.whole main_arg11) false false (stage0_11 0) (sem0_11 0) (Memref.isWhole_whole _) (hstage0_11 0)

abbrev win0_12 : Pipeline.Window sig grid0 :=
  Pipeline.Window.whole (Memref.whole main_arg12) false false (stage0_12 0) (sem0_12 0) (Memref.isWhole_whole _) (hstage0_12 0)

abbrev win0_13 : Pipeline.Window sig grid0 :=
  Pipeline.Window.whole (Memref.whole main_arg13) false false (stage0_13 0) (sem0_13 0) (Memref.isWhole_whole _) (hstage0_13 0)

abbrev win0_14 : Pipeline.Window sig grid0 :=
  Pipeline.Window.whole (Memref.whole main_arg14) false false (stage0_14 0) (sem0_14 0) (Memref.isWhole_whole _) (hstage0_14 0)

abbrev win0_15 : Pipeline.Window sig grid0 :=
  Pipeline.Window.whole (Memref.whole main_arg15) false false (stage0_15 0) (sem0_15 0) (Memref.isWhole_whole _) (hstage0_15 0)

abbrev win0_16 : Pipeline.Window sig grid0 :=
  Pipeline.Window.whole (Memref.whole main_arg16) false false (stage0_16 0) (sem0_16 0) (Memref.isWhole_whole _) (hstage0_16 0)

abbrev win0_17 : Pipeline.Window sig grid0 :=
  Pipeline.Window.whole (Memref.whole main_arg17) false false (stage0_17 0) (sem0_17 0) (Memref.isWhole_whole _) (hstage0_17 0)

abbrev win0_18 : Pipeline.Window sig grid0 :=
  Pipeline.Window.whole (Memref.whole main_v0) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32768x32 : Shape := ⟨2, ![32768, 32]⟩
abbrev S16 : Shape := ⟨1, ![16]⟩
abbrev S16x32 : Shape := ⟨2, ![16, 32]⟩
abbrev S1x16 : Shape := ⟨2, ![1, 16]⟩
abbrev S1 : Shape := ⟨1, ![1]⟩
abbrev S64x32 : Shape := ⟨2, ![64, 32]⟩
abbrev S64 : Shape := ⟨1, ![64]⟩
abbrev S256x64 : Shape := ⟨2, ![256, 64]⟩
abbrev S256 : Shape := ⟨1, ![256]⟩
abbrev S32x16 : Shape := ⟨2, ![32, 16]⟩
abbrev S32768x16 : Shape := ⟨2, ![32768, 16]⟩
abbrev S_ : Shape := ⟨0, ![]⟩
abbrev S16x1 : Shape := ⟨2, ![16, 1]⟩
abbrev S32768x1 : Shape := ⟨2, ![32768, 1]⟩
abbrev S1x1 : Shape := ⟨2, ![1, 1]⟩
abbrev S32768 : Shape := ⟨1, ![32768]⟩
abbrev S1x32768 : Shape := ⟨2, ![1, 32768]⟩
abbrev S16x32768 : Shape := ⟨2, ![16, 32768]⟩
abbrev S32x64 : Shape := ⟨2, ![32, 64]⟩
abbrev S16x64 : Shape := ⟨2, ![16, 64]⟩
abbrev S1x64 : Shape := ⟨2, ![1, 64]⟩
abbrev S64x256 : Shape := ⟨2, ![64, 256]⟩
abbrev S16x256 : Shape := ⟨2, ![16, 256]⟩
abbrev S1x256 : Shape := ⟨2, ![1, 256]⟩

abbrev nBuf : Space → Nat
  | .hbm => 275
  | .vmem => 0
  | .smem => 0
  | _ => 0

abbrev hbmTy0_0 (i : Nat) : BufTy := match i % 128 with
  | 0 => ⟨S32768x32, .f32⟩
  | 1 => ⟨S16, .i32⟩
  | 2 => ⟨S16x32, .f32⟩
  | 3 => ⟨S16, .f32⟩
  | 4 => ⟨S16, .f32⟩
  | 5 => ⟨S16, .f32⟩
  | 6 => ⟨S1x16, .f32⟩
  | 7 => ⟨S1, .f32⟩
  | 8 => ⟨S1, .f32⟩
  | 9 => ⟨S1, .f32⟩
  | 10 => ⟨S64x32, .f32⟩
  | 11 => ⟨S64, .f32⟩
  | 12 => ⟨S64, .f32⟩
  | 13 => ⟨S64, .f32⟩
  | 14 => ⟨S256x64, .f32⟩
  | 15 => ⟨S256, .f32⟩
  | 16 => ⟨S256, .f32⟩
  | 17 => ⟨S256, .f32⟩
  | 18 => ⟨S32x16, .f32⟩
  | 19 => ⟨S32768x16, .f32⟩
  | 20 => ⟨S1x16, .f32⟩
  | 21 => ⟨S32768x16, .f32⟩
  | 22 => ⟨S32768x16, .f32⟩
  | 23 => ⟨S_, .f32⟩
  | 24 => ⟨S16, .f32⟩
  | 25 => ⟨S1x16, .f32⟩
  | 26 => ⟨S_, .f32⟩
  | 27 => ⟨S1x16, .f32⟩
  | 28 => ⟨S1x16, .f32⟩
  | 29 => ⟨S_, .i32⟩
  | 30 => ⟨S_, .f32⟩
  | 31 => ⟨S16, .f32⟩
  | 32 => ⟨S1x16, .f32⟩
  | 33 => ⟨S_, .f32⟩
  | 34 => ⟨S1x16, .f32⟩
  | 35 => ⟨S1x16, .f32⟩
  | 36 => ⟨S32768x16, .f32⟩
  | 37 => ⟨S32768x16, .f32⟩
  | 38 => ⟨S32768x16, .f32⟩
  | 39 => ⟨S_, .f32⟩
  | 40 => ⟨S_, .f32⟩
  | 41 => ⟨S_, .f32⟩
  | 42 => ⟨S_, .f32⟩
  | 43 => ⟨S16, .f32⟩
  | 44 => ⟨S1x16, .f32⟩
  | 45 => ⟨S1x16, .f32⟩
  | 46 => ⟨S1x16, .f32⟩
  | 47 => ⟨S_, .f32⟩
  | 48 => ⟨S_, .i1⟩
  | 49 => ⟨S_, .f32⟩
  | 50 => ⟨S_, .f32⟩
  | 51 => ⟨S1x16, .f32⟩
  | 52 => ⟨S1x16, .f32⟩
  | 53 => ⟨S32768x16, .f32⟩
  | 54 => ⟨S32768x16, .f32⟩
  | 55 => ⟨S_, .f32⟩
  | 56 => ⟨S1x16, .f32⟩
  | 57 => ⟨S1x16, .f32⟩
  | 58 => ⟨S1x16, .f32⟩
  | 59 => ⟨S32768x16, .f32⟩
  | 60 => ⟨S32768x16, .f32⟩
  | 61 => ⟨S1x16, .f32⟩
  | 62 => ⟨S32768x16, .f32⟩
  | 63 => ⟨S32768x16, .f32⟩
  | 64 => ⟨S1x16, .f32⟩
  | 65 => ⟨S32768x16, .f32⟩
  | 66 => ⟨S32768x16, .f32⟩
  | 67 => ⟨S_, .f32⟩
  | 68 => ⟨S32768x16, .f32⟩
  | 69 => ⟨S32768x16, .f32⟩
  | 70 => ⟨S16x1, .f32⟩
  | 71 => ⟨S32768x1, .f32⟩
  | 72 => ⟨S1x1, .f32⟩
  | 73 => ⟨S32768x1, .f32⟩
  | 74 => ⟨S32768x1, .f32⟩
  | 75 => ⟨S_, .f32⟩
  | 76 => ⟨S1, .f32⟩
  | 77 => ⟨S1x1, .f32⟩
  | 78 => ⟨S_, .f32⟩
  | 79 => ⟨S1x1, .f32⟩
  | 80 => ⟨S1x1, .f32⟩
  | 81 => ⟨S_, .i32⟩
  | 82 => ⟨S_, .f32⟩
  | 83 => ⟨S1, .f32⟩
  | 84 => ⟨S1x1, .f32⟩
  | 85 => ⟨S_, .f32⟩
  | 86 => ⟨S1x1, .f32⟩
  | 87 => ⟨S1x1, .f32⟩
  | 88 => ⟨S32768x1, .f32⟩
  | 89 => ⟨S32768x1, .f32⟩
  | 90 => ⟨S32768x1, .f32⟩
  | 91 => ⟨S_, .f32⟩
  | 92 => ⟨S_, .f32⟩
  | 93 => ⟨S_, .f32⟩
  | 94 => ⟨S_, .f32⟩
  | 95 => ⟨S1, .f32⟩
  | 96 => ⟨S1x1, .f32⟩
  | 97 => ⟨S1x1, .f32⟩
  | 98 => ⟨S1x1, .f32⟩
  | 99 => ⟨S_, .f32⟩
  | 100 => ⟨S_, .i1⟩
  | 101 => ⟨S_, .f32⟩
  | 102 => ⟨S_, .f32⟩
  | 103 => ⟨S1x1, .f32⟩
  | 104 => ⟨S1x1, .f32⟩
  | 105 => ⟨S32768x1, .f32⟩
  | 106 => ⟨S32768x1, .f32⟩
  | 107 => ⟨S_, .f32⟩
  | 108 => ⟨S1x1, .f32⟩
  | 109 => ⟨S1x1, .f32⟩
  | 110 => ⟨S1x1, .f32⟩
  | 111 => ⟨S32768x1, .f32⟩
  | 112 => ⟨S32768x1, .f32⟩
  | 113 => ⟨S1x1, .f32⟩
  | 114 => ⟨S32768x1, .f32⟩
  | 115 => ⟨S32768x1, .f32⟩
  | 116 => ⟨S1x1, .f32⟩
  | 117 => ⟨S32768x1, .f32⟩
  | 118 => ⟨S32768x1, .f32⟩
  | 119 => ⟨S_, .i32⟩
  | 120 => ⟨S_, .i32⟩
  | 121 => ⟨S16, .i32⟩
  | 122 => ⟨S16, .i32⟩
  | 123 => ⟨S32768, .i32⟩
  | 124 => ⟨S1x32768, .i32⟩
  | 125 => ⟨S16x1, .i32⟩
  | 126 => ⟨S16x32768, .i32⟩
  | 127 => ⟨S16x32768, .i32⟩
  | _ => ⟨S32768x32, .f32⟩

abbrev hbmTy0_1 (i : Nat) : BufTy := match i % 128 with
  | 0 => ⟨S16x32768, .i1⟩
  | 1 => ⟨S1x32768, .i32⟩
  | 2 => ⟨S16x1, .i32⟩
  | 3 => ⟨S16x32768, .i32⟩
  | 4 => ⟨S16x32768, .i32⟩
  | 5 => ⟨S16x32768, .i1⟩
  | 6 => ⟨S16x32768, .i1⟩
  | 7 => ⟨S32768, .f32⟩
  | 8 => ⟨S1x32768, .f32⟩
  | 9 => ⟨S_, .f32⟩
  | 10 => ⟨S_, .f32⟩
  | 11 => ⟨S16x32768, .f32⟩
  | 12 => ⟨S16x32768, .f32⟩
  | 13 => ⟨S16x32768, .f32⟩
  | 14 => ⟨S_, .f32⟩
  | 15 => ⟨S16, .f32⟩
  | 16 => ⟨S16x1, .f32⟩
  | 17 => ⟨S1x32768, .f32⟩
  | 18 => ⟨S16x32768, .f32⟩
  | 19 => ⟨S16x32768, .f32⟩
  | 20 => ⟨S16x32768, .f32⟩
  | 21 => ⟨S16x32768, .f32⟩
  | 22 => ⟨S_, .f32⟩
  | 23 => ⟨S_, .f32⟩
  | 24 => ⟨S16x32768, .f32⟩
  | 25 => ⟨S16x32768, .f32⟩
  | 26 => ⟨S_, .f32⟩
  | 27 => ⟨S16, .f32⟩
  | 28 => ⟨S16x1, .f32⟩
  | 29 => ⟨S16x32768, .f32⟩
  | 30 => ⟨S16x32768, .f32⟩
  | 31 => ⟨S16x32, .f32⟩
  | 32 => ⟨S16x1, .i32⟩
  | 33 => ⟨S16x1, .f32⟩
  | 34 => ⟨S16x32, .f32⟩
  | 35 => ⟨S16x32, .f32⟩
  | 36 => ⟨S32x64, .f32⟩
  | 37 => ⟨S16x64, .f32⟩
  | 38 => ⟨S1x64, .f32⟩
  | 39 => ⟨S16x64, .f32⟩
  | 40 => ⟨S16x64, .f32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S16x64, .f32⟩
  | 55 => ⟨S16x64, .f32⟩
  | 56 => ⟨S16x64, .f32⟩
  | 57 => ⟨S_, .f32⟩
  | 58 => ⟨S_, .f32⟩
  | 59 => ⟨S_, .f32⟩
  | 60 => ⟨S_, .f32⟩
  | 61 => ⟨S64, .f32⟩
  | 62 => ⟨S1x64, .f32⟩
  | 63 => ⟨S1x64, .f32⟩
  | 64 => ⟨S1x64, .f32⟩
  | 65 => ⟨S_, .f32⟩
  | 66 => ⟨S_, .i1⟩
  | 67 => ⟨S_, .f32⟩
  | 68 => ⟨S_, .f32⟩
  | 69 => ⟨S1x64, .f32⟩
  | 70 => ⟨S1x64, .f32⟩
  | 71 => ⟨S16x64, .f32⟩
  | 72 => ⟨S16x64, .f32⟩
  | 73 => ⟨S_, .f32⟩
  | 74 => ⟨S1x64, .f32⟩
  | 75 => ⟨S1x64, .f32⟩
  | 76 => ⟨S1x64, .f32⟩
  | 77 => ⟨S16x64, .f32⟩
  | 78 => ⟨S16x64, .f32⟩
  | 79 => ⟨S1x64, .f32⟩
  | 80 => ⟨S16x64, .f32⟩
  | 81 => ⟨S16x64, .f32⟩
  | 82 => ⟨S1x64, .f32⟩
  | 83 => ⟨S16x64, .f32⟩
  | 84 => ⟨S16x64, .f32⟩
  | 85 => ⟨S_, .f32⟩
  | 86 => ⟨S16x64, .f32⟩
  | 87 => ⟨S16x64, .f32⟩
  | 88 => ⟨S64x256, .f32⟩
  | 89 => ⟨S16x256, .f32⟩
  | 90 => ⟨S1x256, .f32⟩
  | 91 => ⟨S16x256, .f32⟩
  | 92 => ⟨S16x256, .f32⟩
  | 93 => ⟨S_, .f32⟩
  | 94 => ⟨S256, .f32⟩
  | 95 => ⟨S1x256, .f32⟩
  | 96 => ⟨S_, .f32⟩
  | 97 => ⟨S1x256, .f32⟩
  | 98 => ⟨S1x256, .f32⟩
  | 99 => ⟨S_, .i32⟩
  | 100 => ⟨S_, .f32⟩
  | 101 => ⟨S256, .f32⟩
  | 102 => ⟨S1x256, .f32⟩
  | 103 => ⟨S_, .f32⟩
  | 104 => ⟨S1x256, .f32⟩
  | 105 => ⟨S1x256, .f32⟩
  | 106 => ⟨S16x256, .f32⟩
  | 107 => ⟨S16x256, .f32⟩
  | 108 => ⟨S16x256, .f32⟩
  | 109 => ⟨S_, .f32⟩
  | 110 => ⟨S_, .f32⟩
  | 111 => ⟨S_, .f32⟩
  | 112 => ⟨S_, .f32⟩
  | 113 => ⟨S256, .f32⟩
  | 114 => ⟨S1x256, .f32⟩
  | 115 => ⟨S1x256, .f32⟩
  | 116 => ⟨S1x256, .f32⟩
  | 117 => ⟨S_, .f32⟩
  | 118 => ⟨S_, .i1⟩
  | 119 => ⟨S_, .f32⟩
  | 120 => ⟨S_, .f32⟩
  | 121 => ⟨S1x256, .f32⟩
  | 122 => ⟨S1x256, .f32⟩
  | 123 => ⟨S16x256, .f32⟩
  | 124 => ⟨S16x256, .f32⟩
  | 125 => ⟨S_, .f32⟩
  | 126 => ⟨S1x256, .f32⟩
  | 127 => ⟨S1x256, .f32⟩
  | _ => ⟨S32768x32, .f32⟩

abbrev hbmTy0_2 (i : Nat) : BufTy := match i % 128 with
  | 0 => ⟨S1x256, .f32⟩
  | 1 => ⟨S16x256, .f32⟩
  | 2 => ⟨S16x256, .f32⟩
  | 3 => ⟨S1x256, .f32⟩
  | 4 => ⟨S16x256, .f32⟩
  | 5 => ⟨S16x256, .f32⟩
  | 6 => ⟨S1x256, .f32⟩
  | 7 => ⟨S16x256, .f32⟩
  | 8 => ⟨S16x256, .f32⟩
  | 9 => ⟨S16x256, .f32⟩
  | 10 => ⟨S_, .f32⟩
  | 11 => ⟨S16, .f32⟩
  | 12 => ⟨S16x1, .f32⟩
  | 13 => ⟨S16x1, .f32⟩
  | 14 => ⟨S_, .f32⟩
  | 15 => ⟨S16x1, .f32⟩
  | 16 => ⟨S16x1, .f32⟩
  | 17 => ⟨S16x256, .f32⟩
  | 18 => ⟨S16x256, .f32⟩
  | _ => ⟨S32768x32, .f32⟩

abbrev hbmTy (i : Nat) : BufTy := match i / 128 with
  | 0 => hbmTy0_0 i
  | 1 => hbmTy0_1 i
  | 2 => hbmTy0_2 i
  | _ => ⟨S32768x32, .f32⟩

abbrev bufTy : (tb : Table) → Fin (tcTables nBuf tb) → BufTy
  | .hbm, ⟨i, _⟩ => hbmTy i
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_call1_cst : Ref sig .tc := ⟨.hbm, 67, rfl⟩
abbrev main_call1_v0 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_2 : Ref sig .tc := ⟨.hbm, 75, rfl⟩
abbrev main_v29 : Ref sig .tc := ⟨.hbm, 76, rfl⟩
abbrev main_v30 : Ref sig .tc := ⟨.hbm, 77, rfl⟩
abbrev main_cst_3 : Ref sig .tc := ⟨.hbm, 78, rfl⟩
abbrev main_v31 : Ref sig .tc := ⟨.hbm, 79, rfl⟩
abbrev main_v32 : Ref sig .tc := ⟨.hbm, 80, rfl⟩
abbrev main_c_4 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_cst_3 : Ref sig .tc := ⟨.hbm, 99, rfl⟩
abbrev main_call2_v13 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_cst_5 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_call3_call0_c : Ref sig .tc := ⟨.hbm, 119, rfl⟩
abbrev main_call3_call0_v0 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_cst_6 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v63 : Ref sig .tc := ⟨.hbm, 141, rfl⟩
abbrev main_cst_7 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_8 : Ref sig .tc := ⟨.hbm, 150, rfl⟩
abbrev main_call5_v0 : Ref sig .tc := ⟨.hbm, 151, rfl⟩
abbrev main_call5_v1 : Ref sig .tc := ⟨.hbm, 152, rfl⟩
abbrev main_v71 : Ref sig .tc := ⟨.hbm, 153, rfl⟩
abbrev main_cst_9 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_10 : Ref sig .tc := ⟨.hbm, 169, rfl⟩
abbrev main_v86 : Ref sig .tc := ⟨.hbm, 170, rfl⟩
abbrev main_v87 : Ref sig .tc := ⟨.hbm, 171, rfl⟩
abbrev main_cst_11 : Ref sig .tc := ⟨.hbm, 172, rfl⟩
abbrev main_v88 : Ref sig .tc := ⟨.hbm, 173, rfl⟩
abbrev main_v89 : Ref sig .tc := ⟨.hbm, 174, rfl⟩
abbrev main_c_12 : Ref sig .tc := ⟨.hbm, 175, rfl⟩
abbrev main_call6_cst : Ref sig .tc := ⟨.hbm, 176, rfl⟩
abbrev main_call6_v0 : Ref sig .tc := ⟨.hbm, 177, rfl⟩
abbrev main_call6_v1 : Ref sig .tc := ⟨.hbm, 178, rfl⟩
abbrev main_call6_cst_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_v6 : Ref sig .tc := ⟨.hbm, 184, rfl⟩
abbrev main_call6_v7 : Ref sig .tc := ⟨.hbm, 185, rfl⟩
abbrev main_call6_cst_1 : Ref sig .tc := ⟨.hbm, 186, rfl⟩
abbrev main_call6_v8 : Ref sig .tc := ⟨.hbm, 187, rfl⟩
abbrev main_call6_cst_2 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_v12 : Ref sig .tc := ⟨.hbm, 192, rfl⟩
abbrev main_call6_cst_3 : Ref sig .tc := ⟨.hbm, 193, rfl⟩
abbrev main_call6_v13 : Ref sig .tc := ⟨.hbm, 194, rfl⟩
abbrev main_call6_cst_4 : Ref sig .tc := ⟨.hbm, 195, rfl⟩
abbrev main_call6_call0_v0 : Ref sig .tc := ⟨.hbm, 196, rfl⟩
abbrev main_call6_call0_v1 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_cst_13 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_call7_cst : Ref sig .tc := ⟨.hbm, 213, rfl⟩
abbrev main_call7_v0 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_cst_14 : Ref sig .tc := ⟨.hbm, 221, rfl⟩
abbrev main_v110 : Ref sig .tc := ⟨.hbm, 222, rfl⟩
abbrev main_v111 : Ref sig .tc := ⟨.hbm, 223, rfl⟩
abbrev main_cst_15 : Ref sig .tc := ⟨.hbm, 224, rfl⟩
abbrev main_v112 : Ref sig .tc := ⟨.hbm, 225, rfl⟩
abbrev main_v113 : Ref sig .tc := ⟨.hbm, 226, rfl⟩
abbrev main_c_16 : Ref sig .tc := ⟨.hbm, 227, rfl⟩
abbrev main_call8_cst : Ref sig .tc := ⟨.hbm, 228, rfl⟩
abbrev main_call8_v0 : Ref sig .tc := ⟨.hbm, 229, rfl⟩
abbrev main_call8_v1 : Ref sig .tc := ⟨.hbm, 230, rfl⟩
abbrev main_call8_cst_0 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_v6 : Ref sig .tc := ⟨.hbm, 236, rfl⟩
abbrev main_call8_v7 : Ref sig .tc := ⟨.hbm, 237, rfl⟩
abbrev main_call8_cst_1 : Ref sig .tc := ⟨.hbm, 238, rfl⟩
abbrev main_call8_v8 : Ref sig .tc := ⟨.hbm, 239, rfl⟩
abbrev main_call8_cst_2 : Ref sig .tc := ⟨.hbm, 240, rfl⟩
abbrev main_call8_v9 : Ref sig .tc := ⟨.hbm, 241, rfl⟩
abbrev main_call8_v10 : Ref sig .tc := ⟨.hbm, 242, rfl⟩
abbrev main_call8_v11 : Ref sig .tc := ⟨.hbm, 243, rfl⟩
abbrev main_call8_v12 : Ref sig .tc := ⟨.hbm, 244, rfl⟩
abbrev main_call8_cst_3 : Ref sig .tc := ⟨.hbm, 245, rfl⟩
abbrev main_call8_v13 : Ref sig .tc := ⟨.hbm, 246, rfl⟩
abbrev main_call8_cst_4 : Ref sig .tc := ⟨.hbm, 247, rfl⟩
abbrev main_call8_call0_v0 : Ref sig .tc := ⟨.hbm, 248, rfl⟩
abbrev main_call8_call0_v1 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_cst_17 : Ref sig .tc := ⟨.hbm, 253, rfl⟩
abbrev main_v117 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_v125 : Ref sig .tc := ⟨.hbm, 262, rfl⟩
abbrev main_v126 : Ref sig .tc := ⟨.hbm, 263, rfl⟩
abbrev main_v127 : Ref sig .tc := ⟨.hbm, 264, rfl⟩
abbrev main_call9_v0 : Ref sig .tc := ⟨.hbm, 265, rfl⟩
abbrev main_call9_cst : Ref sig .tc := ⟨.hbm, 266, rfl⟩
abbrev main_call9_v1 : Ref sig .tc := ⟨.hbm, 267, rfl⟩
abbrev main_call9_v2 : Ref sig .tc := ⟨.hbm, 268, rfl⟩
abbrev main_v128 : Ref sig .tc := ⟨.hbm, 269, rfl⟩
abbrev main_cst_18 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩

abbrev nD : Nat := 1
abbrev τ : Topo := Topo.v7x

variable {F : FTy → Type} [FloatOps F]

class Facts₀ : Prop where
  transposes_S16x32_S32x16_1_0 : S16x32.Transposes [1, 0] S32x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  reducesTo_S32768x16_S16_d0 : S32768x16.ReducesTo [0] S16
  h_S_ : 0 < S_.numel
  bcast_S_S1x16 : S_.BroadcastsInDim S1x16 (![] : Fin 0 → Fin S1x16.rank)
  bcast_S_S32768x16 : S_.BroadcastsInDim S32768x16 (![] : Fin 0 → Fin S32768x16.rank)
  transposes_S1x16_S16x1_1_0 : S1x16.Transposes [1, 0] S16x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S1_d0 : S32768x1.ReducesTo [0] S1
  bcast_S_S1x1 : S_.BroadcastsInDim S1x1 (![] : Fin 0 → Fin S1x1.rank)
  bcast_S_S_ : S_.BroadcastsInDim S_ (![] : Fin 0 → Fin S_.rank)
  reduceWindows_S16_S16_w16s1p15_0 : S16.ReduceWindows (![16] : Fin 1 → Nat) ![1] ![15] ![0] S16
  bcast_S32768_S1x32768_1 : S32768.BroadcastsInDim S1x32768 (![1] : Fin 1 → Fin S1x32768.rank)
  bcast_S16_S16x1_0 : S16.BroadcastsInDim S16x1 (![0] : Fin 1 → Fin S16x1.rank)
  bcast_S1x32768_S16x32768_0_1 : S1x32768.BroadcastsInDim S16x32768 (![0, 1] : Fin 2 → Fin S16x32768.rank)
  bcast_S16x1_S16x32768_0_1 : S16x1.BroadcastsInDim S16x32768 (![0, 1] : Fin 2 → Fin S16x32768.rank)
  shapeCasts_S32768x1_S32768 : S32768x1.ShapeCasts S32768
  bcast_S_S16x32768 : S_.BroadcastsInDim S16x32768 (![] : Fin 0 → Fin S16x32768.rank)
  reducesTo_S16x32768_S16_d1 : S16x32768.ReducesTo [1] S16
  bcast_S16x1_S16x32_0_1 : S16x1.BroadcastsInDim S16x32 (![0, 1] : Fin 2 → Fin S16x32.rank)
  transposes_S64x32_S32x64_1_0 : S64x32.Transposes [1, 0] S32x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  reducesTo_S16x64_S64_d0 : S16x64.ReducesTo [0] S64
  bcast_S_S1x64 : S_.BroadcastsInDim S1x64 (![] : Fin 0 → Fin S1x64.rank)
  bcast_S_S16x64 : S_.BroadcastsInDim S16x64 (![] : Fin 0 → Fin S16x64.rank)
  transposes_S256x64_S64x256_1_0 : S256x64.Transposes [1, 0] S64x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  reducesTo_S16x256_S256_d0 : S16x256.ReducesTo [0] S256
  bcast_S_S1x256 : S_.BroadcastsInDim S1x256 (![] : Fin 0 → Fin S1x256.rank)
  reducesTo_S16x256_S16_d1 : S16x256.ReducesTo [1] S16
  bcast_S_S16x1 : S_.BroadcastsInDim S16x1 (![] : Fin 0 → Fin S16x1.rank)
  bcast_S16x1_S16x256_0_1 : S16x1.BroadcastsInDim S16x256 (![0, 1] : Fin 2 → Fin S16x256.rank)
  dot_S32768x32_S32x16_S32768x16_1_0_0_1_n_n_wf : DotDims.WF S32768x32 S32x16 S32768x16 [1] [0] [0] [1] [] []
  dot_S32768x16_S16x1_S32768x1_1_0_0_1_n_n_wf : DotDims.WF S32768x16 S16x1 S32768x1 [1] [0] [0] [1] [] []
  dot_S16x32768_S32768x32_S16x32_1_0_0_1_n_n_wf : DotDims.WF S16x32768 S32768x32 S16x32 [1] [0] [0] [1] [] []
  dot_S16x32_S32x64_S16x64_1_0_0_1_n_n_wf : DotDims.WF S16x32 S32x64 S16x64 [1] [0] [0] [1] [] []
  dot_S16x64_S64x256_S16x256_1_0_0_1_n_n_wf : DotDims.WF S16x64 S64x256 S16x256 [1] [0] [0] [1] [] []

variable [Facts₀]

def dot_S32768x32_S32x16_S32768x16_1_0_0_1_n_n : DotDims S32768x32 S32x16 S32768x16 where
  lhsContracting := [1]
  rhsContracting := [0]
  lhsNonContracting := [0]
  rhsNonContracting := [1]
  lhsBatch := []
  rhsBatch := []
  wf := dot_S32768x32_S32x16_S32768x16_1_0_0_1_n_n_wf
def dot_S32768x16_S16x1_S32768x1_1_0_0_1_n_n : DotDims S32768x16 S16x1 S32768x1 where
  lhsContracting := [1]
  rhsContracting := [0]
  lhsNonContracting := [0]
  rhsNonContracting := [1]
  lhsBatch := []
  rhsBatch := []
  wf := dot_S32768x16_S16x1_S32768x1_1_0_0_1_n_n_wf
def dot_S16x32768_S32768x32_S16x32_1_0_0_1_n_n : DotDims S16x32768 S32768x32 S16x32 where
  lhsContracting := [1]
  rhsContracting := [0]
  lhsNonContracting := [0]
  rhsNonContracting := [1]
  lhsBatch := []
  rhsBatch := []
  wf := dot_S16x32768_S32768x32_S16x32_1_0_0_1_n_n_wf
def dot_S16x32_S32x64_S16x64_1_0_0_1_n_n : DotDims S16x32 S32x64 S16x64 where
  lhsContracting := [1]
  rhsContracting := [0]
  lhsNonContracting := [0]
  rhsNonContracting := [1]
  lhsBatch := []
  rhsBatch := []
  wf := dot_S16x32_S32x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

class Facts : Prop extends Facts₀ where

variable [Facts]
-- ==== Proof.Spec.lean ====
/- The network both programs compute, written once over coordinates on the extended reals.

   Points i < 32768 with 32 features; 16 segments b. A pointwise linear map to 16 channels, normalised over the points
   (mean and biased variance over all 32768 points, per channel), clipped at zero; a linear map to one score per point,
   normalised over the points again. Segment b holds the points whose number lies in [end b - len b, end b), end b the sum
   of the first b + 1 lengths (exact integers). Inside a segment the scores go through a softmax (largest score subtracted),
   the weights average the points' features, the average is divided by the segment's length; two linear layers follow, each
   normalised over the 16 rows, the first clipped at zero; last every row is divided by its Euclidean norm (at least the
   small floor). Three float words occur as they are printed: the variance offset, the norm's floor, and the two counts. -/
import Idealize.ShloMosaic.PureOps.Ideal
import Idealize.ShloMosaic.Lib.ValueIdx

noncomputable section

open scoped BigOperators
open Idealize.ShloMosaic Idealize.ShloMosaic.ValueIdx

namespace Cert.Spec

/-- A rank-2 array of extended reals, by its two extents. -/
abbrev A2 (a b : Nat) : Type := (⟨2, ![a, b]⟩ : Shape).Idx → EReal
/-- A rank-1 array of extended reals. -/
abbrev A1 (a : Nat) : Type := (⟨1, ![a]⟩ : Shape).Idx → EReal

/-- The eighteen argument arrays. -/
structure Args where
  x : A2 32768 32
  len : (⟨1, ![16]⟩ : Shape).Idx → BitVec 32
  W1 : A2 16 32
  b1 : A1 16
  g1 : A1 16
  be1 : A1 16
  W2 : A2 1 16
  b2 : A1 1
  g2 : A1 1
  be2 : A1 1
  Wf1 : A2 64 32
  bf1 : A1 64
  gf1 : A1 64
  bef1 : A1 64
  Wf2 : A2 256 64
  bf2 : A1 256
  gf2 : A1 256
  bef2 : A1 256

/-- The offset added to a variance, as printed (the float nearest 1e-5). -/
abbrev eps : EReal := Ideal.ofBits .f32 0x3727C5AC#32
/-- The floor under a row's norm, as printed (the float nearest 1e-12). -/
abbrev floor : EReal := Ideal.ofBits .f32 0x2B8CBCCC#32
/-- The number of points, as printed (32768). -/
abbrev nPts : EReal := Ideal.ofBits .f32 0x47000000#32
/-- The number of rows, as printed (16). -/
abbrev nRows : EReal := Ideal.ofBits .f32 0x41800000#32

section Norm
variable {ι : Type} [Fintype ι]

/-- The mean of a column: its sum divided by the count word. -/
def mean (n : EReal) (f : ι → EReal) : EReal := Ideal.div (∑ i, f i) n
/-- The biased variance of a column: the mean of the squared distances from the mean. -/
def var (n : EReal) (f : ι → EReal) : EReal := Ideal.div (∑ i, (f i - mean n f) * (f i - mean n f)) n
/-- Batch normalisation of a column at one position: centred, divided by the root of variance plus offset, scaled, shifted. -/
def bn (n : EReal) (f : ι → EReal) (g be : EReal) (i : ι) : EReal :=
  Ideal.div (f i - mean n f) (Ideal.sqrt (var n f + eps)) * g + be
end Norm

variable (a : Args)

/-- First linear map: point i, channel c. -/
def s1 (i : Fin 32768) (c : Fin 16) : EReal := (∑ d : Fin 32, a.x (ix2 i d) * a.W1 (ix2 c d)) + a.b1 (ix1 c)
/-- Normalised over the points and clipped at zero. -/
def o1 (i : Fin 32768) (c : Fin 16) : EReal :=
  max (bn nPts (fun i' => s1 a i' c) (a.g1 (ix1 c)) (a.be1 (ix1 c)) i) 0
/-- Second linear map: one number per point. -/
def s2 (i : Fin 32768) : EReal := (∑ c : Fin 16, o1 a i c * a.W2 (ix2 0 c)) + a.b2 (ix1 0)
/-- The attention score of point i. -/
def att (i : Fin 32768) : EReal := bn nPts (fun i' => s2 a i') (a.g2 (ix1 0)) (a.be2 (ix1 0)) i

/-- The length of segment b, the word read as a signed integer. -/
def lenZ (b : Fin 16) : ℤ := (a.len (ix1 b)).toInt
/-- The end of segment b: the exact sum of the lengths up to and including b. -/
def endZ (b : Fin 16) : ℤ := ∑ j : Fin 16, if j ≤ b then lenZ a j else 0
/-- Point i lies in segment b. -/
def inSeg (b : Fin 16) (i : Fin 32768) : Prop := endZ a b - lenZ a b ≤ (i.val : ℤ) ∧ (i.val : ℤ) < endZ a b

open Classical in
/-- The largest score inside segment b (the bottom element if the segment is empty). -/
def segMax (b : Fin 16) : EReal := Finset.univ.sup fun i : Fin 32768 => if inSeg a b i then att a i else ⊥
open Classical in
/-- The unnormalised softmax weight of point i in segment b. -/
def ew (b : Fin 16) (i : Fin 32768) : EReal := if inSeg a b i then Ideal.exp (att a i - segMax a b) else 0
/-- The softmax weight. -/
def w (b : Fin 16) (i : Fin 32768) : EReal := Ideal.div (ew a b i) (∑ i' : Fin 32768, ew a b i')
/-- The weighted mean of feature d over segment b, divided by the segment's length. -/
def r (b : Fin 16) (d : Fin 32) : EReal :=
  Ideal.div (∑ i : Fin 32768, w a b i * a.x (ix2 i d)) (((lenZ a b : ℤ) : ℝ) : EReal)

/-- First layer of the head. -/
def z1 (b : Fin 16) (j : Fin 64) : EReal := (∑ d : Fin 32, r a b d * a.Wf1 (ix2 j d)) + a.bf1 (ix1 j)
/-- Normalised over the 16 rows and clipped at zero. -/
def h1 (b : Fin 16) (j : Fin 64) : EReal :=
  max (bn nRows (fun b' => z1 a b' j) (a.gf1 (ix1 j)) (a.bef1 (ix1 j)) b) 0
/-- Second layer of the head. -/
def z2 (b : Fin 16) (k : Fin 256) : EReal := (∑ j : Fin 64, h1 a b j * a.Wf2 (ix2 k j)) + a.bf2 (ix1 k)
/-- Normalised over the 16 rows. -/
def h2 (b : Fin 16) (k : Fin 256) : EReal := bn nRows (fun b' => z2 a b' k) (a.gf2 (ix1 k)) (a.bef2 (ix1 k)) b
/-- The result: row b divided by its norm, the norm not below the floor. -/
def out (b : Fin 16) (k : Fin 256) : EReal :=
  Ideal.div (h2 a b k) (max (Ideal.sqrt (∑ k' : Fin 256, h2 a b k' * h2 a b k')) floor)

/-- The result as an array. -/
def outArr : A2 16 256 := fun j => out a ⟨(j 0).val, (j 0).isLt⟩ ⟨(j 1).val, (j 1).isLt⟩

theorem outArr_apply (b : Fin 16) (k : Fin 256) : outArr a (ix2 b k) = out a b k := rfl

/-- What the added precondition says of the lengths: each at least 1, the first fifteen summing below 32768, and the
    whole sum within the signed 32-bit range. -/
def LenOK : Prop :=
  (∀ b : Fin 16, 1 ≤ lenZ a b) ∧ (∀ b : Fin 16, b.val < 15 → endZ a b < 32768) ∧ endZ a 15 ≤ 2147483647

end Cert.Spec

end
-- ==== Proof.KArgs.lean ====
/- The kernel's eighteen argument arrays on a device, gathered in the specification's record. -/
import proofs.«116939_g89575837925665_cont_sun_c4_16_12_alg».proof.KernelIdeal
import proofs.«116939_g89575837925665_cont_sun_c4_16_12_alg».proof.Proof.Spec

noncomputable section

namespace Cert.KernelIdeal.Out

open Cert.KernelIdeal Idealize.ShloMosaic Idealize.ShloMosaic.TcCoe Idealize.SL.Sem

/-- The argument arrays as the kernel finds them on device `c`. -/
def kargs (m : (ℓ : Loc nD τ sig) → Buf (Elt Ideal) ℓ) (c : Dev nD) : Cert.Spec.Args where
  x := m ((c : Thread nD τ).loc main_arg0)
  len := m ((c : Thread nD τ).loc main_arg1)
  W1 := m ((c : Thread nD τ).loc main_arg2)
  b1 := m ((c : Thread nD τ).loc main_arg3)
  g1 := m ((c : Thread nD τ).loc main_arg4)
  be1 := m ((c : Thread nD τ).loc main_arg5)
  W2 := m ((c : Thread nD τ).loc main_arg6)
  b2 := m ((c : Thread nD τ).loc main_arg7)
  g2 := m ((c : Thread nD τ).loc main_arg8)
  be2 := m ((c : Thread nD τ).loc main_arg9)
  Wf1 := m ((c : Thread nD τ).loc main_arg10)
  bf1 := m ((c : Thread nD τ).loc main_arg11)
  gf1 := m ((c : Thread nD τ).loc main_arg12)
  bef1 := m ((c : Thread nD τ).loc main_arg13)
  Wf2 := m ((c : Thread nD τ).loc main_arg14)
  bf2 := m ((c : Thread nD τ).loc main_arg15)
  gf2 := m ((c : Thread nD τ).loc main_arg16)
  bef2 := m ((c : Thread nD τ).loc main_arg17)

end Cert.KernelIdeal.Out

end
-- ==== Proof.KHeadBn.lean ====
/-
  Normalisation of a finite family of extended reals, in the two spellings a program may use.

  A family `f : ι → EReal` is centred by its mean, and scaled by the inverse root of its biased variance plus a
  positive offset. One spelling divides by the root, the other multiplies by the inverse root; on the extended reals the
  two agree for EVERY centred value as soon as the quantity under the root is positive, and it is: a variance is a
  quotient of a sum of squares by a positive count, hence nonnegative, whatever the family (finite or not).
-/
import proofs.«116939_g89575837925665_cont_sun_c4_16_12_alg».proof.Proof.Spec

noncomputable section

open scoped BigOperators

namespace Cert.KernelIdeal.KHeadBn

open Idealize.ShloMosaic Cert.Spec

/-- A square is nonnegative on the extended reals. -/
theorem mul_self_nonneg' (x : EReal) : 0 ≤ x * x := by
  rcases le_total 0 x with h | h
  · exact mul_nonneg h h
  · have h' : 0 ≤ -x := by
      have := EReal.neg_le_neg_iff.mpr h
      simpa using this
    have := mul_nonneg h' h'
    rwa [neg_mul_neg] at this

/-- A nonnegative quantity divided by a positive one is nonnegative. -/
theorem div_nonneg' {s n : EReal} (hs : 0 ≤ s) (hn : 0 < n) : 0 ≤ Ideal.div s n := by
  rw [Ideal.div, if_neg hn.ne']
  exact mul_nonneg hs (EReal.inv_nonneg_of_nonneg hn.le)

/-- Multiplying by the inverse root of a positive extended real is dividing by its root. -/
theorem mul_rsqrt_eq_div_sqrt (c y : EReal) (hy : 0 < y) : c * Ideal.rsqrt y = Ideal.div c (Ideal.sqrt y) := by
  induction y using EReal.rec with
  | bot => exact absurd hy (by simp)
  | top =>
    rw [Ideal.rsqrt_top, Ideal.sqrt_top, Ideal.div, if_neg (by simp), EReal.inv_top]
  | coe r =>
    have hr : 0 < r := by exact_mod_cast hy
    have hs : 0 < Real.sqrt r := Real.sqrt_pos.mpr hr
    rw [Ideal.rsqrt_coe, if_neg (not_lt.mpr hr.le), if_neg hr.ne', Ideal.sqrt_coe, if_neg (not_lt.mpr hr.le),
      Ideal.div, if_neg (by exact_mod_cast hs.ne'), EReal.coe_inv]

section
variable {ι : Type} [Fintype ι]

/-- A biased variance over a positive count is nonnegative. -/
theorem var_nonneg (n : EReal) (hn : 0 < n) (f : ι → EReal) : 0 ≤ var n f :=
  div_nonneg' (Finset.sum_nonneg fun i _ => mul_self_nonneg' _) hn

/-- The normalisation written with the inverse root is the one written with a division by the root. -/
theorem bn_rsqrt (n : EReal) (hn : 0 < n) (heps : 0 < eps) (f : ι → EReal) (g be : EReal) (i : ι) :
    (f i - mean n f) * Ideal.rsqrt (var n f + eps) * g + be = bn n f g be i := by
  rw [bn, mul_rsqrt_eq_div_sqrt _ _ (lt_of_lt_of_le heps (le_add_of_nonneg_left (var_nonneg n hn f)))]

end

/-- The difference of a value and a bound above it is not positive, so capping it at zero changes nothing. -/
theorem min_sub_zero {x y : EReal} (h : x ≤ y) : min (x - y) 0 = x - y :=
  min_eq_left (EReal.sub_nonpos.mpr h)

end Cert.KernelIdeal.KHeadBn

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.KHeadPlumb.lean ====
/-
  Small facts about the kernel's layout operations and constants, read by coordinates on the extended reals:
  the printed count and offset words are positive; a sum over the ROWS of a matrix kept as one row; the
  normalisation of every column of a matrix over its rows, written with an inverse root; a vector laid out as one
  row; and the segment lengths as a column of exact integers.
-/
import proofs.«116939_g89575837925665_cont_sun_c4_16_12_alg».proof.Proof.Gen.KernelIdeal.Skeleton
import proofs.«116939_g89575837925665_cont_sun_c4_16_12_alg».proof.Proof.Spec
import proofs.«116939_g89575837925665_cont_sun_c4_16_12_alg».proof.Proof.KHeadBn
import proofs.«116939_g89575837925665_cont_sun_c4_16_12_alg».proof.Proof.LibKeepdims
import Idealize.ShloMosaic.Lib.Pipeline.Value

noncomputable section

open scoped BigOperators

namespace Cert.KernelIdeal.KHeadPlumb

open Cert.KernelIdeal Cert.KernelIdeal.Gen Idealize.ShloMosaic Idealize.ShloMosaic.ValueIdx Cert.Spec
open Cert.KernelIdeal.KHeadBn

/-! ## The printed words -/

/-- The row count's word is sixteen. -/
theorem nRows_eq : nRows = ((16 : ℝ) : EReal) := by
  simp [nRows, Ideal.ofBits, Ideal.ieee, -EReal.coe_mul]; norm_num

theorem nRows_pos : 0 < nRows := by
  rw [nRows_eq]; exact_mod_cast (by norm_num : (0 : ℝ) < 16)

/-- The variance offset's word is a positive real. -/
theorem eps_pos : 0 < eps := by
  simp [eps, Ideal.ofBits, Ideal.ieee, -EReal.coe_mul]

/-! ## A sum over the rows, kept as one row -/

/-- A sum of an `[a, b]` matrix over its ROWS, read at column `c`: the sum down the column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src (funext fun ax => Fin.ext ?_)
  match ax with
  | ⟨0, _⟩ => rfl
  | ⟨1, _⟩ => rfl

/-- The same sum laid out as the one row `[1, b]`. -/
theorem colSum_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (u : Fin 1) (c : Fin b) :
    shapeCast ⟨2, ![1, b]⟩ (multiReduction .add [0] ⟨1, ![b]⟩ src acc h hφ hacc) hc (ix2 u c) = ∑ k : Fin a, src (ix2 k c) :=
  (shapeCast_a_1a_apply _ hc u c).trans (multiReduction_add_cols_apply src acc h hφ hacc c)

/-! ## Normalisation of every column over the rows -/

section Rows
variable {R C : ℕ} (Z : FVec Ideal ⟨2, ![R, C]⟩ .f32) (G B : FVec Ideal ⟨2, ![1, C]⟩ .f32) (nW : BitVec 32)
  (h : (⟨2, ![R, C]⟩ : Shape).Reduces [0] ⟨1, ![C]⟩) (hc : (⟨1, ![C]⟩ : Shape).ShapeCasts ⟨2, ![1, C]⟩)
  (hb : (⟨2, ![1, C]⟩ : Shape).Broadcasts ⟨2, ![R, C]⟩)

/-- A matrix minus its column means: the sum over the rows kept as a row, divided by the count word, spread back. -/
def centre : FVec Ideal ⟨2, ![R, C]⟩ .f32 :=
  subf Z (broadcastTo ⟨2, ![R, C]⟩
    (divf (shapeCast ⟨2, ![1, C]⟩ (multiReduction .add [0] ⟨1, ![C]⟩ Z 0x00000000#32 h (.inl rfl) rfl) hc)
      (broadcast ⟨2, ![1, C]⟩ (Scalar.ofBits .f32 nW))) hb)

/-- The column variances as a row: the centred squares summed over the rows, divided by the count word. -/
def varRow : FVec Ideal ⟨2, ![1, C]⟩ .f32 :=
  divf (shapeCast ⟨2, ![1, C]⟩
      (multiReduction .add [0] ⟨1, ![C]⟩ (mulf (centre Z nW h hc hb) (centre Z nW h hc hb)) 0x00000000#32 h (.inl rfl) rfl) hc)
    (broadcast ⟨2, ![1, C]⟩ (Scalar.ofBits .f32 nW))

/-- Every column normalised over the rows, with the inverse root: centred, times the inverse root of variance plus
    offset, times the gain row, plus the shift row. -/
def bnRows : FVec Ideal ⟨2, ![R, C]⟩ .f32 :=
  addf (mulf (mulf (centre Z nW h hc hb)
      (broadcastTo ⟨2, ![R, C]⟩
        (rsqrt (addf (varRow Z nW h hc hb) (broadcast ⟨2, ![1, C]⟩ (Scalar.ofBits .f32 0x3727C5AC#32)))) hb))
      (broadcastTo ⟨2, ![R, C]⟩ G hb))
    (broadcastTo ⟨2, ![R, C]⟩ B hb)

theorem centre_apply (p : Fin R) (c : Fin C) :
    centre Z nW h hc hb (ix2 p c) = Z (ix2 p c) - mean (Ideal.ofBits .f32 nW) (fun k => Z (ix2 k c)) :=
  congrArg (Z (ix2 p c) - ·) ((broadcastTo_1b_ab_apply _ hb p c).trans
    (congrArg (Ideal.div · (Ideal.ofBits .f32 nW)) (colSum_row_apply Z _ h _ _ hc 0 c)))

theorem varRow_apply (c : Fin C) :
    varRow Z nW h hc hb (ix2 (0 : Fin 1) c) = var (Ideal.ofBits .f32 nW) (fun k => Z (ix2 k c)) :=
  congrArg (Ideal.div · (Ideal.ofBits .f32 nW)) ((colSum_row_apply _ _ h _ _ hc 0 c).trans
    (Finset.sum_congr rfl fun k _ => congrArg₂ (· * ·) (centre_apply Z nW h hc hb k c) (centre_apply Z nW h hc hb k c)))

/-- Read at `(p, c)`, the result is the normalisation of column `c` at row `p`. -/
theorem bnRows_apply (hn : 0 < Ideal.ofBits .f32 nW) (p : Fin R) (c : Fin C) :
    bnRows Z G B nW h hc hb (ix2 p c)
      = bn (Ideal.ofBits .f32 nW) (fun k => Z (ix2 k c)) (G (ix2 (0 : Fin 1) c)) (B (ix2 (0 : Fin 1) c)) p := by
  have e : bnRows Z G B nW h hc hb (ix2 p c)
      = (Z (ix2 p c) - mean (Ideal.ofBits .f32 nW) (fun k => Z (ix2 k c)))
          * Ideal.rsqrt (var (Ideal.ofBits .f32 nW) (fun k => Z (ix2 k c)) + eps) * G (ix2 (0 : Fin 1) c)
        + B (ix2 (0 : Fin 1) c) :=
    congrArg₂ (· + ·)
      (congrArg₂ (· * ·)
        (congrArg₂ (· * ·) (centre_apply Z nW h hc hb p c)
          ((broadcastTo_1b_ab_apply _ hb p c).trans
            (congrArg (fun v => Ideal.rsqrt (v + eps)) (varRow_apply Z nW h hc hb c))))
        (broadcastTo_1b_ab_apply G hb p c))
      (broadcastTo_1b_ab_apply B hb p c)
  exact e.trans (bn_rsqrt _ hn eps_pos (fun k => Z (ix2 k c)) _ _ p)

end Rows

/-! ## A vector as one row -/

/-- A vector laid out as the row `[1, n]` reads, at `(0, j)`, the vector at `j`. -/
theorem row_apply {n : ℕ} (v : (⟨1, ![n]⟩ : Shape).Idx → EReal) (hc : (⟨1, ![n]⟩ : Shape).ShapeCasts ⟨2, ![1, n]⟩) (j : Fin n) :
    shapeCast ⟨2, ![1, n]⟩ v hc (ix2 (0 : Fin 1) j) = v (ix1 j) :=
  shapeCast_a_1a_apply v hc 0 j

/-! ## The segment lengths as a column -/

/-- The two coordinate arrays agree exactly on the diagonal. -/
theorem diag_apply (b j : Fin 16) : k0_pay3 (ix2 b j) = if j = b then 1#1 else 0#1 := by
  show IntOp.cmpi .eq (iota .tc S16x16 32 [0] iota_S16x16_d0_w32 (ix2 b j)) (iota .tc S16x16 32 [1] iota_S16x16_d1_w32 (ix2 b j)) = _
  rw [iota_single_apply, iota_single_apply]
  show BitVec.ofBool (BitVec.ofNat 32 b.val == BitVec.ofNat 32 j.val) = _
  by_cases hbj : j = b
  · subst hbj; simp
  · rw [if_neg hbj]
    have hne : ¬ (BitVec.ofNat 32 b.val = BitVec.ofNat 32 j.val) := by
      intro e
      have e' := congrArg BitVec.toNat e
      rw [BitVec.toNat_ofNat, BitVec.toNat_ofNat] at e'
      have hb := b.isLt; have hj := j.isLt
      apply hbj; apply Fin.ext; omega
    rw [beq_eq_false_iff_ne.mpr hne]; rfl

/-- The lengths, converted and spread over a square, read at `(b, j)`: the length of segment `j`. -/
theorem lenSq_apply (L : (⟨1, ![16]⟩ : Shape).Idx → BitVec 32) (b j : Fin 16) :
    k0_pay5 (F := Ideal) L (ix2 b j) = (((L (ix1 j)).toInt : ℝ) : EReal) :=
  (broadcastTo_1b_ab_apply _ broadcasts_S1x16_S16x16 b j).trans
    ((congrFun (shapeCast_self _ shapeCasts_S1x16_S1x16) (ix2 (0 : Fin 1) j)).trans
      (shapeCast_a_1a_apply _ shapeCasts_S16_S1x16 0 j))

/-- The diagonal-masked row sum of the lengths, kept as a column: at `(b, 0)` the length of segment `b`. -/
theorem lenf_apply (a : Args) (b : Fin 16) (u : Fin 1) :
    k0_pay7 (F := Ideal) a.len (ix2 b u) = (((lenZ a b : ℤ) : ℝ) : EReal) := by
  unfold k0_pay7
  refine (shapeCast_a_a1_apply _ shapeCasts_S16_S16x1 b u).trans ?_
  refine (multiReduction_add_rows_apply _ _ reduces_S16x16_S16 _ _ b).trans ?_
  have e : ∀ j : Fin 16, select k0_pay3 (k0_pay5 (F := Ideal) a.len) (k0_pay4 (F := Ideal)) (ix2 b j)
      = if j = b then (((lenZ a j : ℤ) : ℝ) : EReal) else 0 := by
    intro j
    show Scalar.select (k0_pay3 (ix2 b j)) (k0_pay5 (F := Ideal) a.len (ix2 b j)) (Ideal.ofBits .f32 0x00000000#32) = _
    rw [diag_apply, lenSq_apply, Ideal.ofBits_zero_f32]
    by_cases hj : j = b
    · rw [if_pos hj, if_pos hj, select_one]; rfl
    · rw [if_neg hj, if_neg hj, select_zero]
  rw [Finset.sum_congr rfl fun j _ => e j, Finset.sum_ite_eq' Finset.univ b, if_pos (Finset.mem_univ b)]

end Cert.KernelIdeal.KHeadPlumb

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.KHead27.lean ====
/-
  The softmax weights inside each segment, the weighted mean of the features divided by the segment's length, and the
  first layer of the head with its normalisation over the sixteen rows, as the kernel computes them from the segment
  mask and the scores already reduced by the segment's maximum: read at an index, each stage is the network's.
-/
import proofs.«116939_g89575837925665_cont_sun_c4_16_12_alg».proof.Proof.KHeadPlumb
import proofs.«116939_g89575837925665_cont_sun_c4_16_12_alg».proof.Proof.LibMatmulNN
import proofs.«116939_g89575837925665_cont_sun_c4_16_12_alg».proof.Proof.LibMatmulNT

set_option maxRecDepth 200000

noncomputable section

open scoped BigOperators

namespace Cert.KernelIdeal.KHead27

open Cert.KernelIdeal Cert.KernelIdeal.Gen Idealize.ShloMosaic Idealize.ShloMosaic.ValueIdx Cert.Spec
open Cert.KernelIdeal.KHeadBn Cert.KernelIdeal.KHeadPlumb

variable (a : Args) (mask : IVec S16x32768 1) (dlt : FVec Ideal S16x32768 .f32)

/-- The unnormalised weights: the exponential of the reduced score capped at zero inside the mask, zero outside. -/
def E : FVec Ideal S16x32768 .f32 :=
  select mask (exp (minimumf dlt (broadcast S16x32768 (Scalar.ofBits .f32 0x00000000#32))))
    (broadcast S16x32768 (Scalar.ofBits .f32 0x00000000#32))

/-- The weights: each row divided by its sum. -/
def Wt : FVec Ideal S16x32768 .f32 :=
  divf (E mask dlt)
    (broadcastTo S16x32768
      (shapeCast S16x1 (multiReduction .add [1] S16 (E mask dlt) 0x00000000#32 reduces_S16x32768_S16 (.inl rfl) rfl)
        shapeCasts_S16_S16x1) broadcasts_S16x1_S16x32768)

/-- The weighted feature sums divided by the lengths. -/
def Rm : FVec Ideal S16x32 .f32 :=
  divf (matmul dot_S16x32768_S32768x32_S16x32_1_0_0_1_n_n none (truncf .bf16 (Wt mask dlt) bitsLt_bf16_f32) (k0_pay2 a.x)
      (constant S16x32 .f32 0x00000000#32))
    (broadcastTo S16x32 (k0_pay7 a.len) broadcasts_S16x1_S16x32)

/-- The first layer of the head before its normalisation. -/
def Z1 : FVec Ideal S16x64 .f32 :=
  addf (matmul dot_S16x32_S64x32_S16x64_1_1_0_0_n_n none (truncf .bf16 (Rm a mask dlt) bitsLt_bf16_f32)
      (truncf .bf16 a.Wf1 bitsLt_bf16_f32) (constant S16x64 .f32 0x00000000#32))
    (broadcastTo S16x64 (k0_pay17 a.bf1) broadcasts_S1x64_S16x64)

/-- The kernel's value is these stages, normalised over the rows and clipped at zero. -/
theorem pay27_eq :
    k0_pay27 (F := Ideal) (k0_pay2 a.x) (k0_pay7 a.len) (k0_pay17 a.bf1) (k0_pay18 a.gf1) (k0_pay19 a.bef1) mask dlt a.Wf1
      = truncf .bf16 (maximumf
          (bnRows (Z1 a mask dlt) (k0_pay18 a.gf1) (k0_pay19 a.bef1) 0x41800000#32 reduces_S16x64_S64 shapeCasts_S64_S1x64
            broadcasts_S1x64_S16x64)
          (broadcast S16x64 (Scalar.ofBits .f32 0x00000000#32))) bitsLt_bf16_f32 := rfl

/-- Inside a segment a score is at most the segment's largest. -/
theorem att_le_segMax (b : Fin 16) (i : Fin 32768) (hi : inSeg a b i) : att a i ≤ segMax a b := by
  classical
  have h := Finset.le_sup (s := (Finset.univ : Finset (Fin 32768)))
    (f := fun i' : Fin 32768 => if inSeg a b i' then att a i' else ⊥) (Finset.mem_univ i)
  simp only [if_pos hi] at h
  unfold segMax
  convert h

variable (hm : ∀ (b : Fin 16) (i : Fin 32768), mask (ix2 b i) = 1 ↔ inSeg a b i)
  (hd : ∀ (b : Fin 16) (i : Fin 32768), dlt (ix2 b i) = att a i - segMax a b)

include hm hd

theorem E_apply (b : Fin 16) (i : Fin 32768) : E mask dlt (ix2 b i) = ew a b i := by
  show Scalar.select (mask (ix2 b i)) (Ideal.exp (min (dlt (ix2 b i)) (Ideal.ofBits .f32 0x00000000#32)))
      (Ideal.ofBits .f32 0x00000000#32) = _
  rw [Ideal.ofBits_zero_f32, hd, ew]
  by_cases hi : inSeg a b i
  · have h1 : mask (ix2 b i) = 1#1 := (hm b i).mpr hi
    rw [h1, select_one, if_pos hi, min_sub_zero (att_le_segMax a b i hi)]
  · have h0 : mask (ix2 b i) = 0#1 := eq_zero_of_ne_one fun e => hi ((hm b i).mp e)
    rw [h0, select_zero, if_neg hi]

theorem Wt_apply (b : Fin 16) (i : Fin 32768) : Wt mask dlt (ix2 b i) = w a b i :=
  congrArg₂ Ideal.div (E_apply a mask dlt hm hd b i)
    ((rowSum_bcast_apply (E mask dlt) _ reduces_S16x32768_S16 _ _ shapeCasts_S16_S16x1 broadcasts_S16x1_S16x32768 b i).trans
      (Finset.sum_congr rfl fun k _ => E_apply a mask dlt hm hd b k))

theorem Rm_apply (b : Fin 16) (d : Fin 32) : Rm a mask dlt (ix2 b d) = r a b d :=
  congrArg₂ Ideal.div
    ((Cert.LibMatmulNN.matmul_nn_apply dot_S16x32768_S32768x32_S16x32_1_0_0_1_n_n rfl rfl rfl rfl rfl rfl none
        (truncf .bf16 (Wt mask dlt) bitsLt_bf16_f32) (k0_pay2 a.x) b d).trans
      (Finset.sum_congr rfl fun i _ => congrArg (· * a.x (ix2 i d)) (Wt_apply a mask dlt hm hd b i)))
    ((broadcastTo_a1_ab_apply (k0_pay7 a.len) broadcasts_S16x1_S16x32 b d).trans (lenf_apply a b 0))

theorem Z1_apply (b : Fin 16) (j : Fin 64) : Z1 a mask dlt (ix2 b j) = z1 a b j :=
  congrArg₂ (· + ·)
    ((Cert.LibMatmulNT.matmul_nt_apply dot_S16x32_S64x32_S16x64_1_1_0_0_n_n rfl rfl rfl rfl rfl rfl none
        (truncf .bf16 (Rm a mask dlt) bitsLt_bf16_f32) (truncf .bf16 a.Wf1 bitsLt_bf16_f32) b j).trans
      (Finset.sum_congr rfl fun d _ => congrArg (· * a.Wf1 (ix2 j d)) (Rm_apply a mask dlt hm hd b d)))
    ((broadcastTo_1b_ab_apply (k0_pay17 (F := Ideal) a.bf1) broadcasts_S1x64_S16x64 b j).trans
      (show k0_pay17 (F := Ideal) a.bf1 (ix2 (0 : Fin 1) j) = a.bf1 (ix1 j) from row_apply a.bf1 shapeCasts_S64_S1x64 j))

/-- The kernel's first head layer, read at `(b, j)`. -/
theorem pay27_apply (b : Fin 16) (j : Fin 64) :
    k0_pay27 (F := Ideal) (k0_pay2 a.x) (k0_pay7 a.len) (k0_pay17 a.bf1) (k0_pay18 a.gf1) (k0_pay19 a.bef1) mask dlt a.Wf1
      (ix2 b j) = h1 a b j := by
  rw [pay27_eq]
  show max (bnRows (Z1 a mask dlt) (k0_pay18 a.gf1) (k0_pay19 a.bef1) 0x41800000#32 reduces_S16x64_S64 shapeCasts_S64_S1x64
      broadcasts_S1x64_S16x64 (ix2 b j)) (Ideal.ofBits .f32 0x00000000#32) = _
  rw [bnRows_apply _ _ _ _ _ _ _ nRows_pos b j, Ideal.ofBits_zero_f32, h1,
    funext fun k => Z1_apply a mask dlt hm hd k j]
  rw [show k0_pay18 (F := Ideal) a.gf1 (ix2 (0 : Fin 1) j) = a.gf1 (ix1 j) from row_apply a.gf1 shapeCasts_S64_S1x64 j,
    show k0_pay19 (F := Ideal) a.bef1 (ix2 (0 : Fin 1) j) = a.bef1 (ix1 j) from row_apply a.bef1 shapeCasts_S64_S1x64 j]

end Cert.KernelIdeal.KHead27

end
-- ==== Proof.KHead.lean ====
/-
  The second layer of the head, its normalisation over the sixteen rows and the division of every row by its Euclidean
  norm (not below the floor), as the kernel computes them; with the first layer and the softmax stage this gives the
  kernel's result at every index from the segment mask and the reduced scores.
-/
import proofs.«116939_g89575837925665_cont_sun_c4_16_12_alg».proof.Proof.KHead27

noncomputable section

open scoped BigOperators

namespace Cert.KernelIdeal.KHead

open Cert.KernelIdeal Cert.KernelIdeal.Gen Idealize.ShloMosaic Idealize.ShloMosaic.ValueIdx Cert.Spec
open Cert.KernelIdeal.KHeadBn Cert.KernelIdeal.KHeadPlumb Cert.KernelIdeal.KHead27

section Tail
variable (a : Args) (H : FVec Ideal S16x64 .bf16)

/-- The second layer before its normalisation. -/
def Z2 : FVec Ideal S16x256 .f32 :=
  addf (matmul dot_S16x64_S256x64_S16x256_1_1_0_0_n_n none H (k0_pay28 a.Wf2) (constant S16x256 .f32 0x00000000#32))
    (broadcastTo S16x256 (k0_pay20 a.bf2) broadcasts_S1x256_S16x256)

/-- The second layer normalised over the rows. -/
def H2 : FVec Ideal S16x256 .f32 :=
  bnRows (Z2 a H) (k0_pay21 a.gf2) (k0_pay22 a.bef2) 0x41800000#32 reduces_S16x256_S256 shapeCasts_S256_S1x256
    broadcasts_S1x256_S16x256

/-- The row norms, not below the floor, spread along the rows. -/
def Nrm : FVec Ideal S16x256 .f32 :=
  broadcastTo S16x256
    (maximumf
      (sqrt (shapeCast S16x1
        (multiReduction .add [1] S16 (mulf (H2 a H) (H2 a H)) 0x00000000#32 reduces_S16x256_S16 (.inl rfl) rfl)
        shapeCasts_S16_S16x1))
      (broadcast S16x1 (Scalar.ofBits .f32 0x2B8CBCCC#32)))
    broadcasts_S16x1_S16x256

/-- The kernel's value is these stages. -/
theorem pay1_eq :
    k0_pay1 (F := Ideal) (k0_pay20 a.bf2) (k0_pay21 a.gf2) (k0_pay22 a.bef2) H (k0_pay28 a.Wf2)
        (constant S16x256 .f32 0x00000000#32)
      = divf (H2 a H) (Nrm a H) := rfl

variable (hH : ∀ (b : Fin 16) (j : Fin 64), H (ix2 b j) = h1 a b j)

include hH

theorem Z2_apply (b : Fin 16) (k : Fin 256) : Z2 a H (ix2 b k) = z2 a b k :=
  congrArg₂ (· + ·)
    ((Cert.LibMatmulNT.matmul_nt_apply dot_S16x64_S256x64_S16x256_1_1_0_0_n_n rfl rfl rfl rfl rfl rfl none H
        (k0_pay28 a.Wf2) b k).trans
      (Finset.sum_congr rfl fun j _ => congrArg (· * a.Wf2 (ix2 k j)) (hH b j)))
    ((broadcastTo_1b_ab_apply (k0_pay20 (F := Ideal) a.bf2) broadcasts_S1x256_S16x256 b k).trans
      (show k0_pay20 (F := Ideal) a.bf2 (ix2 (0 : Fin 1) k) = a.bf2 (ix1 k) from row_apply a.bf2 shapeCasts_S256_S1x256 k))

theorem H2_apply (b : Fin 16) (k : Fin 256) : H2 a H (ix2 b k) = h2 a b k := by
  unfold H2
  rw [bnRows_apply _ _ _ _ _ _ _ nRows_pos b k, h2, funext fun b' => Z2_apply a H hH b' k]
  rw [show k0_pay21 (F := Ideal) a.gf2 (ix2 (0 : Fin 1) k) = a.gf2 (ix1 k) from row_apply a.gf2 shapeCasts_S256_S1x256 k,
    show k0_pay22 (F := Ideal) a.bef2 (ix2 (0 : Fin 1) k) = a.bef2 (ix1 k) from row_apply a.bef2 shapeCasts_S256_S1x256 k]

theorem Nrm_apply (b : Fin 16) (k : Fin 256) :
    Nrm a H (ix2 b k) = max (Ideal.sqrt (∑ k' : Fin 256, h2 a b k' * h2 a b k')) floor :=
  (broadcastTo_a1_ab_apply _ broadcasts_S16x1_S16x256 b k).trans
    (congrArg (fun s => max (Ideal.sqrt s) floor)
      ((shapeCast_a_a1_apply _ shapeCasts_S16_S16x1 b 0).trans
        ((multiReduction_add_rows_apply _ _ reduces_S16x256_S16 _ _ b).trans
          (Finset.sum_congr rfl fun k' _ => congrArg₂ (· * ·) (H2_apply a H hH b k') (H2_apply a H hH b k')))))

/-- The kernel's result read at `(b, k)`, from a first layer that is the network's. -/
theorem pay1_apply (b : Fin 16) (k : Fin 256) :
    k0_pay1 (F := Ideal) (k0_pay20 a.bf2) (k0_pay21 a.gf2) (k0_pay22 a.bef2) H (k0_pay28 a.Wf2)
        (constant S16x256 .f32 0x00000000#32) (ix2 b k) = out a b k :=
  (congrFun (pay1_eq a H) (ix2 b k)).trans (congrArg₂ Ideal.div (H2_apply a H hH b k) (Nrm_apply a H hH b k))

end Tail

/-- The kernel's result at every index, from the segment mask and the scores reduced by the segment's maximum. -/
theorem out_eq (a : Args) (mask : IVec S16x32768 1) (dlt : FVec Ideal S16x32768 .f32)
    (hm : ∀ (b : Fin 16) (i : Fin 32768), mask (ix2 b i) = 1 ↔ inSeg a b i)
    (hd : ∀ (b : Fin 16) (i : Fin 32768), dlt (ix2 b i) = att a i - segMax a b) (b : Fin 16) (k : Fin 256) :
    k0_pay1 (F := Ideal) (k0_pay20 a.bf2) (k0_pay21 a.gf2) (k0_pay22 a.bef2)
        (k0_pay27 (k0_pay2 a.x) (k0_pay7 a.len) (k0_pay17 a.bf1) (k0_pay18 a.gf1) (k0_pay19 a.bef1) mask dlt a.Wf1)
        (k0_pay28 a.Wf2) (constant S16x256 .f32 0x00000000#32) (ix2 b k) = out a b k :=
  pay1_apply a _ (fun b j => pay27_apply a mask dlt hm hd b j) b k

end Cert.KernelIdeal.KHead

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KCols.lean ====
/-
  The small vectors of the kernel read at an index. A row of 16 numbers becomes a column by summing, along each row of a
  16 x 16 square, the row broadcast down the square and masked to the diagonal: entry c of the result is entry c of the
  row. The segment ends are the same sum masked to the lower triangle (j ≤ b): exact integers, so the sum of their casts
  is the cast of the integer sum.
-/
import proofs.«116939_g89575837925665_cont_sun_c4_16_12_alg».proof.Proof.Gen.KernelIdeal.Skeleton
import proofs.«116939_g89575837925665_cont_sun_c4_16_12_alg».proof.Proof.Spec
import proofs.«116939_g89575837925665_cont_sun_c4_16_12_alg».proof.Proof.LibColumns
import Idealize.ShloMosaic.Lib.ValueLayout
import Idealize.ShloMosaic.Lib.Pipeline.Value

noncomputable section

open scoped BigOperators
open Cert.KernelIdeal Cert.KernelIdeal.Gen Idealize.ShloMosaic Idealize.ShloMosaic.ValueIdx Cert.Spec

namespace Cert.KernelIdeal.KCols

/-- The diagonal mask at (p, q): the bit of p = q. -/
theorem pay3_apply (p q : Fin 16) : k0_pay3 (ix2 p q) = BitVec.ofBool (decide (p = q)) := by
  unfold k0_pay3
  show IntOp.cmpi .eq (iota .tc S16x16 32 [0] _ (ix2 p q)) (iota .tc S16x16 32 [1] _ (ix2 p q)) = _
  rw [iota_single_apply, iota_single_apply]
  show IntOp.cmpi .eq (BitVec.ofNat 32 p.val) (BitVec.ofNat 32 q.val) = _
  revert p q; decide

/-- The lower-triangle mask at (b, j): the bit of j ≤ b. -/
theorem tri_apply (h0 : S16x16.Iotas .tc 32 [0]) (h1 : S16x16.Iotas .tc 32 [1]) (b j : Fin 16) :
    cmpi .sle (iota .tc S16x16 32 [1] h1) (iota .tc S16x16 32 [0] h0) (ix2 b j) = BitVec.ofBool (decide (j ≤ b)) := by
  show IntOp.cmpi .sle (iota .tc S16x16 32 [1] _ (ix2 b j)) (iota .tc S16x16 32 [0] _ (ix2 b j)) = _
  rw [iota_single_apply, iota_single_apply]
  show IntOp.cmpi .sle (BitVec.ofNat 32 j.val) (BitVec.ofNat 32 b.val) = _
  revert b j; decide

/-- The zero square is zero everywhere. -/
theorem pay4_apply (j : S16x16.Idx) : k0_pay4 (F := Ideal) j = 0 := by
  unfold k0_pay4
  show Ideal.ofBits .f32 0x00000000#32 = 0
  exact Ideal.ofBits_zero_f32

/-- A select on the bit of a proposition is the `if`. -/
theorem select_ofBool {α : Type} (P : Prop) [Decidable P] (x y : α) :
    Scalar.select (BitVec.ofBool (decide P)) x y = if P then x else y := by
  by_cases h : P
  · rw [decide_eq_true h, if_pos h]; exact select_one x y
  · rw [decide_eq_false h, if_neg h]; exact select_zero x y

/-- The diagonal-masked row sum of a row broadcast down the square: entry c of the row. -/
theorem tocol_apply (row : FVec Ideal S1x16 .f32) (hb : S1x16.Broadcasts S16x16) (hr : S16x16.Reduces [1] S16)
    (hφ : FKind.Formats .f32) (hacc : (0x00000000#32 : BitVec FTy.f32.bits) = FKind.add.neutral .f32 hφ) (c : Fin 16) :
    multiReduction .add [1] S16 (select k0_pay3 (broadcastTo S16x16 row hb) (k0_pay4 (F := Ideal))) 0x00000000#32 hr hφ hacc (ix1 c)
      = row (ix2 0 c) := by
  refine (Cert.LibColumns.multiReduction_add_rows_apply _ _ hr hφ hacc c).trans ?_
  have e : ∀ k : Fin 16, select k0_pay3 (broadcastTo S16x16 row hb) (k0_pay4 (F := Ideal)) (ix2 c k)
      = if k = c then row (ix2 0 k) else 0 := by
    intro k
    rw [select_apply, pay3_apply, pay4_apply, broadcastTo_1b_ab_apply, select_ofBool]
    by_cases h : c = k
    · rw [if_pos h, if_pos h.symm]
    · rw [if_neg h, if_neg (fun h' => h h'.symm)]
  rw [Finset.sum_congr rfl (fun k _ => e k), Finset.sum_ite_eq' Finset.univ c]
  simp

/-- A vector of 16 numbers as a column: entry c. -/
theorem pay9_apply (v : Vec Ideal S16 .f32) (c : Fin 16) : k0_pay9 (F := Ideal) v (ix2 c 0) = v (ix1 c) := by
  unfold k0_pay9
  refine (Cert.LibColumns.shapeCast_a_a1_apply _ _ c 0).trans ?_
  refine (tocol_apply _ _ _ _ _ c).trans ?_
  rw [shapeCast_self]
  exact shapeCast_a_1a_apply _ _ 0 c

theorem pay10_apply (v : Vec Ideal S16 .f32) (c : Fin 16) : k0_pay10 (F := Ideal) v (ix2 c 0) = v (ix1 c) := by
  unfold k0_pay10
  refine (Cert.LibColumns.shapeCast_a_a1_apply _ _ c 0).trans ?_
  refine (tocol_apply _ _ _ _ _ c).trans ?_
  rw [shapeCast_self]
  exact shapeCast_a_1a_apply _ _ 0 c

theorem pay11_apply (v : Vec Ideal S16 .f32) (c : Fin 16) : k0_pay11 (F := Ideal) v (ix2 c 0) = v (ix1 c) := by
  unfold k0_pay11
  refine (Cert.LibColumns.shapeCast_a_a1_apply _ _ c 0).trans ?_
  refine (tocol_apply _ _ _ _ _ c).trans ?_
  rw [shapeCast_self]
  exact shapeCast_a_1a_apply _ _ 0 c

/-- The second layer's weights, a row of 16, as a column: entry c. -/
theorem pay13_apply (W : Vec Ideal S1x16 .f32) (c : Fin 16) :
    k0_pay13 (F := Ideal) (k0_pay12 W) (ix2 c 0) = W (ix2 0 c) := by
  unfold k0_pay13 k0_pay12
  refine (Cert.LibColumns.shapeCast_a_a1_apply _ _ c 0).trans ?_
  refine (tocol_apply _ _ _ _ _ c).trans ?_
  rw [shapeCast_self]

/-- A single number as a 1 x 1 square. -/
theorem pay14_apply (v : Vec Ideal S1 .f32) : k0_pay14 (F := Ideal) v (ix2 0 0) = v (ix1 0) := by
  unfold k0_pay14
  exact Cert.LibColumns.shapeCast_a_a1_apply _ _ 0 0

theorem pay15_apply (v : Vec Ideal S1 .f32) : k0_pay15 (F := Ideal) v (ix2 0 0) = v (ix1 0) := by
  unfold k0_pay15
  exact Cert.LibColumns.shapeCast_a_a1_apply _ _ 0 0

theorem pay16_apply (v : Vec Ideal S1 .f32) : k0_pay16 (F := Ideal) v (ix2 0 0) = v (ix1 0) := by
  unfold k0_pay16
  exact Cert.LibColumns.shapeCast_a_a1_apply _ _ 0 0

/-! ## The lengths as floats, the segment ends and starts -/

/-- The cast of a finite sum of reals is the sum of the casts. -/
theorem coe_sum_ereal {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- The lengths broadcast down the square, as floats: at (b, j) the length of segment j. -/
theorem pay5_apply (len : Vec Ideal S16 .i32) (b j : Fin 16) :
    k0_pay5 (F := Ideal) len (ix2 b j) = (((len (ix1 j)).toInt : ℝ) : EReal) := by
  unfold k0_pay5
  refine (broadcastTo_1b_ab_apply _ _ b j).trans ?_
  rw [shapeCast_self]
  exact (shapeCast_a_1a_apply _ _ 0 j).trans rfl

/-- The end of segment b as a float: the cast of the exact integer. -/
theorem pay6_apply (a : Args) (b : Fin 16) : k0_pay6 (F := Ideal) a.len (ix2 b 0) = (((endZ a b : ℤ) : ℝ) : EReal) := by
  unfold k0_pay6
  refine (Cert.LibColumns.shapeCast_a_a1_apply _ _ b 0).trans ?_
  refine (Cert.LibColumns.multiReduction_add_rows_apply _ _ _ _ _ b).trans ?_
  trans (∑ j : Fin 16, (((if j ≤ b then lenZ a j else 0 : ℤ) : ℝ) : EReal))
  · refine Finset.sum_congr rfl fun j _ => ?_
    rw [select_apply, tri_apply, pay5_apply, pay4_apply, select_ofBool]
    by_cases h : j ≤ b
    · rw [if_pos h, if_pos h]; rfl
    · rw [if_neg h, if_neg h]; simp
  · unfold endZ
    rw [Int.cast_sum, coe_sum_ereal]

/-- The length of segment b as a float. -/
theorem pay7_apply (a : Args) (b : Fin 16) : k0_pay7 (F := Ideal) a.len (ix2 b 0) = (((lenZ a b : ℤ) : ℝ) : EReal) := by
  unfold k0_pay7 k0_pay5
  refine (Cert.LibColumns.shapeCast_a_a1_apply _ _ b 0).trans ?_
  refine (tocol_apply _ _ _ _ _ b).trans ?_
  rw [shapeCast_self]
  exact (shapeCast_a_1a_apply _ _ 0 b).trans rfl

/-- The start of segment b as a float. -/
theorem pay8_apply (a : Args) (b : Fin 16) :
    k0_pay8 (F := Ideal) a.len (ix2 b 0) = (((endZ a b - lenZ a b : ℤ) : ℝ) : EReal) := by
  unfold k0_pay8
  rw [subf_apply, pay6_apply, pay7_apply, Int.cast_sub, EReal.coe_sub]

end Cert.KernelIdeal.KCols

end
-- ==== Proof.KSeg.lean ====
/-
  The segment mask of the kernel read at (b, i): point i lies in segment b. The point's number and the segment's two
  bounds are casts of exact integers, so the two float comparisons are the integer comparisons.
-/
import proofs.«116939_g89575837925665_cont_sun_c4_16_12_alg».proof.Proof.KCols
import Idealize.ShloMosaic.Lib.WordArith

noncomputable section

open scoped BigOperators
open Cert.KernelIdeal Cert.KernelIdeal.Gen Idealize.ShloMosaic Idealize.ShloMosaic.ValueIdx Cert.Spec

namespace Cert.KernelIdeal.KSeg

/-- The number of point i as a float. -/
theorem lane_apply (h : S1x32768.Iotas .tc 32 [1]) (i : Fin 32768) :
    (sitofp .f32 (iota .tc S1x32768 32 [1] h) : FVec Ideal S1x32768 .f32) (ix2 0 i) = (((i.val : ℤ) : ℝ) : EReal) := by
  rw [sitofp_apply, iota_single_apply]
  show ((((BitVec.ofNat 32 i.val).toInt : ℤ) : ℝ) : EReal) = _
  have hi := i.isLt
  have e : (BitVec.ofNat 32 i.val).toInt = (i.val : ℤ) := by
    rw [BitVec.toInt_eq_toNat_of_lt (by rw [BitVec.toNat_ofNat]; omega), BitVec.toNat_ofNat]
    congr 1; omega
  rw [e]

/-- The mask for any two columns of bounds, at (b, i): start ≤ i < end as floats. -/
theorem pay25_apply (v14 v18 : FVec Ideal S16x1 .f32) (b : Fin 16) (i : Fin 32768) :
    k0_pay25 (F := Ideal) v14 v18 (ix2 b i)
      = BitVec.ofBool (decide (v18 (ix2 b 0) ≤ (((i.val : ℤ) : ℝ) : EReal)) && decide ((((i.val : ℤ) : ℝ) : EReal) < v14 (ix2 b 0))) := by
  unfold k0_pay25
  show IntOp.andi (cmpf .oge _ _ (ix2 b i)) (cmpf .olt _ _ (ix2 b i)) = _
  rw [cmpf_apply, cmpf_apply, broadcastTo_1b_ab_apply, Cert.LibColumns.broadcastTo_a1_ab_apply,
    Cert.LibColumns.broadcastTo_a1_ab_apply, lane_apply]
  exact WordArith.andi_ofBool _ _

theorem mask_iff' (a : Args) (b : Fin 16) (i : Fin 32768) :
    k0_pay25 (F := Ideal) (k0_pay6 a.len) (k0_pay8 a.len) (ix2 b i) = 1 ↔ inSeg a b i := by
  rw [pay25_apply, KCols.pay6_apply, KCols.pay8_apply, WordArith.ofBool_eq_numeral_one_iff, Bool.and_eq_true,
    decide_eq_true_iff, decide_eq_true_iff, EReal.coe_le_coe_iff, EReal.coe_lt_coe_iff, Int.cast_le, Int.cast_lt]
  exact Iff.rfl

end Cert.KernelIdeal.KSeg

end
-- ==== Proof.KAttBn.lean ====
/-
  Batch normalisation written with an inverse square root, against the specification's form with a division by a
  square root. On the extended reals a variance is never negative (a square is nonnegative at the infinities too, sums
  and a division by a positive real keep the sign), so variance plus a positive offset is positive, real or +∞; and for
  a positive y, c · rsqrt y is c / sqrt y for every c, the infinite ones included.
-/
import proofs.«116939_g89575837925665_cont_sun_c4_16_12_alg».proof.Proof.Spec

noncomputable section

open scoped BigOperators
open Idealize.ShloMosaic Cert.Spec

namespace Cert.KernelIdeal.KAttBn

/-- An extended real that is a positive real number. -/
def PosReal (x : EReal) : Prop := ∃ r : ℝ, 0 < r ∧ x = (r : EReal)

theorem PosReal.pos {x : EReal} (h : PosReal x) : 0 < x := by
  obtain ⟨r, hr, rfl⟩ := h
  exact_mod_cast hr

/-- A square is nonnegative on all of the extended reals. -/
theorem mul_self_nonneg_ereal (x : EReal) : 0 ≤ x * x := by
  induction x using EReal.rec with
  | bot => simp
  | top => simp
  | coe r => exact_mod_cast mul_self_nonneg r

/-- For a positive y, real or +∞, c · rsqrt y = c / sqrt y, whatever c. -/
theorem mul_rsqrt_eq_div_sqrt (c y : EReal) (hy : 0 < y) : c * Ideal.rsqrt y = Ideal.div c (Ideal.sqrt y) := by
  induction y using EReal.rec with
  | bot => exact absurd hy (by simp)
  | top => rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    rw [Ideal.rsqrt_coe, if_neg (not_lt.mpr hr.le), if_neg hr.ne', Ideal.sqrt_coe, if_neg (not_lt.mpr hr.le), Ideal.div,
      if_neg (by exact_mod_cast hs), EReal.coe_inv]

/-- A nonnegative extended real divided by a positive real stays nonnegative. -/
theorem div_nonneg_of_posReal {s n : EReal} (hs : 0 ≤ s) (hn : PosReal n) : 0 ≤ Ideal.div s n := by
  obtain ⟨r, hr, rfl⟩ := hn
  rw [Ideal.div_coe hr.ne']
  exact mul_nonneg hs (by exact_mod_cast (one_div_pos.mpr hr).le)

/-- The three words that occur: the two counts and the offset are positive reals. -/
theorem nPts_pos : PosReal nPts := by
  refine ⟨32768, by norm_num, ?_⟩
  simp [nPts, Ideal.ofBits, Ideal.ieee, -EReal.coe_mul]; norm_num

theorem nRows_pos : PosReal nRows := by
  refine ⟨16, by norm_num, ?_⟩
  simp [nRows, Ideal.ofBits, Ideal.ieee, -EReal.coe_mul]; norm_num

theorem eps_pos : PosReal eps := by
  refine ⟨10995116 * (2 : ℝ) ^ (-40 : ℤ), by positivity, ?_⟩
  simp [eps, Ideal.ofBits, Ideal.ieee, -EReal.coe_mul]

section Norm
variable {ι : Type} [Fintype ι]

/-- A variance is nonnegative for any values. -/
theorem var_nonneg (n : EReal) (hn : PosReal n) (f : ι → EReal) : 0 ≤ var n f :=
  div_nonneg_of_posReal (Finset.sum_nonneg fun _ _ => mul_self_nonneg_ereal _) hn

/-- Variance plus the offset is positive (real or +∞). -/
theorem var_add_eps_pos (n : EReal) (hn : PosReal n) (f : ι → EReal) : 0 < var n f + eps := by
  have h1 : (0 : EReal) + eps ≤ var n f + eps := add_le_add (var_nonneg n hn f) le_rfl
  rw [zero_add] at h1
  exact lt_of_lt_of_le eps_pos.pos h1

/-- Batch normalisation in its inverse-square-root form is the specification's. -/
theorem bn_rsqrt_eq (n : EReal) (hn : PosReal n) (f : ι → EReal) (g be : EReal) (i : ι) :
    (f i - mean n f) * Ideal.rsqrt (var n f + eps) * g + be = bn n f g be i := by
  unfold bn
  rw [mul_rsqrt_eq_div_sqrt _ _ (var_add_eps_pos n hn f)]

end Norm

end Cert.KernelIdeal.KAttBn

end
-- ==== Proof.KNorm1.lean ====
/-
  Normalisation of each row of a matrix over its columns, as the kernel writes it (row sums kept as a column, a division
  by the count word, the centred values, their squares' row sums, an inverse square root of variance plus offset, a
  scale per row), read at (p, q); and the first layer: the channels-first product of the weights with the points, plus
  the bias column, normalised over the 32768 points.
-/
import proofs.«116939_g89575837925665_cont_sun_c4_16_12_alg».proof.Proof.KCols
import proofs.«116939_g89575837925665_cont_sun_c4_16_12_alg».proof.Proof.KAttBn
import proofs.«116939_g89575837925665_cont_sun_c4_16_12_alg».proof.Proof.LibMatmulNT

noncomputable section

open scoped BigOperators
open Cert.KernelIdeal Cert.KernelIdeal.Gen Idealize.ShloMosaic Idealize.ShloMosaic.ValueIdx Cert.Spec

namespace Cert.KernelIdeal.KNorm1

/-- Rows of an [a, b] matrix centred by their mean, scaled by the inverse root of variance plus offset and by a per-row
    gain: the kernel's operations in order. -/
def normF {a b : ℕ} (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hacc : (0x00000000#32 : BitVec FTy.f32.bits) = FKind.add.neutral .f32 hφ) (nw : BitVec 32)
    (S : FVec Ideal ⟨2, ![a, b]⟩ .f32) (g : FVec Ideal ⟨2, ![a, 1]⟩ .f32) : FVec Ideal ⟨2, ![a, b]⟩ .f32 :=
  have M : FVec Ideal ⟨2, ![a, 1]⟩ .f32 :=
    divf (shapeCast ⟨2, ![a, 1]⟩ (multiReduction .add [1] ⟨1, ![a]⟩ S 0x00000000#32 hr hφ hacc) hc) (broadcast ⟨2, ![a, 1]⟩ (Scalar.ofBits .f32 nw))
  have C : FVec Ideal ⟨2, ![a, b]⟩ .f32 := subf S (broadcastTo ⟨2, ![a, b]⟩ M hb)
  have V : FVec Ideal ⟨2, ![a, 1]⟩ .f32 :=
    divf (shapeCast ⟨2, ![a, 1]⟩ (multiReduction .add [1] ⟨1, ![a]⟩ (mulf C C) 0x00000000#32 hr hφ hacc) hc) (broadcast ⟨2, ![a, 1]⟩ (Scalar.ofBits .f32 nw))
  mulf (mulf C (broadcastTo ⟨2, ![a, b]⟩ (rsqrt (addf V (broadcast ⟨2, ![a, 1]⟩ (Scalar.ofBits .f32 0x3727C5AC#32)))) hb))
    (broadcastTo ⟨2, ![a, b]⟩ g hb)

/-- Read at (p, q): the centred value times the inverse root times the gain of row p. -/
theorem normF_apply {a b : ℕ} (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hacc : (0x00000000#32 : BitVec FTy.f32.bits) = FKind.add.neutral .f32 hφ) (nw : BitVec 32)
    (S : FVec Ideal ⟨2, ![a, b]⟩ .f32) (g : FVec Ideal ⟨2, ![a, 1]⟩ .f32) (p : Fin a) (q : Fin b) :
    normF hr hc hb hφ hacc nw S g (ix2 p q)
      = (S (ix2 p q) - mean (Ideal.ofBits .f32 nw) (fun k : Fin b => S (ix2 p k)))
          * Ideal.rsqrt (var (Ideal.ofBits .f32 nw) (fun k : Fin b => S (ix2 p k)) + eps) * g (ix2 p 0) := by
  generalize hM : (divf (shapeCast ⟨2, ![a, 1]⟩ (multiReduction .add [1] ⟨1, ![a]⟩ S 0x00000000#32 hr hφ hacc) hc)
      (broadcast ⟨2, ![a, 1]⟩ (Scalar.ofBits .f32 nw)) : FVec Ideal ⟨2, ![a, 1]⟩ .f32) = M
  have hm : ∀ r : Fin a, M (ix2 r 0) = mean (Ideal.ofBits .f32 nw) (fun k : Fin b => S (ix2 r k)) := by
    intro r
    rw [← hM, divf_apply, Cert.LibColumns.shapeCast_a_a1_apply, Cert.LibColumns.multiReduction_add_rows_apply]
    rfl
  generalize hC : (subf S (broadcastTo ⟨2, ![a, b]⟩ M hb) : FVec Ideal ⟨2, ![a, b]⟩ .f32) = C
  have hc' : ∀ (r : Fin a) (k : Fin b), C (ix2 r k) = S (ix2 r k) - mean (Ideal.ofBits .f32 nw) (fun k : Fin b => S (ix2 r k)) := by
    intro r k
    rw [← hC, subf_apply, Cert.LibColumns.broadcastTo_a1_ab_apply, hm]
  generalize hV : (divf (shapeCast ⟨2, ![a, 1]⟩ (multiReduction .add [1] ⟨1, ![a]⟩ (mulf C C) 0x00000000#32 hr hφ hacc) hc)
      (broadcast ⟨2, ![a, 1]⟩ (Scalar.ofBits .f32 nw)) : FVec Ideal ⟨2, ![a, 1]⟩ .f32) = V
  have hv : ∀ r : Fin a, V (ix2 r 0) = var (Ideal.ofBits .f32 nw) (fun k : Fin b => S (ix2 r k)) := by
    intro r
    rw [← hV, divf_apply, Cert.LibColumns.shapeCast_a_a1_apply, Cert.LibColumns.multiReduction_add_rows_apply]
    unfold var
    refine congrArg₂ Ideal.div (Finset.sum_congr rfl fun k _ => ?_) rfl
    rw [mulf_apply, hc']
  have e : normF hr hc hb hφ hacc nw S g
      = mulf (mulf C (broadcastTo ⟨2, ![a, b]⟩ (rsqrt (addf V (broadcast ⟨2, ![a, 1]⟩ (Scalar.ofBits .f32 0x3727C5AC#32)))) hb))
          (broadcastTo ⟨2, ![a, b]⟩ g hb) := by
    rw [← hV, ← hC, ← hM]; rfl
  rw [e, mulf_apply, mulf_apply, Cert.LibColumns.broadcastTo_a1_ab_apply, Cert.LibColumns.broadcastTo_a1_ab_apply, hc']
  show _ * Ideal.rsqrt (V (ix2 p 0) + eps) * _ = _
  rw [hv]

/-! ## The first layer -/

/-- The first linear map channels-first (weights times the points, transposed) plus the bias column. -/
def s1F (v1 : FVec Ideal S32768x32 .bf16) (v25 : FVec Ideal S16x1 .f32) (v64 : Vec Ideal S16x32 .f32) : FVec Ideal S16x32768 .f32 :=
  addf (matmul dot_S16x32_S32768x32_S16x32768_1_1_0_0_n_n none (truncf .bf16 v64 bitsLt_bf16_f32) v1
      (constant S16x32768 .f32 0x00000000#32))
    (broadcastTo S16x32768 v25 broadcasts_S16x1_S16x32768)

/-- The kernel's normalised first layer is the row normalisation of that map. -/
theorem pay23_eq (v1 : FVec Ideal S32768x32 .bf16) (v25 v32 : FVec Ideal S16x1 .f32) (v64 : Vec Ideal S16x32 .f32) :
    k0_pay23 (F := Ideal) v1 v25 v32 v64
      = normF reduces_S16x32768_S16 shapeCasts_S16_S16x1 broadcasts_S16x1_S16x32768 (.inl rfl) rfl 0x47000000#32
          (s1F v1 v25 v64) v32 := rfl

/-- At (c, k) the map is the specification's first layer at point k, channel c. -/
theorem s1F_apply (a : Args) (c : Fin 16) (k : Fin 32768) :
    s1F (k0_pay2 a.x) (k0_pay9 a.b1) a.W1 (ix2 c k) = s1 a k c := by
  unfold s1F
  rw [addf_apply, Cert.LibColumns.broadcastTo_a1_ab_apply, KCols.pay9_apply]
  refine congrArg (· + a.b1 (ix1 c)) ?_
  refine (Cert.LibMatmulNT.matmul_nt_apply _ rfl rfl rfl rfl rfl rfl none _ _ c k).trans ?_
  refine Finset.sum_congr rfl fun d _ => ?_
  show a.W1 (ix2 c d) * a.x (ix2 k d) = _
  exact mul_comm _ _

theorem pay23_apply (a : Args) (c : Fin 16) (i : Fin 32768) :
    k0_pay23 (F := Ideal) (k0_pay2 a.x) (k0_pay9 a.b1) (k0_pay10 a.g1) a.W1 (ix2 c i)
      = (s1 a i c - mean nPts (fun i' => s1 a i' c)) * Ideal.rsqrt (var nPts (fun i' => s1 a i' c) + eps) * a.g1 (ix1 c) := by
  rw [pay23_eq]
  refine (normF_apply _ _ _ _ _ _ _ _ c i).trans ?_
  rw [KCols.pay10_apply]
  simp only [s1F_apply]

theorem pay24_apply (a : Args) (c : Fin 16) (i : Fin 32768) :
    k0_pay24 (F := Ideal) (k0_pay11 a.be1) (ix2 c i) = a.be1 (ix1 c) := by
  unfold k0_pay24
  rw [Cert.LibColumns.broadcastTo_a1_ab_apply, KCols.pay11_apply]

/-- The first layer normalised over the points, before the clip at zero. -/
theorem bn1_apply (a : Args) (c : Fin 16) (i : Fin 32768) :
    k0_pay23 (F := Ideal) (k0_pay2 a.x) (k0_pay9 a.b1) (k0_pay10 a.g1) a.W1 (ix2 c i)
        + k0_pay24 (F := Ideal) (k0_pay11 a.be1) (ix2 c i)
      = bn nPts (fun i' => s1 a i' c) (a.g1 (ix1 c)) (a.be1 (ix1 c)) i := by
  rw [pay23_apply, pay24_apply]
  exact KAttBn.bn_rsqrt_eq nPts KAttBn.nPts_pos (fun i' => s1 a i' c) _ _ i

end Cert.KernelIdeal.KNorm1

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.KScore.lean ====
/-
  The attention score of the kernel and its distance to the segment maximum, read at (b, i). The clipped first layer is
  weighted by the second layer's column and summed over the 16 channels, the bias added, the row of 32768 scores
  normalised; the scores outside segment b are replaced by −∞ and the row maximum taken, which on the extended reals is
  the supremum over the segment; the score minus that maximum is what the softmax exponentiates.
-/
import proofs.«116939_g89575837925665_cont_sun_c4_16_12_alg».proof.Proof.KNorm1
import proofs.«116939_g89575837925665_cont_sun_c4_16_12_alg».proof.Proof.KSeg
import proofs.«116939_g89575837925665_cont_sun_c4_16_12_alg».proof.Proof.LibRowMax
import proofs.«116939_g89575837925665_cont_sun_c4_16_12_alg».proof.Proof.LibRowMin

noncomputable section

open scoped BigOperators
open Cert.KernelIdeal Cert.KernelIdeal.Gen Idealize.ShloMosaic Idealize.ShloMosaic.ValueIdx Cert.Spec

namespace Cert.KernelIdeal.KScore

open Cert.KernelIdeal.KNorm1

/-- A lane sum of an [a, b] matrix along its columns, read at column c: the sum over the column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src (funext fun ax => Fin.ext ?_)
  match ax with
  | ⟨0, _⟩ => rfl
  | ⟨1, _⟩ => rfl

/-! ## The three stages of the payload -/

/-- The second linear map as a row of 32768: the clipped input weighted by a column, summed over the 16 rows, plus a bias. -/
def s2F (v45 : FVec Ideal S16x1 .f32) (v47 : FVec Ideal S1x1 .f32) (v88 : FVec Ideal S16x32768 .f32) : FVec Ideal S1x32768 .f32 :=
  addf
    (shapeCast S1x32768
      (multiReduction .add [0] S32768
        (mulf (maximumf v88 (broadcast S16x32768 (Scalar.ofBits .f32 0x00000000#32))) (broadcastTo S16x32768 v45 broadcasts_S16x1_S16x32768))
        0x00000000#32 reduces_S16x32768_S32768 (.inl rfl) rfl)
      shapeCasts_S32768_S1x32768)
    (broadcastTo S1x32768 v47 broadcasts_S1x1_S1x32768)

/-- The row normalised over its 32768 entries, scaled and shifted. -/
def attF (S2 : FVec Ideal S1x32768 .f32) (v49 v51 : FVec Ideal S1x1 .f32) : FVec Ideal S1x32768 .f32 :=
  addf (normF reduces_S1x32768_S1 shapeCasts_S1_S1x1 broadcasts_S1x1_S1x32768 (.inl rfl) rfl 0x47000000#32 S2 v49)
    (broadcastTo S1x32768 v51 broadcasts_S1x1_S1x32768)

/-- The row minus, for each of the 16 masks, the maximum of the row over the mask. -/
def tailF (m : IVec S16x32768 1) (A : FVec Ideal S1x32768 .f32) : FVec Ideal S16x32768 .f32 :=
  subf (broadcastTo S16x32768 A broadcasts_S1x32768_S16x32768)
    (broadcastTo S16x32768
      (shapeCast S16x1
        (multiReduction .maximumf [1] S16
          (select m (broadcastTo S16x32768 (shapeCast S1x32768 A shapeCasts_S1x32768_S1x32768) broadcasts_S1x32768_S16x32768)
            (broadcast S16x32768 (Scalar.ofBits .f32 0xFF800000#32)))
          0xFF800000#32 reduces_S16x32768_S16 (.inl rfl) rfl)
        shapeCasts_S16_S16x1)
      broadcasts_S16x1_S16x32768)

/-- The payload is the three stages in a row. -/
theorem pay26_eq (v14 v18 v45 : FVec Ideal S16x1 .f32) (v47 v49 v51 : FVec Ideal S1x1 .f32) (v86 v87 : FVec Ideal S16x32768 .f32) :
    k0_pay26 (F := Ideal) v14 v18 v45 v47 v49 v51 v86 v87
      = tailF (k0_pay25 v14 v18) (attF (s2F v45 v47 (addf v86 v87)) v49 v51) := rfl

/-! ## Each stage at an index -/

theorem s2F_apply (v45 : FVec Ideal S16x1 .f32) (v47 : FVec Ideal S1x1 .f32) (v88 : FVec Ideal S16x32768 .f32) (q : Fin 32768) :
    s2F v45 v47 v88 (ix2 0 q) = (∑ c : Fin 16, max (v88 (ix2 c q)) 0 * v45 (ix2 c 0)) + v47 (ix2 0 0) := by
  unfold s2F
  rw [addf_apply, Cert.LibColumns.broadcastTo_a1_ab_apply, shapeCast_a_1a_apply]
  refine congrArg (· + v47 (ix2 0 0)) ?_
  refine (multiReduction_add_cols_apply _ _ _ _ _ q).trans ?_
  refine Finset.sum_congr rfl fun c _ => ?_
  rw [mulf_apply, maximumf_apply, broadcast_apply, Cert.LibColumns.broadcastTo_a1_ab_apply]
  show max (v88 (ix2 c q)) (Ideal.ofBits .f32 0x00000000#32) * _ = _
  rw [Ideal.ofBits_zero_f32]

theorem attF_apply (S2 : FVec Ideal S1x32768 .f32) (v49 v51 : FVec Ideal S1x1 .f32) (q : Fin 32768) :
    attF S2 v49 v51 (ix2 0 q) = bn nPts (fun k : Fin 32768 => S2 (ix2 0 k)) (v49 (ix2 0 0)) (v51 (ix2 0 0)) q := by
  unfold attF
  rw [addf_apply, Cert.LibColumns.broadcastTo_a1_ab_apply]
  refine (congrArg (· + v51 (ix2 0 0)) (normF_apply _ _ _ _ _ _ _ _ 0 q)).trans ?_
  exact KAttBn.bn_rsqrt_eq nPts KAttBn.nPts_pos (fun k : Fin 32768 => S2 (ix2 0 k)) _ _ q

theorem tailF_apply (m : IVec S16x32768 1) (A : FVec Ideal S1x32768 .f32) (b : Fin 16) (i : Fin 32768) :
    tailF m A (ix2 b i)
      = A (ix2 0 i) - Finset.univ.sup (fun k : Fin 32768 => if m (ix2 b k) = 1 then A (ix2 0 k) else ⊥) := by
  unfold tailF
  rw [subf_apply, broadcastTo_1b_ab_apply, Cert.LibColumns.broadcastTo_a1_ab_apply, Cert.LibColumns.shapeCast_a_a1_apply]
  refine congrArg (A (ix2 0 i) - ·) ?_
  refine (Cert.LibRowMax.multiReduction_max_rows_apply _ _ _ _ _ b).trans ?_
  rw [Cert.LibRowMin.ofBits_neg_inf, Cert.LibRowMin.fold_max_bot]
  refine congrArg (Finset.univ.sup ·) (funext fun k => ?_)
  rw [select_apply, broadcastTo_1b_ab_apply, shapeCast_self, broadcast_apply]
  show (if m (ix2 b k) = 1 then A (ix2 0 k) else Ideal.ofBits .f32 0xFF800000#32) = _
  rw [Cert.LibRowMin.ofBits_neg_inf]

/-! ## The stages at the arguments -/

/-- The kernel's row of scores for the arguments. -/
def attK (a : Args) : FVec Ideal S1x32768 .f32 :=
  attF
    (s2F (k0_pay13 (k0_pay12 a.W2)) (k0_pay14 a.b2)
      (addf (k0_pay23 (k0_pay2 a.x) (k0_pay9 a.b1) (k0_pay10 a.g1) a.W1) (k0_pay24 (k0_pay11 a.be1))))
    (k0_pay15 a.g2) (k0_pay16 a.be2)

/-- The second linear map at point q. -/
theorem s2K_apply (a : Args) (q : Fin 32768) :
    s2F (k0_pay13 (k0_pay12 a.W2)) (k0_pay14 a.b2)
        (addf (k0_pay23 (k0_pay2 a.x) (k0_pay9 a.b1) (k0_pay10 a.g1) a.W1) (k0_pay24 (k0_pay11 a.be1))) (ix2 0 q)
      = s2 a q := by
  rw [s2F_apply, KCols.pay14_apply]
  unfold s2
  refine congrArg (· + a.b2 (ix1 0)) (Finset.sum_congr rfl fun c _ => ?_)
  rw [addf_apply, bn1_apply, KCols.pay13_apply]
  rfl

/-- The score of point q. -/
theorem attK_apply (a : Args) (q : Fin 32768) : attK a (ix2 0 q) = att a q := by
  unfold attK
  rw [attF_apply, KCols.pay15_apply, KCols.pay16_apply]
  simp only [s2K_apply]
  rfl

/-- The score of point i minus the largest score in segment b. -/
theorem delta_eq' (a : Args) (b : Fin 16) (i : Fin 32768) :
    k0_pay26 (F := Ideal) (k0_pay6 a.len) (k0_pay8 a.len) (k0_pay13 (k0_pay12 a.W2)) (k0_pay14 a.b2) (k0_pay15 a.g2) (k0_pay16 a.be2)
        (k0_pay23 (k0_pay2 a.x) (k0_pay9 a.b1) (k0_pay10 a.g1) a.W1) (k0_pay24 (k0_pay11 a.be1)) (ix2 b i)
      = att a i - segMax a b := by
  rw [pay26_eq]
  show tailF _ (attK a) (ix2 b i) = _
  rw [tailF_apply, attK_apply]
  refine congrArg (att a i - ·) ?_
  unfold segMax
  refine Finset.sup_congr rfl fun k _ => ?_
  rw [attK_apply]
  by_cases h : inSeg a b k
  · rw [if_pos ((KSeg.mask_iff' a b k).mpr h), if_pos h]
  · rw [if_neg (fun h' => h ((KSeg.mask_iff' a b k).mp h')), if_neg h]

end Cert.KernelIdeal.KScore

end
-- ==== Proof.KAtt.lean ====
/-
  The attention branch of the kernel at an index: the segment mask is membership of point i in segment b, and the
  value the softmax exponentiates is the score of point i minus the largest score inside segment b.
-/
import proofs.«116939_g89575837925665_cont_sun_c4_16_12_alg».proof.Proof.KSeg
import proofs.«116939_g89575837925665_cont_sun_c4_16_12_alg».proof.Proof.KScore

noncomputable section

open Cert.KernelIdeal Cert.KernelIdeal.Gen Idealize.ShloMosaic Idealize.ShloMosaic.ValueIdx Cert.Spec

namespace Cert.KernelIdeal.KAtt

theorem mask_iff (a : Args) (b : Fin 16) (i : Fin 32768) :
    k0_pay25 (F := Ideal) (k0_pay6 a.len) (k0_pay8 a.len) (ix2 b i) = 1 ↔ inSeg a b i :=
  KSeg.mask_iff' a b i

theorem delta_eq (a : Args) (b : Fin 16) (i : Fin 32768) :
    k0_pay26 (F := Ideal) (k0_pay6 a.len) (k0_pay8 a.len) (k0_pay13 (k0_pay12 a.W2)) (k0_pay14 a.b2) (k0_pay15 a.g2) (k0_pay16 a.be2)
        (k0_pay23 (k0_pay2 a.x) (k0_pay9 a.b1) (k0_pay10 a.g1) a.W1) (k0_pay24 (k0_pay11 a.be1)) (ix2 b i)
      = att a i - segMax a b :=
  KScore.delta_eq' a b i

end Cert.KernelIdeal.KAtt

end
-- ==== Proof.KernelOut.lean ====
/-
  The kernel's run, read: its one output array after the run is the network's result on the argument arrays.

  The kernel has no grid: its one point reads every argument whole and writes the whole result. So each block the body
  reads is the argument array itself, the body's one store through the whole rectangle leaves its payload, and the block
  written back covers the result array.
-/
import proofs.«116939_g89575837925665_cont_sun_c4_16_12_alg».proof.Proof.Gen.KernelIdeal.Value
import proofs.«116939_g89575837925665_cont_sun_c4_16_12_alg».proof.Proof.KArgs
import proofs.«116939_g89575837925665_cont_sun_c4_16_12_alg».proof.Proof.KHead
import proofs.«116939_g89575837925665_cont_sun_c4_16_12_alg».proof.Proof.KAtt

noncomputable section

namespace Cert.KernelIdeal.Out

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The body's one store goes through the whole rectangle and every load reads a whole block: what the body leaves is
    its payload of the blocks themselves. -/
theorem out_whole (x0 : Vec Ideal S32768x32 .f32) (x1 : Vec Ideal S16 .i32) (x2 : Vec Ideal S16x32 .f32) (x3 : Vec Ideal S16 .f32) (x4 : Vec Ideal S16 .f32) (x5 : Vec Ideal S16 .f32) (x6 : Vec Ideal S1x16 .f32) (x7 : Vec Ideal S1 .f32) (x8 : Vec Ideal S1 .f32) (x9 : Vec Ideal S1 .f32) (x10 : Vec Ideal S64x32 .f32) (x11 : Vec Ideal S64 .f32) (x12 : Vec Ideal S64 .f32) (x13 : Vec Ideal S64 .f32) (x14 : Vec Ideal S256x64 .f32) (x15 : Vec Ideal S256 .f32) (x16 : Vec Ideal S256 .f32) (x17 : Vec Ideal S256 .f32) :
    out0_18 (F := Ideal) x0 x1 x2 x3 x4 x5 x6 x7 x8 x9 x10 x11 x12 x13 x14 x15 x16 x17
      = k0_pay1 (F := Ideal) (k0_pay20 x15) (k0_pay21 x16) (k0_pay22 x17) (k0_pay27 (k0_pay2 x0) (k0_pay7 x1) (k0_pay17 x11) (k0_pay18 x12) (k0_pay19 x13) (k0_pay25 (F := Ideal) (k0_pay6 x1) (k0_pay8 x1)) (k0_pay26 (k0_pay6 x1) (k0_pay8 x1) (k0_pay13 (k0_pay12 x6)) (k0_pay14 x7) (k0_pay15 x8) (k0_pay16 x9) (k0_pay23 (k0_pay2 x0) (k0_pay9 x3) (k0_pay10 x4) x2) (k0_pay24 (k0_pay11 x5))) x10) (k0_pay28 x14) (constant S16x256 .f32 0x00000000#32) := by
  unfold out0_18
  rw [View.canon_unit_zero hz2]
  simp only [View.ld_unit_zero (S := S32768x32) hz2, View.ld_unit_zero (S := S16) hz1, View.ld_unit_zero (S := S1x16) hz2,
    View.ld_unit_zero (S := S1) hz1, View.ld_unit_zero (S := S64) hz1, View.ld_unit_zero (S := S256) hz1,
    View.ld_unit_zero (S := S16x32) hz2, View.ld_unit_zero (S := S64x32) hz2, View.ld_unit_zero (S := S256x64) hz2]

/-- The payload of the argument arrays is the network's result, index by index. -/
theorem payload_eq (a : Args) :
    k0_pay1 (F := Ideal) (k0_pay20 a.bf2) (k0_pay21 a.gf2) (k0_pay22 a.bef2) (k0_pay27 (k0_pay2 a.x) (k0_pay7 a.len) (k0_pay17 a.bf1) (k0_pay18 a.gf1) (k0_pay19 a.bef1) (k0_pay25 (F := Ideal) (k0_pay6 a.len) (k0_pay8 a.len)) (k0_pay26 (k0_pay6 a.len) (k0_pay8 a.len) (k0_pay13 (k0_pay12 a.W2)) (k0_pay14 a.b2) (k0_pay15 a.g2) (k0_pay16 a.be2) (k0_pay23 (k0_pay2 a.x) (k0_pay9 a.b1) (k0_pay10 a.g1) a.W1) (k0_pay24 (k0_pay11 a.be1))) a.Wf1) (k0_pay28 a.Wf2) (constant S16x256 .f32 0x00000000#32)
      = outArr a := by
  funext j
  obtain ⟨b, k, rfl⟩ : ∃ (b : Fin 16) (k : Fin 256), j = ix2 b k := ⟨j 0, j 1, eq_ix2 j⟩
  exact KHead.out_eq a _ _ (KAtt.mask_iff a) (KAtt.delta_eq a) b k

/-! ## Every window's block is the whole array -/

theorem blk0 (c : Dev nD) (t : Fin cfg0.N) : (iblk m c 0 t : Vec Ideal S32768x32 .f32) = m ((c : Thread nD τ).loc main_arg0) := by
  unfold iblk
  exact Memref.read_access_unit_zero (Elt Ideal) main_arg0 (funext fun _ => Nat.zero_mul _) _ _
theorem blk1 (c : Dev nD) (t : Fin cfg0.N) : (iblk m c 1 t : Vec Ideal S16 .i32) = m ((c : Thread nD τ).loc main_arg1) := by
  unfold iblk
  exact Memref.read_access_unit_zero (Elt Ideal) main_arg1 (funext fun _ => Nat.zero_mul _) _ _
theorem blk2 (c : Dev nD) (t : Fin cfg0.N) : (iblk m c 2 t : Vec Ideal S16x32 .f32) = m ((c : Thread nD τ).loc main_arg2) := by
  unfold iblk
  exact Memref.read_access_unit_zero (Elt Ideal) main_arg2 (funext fun _ => Nat.zero_mul _) _ _
theorem blk3 (c : Dev nD) (t : Fin cfg0.N) : (iblk m c 3 t : Vec Ideal S16 .f32) = m ((c : Thread nD τ).loc main_arg3) := by
  unfold iblk
  exact Memref.read_access_unit_zero (Elt Ideal) main_arg3 (funext fun _ => Nat.zero_mul _) _ _
theorem blk4 (c : Dev nD) (t : Fin cfg0.N) : (iblk m c 4 t : Vec Ideal S16 .f32) = m ((c : Thread nD τ).loc main_arg4) := by
  unfold iblk
  exact Memref.read_access_unit_zero (Elt Ideal) main_arg4 (funext fun _ => Nat.zero_mul _) _ _
theorem blk5 (c : Dev nD) (t : Fin cfg0.N) : (iblk m c 5 t : Vec Ideal S16 .f32) = m ((c : Thread nD τ).loc main_arg5) := by
  unfold iblk
  exact Memref.read_access_unit_zero (Elt Ideal) main_arg5 (funext fun _ => Nat.zero_mul _) _ _
theorem blk6 (c : Dev nD) (t : Fin cfg0.N) : (iblk m c 6 t : Vec Ideal S1x16 .f32) = m ((c : Thread nD τ).loc main_arg6) := by
  unfold iblk
  exact Memref.read_access_unit_zero (Elt Ideal) main_arg6 (funext fun _ => Nat.zero_mul _) _ _
theorem blk7 (c : Dev nD) (t : Fin cfg0.N) : (iblk m c 7 t : Vec Ideal S1 .f32) = m ((c : Thread nD τ).loc main_arg7) := by
  unfold iblk
  exact Memref.read_access_unit_zero (Elt Ideal) main_arg7 (funext fun _ => Nat.zero_mul _) _ _
theorem blk8 (c : Dev nD) (t : Fin cfg0.N) : (iblk m c 8 t : Vec Ideal S1 .f32) = m ((c : Thread nD τ).loc main_arg8) := by
  unfold iblk
  exact Memref.read_access_unit_zero (Elt Ideal) main_arg8 (funext fun _ => Nat.zero_mul _) _ _
theorem blk9 (c : Dev nD) (t : Fin cfg0.N) : (iblk m c 9 t : Vec Ideal S1 .f32) = m ((c : Thread nD τ).loc main_arg9) := by
  unfold iblk
  exact Memref.read_access_unit_zero (Elt Ideal) main_arg9 (funext fun _ => Nat.zero_mul _) _ _
theorem blk10 (c : Dev nD) (t : Fin cfg0.N) : (iblk m c 10 t : Vec Ideal S64x32 .f32) = m ((c : Thread nD τ).loc main_arg10) := by
  unfold iblk
  exact Memref.read_access_unit_zero (Elt Ideal) main_arg10 (funext fun _ => Nat.zero_mul _) _ _
theorem blk11 (c : Dev nD) (t : Fin cfg0.N) : (iblk m c 11 t : Vec Ideal S64 .f32) = m ((c : Thread nD τ).loc main_arg11) := by
  unfold iblk
  exact Memref.read_access_unit_zero (Elt Ideal) main_arg11 (funext fun _ => Nat.zero_mul _) _ _
theorem blk12 (c : Dev nD) (t : Fin cfg0.N) : (iblk m c 12 t : Vec Ideal S64 .f32) = m ((c : Thread nD τ).loc main_arg12) := by
  unfold iblk
  exact Memref.read_access_unit_zero (Elt Ideal) main_arg12 (funext fun _ => Nat.zero_mul _) _ _
theorem blk13 (c : Dev nD) (t : Fin cfg0.N) : (iblk m c 13 t : Vec Ideal S64 .f32) = m ((c : Thread nD τ).loc main_arg13) := by
  unfold iblk
  exact Memref.read_access_unit_zero (Elt Ideal) main_arg13 (funext fun _ => Nat.zero_mul _) _ _
theorem blk14 (c : Dev nD) (t : Fin cfg0.N) : (iblk m c 14 t : Vec Ideal S256x64 .f32) = m ((c : Thread nD τ).loc main_arg14) := by
  unfold iblk
  exact Memref.read_access_unit_zero (Elt Ideal) main_arg14 (funext fun _ => Nat.zero_mul _) _ _
theorem blk15 (c : Dev nD) (t : Fin cfg0.N) : (iblk m c 15 t : Vec Ideal S256 .f32) = m ((c : Thread nD τ).loc main_arg15) := by
  unfold iblk
  exact Memref.read_access_unit_zero (Elt Ideal) main_arg15 (funext fun _ => Nat.zero_mul _) _ _
theorem blk16 (c : Dev nD) (t : Fin cfg0.N) : (iblk m c 16 t : Vec Ideal S256 .f32) = m ((c : Thread nD τ).loc main_arg16) := by
  unfold iblk
  exact Memref.read_access_unit_zero (Elt Ideal) main_arg16 (funext fun _ => Nat.zero_mul _) _ _
theorem blk17 (c : Dev nD) (t : Fin cfg0.N) : (iblk m c 17 t : Vec Ideal S256 .f32) = m ((c : Thread nD τ).loc main_arg17) := by
  unfold iblk
  exact Memref.read_access_unit_zero (Elt Ideal) main_arg17 (funext fun _ => Nat.zero_mul _) _ _

/-- What the one point writes back is the whole-array block of the network's result. -/
theorem flushed_eq (c : Dev nD) (t : Fin cfg0.N) :
    (dats m 0 c).flushed 18 t = ((cfg0.win 18).blk t).view.read (Elt Ideal) (outArr (kargs m c)) := by
  rw [Value.flushed18]
  have e : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = outArr (kargs m c) := by
    refine (out_whole (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).trans ?_
    rw [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t]
    exact payload_eq (kargs m c)
  rw [e]
  exact (Memref.read_access_unit_zero (Elt Ideal) main_v0 (funext fun _ => Nat.zero_mul _) _ (outArr (kargs m c))).symm

/-- The result array after the run is the network's result: the one block covers it. -/
theorem final (c : Dev nD) : (dats m 0 c).arrAt 18 cfg0.N = outArr (kargs m c) :=
  (dats m 0 c).arrAt_eq_of_cover 18 (outArr (kargs m c)) (fun t _ => flushed_eq m c t) fun i =>
    ⟨t0_0, flush0_18 t0_0, by
      show i ∈ ((View.whole main_v0).slice (win0_18.rect t0_0)).set
      rw [View.set_slice_whole, Rect.mem_set_unit]
      intro a
      have h0 : (i 0 : Nat) < 16 := (i 0).isLt
      have h1 : (i 1 : Nat) < 256 := (i 1).isLt
      match a with
      | ⟨0, _⟩ => exact ⟨Nat.zero_le _, by show (i 0 : Nat) < 0 * 16 + 16; omega⟩
      | ⟨1, _⟩ => exact ⟨Nat.zero_le _, by show (i 1 : Nat) < 0 * 256 + 256; omega⟩⟩

/-- The run, read: the output array is the network's result on the argument arrays, the arguments unchanged. -/
theorem run : θ_run defs (onTc (τ := τ) (main (F := Ideal))) ⟨m, fun _ => 0, ρ⟩ fun r => ∀ c : Dev nD,
      r.2.mem ((c : Thread nD τ).loc main_v0) = outArr (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.Out

end
-- ==== Proof.RefOpsT.lean ====
/- The reference program's @main as the list of its 257 host operations, the outlined functions' operations listed at their
   calls over the calls' buffer records, and the run read back: every weakly fair execution ends with every buffer at the
   operations' fold over the launch contents. -/
import proofs.«116939_g89575837925665_cont_sun_c4_16_12_alg».proof.Proof.Gen.ReferenceIdeal
import Idealize.ShloMosaic.Lib.StableHlo.Run

noncomputable section

namespace Cert.ReferenceIdeal.RefRunT

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [
    unary main_arg2 main_v0 ((transpose S32x16 [1, 0] · transposes_S16x32_S32x16_1_0) : (⟨S16x32, .f32⟩ : BufTy).Contents (Elt F) → (⟨S32x16, .f32⟩ : BufTy).Contents (Elt F)),
    binary main_arg0 main_v0 main_v1 ((fun l r => Host.dotGeneral dot_S32768x32_S32x16_S32768x16_1_0_0_1_n_n none l r) : (⟨S32768x32, .f32⟩ : BufTy).Contents (Elt F) → (⟨S32x16, .f32⟩ : BufTy).Contents (Elt F) → (⟨S32768x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S32768x16 ![0, 1] bcast_S1x16_S32768x16_0_1 : (⟨S1x16, .f32⟩ : BufTy).Contents (Elt F) → (⟨S32768x16, .f32⟩ : BufTy).Contents (Elt F)),
    binary main_v1 main_v3 main_v4 (addf : (⟨S32768x16, .f32⟩ : BufTy).Contents (Elt F) → (⟨S32768x16, .f32⟩ : BufTy).Contents (Elt F) → (⟨S32768x16, .f32⟩ : BufTy).Contents (Elt F)),
    nullary main_cst (constant S_ .f32 0x00000000#32),
    binary main_v4 main_cst main_v5 ((fun x v => Host.reduceAdd x v reducesTo_S32768x16_S16_d0 h_S_) : (⟨S32768x16, .f32⟩ : BufTy).Contents (Elt F) → (⟨S_, .f32⟩ : BufTy).Contents (Elt F) → (⟨S16, .f32⟩ : BufTy).Contents (Elt F)),
    unary main_v5 main_v6 (broadcastInDim S1x16 ![1] bcast_S16_S1x16_1 : (⟨S16, .f32⟩ : BufTy).Contents (Elt F) → (⟨S1x16, .f32⟩ : BufTy).Contents (Elt F)),
    nullary main_cst_0 (constant S_ .f32 0x47000000#32),
    unary main_cst_0 main_v7 (broadcastInDim S1x16 ![] bcast_S_S1x16 : (⟨S_, .f32⟩ : BufTy).Contents (Elt F) → (⟨S1x16, .f32⟩ : BufTy).Contents (Elt F)),
    binary main_v6 main_v7 main_v8 (Host.divf : (⟨S1x16, .f32⟩ : BufTy).Contents (Elt F) → (⟨S1x16, .f32⟩ : BufTy).Contents (Elt F) → (⟨S1x16, .f32⟩ : BufTy).Contents (Elt F)),
    nullary main_c (constantI S_ 32 0#32),
    TRef.nullary main_call0.cst (constant S_ .f32 0x00000000#32),
    TRef.binary (.of main_v4 : TRef sig ⟨S32768x16, .f32⟩) main_call0.cst main_call0.v0 (fun x v => Host.reduceAdd x v reducesTo_S32768x16_S16_d0 h_S_),
    TRef.unary main_call0.v0 main_call0.v1 (broadcastInDim S1x16 ![1] bcast_S16_S1x16_1),
    TRef.nullary main_call0.cst_0 (constant S_ .f32 0x47000000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S32768x16 ![0, 1] bcast_S1x16_S32768x16_0_1),
    TRef.binary (.of main_v4 : TRef sig ⟨S32768x16, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32768x16_S16_d0 h_S_),
    TRef.unary main_call0.v9 main_call0.v10 (broadcastInDim S1x16 ![1] bcast_S16_S1x16_1),
    TRef.unary main_call0.v8 main_call0.v11 (broadcastInDim S1x16 ![] bcast_S_S1x16),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x16 ![] bcast_S_S1x16),
    TRef.ternary main_call0.v13 main_call0.v12 main_call0.call0.v1 main_call0.call0.v2 (fun p a b => select (broadcastInDim S1x16 ![] bcast_S_S1x16 p) a b),
    unary main_v8 main_v10 (broadcastInDim S32768x16 ![0, 1] bcast_S1x16_S32768x16_0_1 : (⟨S1x16, .f32⟩ : BufTy).Contents (Elt F) → (⟨S32768x16, .f32⟩ : BufTy).Contents (Elt F)),
    binary main_v4 main_v10 main_v11 (subf : (⟨S32768x16, .f32⟩ : BufTy).Contents (Elt F) → (⟨S32768x16, .f32⟩ : BufTy).Contents (Elt F) → (⟨S32768x16, .f32⟩ : BufTy).Contents (Elt F)),
    nullary main_cst_1 (constant S_ .f32 0x3727C5AC#32),
    unary main_cst_1 main_v12 (broadcastInDim S1x16 ![] bcast_S_S1x16 : (⟨S_, .f32⟩ : BufTy).Contents (Elt F) → (⟨S1x16, .f32⟩ : BufTy).Contents (Elt F)),
    binary main_v9 main_v12 main_v13 (addf : (⟨S1x16, .f32⟩ : BufTy).Contents (Elt F) → (⟨S1x16, .f32⟩ : BufTy).Contents (Elt F) → (⟨S1x16, .f32⟩ : BufTy).Contents (Elt F)),
    unary main_v13 main_v14 (Host.sqrt : (⟨S1x16, .f32⟩ : BufTy).Contents (Elt F) → (⟨S1x16, .f32⟩ : BufTy).Contents (Elt F)),
    unary main_v14 main_v15 (broadcastInDim S32768x16 ![0, 1] bcast_S1x16_S32768x16_0_1 : (⟨S1x16, .f32⟩ : BufTy).Contents (Elt F) → (⟨S32768x16, .f32⟩ : BufTy).Contents (Elt F)),
    binary main_v11 main_v15 main_v16 (Host.divf : (⟨S32768x16, .f32⟩ : BufTy).Contents (Elt F) → (⟨S32768x16, .f32⟩ : BufTy).Contents (Elt F) → (⟨S32768x16, .f32⟩ : BufTy).Contents (Elt F)),
    unary main_arg4 main_v17 (broadcastInDim S1x16 ![1] bcast_S16_S1x16_1 : (⟨S16, .f32⟩ : BufTy).Contents (Elt F) → (⟨S1x16, .f32⟩ : BufTy).Contents (Elt F)),
    unary main_v17 main_v18 (broadcastInDim S32768x16 ![0, 1] bcast_S1x16_S32768x16_0_1 : (⟨S1x16, .f32⟩ : BufTy).Contents (Elt F) → (⟨S32768x16, .f32⟩ : BufTy).Contents (Elt F)),
    binary main_v16 main_v18 main_v19 (mulf : (⟨S32768x16, .f32⟩ : BufTy).Contents (Elt F) → (⟨S32768x16, .f32⟩ : BufTy).Contents (Elt F) → (⟨S32768x16, .f32⟩ : BufTy).Contents (Elt F)),
    unary main_arg5 main_v20 (broadcastInDim S1x16 ![1] bcast_S16_S1x16_1 : (⟨S16, .f32⟩ : BufTy).Contents (Elt F) → (⟨S1x16, .f32⟩ : BufTy).Contents (Elt F)),
    unary main_v20 main_v21 (broadcastInDim S32768x16 ![0, 1] bcast_S1x16_S32768x16_0_1 : (⟨S1x16, .f32⟩ : BufTy).Contents (Elt F) → (⟨S32768x16, .f32⟩ : BufTy).Contents (Elt F)),
    binary main_v19 main_v21 main_v22 (addf : (⟨S32768x16, .f32⟩ : BufTy).Contents (Elt F) → (⟨S32768x16, .f32⟩ : BufTy).Contents (Elt F) → (⟨S32768x16, .f32⟩ : BufTy).Contents (Elt F)),
    TRef.nullary main_call1.cst (constant S_ .f32 0x00000000#32),
    TRef.unary main_call1.cst main_call1.v0 (broadcastInDim S32768x16 ![] bcast_S_S32768x16),
    TRef.binary (.of main_v22 : TRef sig ⟨S32768x16, .f32⟩) main_call1.v0 main_call1.v1 maximumf,
    unary main_arg6 main_v24 ((transpose S16x1 [1, 0] · transposes_S1x16_S16x1_1_0) : (⟨S1x16, .f32⟩ : BufTy).Contents (Elt F) → (⟨S16x1, .f32⟩ : BufTy).Contents (Elt F)),
    binary main_v23 main_v24 main_v25 ((fun l r => Host.dotGeneral dot_S32768x16_S16x1_S32768x1_1_0_0_1_n_n none l r) : (⟨S32768x16, .f32⟩ : BufTy).Contents (Elt F) → (⟨S16x1, .f32⟩ : BufTy).Contents (Elt F) → (⟨S32768x1, .f32⟩ : BufTy).Contents (Elt F)),
    unary main_arg7 main_v26 (broadcastInDim S1x1 ![1] bcast_S1_S1x1_1 : (⟨S1, .f32⟩ : BufTy).Contents (Elt F) → (⟨S1x1, .f32⟩ : BufTy).Contents (Elt F)),
    unary main_v26 main_v27 (broadcastInDim S32768x1 ![0, 1] bcast_S1x1_S32768x1_0_1 : (⟨S1x1, .f32⟩ : BufTy).Contents (Elt F) → (⟨S32768x1, .f32⟩ : BufTy).Contents (Elt F)),
    binary main_v25 main_v27 main_v28 (addf : (⟨S32768x1, .f32⟩ : BufTy).Contents (Elt F) → (⟨S32768x1, .f32⟩ : BufTy).Contents (Elt F) → (⟨S32768x1, .f32⟩ : BufTy).Contents (Elt F)),
    nullary main_cst_2 (constant S_ .f32 0x00000000#32),
    binary main_v28 main_cst_2 main_v29 ((fun x v => Host.reduceAdd x v reducesTo_S32768x1_S1_d0 h_S_) : (⟨S32768x1, .f32⟩ : BufTy).Contents (Elt F) → (⟨S_, .f32⟩ : BufTy).Contents (Elt F) → (⟨S1, .f32⟩ : BufTy).Contents (Elt F)),
    unary main_v29 main_v30 (broadcastInDim S1x1 ![1] bcast_S1_S1x1_1 : (⟨S1, .f32⟩ : BufTy).Contents (Elt F) → (⟨S1x1, .f32⟩ : BufTy).Contents (Elt F)),
    nullary main_cst_3 (constant S_ .f32 0x47000000#32),
    unary main_cst_3 main_v31 (broadcastInDim S1x1 ![] bcast_S_S1x1 : (⟨S_, .f32⟩ : BufTy).Contents (Elt F) → (⟨S1x1, .f32⟩ : BufTy).Contents (Elt F)),
    binary main_v30 main_v31 main_v32 (Host.divf : (⟨S1x1, .f32⟩ : BufTy).Contents (Elt F) → (⟨S1x1, .f32⟩ : BufTy).Contents (Elt F) → (⟨S1x1, .f32⟩ : BufTy).Contents (Elt F)),
    nullary main_c_4 (constantI S_ 32 0#32),
    TRef.nullary main_call2.cst (constant S_ .f32 0x00000000#32),
    TRef.binary (.of main_v28 : TRef sig ⟨S32768x1, .f32⟩) main_call2.cst main_call2.v0 (fun x v => Host.reduceAdd x v reducesTo_S32768x1_S1_d0 h_S_),
    TRef.unary main_call2.v0 main_call2.v1 (broadcastInDim S1x1 ![1] bcast_S1_S1x1_1),
    TRef.nullary main_call2.cst_0 (constant S_ .f32 0x47000000#32),
    TRef.unary main_call2.cst_0 main_call2.v2 (broadcastInDim S1x1 ![] bcast_S_S1x1),
    TRef.binary main_call2.v1 main_call2.v2 main_call2.v3 Host.divf,
    TRef.unary main_call2.v3 main_call2.v4 (broadcastInDim S32768x1 ![0, 1] bcast_S1x1_S32768x1_0_1),
    TRef.binary (.of main_v28 : TRef sig ⟨S32768x1, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x47000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S32768x1_S1_d0 h_S_),
    TRef.unary main_call2.v9 main_call2.v10 (broadcastInDim S1x1 ![1] bcast_S1_S1x1_1),
    TRef.unary main_call2.v8 main_call2.v11 (broadcastInDim S1x1 ![] bcast_S_S1x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x1 ![] bcast_S_S1x1),
    TRef.ternary main_call2.v13 main_call2.v12 main_call2.call0.v1 main_call2.call0.v2 (fun p a b => select (broadcastInDim S1x1 ![] bcast_S_S1x1 p) a b),
    unary main_v32 main_v34 (broadcastInDim S32768x1 ![0, 1] bcast_S1x1_S32768x1_0_1 : (⟨S1x1, .f32⟩ : BufTy).Contents (Elt F) → (⟨S32768x1, .f32⟩ : BufTy).Contents (Elt F)),
    binary main_v28 main_v34 main_v35 (subf : (⟨S32768x1, .f32⟩ : BufTy).Contents (Elt F) → (⟨S32768x1, .f32⟩ : BufTy).Contents (Elt F) → (⟨S32768x1, .f32⟩ : BufTy).Contents (Elt F)),
    nullary main_cst_5 (constant S_ .f32 0x3727C5AC#32),
    unary main_cst_5 main_v36 (broadcastInDim S1x1 ![] bcast_S_S1x1 : (⟨S_, .f32⟩ : BufTy).Contents (Elt F) → (⟨S1x1, .f32⟩ : BufTy).Contents (Elt F)),
    binary main_v33 main_v36 main_v37 (addf : (⟨S1x1, .f32⟩ : BufTy).Contents (Elt F) → (⟨S1x1, .f32⟩ : BufTy).Contents (Elt F) → (⟨S1x1, .f32⟩ : BufTy).Contents (Elt F)),
    unary main_v37 main_v38 (Host.sqrt : (⟨S1x1, .f32⟩ : BufTy).Contents (Elt F) → (⟨S1x1, .f32⟩ : BufTy).Contents (Elt F)),
    unary main_v38 main_v39 (broadcastInDim S32768x1 ![0, 1] bcast_S1x1_S32768x1_0_1 : (⟨S1x1, .f32⟩ : BufTy).Contents (Elt F) → (⟨S32768x1, .f32⟩ : BufTy).Contents (Elt F)),
    binary main_v35 main_v39 main_v40 (Host.divf : (⟨S32768x1, .f32⟩ : BufTy).Contents (Elt F) → (⟨S32768x1, .f32⟩ : BufTy).Contents (Elt F) → (⟨S32768x1, .f32⟩ : BufTy).Contents (Elt F)),
    unary main_arg8 main_v41 (broadcastInDim S1x1 ![1] bcast_S1_S1x1_1 : (⟨S1, .f32⟩ : BufTy).Contents (Elt F) → (⟨S1x1, .f32⟩ : BufTy).Contents (Elt F)),
    unary main_v41 main_v42 (broadcastInDim S32768x1 ![0, 1] bcast_S1x1_S32768x1_0_1 : (⟨S1x1, .f32⟩ : BufTy).Contents (Elt F) → (⟨S32768x1, .f32⟩ : BufTy).Contents (Elt F)),
    binary main_v40 main_v42 main_v43 (mulf : (⟨S32768x1, .f32⟩ : BufTy).Contents (Elt F) → (⟨S32768x1, .f32⟩ : BufTy).Contents (Elt F) → (⟨S32768x1, .f32⟩ : BufTy).Contents (Elt F)),
    unary main_arg9 main_v44 (broadcastInDim S1x1 ![1] bcast_S1_S1x1_1 : (⟨S1, .f32⟩ : BufTy).Contents (Elt F) → (⟨S1x1, .f32⟩ : BufTy).Contents (Elt F)),
    unary main_v44 main_v45 (broadcastInDim S32768x1 ![0, 1] bcast_S1x1_S32768x1_0_1 : (⟨S1x1, .f32⟩ : BufTy).Contents (Elt F) → (⟨S32768x1, .f32⟩ : BufTy).Contents (Elt F)),
    binary main_v43 main_v45 main_v46 (addf : (⟨S32768x1, .f32⟩ : BufTy).Contents (Elt F) → (⟨S32768x1, .f32⟩ : BufTy).Contents (Elt F) → (⟨S32768x1, .f32⟩ : BufTy).Contents (Elt F)),
    TRef.nullary main_call3.call0.c (constantI S_ 32 0#32),
    TRef.unary main_call3.call0.c main_call3.call0.v0 (broadcastInDim S_ ![] bcast_S_S_),
    TRef.binary (.of main_arg1 : TRef sig ⟨S16, .i32⟩) main_call3.call0.v0 main_call3.call0.v1 (fun x v => Host.reduceWindow IntOp.addi ![16] ![1] ![15] ![0] x v reduceWindows_S16_S16_w16s1p15_0 h_S_),
    binary main_v47 main_arg1 main_v48 (subi : (⟨S16, .i32⟩ : BufTy).Contents (Elt F) → (⟨S16, .i32⟩ : BufTy).Contents (Elt F) → (⟨S16, .i32⟩ : BufTy).Contents (Elt F)),
    nullary main_v49 (iotaInDim S32768 32 0),
    unary main_v49 main_v50 (broadcastInDim S1x32768 ![1] bcast_S32768_S1x32768_1 : (⟨S32768, .i32⟩ : BufTy).Contents (Elt F) → (⟨S1x32768, .i32⟩ : BufTy).Contents (Elt F)),
    unary main_v48 main_v51 (broadcastInDim S16x1 ![0] bcast_S16_S16x1_0 : (⟨S16, .i32⟩ : BufTy).Contents (Elt F) → (⟨S16x1, .i32⟩ : BufTy).Contents (Elt F)),
    unary main_v50 main_v52 (broadcastInDim S16x32768 ![0, 1] bcast_S1x32768_S16x32768_0_1 : (⟨S1x32768, .i32⟩ : BufTy).Contents (Elt F) → (⟨S16x32768, .i32⟩ : BufTy).Contents (Elt F)),
    unary main_v51 main_v53 (broadcastInDim S16x32768 ![0, 1] bcast_S16x1_S16x32768_0_1 : (⟨S16x1, .i32⟩ : BufTy).Contents (Elt F) → (⟨S16x32768, .i32⟩ : BufTy).Contents (Elt F)),
    binary main_v52 main_v53 main_v54 (cmpi .sge : (⟨S16x32768, .i32⟩ : BufTy).Contents (Elt F) → (⟨S16x32768, .i32⟩ : BufTy).Contents (Elt F) → (⟨S16x32768, .i1⟩ : BufTy).Contents (Elt F)),
    unary main_v49 main_v55 (broadcastInDim S1x32768 ![1] bcast_S32768_S1x32768_1 : (⟨S32768, .i32⟩ : BufTy).Contents (Elt F) → (⟨S1x32768, .i32⟩ : BufTy).Contents (Elt F)),
    unary main_v47 main_v56 (broadcastInDim S16x1 ![0] bcast_S16_S16x1_0 : (⟨S16, .i32⟩ : BufTy).Contents (Elt F) → (⟨S16x1, .i32⟩ : BufTy).Contents (Elt F)),
    unary main_v55 main_v57 (broadcastInDim S16x32768 ![0, 1] bcast_S1x32768_S16x32768_0_1 : (⟨S1x32768, .i32⟩ : BufTy).Contents (Elt F) → (⟨S16x32768, .i32⟩ : BufTy).Contents (Elt F)),
    unary main_v56 main_v58 (broadcastInDim S16x32768 ![0, 1] bcast_S16x1_S16x32768_0_1 : (⟨S16x1, .i32⟩ : BufTy).Contents (Elt F) → (⟨S16x32768, .i32⟩ : BufTy).Contents (Elt F)),
    binary main_v57 main_v58 main_v59 (cmpi .slt : (⟨S16x32768, .i32⟩ : BufTy).Contents (Elt F) → (⟨S16x32768, .i32⟩ : BufTy).Contents (Elt F) → (⟨S16x32768, .i1⟩ : BufTy).Contents (Elt F)),
    binary main_v54 main_v59 main_v60 (andi : (⟨S16x32768, .i1⟩ : BufTy).Contents (Elt F) → (⟨S16x32768, .i1⟩ : BufTy).Contents (Elt F) → (⟨S16x32768, .i1⟩ : BufTy).Contents (Elt F)),
    reshape main_v46 main_v61 rfl shapeCasts_S32768x1_S32768,
    unary main_v61 main_v62 (broadcastInDim S1x32768 ![1] bcast_S32768_S1x32768_1 : (⟨S32768, .f32⟩ : BufTy).Contents (Elt F) → (⟨S1x32768, .f32⟩ : BufTy).Contents (Elt F)),
    nullary main_cst_6 (constant S_ .f32 0xFF800000#32),
    TRef.unary (.of main_cst_6 : TRef sig ⟨S_, .f32⟩) main_call4.v0 id,
    TRef.unary (.of main_v62 : TRef sig ⟨S1x32768, .f32⟩) main_call4.v1 (broadcastInDim S16x32768 ![0, 1] bcast_S1x32768_S16x32768_0_1),
    TRef.unary main_call4.v0 main_call4.v2 (broadcastInDim S16x32768 ![] bcast_S_S16x32768),
    TRef.ternary (.of main_v60 : TRef sig ⟨S16x32768, .i1⟩) main_call4.v1 main_call4.v2 main_call4.v3 select,
    nullary main_cst_7 (constant S_ .f32 0xFF800000#32),
    binary main_v63 main_cst_7 main_v64 ((fun x v => Host.reduce FloatOps.maximumf x v reducesTo_S16x32768_S16_d1 h_S_) : (⟨S16x32768, .f32⟩ : BufTy).Contents (Elt F) → (⟨S_, .f32⟩ : BufTy).Contents (Elt F) → (⟨S16, .f32⟩ : BufTy).Contents (Elt F)),
    unary main_v64 main_v65 (broadcastInDim S16x1 ![0] bcast_S16_S16x1_0 : (⟨S16, .f32⟩ : BufTy).Contents (Elt F) → (⟨S16x1, .f32⟩ : BufTy).Contents (Elt F)),
    unary main_v61 main_v66 (broadcastInDim S1x32768 ![1] bcast_S32768_S1x32768_1 : (⟨S32768, .f32⟩ : BufTy).Contents (Elt F) → (⟨S1x32768, .f32⟩ : BufTy).Contents (Elt F)),
    unary main_v66 main_v67 (broadcastInDim S16x32768 ![0, 1] bcast_S1x32768_S16x32768_0_1 : (⟨S1x32768, .f32⟩ : BufTy).Contents (Elt F) → (⟨S16x32768, .f32⟩ : BufTy).Contents (Elt F)),
    unary main_v65 main_v68 (broadcastInDim S16x32768 ![0, 1] bcast_S16x1_S16x32768_0_1 : (⟨S16x1, .f32⟩ : BufTy).Contents (Elt F) → (⟨S16x32768, .f32⟩ : BufTy).Contents (Elt F)),
    binary main_v67 main_v68 main_v69 (subf : (⟨S16x32768, .f32⟩ : BufTy).Contents (Elt F) → (⟨S16x32768, .f32⟩ : BufTy).Contents (Elt F) → (⟨S16x32768, .f32⟩ : BufTy).Contents (Elt F)),
    unary main_v69 main_v70 (Host.exp : (⟨S16x32768, .f32⟩ : BufTy).Contents (Elt F) → (⟨S16x32768, .f32⟩ : BufTy).Contents (Elt F)),
    nullary main_cst_8 (constant S_ .f32 0x00000000#32),
    TRef.unary (.of main_cst_8 : TRef sig ⟨S_, .f32⟩) main_call5.v0 id,
    TRef.unary main_call5.v0 main_call5.v1 (broadcastInDim S16x32768 ![] bcast_S_S16x32768),
    TRef.ternary (.of main_v60 : TRef sig ⟨S16x32768, .i1⟩) (.of main_v70 : TRef sig ⟨S16x32768, .f32⟩) main_call5.v1 main_call5.v2 select,
    nullary main_cst_9 (constant S_ .f32 0x00000000#32),
    binary main_v71 main_cst_9 main_v72 ((fun x v => Host.reduceAdd x v reducesTo_S16x32768_S16_d1 h_S_) : (⟨S16x32768, .f32⟩ : BufTy).Contents (Elt F) → (⟨S_, .f32⟩ : BufTy).Contents (Elt F) → (⟨S16, .f32⟩ : BufTy).Contents (Elt F)),
    unary main_v72 main_v73 (broadcastInDim S16x1 ![0] bcast_S16_S16x1_0 : (⟨S16, .f32⟩ : BufTy).Contents (Elt F) → (⟨S16x1, .f32⟩ : BufTy).Contents (Elt F)),
    unary main_v73 main_v74 (broadcastInDim S16x32768 ![0, 1] bcast_S16x1_S16x32768_0_1 : (⟨S16x1, .f32⟩ : BufTy).Contents (Elt F) → (⟨S16x32768, .f32⟩ : BufTy).Contents (Elt F)),
    binary main_v71 main_v74 main_v75 (Host.divf : (⟨S16x32768, .f32⟩ : BufTy).Contents (Elt F) → (⟨S16x32768, .f32⟩ : BufTy).Contents (Elt F) → (⟨S16x32768, .f32⟩ : BufTy).Contents (Elt F)),
    binary main_v75 main_arg0 main_v76 ((fun l r => Host.dotGeneral dot_S16x32768_S32768x32_S16x32_1_0_0_1_n_n none l r) : (⟨S16x32768, .f32⟩ : BufTy).Contents (Elt F) → (⟨S32768x32, .f32⟩ : BufTy).Contents (Elt F) → (⟨S16x32, .f32⟩ : BufTy).Contents (Elt F)),
    unary main_arg1 main_v77 (broadcastInDim S16x1 ![0] bcast_S16_S16x1_0 : (⟨S16, .i32⟩ : BufTy).Contents (Elt F) → (⟨S16x1, .i32⟩ : BufTy).Contents (Elt F)),
    unary main_v77 main_v78 (sitofp .f32 : (⟨S16x1, .i32⟩ : BufTy).Contents (Elt F) → (⟨S16x1, .f32⟩ : BufTy).Contents (Elt F)),
    unary main_v78 main_v79 (broadcastInDim S16x32 ![0, 1] bcast_S16x1_S16x32_0_1 : (⟨S16x1, .f32⟩ : BufTy).Contents (Elt F) → (⟨S16x32, .f32⟩ : BufTy).Contents (Elt F)),
    binary main_v76 main_v79 main_v80 (Host.divf : (⟨S16x32, .f32⟩ : BufTy).Contents (Elt F) → (⟨S16x32, .f32⟩ : BufTy).Contents (Elt F) → (⟨S16x32, .f32⟩ : BufTy).Contents (Elt F)),
    unary main_arg10 main_v81 ((transpose S32x64 [1, 0] · transposes_S64x32_S32x64_1_0) : (⟨S64x32, .f32⟩ : BufTy).Contents (Elt F) → (⟨S32x64, .f32⟩ : BufTy).Contents (Elt F)),
    binary main_v80 main_v81 main_v82 ((fun l r => Host.dotGeneral dot_S16x32_S32x64_S16x64_1_0_0_1_n_n none l r) : (⟨S16x32, .f32⟩ : BufTy).Contents (Elt F) → (⟨S32x64, .f32⟩ : BufTy).Contents (Elt F) → (⟨S16x64, .f32⟩ : BufTy).Contents (Elt F)),
    unary main_arg11 main_v83 (broadcastInDim S1x64 ![1] bcast_S64_S1x64_1 : (⟨S64, .f32⟩ : BufTy).Contents (Elt F) → (⟨S1x64, .f32⟩ : BufTy).Contents (Elt F)),
    unary main_v83 main_v84 (broadcastInDim S16x64 ![0, 1] bcast_S1x64_S16x64_0_1 : (⟨S1x64, .f32⟩ : BufTy).Contents (Elt F) → (⟨S16x64, .f32⟩ : BufTy).Contents (Elt F)),
    binary main_v82 main_v84 main_v85 (addf : (⟨S16x64, .f32⟩ : BufTy).Contents (Elt F) → (⟨S16x64, .f32⟩ : BufTy).Contents (Elt F) → (⟨S16x64, .f32⟩ : BufTy).Contents (Elt F)),
    nullary main_cst_10 (constant S_ .f32 0x00000000#32),
    binary main_v85 main_cst_10 main_v86 ((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F)),
    unary main_v86 main_v87 (broadcastInDim S1x64 ![1] bcast_S64_S1x64_1 : (⟨S64, .f32⟩ : BufTy).Contents (Elt F) → (⟨S1x64, .f32⟩ : BufTy).Contents (Elt F)),
    nullary main_cst_11 (constant S_ .f32 0x41800000#32),
    unary main_cst_11 main_v88 (broadcastInDim S1x64 ![] bcast_S_S1x64 : (⟨S_, .f32⟩ : BufTy).Contents (Elt F) → (⟨S1x64, .f32⟩ : BufTy).Contents (Elt F)),
    binary main_v87 main_v88 main_v89 (Host.divf : (⟨S1x64, .f32⟩ : BufTy).Contents (Elt F) → (⟨S1x64, .f32⟩ : BufTy).Contents (Elt F) → (⟨S1x64, .f32⟩ : BufTy).Contents (Elt F)),
    nullary main_c_12 (constantI S_ 32 0#32),
    TRef.nullary main_call6.cst (constant S_ .f32 0x00000000#32),
    TRef.binary (.of main_v85 : TRef sig ⟨S16x64, .f32⟩) main_call6.cst main_call6.v0 (fun x v => Host.reduceAdd x v reducesTo_S16x64_S64_d0 h_S_),
    TRef.unary main_call6.v0 main_call6.v1 (broadcastInDim S1x64 ![1] bcast_S64_S1x64_1),
    TRef.nullary main_call6.cst_0 (constant S_ .f32 0x41800000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S16x64 ![0, 1] bcast_S1x64_S16x64_0_1),
    TRef.binary (.of main_v85 : TRef sig ⟨S16x64, .f32⟩) main_call6.v4 main_call6.v5 subf,
    TRef.binary main_call6.v5 main_call6.v5 main_call6.v6 mulf,
    TRef.unary (.of main_c_12 : TRef sig ⟨S_, .i32⟩) main_call6.v7 (sitofp .f32),
    TRef.nullary main_call6.cst_1 (constant S_ .f32 0x41800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S16x64_S64_d0 h_S_),
    TRef.unary main_call6.v9 main_call6.v10 (broadcastInDim S1x64 ![1] bcast_S64_S1x64_1),
    TRef.unary main_call6.v8 main_call6.v11 (broadcastInDim S1x64 ![] bcast_S_S1x64),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x64 ![] bcast_S_S1x64),
    TRef.ternary main_call6.v13 main_call6.v12 main_call6.call0.v1 main_call6.call0.v2 (fun p a b => select (broadcastInDim S1x64 ![] bcast_S_S1x64 p) a b),
    unary main_v89 main_v91 (broadcastInDim S16x64 ![0, 1] bcast_S1x64_S16x64_0_1 : (⟨S1x64, .f32⟩ : BufTy).Contents (Elt F) → (⟨S16x64, .f32⟩ : BufTy).Contents (Elt F)),
    binary main_v85 main_v91 main_v92 (subf : (⟨S16x64, .f32⟩ : BufTy).Contents (Elt F) → (⟨S16x64, .f32⟩ : BufTy).Contents (Elt F) → (⟨S16x64, .f32⟩ : BufTy).Contents (Elt F)),
    nullary main_cst_13 (constant S_ .f32 0x3727C5AC#32),
    unary main_cst_13 main_v93 (broadcastInDim S1x64 ![] bcast_S_S1x64 : (⟨S_, .f32⟩ : BufTy).Contents (Elt F) → (⟨S1x64, .f32⟩ : BufTy).Contents (Elt F)),
    binary main_v90 main_v93 main_v94 (addf : (⟨S1x64, .f32⟩ : BufTy).Contents (Elt F) → (⟨S1x64, .f32⟩ : BufTy).Contents (Elt F) → (⟨S1x64, .f32⟩ : BufTy).Contents (Elt F)),
    unary main_v94 main_v95 (Host.sqrt : (⟨S1x64, .f32⟩ : BufTy).Contents (Elt F) → (⟨S1x64, .f32⟩ : BufTy).Contents (Elt F)),
    unary main_v95 main_v96 (broadcastInDim S16x64 ![0, 1] bcast_S1x64_S16x64_0_1 : (⟨S1x64, .f32⟩ : BufTy).Contents (Elt F) → (⟨S16x64, .f32⟩ : BufTy).Contents (Elt F)),
    binary main_v92 main_v96 main_v97 (Host.divf : (⟨S16x64, .f32⟩ : BufTy).Contents (Elt F) → (⟨S16x64, .f32⟩ : BufTy).Contents (Elt F) → (⟨S16x64, .f32⟩ : BufTy).Contents (Elt F)),
    unary main_arg12 main_v98 (broadcastInDim S1x64 ![1] bcast_S64_S1x64_1 : (⟨S64, .f32⟩ : BufTy).Contents (Elt F) → (⟨S1x64, .f32⟩ : BufTy).Contents (Elt F)),
    unary main_v98 main_v99 (broadcastInDim S16x64 ![0, 1] bcast_S1x64_S16x64_0_1 : (⟨S1x64, .f32⟩ : BufTy).Contents (Elt F) → (⟨S16x64, .f32⟩ : BufTy).Contents (Elt F)),
    binary main_v97 main_v99 main_v100 (mulf : (⟨S16x64, .f32⟩ : BufTy).Contents (Elt F) → (⟨S16x64, .f32⟩ : BufTy).Contents (Elt F) → (⟨S16x64, .f32⟩ : BufTy).Contents (Elt F)),
    unary main_arg13 main_v101 (broadcastInDim S1x64 ![1] bcast_S64_S1x64_1 : (⟨S64, .f32⟩ : BufTy).Contents (Elt F) → (⟨S1x64, .f32⟩ : BufTy).Contents (Elt F)),
    unary main_v101 main_v102 (broadcastInDim S16x64 ![0, 1] bcast_S1x64_S16x64_0_1 : (⟨S1x64, .f32⟩ : BufTy).Contents (Elt F) → (⟨S16x64, .f32⟩ : BufTy).Contents (Elt F)),
    binary main_v100 main_v102 main_v103 (addf : (⟨S16x64, .f32⟩ : BufTy).Contents (Elt F) → (⟨S16x64, .f32⟩ : BufTy).Contents (Elt F) → (⟨S16x64, .f32⟩ : BufTy).Contents (Elt F)),
    TRef.nullary main_call7.cst (constant S_ .f32 0x00000000#32),
    TRef.unary main_call7.cst main_call7.v0 (broadcastInDim S16x64 ![] bcast_S_S16x64),
    TRef.binary (.of main_v103 : TRef sig ⟨S16x64, .f32⟩) main_call7.v0 main_call7.v1 maximumf,
    unary main_arg14 main_v105 ((transpose S64x256 [1, 0] · transposes_S256x64_S64x256_1_0) : (⟨S256x64, .f32⟩ : BufTy).Contents (Elt F) → (⟨S64x256, .f32⟩ : BufTy).Contents (Elt F)),
    binary main_v104 main_v105 main_v106 ((fun l r => Host.dotGeneral dot_S16x64_S64x256_S16x256_1_0_0_1_n_n none l r) : (⟨S16x64, .f32⟩ : BufTy).Contents (Elt F) → (⟨S64x256, .f32⟩ : BufTy).Contents (Elt F) → (⟨S16x256, .f32⟩ : BufTy).Contents (Elt F)),
    unary main_arg15 main_v107 (broadcastInDim S1x256 ![1] bcast_S256_S1x256_1 : (⟨S256, .f32⟩ : BufTy).Contents (Elt F) → (⟨S1x256, .f32⟩ : BufTy).Contents (Elt F)),
    unary main_v107 main_v108 (broadcastInDim S16x256 ![0, 1] bcast_S1x256_S16x256_0_1 : (⟨S1x256, .f32⟩ : BufTy).Contents (Elt F) → (⟨S16x256, .f32⟩ : BufTy).Contents (Elt F)),
    binary main_v106 main_v108 main_v109 (addf : (⟨S16x256, .f32⟩ : BufTy).Contents (Elt F) → (⟨S16x256, .f32⟩ : BufTy).Contents (Elt F) → (⟨S16x256, .f32⟩ : BufTy).Contents (Elt F)),
    nullary main_cst_14 (constant S_ .f32 0x00000000#32),
    binary main_v109 main_cst_14 main_v110 ((fun x v => Host.reduceAdd x v reducesTo_S16x256_S256_d0 h_S_) : (⟨S16x256, .f32⟩ : BufTy).Contents (Elt F) → (⟨S_, .f32⟩ : BufTy).Contents (Elt F) → (⟨S256, .f32⟩ : BufTy).Contents (Elt F)),
    unary main_v110 main_v111 (broadcastInDim S1x256 ![1] bcast_S256_S1x256_1 : (⟨S256, .f32⟩ : BufTy).Contents (Elt F) → (⟨S1x256, .f32⟩ : BufTy).Contents (Elt F)),
    nullary main_cst_15 (constant S_ .f32 0x41800000#32),
    unary main_cst_15 main_v112 (broadcastInDim S1x256 ![] bcast_S_S1x256 : (⟨S_, .f32⟩ : BufTy).Contents (Elt F) → (⟨S1x256, .f32⟩ : BufTy).Contents (Elt F)),
    binary main_v111 main_v112 main_v113 (Host.divf : (⟨S1x256, .f32⟩ : BufTy).Contents (Elt F) → (⟨S1x256, .f32⟩ : BufTy).Contents (Elt F) → (⟨S1x256, .f32⟩ : BufTy).Contents (Elt F)),
    nullary main_c_16 (constantI S_ 32 0#32),
    TRef.nullary main_call8.cst (constant S_ .f32 0x00000000#32),
    TRef.binary (.of main_v109 : TRef sig ⟨S16x256, .f32⟩) main_call8.cst main_call8.v0 (fun x v => Host.reduceAdd x v reducesTo_S16x256_S256_d0 h_S_),
    TRef.unary main_call8.v0 main_call8.v1 (broadcastInDim S1x256 ![1] bcast_S256_S1x256_1),
    TRef.nullary main_call8.cst_0 (constant S_ .f32 0x41800000#32),
    TRef.unary main_call8.cst_0 main_call8.v2 (broadcastInDim S1x256 ![] bcast_S_S1x256),
    TRef.binary main_call8.v1 main_call8.v2 main_call8.v3 Host.divf,
    TRef.unary main_call8.v3 main_call8.v4 (broadcastInDim S16x256 ![0, 1] bcast_S1x256_S16x256_0_1),
    TRef.binary (.of main_v109 : TRef sig ⟨S16x256, .f32⟩) main_call8.v4 main_call8.v5 subf,
    TRef.binary main_call8.v5 main_call8.v5 main_call8.v6 mulf,
    TRef.unary (.of main_c_16 : TRef sig ⟨S_, .i32⟩) main_call8.v7 (sitofp .f32),
    TRef.nullary main_call8.cst_1 (constant S_ .f32 0x41800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S16x256_S256_d0 h_S_),
    TRef.unary main_call8.v9 main_call8.v10 (broadcastInDim S1x256 ![1] bcast_S256_S1x256_1),
    TRef.unary main_call8.v8 main_call8.v11 (broadcastInDim S1x256 ![] bcast_S_S1x256),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S1x256 ![] bcast_S_S1x256),
    TRef.ternary main_call8.v13 main_call8.v12 main_call8.call0.v1 main_call8.call0.v2 (fun p a b => select (broadcastInDim S1x256 ![] bcast_S_S1x256 p) a b),
    unary main_v113 main_v115 (broadcastInDim S16x256 ![0, 1] bcast_S1x256_S16x256_0_1 : (⟨S1x256, .f32⟩ : BufTy).Contents (Elt F) → (⟨S16x256, .f32⟩ : BufTy).Contents (Elt F)),
    binary main_v109 main_v115 main_v116 (subf : (⟨S16x256, .f32⟩ : BufTy).Contents (Elt F) → (⟨S16x256, .f32⟩ : BufTy).Contents (Elt F) → (⟨S16x256, .f32⟩ : BufTy).Contents (Elt F)),
    nullary main_cst_17 (constant S_ .f32 0x3727C5AC#32),
    unary main_cst_17 main_v117 (broadcastInDim S1x256 ![] bcast_S_S1x256 : (⟨S_, .f32⟩ : BufTy).Contents (Elt F) → (⟨S1x256, .f32⟩ : BufTy).Contents (Elt F)),
    binary main_v114 main_v117 main_v118 (addf : (⟨S1x256, .f32⟩ : BufTy).Contents (Elt F) → (⟨S1x256, .f32⟩ : BufTy).Contents (Elt F) → (⟨S1x256, .f32⟩ : BufTy).Contents (Elt F)),
    unary main_v118 main_v119 (Host.sqrt : (⟨S1x256, .f32⟩ : BufTy).Contents (Elt F) → (⟨S1x256, .f32⟩ : BufTy).Contents (Elt F)),
    unary main_v119 main_v120 (broadcastInDim S16x256 ![0, 1] bcast_S1x256_S16x256_0_1 : (⟨S1x256, .f32⟩ : BufTy).Contents (Elt F) → (⟨S16x256, .f32⟩ : BufTy).Contents (Elt F)),
    binary main_v116 main_v120 main_v121 (Host.divf : (⟨S16x256, .f32⟩ : BufTy).Contents (Elt F) → (⟨S16x256, .f32⟩ : BufTy).Contents (Elt F) → (⟨S16x256, .f32⟩ : BufTy).Contents (Elt F)),
    unary main_arg16 main_v122 (broadcastInDim S1x256 ![1] bcast_S256_S1x256_1 : (⟨S256, .f32⟩ : BufTy).Contents (Elt F) → (⟨S1x256, .f32⟩ : BufTy).Contents (Elt F)),
    unary main_v122 main_v123 (broadcastInDim S16x256 ![0, 1] bcast_S1x256_S16x256_0_1 : (⟨S1x256, .f32⟩ : BufTy).Contents (Elt F) → (⟨S16x256, .f32⟩ : BufTy).Contents (Elt F)),
    binary main_v121 main_v123 main_v124 (mulf : (⟨S16x256, .f32⟩ : BufTy).Contents (Elt F) → (⟨S16x256, .f32⟩ : BufTy).Contents (Elt F) → (⟨S16x256, .f32⟩ : BufTy).Contents (Elt F)),
    unary main_arg17 main_v125 (broadcastInDim S1x256 ![1] bcast_S256_S1x256_1 : (⟨S256, .f32⟩ : BufTy).Contents (Elt F) → (⟨S1x256, .f32⟩ : BufTy).Contents (Elt F)),
    unary main_v125 main_v126 (broadcastInDim S16x256 ![0, 1] bcast_S1x256_S16x256_0_1 : (⟨S1x256, .f32⟩ : BufTy).Contents (Elt F) → (⟨S16x256, .f32⟩ : BufTy).Contents (Elt F)),
    binary main_v124 main_v126 main_v127 (addf : (⟨S16x256, .f32⟩ : BufTy).Contents (Elt F) → (⟨S16x256, .f32⟩ : BufTy).Contents (Elt F) → (⟨S16x256, .f32⟩ : BufTy).Contents (Elt F)),
    TRef.binary (.of main_v127 : TRef sig ⟨S16x256, .f32⟩) (.of main_v127 : TRef sig ⟨S16x256, .f32⟩) main_call9.v0 mulf,
    TRef.nullary main_call9.cst (constant S_ .f32 0x00000000#32),
    TRef.binary main_call9.v0 main_call9.cst main_call9.v1 (fun x v => Host.reduceAdd x v reducesTo_S16x256_S16_d1 h_S_),
    TRef.unary main_call9.v1 main_call9.v2 (broadcastInDim S16x1 ![0] bcast_S16_S16x1_0),
    TRef.unary main_call9.v2 main_call9.v3 Host.sqrt,
    nullary main_cst_18 (constant S_ .f32 0x2B8CBCCC#32),
    unary main_cst_18 main_v129 (broadcastInDim S16x1 ![] bcast_S_S16x1 : (⟨S_, .f32⟩ : BufTy).Contents (Elt F) → (⟨S16x1, .f32⟩ : BufTy).Contents (Elt F)),
    binary main_v128 main_v129 main_v130 (maximumf : (⟨S16x1, .f32⟩ : BufTy).Contents (Elt F) → (⟨S16x1, .f32⟩ : BufTy).Contents (Elt F) → (⟨S16x1, .f32⟩ : BufTy).Contents (Elt F)),
    unary main_v130 main_v131 (broadcastInDim S16x256 ![0, 1] bcast_S16x1_S16x256_0_1 : (⟨S16x1, .f32⟩ : BufTy).Contents (Elt F) → (⟨S16x256, .f32⟩ : BufTy).Contents (Elt F)),
    binary main_v127 main_v131 main_v132 (Host.divf : (⟨S16x256, .f32⟩ : BufTy).Contents (Elt F) → (⟨S16x256, .f32⟩ : BufTy).Contents (Elt F) → (⟨S16x256, .f32⟩ : BufTy).Contents (Elt F)) ]

set_option maxRecDepth 16384 in
set_option maxHeartbeats 8000000 in
/-- @main is that straight line: its three windows and the functions it calls unfolded, sequencing reassociated. -/
theorem main_eq (c : Dev nD) : main (F := F) c = seq ops := by
  simp only [main, main_part0, main_part1, main_part2, fn_where.body, fn_var.body, fn_relu.body, fn_where_1.body, fn_var_0.body, fn_cumsum_2.body, fn_cumsum.body, fn_where_3.body, fn_where_4.body, fn_where_6.body, fn_var_5.body, fn_relu_7.body, fn_where_9.body, fn_var_8.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., reshape_bufs_sub .., unary_bufs_sub .., nullary_bufs_sub .., unary_bufs_sub .., unary_bufs_sub .., unary_bufs_sub .., ternary_bufs_sub .., nullary_bufs_sub .., binary_bufs_sub .., unary_bufs_sub .., unary_bufs_sub .., unary_bufs_sub .., unary_bufs_sub .., binary_bufs_sub .., unary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., unary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution of @main terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRunT

end
-- ==== Proof.RefDefs.lean ====
/- The reference's intermediate arrays as terms of the argument arrays: one definition for every value that is read more
   than once or closes a stage of the network, the values in between written inside them. -/
import proofs.«116939_g89575837925665_cont_sun_c4_16_12_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `main_v4` as a term of the argument arrays. -/
def res_main_v4 (m : (ℓ : Loc nD τ sig) → Buf (Elt F) ℓ) (c : Dev nD) : FVec F S32768x16 .f32 :=
  (addf : (⟨S32768x16, .f32⟩ : BufTy).Contents (Elt F) → (⟨S32768x16, .f32⟩ : BufTy).Contents (Elt F) → (⟨S32768x16, .f32⟩ : BufTy).Contents (Elt F)) (((fun l r => Host.dotGeneral dot_S32768x32_S32x16_S32768x16_1_0_0_1_n_n none l r) : (⟨S32768x32, .f32⟩ : BufTy).Contents (Elt F) → (⟨S32x16, .f32⟩ : BufTy).Contents (Elt F) → (⟨S32768x16, .f32⟩ : BufTy).Contents (Elt F)) (m ((c.tc : Thread nD τ).loc main_arg0)) (((transpose S32x16 [1, 0] · transposes_S16x32_S32x16_1_0) : (⟨S16x32, .f32⟩ : BufTy).Contents (Elt F) → (⟨S32x16, .f32⟩ : BufTy).Contents (Elt F)) (m ((c.tc : Thread nD τ).loc main_arg2)))) ((broadcastInDim S32768x16 ![0, 1] bcast_S1x16_S32768x16_0_1 : (⟨S1x16, .f32⟩ : BufTy).Contents (Elt F) → (⟨S32768x16, .f32⟩ : BufTy).Contents (Elt F)) ((broadcastInDim S1x16 ![1] bcast_S16_S1x16_1 : (⟨S16, .f32⟩ : BufTy).Contents (Elt F) → (⟨S1x16, .f32⟩ : BufTy).Contents (Elt F)) (m ((c.tc : Thread nD τ).loc main_arg3))))

/-- `main_v8` as a term of the argument arrays. -/
def res_main_v8 (m : (ℓ : Loc nD τ sig) → Buf (Elt F) ℓ) (c : Dev nD) : FVec F S1x16 .f32 :=
  (Host.divf : (⟨S1x16, .f32⟩ : BufTy).Contents (Elt F) → (⟨S1x16, .f32⟩ : BufTy).Contents (Elt F) → (⟨S1x16, .f32⟩ : BufTy).Contents (Elt F)) ((broadcastInDim S1x16 ![1] bcast_S16_S1x16_1 : (⟨S16, .f32⟩ : BufTy).Contents (Elt F) → (⟨S1x16, .f32⟩ : BufTy).Contents (Elt F)) (((fun x v => Host.reduceAdd x v reducesTo_S32768x16_S16_d0 h_S_) : (⟨S32768x16, .f32⟩ : BufTy).Contents (Elt F) → (⟨S_, .f32⟩ : BufTy).Contents (Elt F) → (⟨S16, .f32⟩ : BufTy).Contents (Elt F)) (res_main_v4 m c) (constant S_ .f32 0x00000000#32))) ((broadcastInDim S1x16 ![] bcast_S_S1x16 : (⟨S_, .f32⟩ : BufTy).Contents (Elt F) → (⟨S1x16, .f32⟩ : BufTy).Contents (Elt F)) (constant S_ .f32 0x47000000#32))

/-- `main_call0_v5` as a term of the argument arrays. -/
def res_main_call0_v5 (m : (ℓ : Loc nD τ sig) → Buf (Elt F) ℓ) (c : Dev nD) : FVec F S32768x16 .f32 :=
  (subf) (res_main_v4 m c) ((broadcastInDim S32768x16 ![0, 1] bcast_S1x16_S32768x16_0_1) ((Host.divf) ((broadcastInDim S1x16 ![1] bcast_S16_S1x16_1) ((fun x v => Host.reduceAdd x v reducesTo_S32768x16_S16_d0 h_S_) (res_main_v4 m c) (constant S_ .f32 0x00000000#32))) ((broadcastInDim S1x16 ![] bcast_S_S1x16) (constant S_ .f32 0x47000000#32))))

/-- `main_call0_v8` as a term of the argument arrays. -/
def res_main_call0_v8 (m : (ℓ : Loc nD τ sig) → Buf (Elt F) ℓ) (c : Dev nD) : FVec F S_ .f32 :=
  (subf) (constant S_ .f32 0x47000000#32) ((sitofp .f32) (constantI S_ 32 0#32))

/-- `main_v9` as a term of the argument arrays. -/
def res_main_v9 (m : (ℓ : Loc nD τ sig) → Buf (Elt F) ℓ) (c : Dev nD) : FVec F S1x16 .f32 :=
  (fun p a b => select (broadcastInDim S1x16 ![] bcast_S_S1x16 p) a b) ((cmpf .ogt) (res_main_call0_v8 m c) (constant S_ .f32 0x00000000#32)) ((Host.divf) ((broadcastInDim S1x16 ![1] bcast_S16_S1x16_1) ((fun x v => Host.reduceAdd x v reducesTo_S32768x16_S16_d0 h_S_) ((mulf) (res_main_call0_v5 m c) (res_main_call0_v5 m c)) (constant S_ .f32 0x00000000#32))) ((broadcastInDim S1x16 ![] bcast_S_S1x16) (res_main_call0_v8 m c))) ((broadcastInDim S1x16 ![] bcast_S_S1x16) ((id) (constant S_ .f32 0x7FC00000#32)))

/-- `main_v22` as a term of the argument arrays. -/
def res_main_v22 (m : (ℓ : Loc nD τ sig) → Buf (Elt F) ℓ) (c : Dev nD) : FVec F S32768x16 .f32 :=
  (addf : (⟨S32768x16, .f32⟩ : BufTy).Contents (Elt F) → (⟨S32768x16, .f32⟩ : BufTy).Contents (Elt F) → (⟨S32768x16, .f32⟩ : BufTy).Contents (Elt F)) ((mulf : (⟨S32768x16, .f32⟩ : BufTy).Contents (Elt F) → (⟨S32768x16, .f32⟩ : BufTy).Contents (Elt F) → (⟨S32768x16, .f32⟩ : BufTy).Contents (Elt F)) ((Host.divf : (⟨S32768x16, .f32⟩ : BufTy).Contents (Elt F) → (⟨S32768x16, .f32⟩ : BufTy).Contents (Elt F) → (⟨S32768x16, .f32⟩ : BufTy).Contents (Elt F)) ((subf : (⟨S32768x16, .f32⟩ : BufTy).Contents (Elt F) → (⟨S32768x16, .f32⟩ : BufTy).Contents (Elt F) → (⟨S32768x16, .f32⟩ : BufTy).Contents (Elt F)) (res_main_v4 m c) ((broadcastInDim S32768x16 ![0, 1] bcast_S1x16_S32768x16_0_1 : (⟨S1x16, .f32⟩ : BufTy).Contents (Elt F) → (⟨S32768x16, .f32⟩ : BufTy).Contents (Elt F)) (res_main_v8 m c))) ((broadcastInDim S32768x16 ![0, 1] bcast_S1x16_S32768x16_0_1 : (⟨S1x16, .f32⟩ : BufTy).Contents (Elt F) → (⟨S32768x16, .f32⟩ : BufTy).Contents (Elt F)) ((Host.sqrt : (⟨S1x16, .f32⟩ : BufTy).Contents (Elt F) → (⟨S1x16, .f32⟩ : BufTy).Contents (Elt F)) ((addf : (⟨S1x16, .f32⟩ : BufTy).Contents (Elt F) → (⟨S1x16, .f32⟩ : BufTy).Contents (Elt F) → (⟨S1x16, .f32⟩ : BufTy).Contents (Elt F)) (res_main_v9 m c) ((broadcastInDim S1x16 ![] bcast_S_S1x16 : (⟨S_, .f32⟩ : BufTy).Contents (Elt F) → (⟨S1x16, .f32⟩ : BufTy).Contents (Elt F)) (constant S_ .f32 0x3727C5AC#32)))))) ((broadcastInDim S32768x16 ![0, 1] bcast_S1x16_S32768x16_0_1 : (⟨S1x16, .f32⟩ : BufTy).Contents (Elt F) → (⟨S32768x16, .f32⟩ : BufTy).Contents (Elt F)) ((broadcastInDim S1x16 ![1] bcast_S16_S1x16_1 : (⟨S16, .f32⟩ : BufTy).Contents (Elt F) → (⟨S1x16, .f32⟩ : BufTy).Contents (Elt F)) (m ((c.tc : Thread nD τ).loc main_arg4))))) ((broadcastInDim S32768x16 ![0, 1] bcast_S1x16_S32768x16_0_1 : (⟨S1x16, .f32⟩ : BufTy).Contents (Elt F) → (⟨S32768x16, .f32⟩ : BufTy).Contents (Elt F)) ((broadcastInDim S1x16 ![1] bcast_S16_S1x16_1 : (⟨S16, .f32⟩ : BufTy).Contents (Elt F) → (⟨S1x16, .f32⟩ : BufTy).Contents (Elt F)) (m ((c.tc : Thread nD τ).loc main_arg5))))

/-- `main_v23` as a term of the argument arrays. -/
def res_main_v23 (m : (ℓ : Loc nD τ sig) → Buf (Elt F) ℓ) (c : Dev nD) : FVec F S32768x16 .f32 :=
  (maximumf) (res_main_v22 m c) ((broadcastInDim S32768x16 ![] bcast_S_S32768x16) (constant S_ .f32 0x00000000#32))

/-- `main_v28` as a term of the argument arrays. -/
def res_main_v28 (m : (ℓ : Loc nD τ sig) → Buf (Elt F) ℓ) (c : Dev nD) : FVec F S32768x1 .f32 :=
  (addf : (⟨S32768x1, .f32⟩ : BufTy).Contents (Elt F) → (⟨S32768x1, .f32⟩ : BufTy).Contents (Elt F) → (⟨S32768x1, .f32⟩ : BufTy).Contents (Elt F)) (((fun l r => Host.dotGeneral dot_S32768x16_S16x1_S32768x1_1_0_0_1_n_n none l r) : (⟨S32768x16, .f32⟩ : BufTy).Contents (Elt F) → (⟨S16x1, .f32⟩ : BufTy).Contents (Elt F) → (⟨S32768x1, .f32⟩ : BufTy).Contents (Elt F)) (res_main_v23 m c) (((transpose S16x1 [1, 0] · transposes_S1x16_S16x1_1_0) : (⟨S1x16, .f32⟩ : BufTy).Contents (Elt F) → (⟨S16x1, .f32⟩ : BufTy).Contents (Elt F)) (m ((c.tc : Thread nD τ).loc main_arg6)))) ((broadcastInDim S32768x1 ![0, 1] bcast_S1x1_S32768x1_0_1 : (⟨S1x1, .f32⟩ : BufTy).Contents (Elt F) → (⟨S32768x1, .f32⟩ : BufTy).Contents (Elt F)) ((broadcastInDim S1x1 ![1] bcast_S1_S1x1_1 : (⟨S1, .f32⟩ : BufTy).Contents (Elt F) → (⟨S1x1, .f32⟩ : BufTy).Contents (Elt F)) (m ((c.tc : Thread nD τ).loc main_arg7))))

/-- `main_v32` as a term of the argument arrays. -/
def res_main_v32 (m : (ℓ : Loc nD τ sig) → Buf (Elt F) ℓ) (c : Dev nD) : FVec F S1x1 .f32 :=
  (Host.divf : (⟨S1x1, .f32⟩ : BufTy).Contents (Elt F) → (⟨S1x1, .f32⟩ : BufTy).Contents (Elt F) → (⟨S1x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S32768x1_S1_d0 h_S_) : (⟨S32768x1, .f32⟩ : BufTy).Contents (Elt F) → (⟨S_, .f32⟩ : BufTy).Contents (Elt F) → (⟨S1, .f32⟩ : BufTy).Contents (Elt F)) (res_main_v28 m c) (constant S_ .f32 0x00000000#32))) ((broadcastInDim S1x1 ![] bcast_S_S1x1 : (⟨S_, .f32⟩ : BufTy).Contents (Elt F) → (⟨S1x1, .f32⟩ : BufTy).Contents (Elt F)) (constant S_ .f32 0x47000000#32))

/-- `main_call2_v5` as a term of the argument arrays. -/
def res_main_call2_v5 (m : (ℓ : Loc nD τ sig) → Buf (Elt F) ℓ) (c : Dev nD) : FVec F S32768x1 .f32 :=
  (subf) (res_main_v28 m c) ((broadcastInDim S32768x1 ![0, 1] bcast_S1x1_S32768x1_0_1) ((Host.divf) ((broadcastInDim S1x1 ![1] bcast_S1_S1x1_1) ((fun x v => Host.reduceAdd x v reducesTo_S32768x1_S1_d0 h_S_) (res_main_v28 m c) (constant S_ .f32 0x00000000#32))) ((broadcastInDim S1x1 ![] bcast_S_S1x1) (constant S_ .f32 0x47000000#32))))

/-- `main_call2_v8` as a term of the argument arrays. -/
def res_main_call2_v8 (m : (ℓ : Loc nD τ sig) → Buf (Elt F) ℓ) (c : Dev nD) : FVec F S_ .f32 :=
  (subf) (constant S_ .f32 0x47000000#32) ((sitofp .f32) (constantI S_ 32 0#32))

/-- `main_v33` as a term of the argument arrays. -/
def res_main_v33 (m : (ℓ : Loc nD τ sig) → Buf (Elt F) ℓ) (c : Dev nD) : FVec F S1x1 .f32 :=
  (fun p a b => select (broadcastInDim S1x1 ![] bcast_S_S1x1 p) a b) ((cmpf .ogt) (res_main_call2_v8 m c) (constant S_ .f32 0x00000000#32)) ((Host.divf) ((broadcastInDim S1x1 ![1] bcast_S1_S1x1_1) ((fun x v => Host.reduceAdd x v reducesTo_S32768x1_S1_d0 h_S_) ((mulf) (res_main_call2_v5 m c) (res_main_call2_v5 m c)) (constant S_ .f32 0x00000000#32))) ((broadcastInDim S1x1 ![] bcast_S_S1x1) (res_main_call2_v8 m c))) ((broadcastInDim S1x1 ![] bcast_S_S1x1) ((id) (constant S_ .f32 0x7FC00000#32)))

/-- `main_v46` as a term of the argument arrays. -/
def res_main_v46 (m : (ℓ : Loc nD τ sig) → Buf (Elt F) ℓ) (c : Dev nD) : FVec F S32768x1 .f32 :=
  (addf : (⟨S32768x1, .f32⟩ : BufTy).Contents (Elt F) → (⟨S32768x1, .f32⟩ : BufTy).Contents (Elt F) → (⟨S32768x1, .f32⟩ : BufTy).Contents (Elt F)) ((mulf : (⟨S32768x1, .f32⟩ : BufTy).Contents (Elt F) → (⟨S32768x1, .f32⟩ : BufTy).Contents (Elt F) → (⟨S32768x1, .f32⟩ : BufTy).Contents (Elt F)) ((Host.divf : (⟨S32768x1, .f32⟩ : BufTy).Contents (Elt F) → (⟨S32768x1, .f32⟩ : BufTy).Contents (Elt F) → (⟨S32768x1, .f32⟩ : BufTy).Contents (Elt F)) ((subf : (⟨S32768x1, .f32⟩ : BufTy).Contents (Elt F) → (⟨S32768x1, .f32⟩ : BufTy).Contents (Elt F) → (⟨S32768x1, .f32⟩ : BufTy).Contents (Elt F)) (res_main_v28 m c) ((broadcastInDim S32768x1 ![0, 1] bcast_S1x1_S32768x1_0_1 : (⟨S1x1, .f32⟩ : BufTy).Contents (Elt F) → (⟨S32768x1, .f32⟩ : BufTy).Contents (Elt F)) (res_main_v32 m c))) ((broadcastInDim S32768x1 ![0, 1] bcast_S1x1_S32768x1_0_1 : (⟨S1x1, .f32⟩ : BufTy).Contents (Elt F) → (⟨S32768x1, .f32⟩ : BufTy).Contents (Elt F)) ((Host.sqrt : (⟨S1x1, .f32⟩ : BufTy).Contents (Elt F) → (⟨S1x1, .f32⟩ : BufTy).Contents (Elt F)) ((addf : (⟨S1x1, .f32⟩ : BufTy).Contents (Elt F) → (⟨S1x1, .f32⟩ : BufTy).Contents (Elt F) → (⟨S1x1, .f32⟩ : BufTy).Contents (Elt F)) (res_main_v33 m c) ((broadcastInDim S1x1 ![] bcast_S_S1x1 : (⟨S_, .f32⟩ : BufTy).Contents (Elt F) → (⟨S1x1, .f32⟩ : BufTy).Contents (Elt F)) (constant S_ .f32 0x3727C5AC#32)))))) ((broadcastInDim S32768x1 ![0, 1] bcast_S1x1_S32768x1_0_1 : (⟨S1x1, .f32⟩ : BufTy).Contents (Elt F) → (⟨S32768x1, .f32⟩ : BufTy).Contents (Elt F)) ((broadcastInDim S1x1 ![1] bcast_S1_S1x1_1 : (⟨S1, .f32⟩ : BufTy).Contents (Elt F) → (⟨S1x1, .f32⟩ : BufTy).Contents (Elt F)) (m ((c.tc : Thread nD τ).loc main_arg8))))) ((broadcastInDim S32768x1 ![0, 1] bcast_S1x1_S32768x1_0_1 : (⟨S1x1, .f32⟩ : BufTy).Contents (Elt F) → (⟨S32768x1, .f32⟩ : BufTy).Contents (Elt F)) ((broadcastInDim S1x1 ![1] bcast_S1_S1x1_1 : (⟨S1, .f32⟩ : BufTy).Contents (Elt F) → (⟨S1x1, .f32⟩ : BufTy).Contents (Elt F)) (m ((c.tc : Thread nD τ).loc main_arg9))))

/-- `main_v47` as a term of the argument arrays. -/
def res_main_v47 (m : (ℓ : Loc nD τ sig) → Buf (Elt F) ℓ) (c : Dev nD) : IVec S16 32 :=
  (fun x v => Host.reduceWindow IntOp.addi ![16] ![1] ![15] ![0] x v reduceWindows_S16_S16_w16s1p15_0 h_S_) (m ((c.tc : Thread nD τ).loc main_arg1)) ((broadcastInDim S_ ![] bcast_S_S_) (constantI S_ 32 0#32))

/-- `main_v48` as a term of the argument arrays. -/
def res_main_v48 (m : (ℓ : Loc nD τ sig) → Buf (Elt F) ℓ) (c : Dev nD) : IVec S16 32 :=
  (subi : (⟨S16, .i32⟩ : BufTy).Contents (Elt F) → (⟨S16, .i32⟩ : BufTy).Contents (Elt F) → (⟨S16, .i32⟩ : BufTy).Contents (Elt F)) (res_main_v47 m c) (m ((c.tc : Thread nD τ).loc main_arg1))

/-- `main_v49` as a term of the argument arrays. -/
def res_main_v49 (m : (ℓ : Loc nD τ sig) → Buf (Elt F) ℓ) (c : Dev nD) : IVec S32768 32 :=
  iotaInDim S32768 32 0

/-- `main_v60` as a term of the argument arrays. -/
def res_main_v60 (m : (ℓ : Loc nD τ sig) → Buf (Elt F) ℓ) (c : Dev nD) : IVec S16x32768 1 :=
  (andi : (⟨S16x32768, .i1⟩ : BufTy).Contents (Elt F) → (⟨S16x32768, .i1⟩ : BufTy).Contents (Elt F) → (⟨S16x32768, .i1⟩ : BufTy).Contents (Elt F)) ((cmpi .sge : (⟨S16x32768, .i32⟩ : BufTy).Contents (Elt F) → (⟨S16x32768, .i32⟩ : BufTy).Contents (Elt F) → (⟨S16x32768, .i1⟩ : BufTy).Contents (Elt F)) ((broadcastInDim S16x32768 ![0, 1] bcast_S1x32768_S16x32768_0_1 : (⟨S1x32768, .i32⟩ : BufTy).Contents (Elt F) → (⟨S16x32768, .i32⟩ : BufTy).Contents (Elt F)) ((broadcastInDim S1x32768 ![1] bcast_S32768_S1x32768_1 : (⟨S32768, .i32⟩ : BufTy).Contents (Elt F) → (⟨S1x32768, .i32⟩ : BufTy).Contents (Elt F)) (res_main_v49 m c))) ((broadcastInDim S16x32768 ![0, 1] bcast_S16x1_S16x32768_0_1 : (⟨S16x1, .i32⟩ : BufTy).Contents (Elt F) → (⟨S16x32768, .i32⟩ : BufTy).Contents (Elt F)) ((broadcastInDim S16x1 ![0] bcast_S16_S16x1_0 : (⟨S16, .i32⟩ : BufTy).Contents (Elt F) → (⟨S16x1, .i32⟩ : BufTy).Contents (Elt F)) (res_main_v48 m c)))) ((cmpi .slt : (⟨S16x32768, .i32⟩ : BufTy).Contents (Elt F) → (⟨S16x32768, .i32⟩ : BufTy).Contents (Elt F) → (⟨S16x32768, .i1⟩ : BufTy).Contents (Elt F)) ((broadcastInDim S16x32768 ![0, 1] bcast_S1x32768_S16x32768_0_1 : (⟨S1x32768, .i32⟩ : BufTy).Contents (Elt F) → (⟨S16x32768, .i32⟩ : BufTy).Contents (Elt F)) ((broadcastInDim S1x32768 ![1] bcast_S32768_S1x32768_1 : (⟨S32768, .i32⟩ : BufTy).Contents (Elt F) → (⟨S1x32768, .i32⟩ : BufTy).Contents (Elt F)) (res_main_v49 m c))) ((broadcastInDim S16x32768 ![0, 1] bcast_S16x1_S16x32768_0_1 : (⟨S16x1, .i32⟩ : BufTy).Contents (Elt F) → (⟨S16x32768, .i32⟩ : BufTy).Contents (Elt F)) ((broadcastInDim S16x1 ![0] bcast_S16_S16x1_0 : (⟨S16, .i32⟩ : BufTy).Contents (Elt F) → (⟨S16x1, .i32⟩ : BufTy).Contents (Elt F)) (res_main_v47 m c))))

/-- `main_v61` as a term of the argument arrays. -/
def res_main_v61 (m : (ℓ : Loc nD τ sig) → Buf (Elt F) ℓ) (c : Dev nD) : FVec F S32768 .f32 :=
  shapeCast _ (res_main_v46 m c) shapeCasts_S32768x1_S32768

/-- `main_v63` as a term of the argument arrays. -/
def res_main_v63 (m : (ℓ : Loc nD τ sig) → Buf (Elt F) ℓ) (c : Dev nD) : FVec F S16x32768 .f32 :=
  (select) (res_main_v60 m c) ((broadcastInDim S16x32768 ![0, 1] bcast_S1x32768_S16x32768_0_1) ((broadcastInDim S1x32768 ![1] bcast_S32768_S1x32768_1 : (⟨S32768, .f32⟩ : BufTy).Contents (Elt F) → (⟨S1x32768, .f32⟩ : BufTy).Contents (Elt F)) (res_main_v61 m c))) ((broadcastInDim S16x32768 ![] bcast_S_S16x32768) ((id) (constant S_ .f32 0xFF800000#32)))

/-- `main_v64` as a term of the argument arrays. -/
def res_main_v64 (m : (ℓ : Loc nD τ sig) → Buf (Elt F) ℓ) (c : Dev nD) : FVec F S16 .f32 :=
  ((fun x v => Host.reduce FloatOps.maximumf x v reducesTo_S16x32768_S16_d1 h_S_) : (⟨S16x32768, .f32⟩ : BufTy).Contents (Elt F) → (⟨S_, .f32⟩ : BufTy).Contents (Elt F) → (⟨S16, .f32⟩ : BufTy).Contents (Elt F)) (res_main_v63 m c) (constant S_ .f32 0xFF800000#32)

/-- `main_v71` as a term of the argument arrays. -/
def res_main_v71 (m : (ℓ : Loc nD τ sig) → Buf (Elt F) ℓ) (c : Dev nD) : FVec F S16x32768 .f32 :=
  (select) (res_main_v60 m c) ((Host.exp : (⟨S16x32768, .f32⟩ : BufTy).Contents (Elt F) → (⟨S16x32768, .f32⟩ : BufTy).Contents (Elt F)) ((subf : (⟨S16x32768, .f32⟩ : BufTy).Contents (Elt F) → (⟨S16x32768, .f32⟩ : BufTy).Contents (Elt F) → (⟨S16x32768, .f32⟩ : BufTy).Contents (Elt F)) ((broadcastInDim S16x32768 ![0, 1] bcast_S1x32768_S16x32768_0_1 : (⟨S1x32768, .f32⟩ : BufTy).Contents (Elt F) → (⟨S16x32768, .f32⟩ : BufTy).Contents (Elt F)) ((broadcastInDim S1x32768 ![1] bcast_S32768_S1x32768_1 : (⟨S32768, .f32⟩ : BufTy).Contents (Elt F) → (⟨S1x32768, .f32⟩ : BufTy).Contents (Elt F)) (res_main_v61 m c))) ((broadcastInDim S16x32768 ![0, 1] bcast_S16x1_S16x32768_0_1 : (⟨S16x1, .f32⟩ : BufTy).Contents (Elt F) → (⟨S16x32768, .f32⟩ : BufTy).Contents (Elt F)) ((broadcastInDim S16x1 ![0] bcast_S16_S16x1_0 : (⟨S16, .f32⟩ : BufTy).Contents (Elt F) → (⟨S16x1, .f32⟩ : BufTy).Contents (Elt F)) (res_main_v64 m c))))) ((broadcastInDim S16x32768 ![] bcast_S_S16x32768) ((id) (constant S_ .f32 0x00000000#32)))

/-- `main_v72` as a term of the argument arrays. -/
def res_main_v72 (m : (ℓ : Loc nD τ sig) → Buf (Elt F) ℓ) (c : Dev nD) : FVec F S16 .f32 :=
  ((fun x v => Host.reduceAdd x v reducesTo_S16x32768_S16_d1 h_S_) : (⟨S16x32768, .f32⟩ : BufTy).Contents (Elt F) → (⟨S_, .f32⟩ : BufTy).Contents (Elt F) → (⟨S16, .f32⟩ : BufTy).Contents (Elt F)) (res_main_v71 m c) (constant S_ .f32 0x00000000#32)

/-- `main_v75` as a term of the argument arrays. -/
def res_main_v75 (m : (ℓ : Loc nD τ sig) → Buf (Elt F) ℓ) (c : Dev nD) : FVec F S16x32768 .f32 :=
  (Host.divf : (⟨S16x32768, .f32⟩ : BufTy).Contents (Elt F) → (⟨S16x32768, .f32⟩ : BufTy).Contents (Elt F) → (⟨S16x32768, .f32⟩ : BufTy).Contents (Elt F)) (res_main_v71 m c) ((broadcastInDim S16x32768 ![0, 1] bcast_S16x1_S16x32768_0_1 : (⟨S16x1, .f32⟩ : BufTy).Contents (Elt F) → (⟨S16x32768, .f32⟩ : BufTy).Contents (Elt F)) ((broadcastInDim S16x1 ![0] bcast_S16_S16x1_0 : (⟨S16, .f32⟩ : BufTy).Contents (Elt F) → (⟨S16x1, .f32⟩ : BufTy).Contents (Elt F)) (res_main_v72 m c)))

/-- `main_v76` as a term of the argument arrays. -/
def res_main_v76 (m : (ℓ : Loc nD τ sig) → Buf (Elt F) ℓ) (c : Dev nD) : FVec F S16x32 .f32 :=
  ((fun l r => Host.dotGeneral dot_S16x32768_S32768x32_S16x32_1_0_0_1_n_n none l r) : (⟨S16x32768, .f32⟩ : BufTy).Contents (Elt F) → (⟨S32768x32, .f32⟩ : BufTy).Contents (Elt F) → (⟨S16x32, .f32⟩ : BufTy).Contents (Elt F)) (res_main_v75 m c) (m ((c.tc : Thread nD τ).loc main_arg0))

/-- `main_v80` as a term of the argument arrays. -/
def res_main_v80 (m : (ℓ : Loc nD τ sig) → Buf (Elt F) ℓ) (c : Dev nD) : FVec F S16x32 .f32 :=
  (Host.divf : (⟨S16x32, .f32⟩ : BufTy).Contents (Elt F) → (⟨S16x32, .f32⟩ : BufTy).Contents (Elt F) → (⟨S16x32, .f32⟩ : BufTy).Contents (Elt F)) (res_main_v76 m c) ((broadcastInDim S16x32 ![0, 1] bcast_S16x1_S16x32_0_1 : (⟨S16x1, .f32⟩ : BufTy).Contents (Elt F) → (⟨S16x32, .f32⟩ : BufTy).Contents (Elt F)) ((sitofp .f32 : (⟨S16x1, .i32⟩ : BufTy).Contents (Elt F) → (⟨S16x1, .f32⟩ : BufTy).Contents (Elt F)) ((broadcastInDim S16x1 ![0] bcast_S16_S16x1_0 : (⟨S16, .i32⟩ : BufTy).Contents (Elt F) → (⟨S16x1, .i32⟩ : BufTy).Contents (Elt F)) (m ((c.tc : Thread nD τ).loc main_arg1)))))

/-- `main_v85` as a term of the argument arrays. -/
def res_main_v85 (m : (ℓ : Loc nD τ sig) → Buf (Elt F) ℓ) (c : Dev nD) : FVec F S16x64 .f32 :=
  (addf : (⟨S16x64, .f32⟩ : BufTy).Contents (Elt F) → (⟨S16x64, .f32⟩ : BufTy).Contents (Elt F) → (⟨S16x64, .f32⟩ : BufTy).Contents (Elt F)) (((fun l r => Host.dotGeneral dot_S16x32_S32x64_S16x64_1_0_0_1_n_n none l r) : (⟨S16x32, .f32⟩ : BufTy).Contents (Elt F) → (⟨S32x64, .f32⟩ : BufTy).Contents (Elt F) → (⟨S16x64, .f32⟩ : BufTy).Contents (Elt F)) (res_main_v80 m c) (((transpose S32x64 [1, 0] · transposes_S64x32_S32x64_1_0) : (⟨S64x32, .f32⟩ : BufTy).Contents (Elt F) → (⟨S32x64, .f32⟩ : BufTy).Contents (Elt F)) (m ((c.tc : Thread nD τ).loc main_arg10)))) ((broadcastInDim S16x64 ![0, 1] bcast_S1x64_S16x64_0_1 : (⟨S1x64, .f32⟩ : BufTy).Contents (Elt F) → (⟨S16x64, .f32⟩ : BufTy).Contents (Elt F)) ((broadcastInDim S1x64 ![1] bcast_S64_S1x64_1 : (⟨S64, .f32⟩ : BufTy).Contents (Elt F) → (⟨S1x64, .f32⟩ : BufTy).Contents (Elt F)) (m ((c.tc : Thread nD τ).loc main_arg11))))

/-- `main_v89` as a term of the argument arrays. -/
def res_main_v89 (m : (ℓ : Loc nD τ sig) → Buf (Elt F) ℓ) (c : Dev nD) : FVec F S1x64 .f32 :=
  (Host.divf : (⟨S1x64, .f32⟩ : BufTy).Contents (Elt F) → (⟨S1x64, .f32⟩ : BufTy).Contents (Elt F) → (⟨S1x64, .f32⟩ : BufTy).Contents (Elt F)) ((broadcastInDim S1x64 ![1] bcast_S64_S1x64_1 : (⟨S64, .f32⟩ : BufTy).Contents (Elt F) → (⟨S1x64, .f32⟩ : BufTy).Contents (Elt F)) (((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F)) (res_main_v85 m c) (constant S_ .f32 0x00000000#32))) ((broadcastInDim S1x64 ![] bcast_S_S1x64 : (⟨S_, .f32⟩ : BufTy).Contents (Elt F) → (⟨S1x64, .f32⟩ : BufTy).Contents (Elt F)) (constant S_ .f32 0x41800000#32))

/-- `main_call6_v5` as a term of the argument arrays. -/
def res_main_call6_v5 (m : (ℓ : Loc nD τ sig) → Buf (Elt F) ℓ) (c : Dev nD) : FVec F S16x64 .f32 :=
  (subf) (res_main_v85 m c) ((broadcastInDim S16x64 ![0, 1] bcast_S1x64_S16x64_0_1) ((Host.divf) ((broadcastInDim S1x64 ![1] bcast_S64_S1x64_1) ((fun x v => Host.reduceAdd x v reducesTo_S16x64_S64_d0 h_S_) (res_main_v85 m c) (constant S_ .f32 0x00000000#32))) ((broadcastInDim S1x64 ![] bcast_S_S1x64) (constant S_ .f32 0x41800000#32))))

/-- `main_call6_v8` as a term of the argument arrays. -/
def res_main_call6_v8 (m : (ℓ : Loc nD τ sig) → Buf (Elt F) ℓ) (c : Dev nD) : FVec F S_ .f32 :=
  (subf) (constant S_ .f32 0x41800000#32) ((sitofp .f32) (constantI S_ 32 0#32))

/-- `main_v90` as a term of the argument arrays. -/
def res_main_v90 (m : (ℓ : Loc nD τ sig) → Buf (Elt F) ℓ) (c : Dev nD) : FVec F S1x64 .f32 :=
  (fun p a b => select (broadcastInDim S1x64 ![] bcast_S_S1x64 p) a b) ((cmpf .ogt) (res_main_call6_v8 m c) (constant S_ .f32 0x00000000#32)) ((Host.divf) ((broadcastInDim S1x64 ![1] bcast_S64_S1x64_1) ((fun x v => Host.reduceAdd x v reducesTo_S16x64_S64_d0 h_S_) ((mulf) (res_main_call6_v5 m c) (res_main_call6_v5 m c)) (constant S_ .f32 0x00000000#32))) ((broadcastInDim S1x64 ![] bcast_S_S1x64) (res_main_call6_v8 m c))) ((broadcastInDim S1x64 ![] bcast_S_S1x64) ((id) (constant S_ .f32 0x7FC00000#32)))

/-- `main_v104` as a term of the argument arrays. -/
def res_main_v104 (m : (ℓ : Loc nD τ sig) → Buf (Elt F) ℓ) (c : Dev nD) : FVec F S16x64 .f32 :=
  (maximumf) ((addf : (⟨S16x64, .f32⟩ : BufTy).Contents (Elt F) → (⟨S16x64, .f32⟩ : BufTy).Contents (Elt F) → (⟨S16x64, .f32⟩ : BufTy).Contents (Elt F)) ((mulf : (⟨S16x64, .f32⟩ : BufTy).Contents (Elt F) → (⟨S16x64, .f32⟩ : BufTy).Contents (Elt F) → (⟨S16x64, .f32⟩ : BufTy).Contents (Elt F)) ((Host.divf : (⟨S16x64, .f32⟩ : BufTy).Contents (Elt F) → (⟨S16x64, .f32⟩ : BufTy).Contents (Elt F) → (⟨S16x64, .f32⟩ : BufTy).Contents (Elt F)) ((subf : (⟨S16x64, .f32⟩ : BufTy).Contents (Elt F) → (⟨S16x64, .f32⟩ : BufTy).Contents (Elt F) → (⟨S16x64, .f32⟩ : BufTy).Contents (Elt F)) (res_main_v85 m c) ((broadcastInDim S16x64 ![0, 1] bcast_S1x64_S16x64_0_1 : (⟨S1x64, .f32⟩ : BufTy).Contents (Elt F) → (⟨S16x64, .f32⟩ : BufTy).Contents (Elt F)) (res_main_v89 m c))) ((broadcastInDim S16x64 ![0, 1] bcast_S1x64_S16x64_0_1 : (⟨S1x64, .f32⟩ : BufTy).Contents (Elt F) → (⟨S16x64, .f32⟩ : BufTy).Contents (Elt F)) ((Host.sqrt : (⟨S1x64, .f32⟩ : BufTy).Contents (Elt F) → (⟨S1x64, .f32⟩ : BufTy).Contents (Elt F)) ((addf : (⟨S1x64, .f32⟩ : BufTy).Contents (Elt F) → (⟨S1x64, .f32⟩ : BufTy).Contents (Elt F) → (⟨S1x64, .f32⟩ : BufTy).Contents (Elt F)) (res_main_v90 m c) ((broadcastInDim S1x64 ![] bcast_S_S1x64 : (⟨S_, .f32⟩ : BufTy).Contents (Elt F) → (⟨S1x64, .f32⟩ : BufTy).Contents (Elt F)) (constant S_ .f32 0x3727C5AC#32)))))) ((broadcastInDim S16x64 ![0, 1] bcast_S1x64_S16x64_0_1 : (⟨S1x64, .f32⟩ : BufTy).Contents (Elt F) → (⟨S16x64, .f32⟩ : BufTy).Contents (Elt F)) ((broadcastInDim S1x64 ![1] bcast_S64_S1x64_1 : (⟨S64, .f32⟩ : BufTy).Contents (Elt F) → (⟨S1x64, .f32⟩ : BufTy).Contents (Elt F)) (m ((c.tc : Thread nD τ).loc main_arg12))))) ((broadcastInDim S16x64 ![0, 1] bcast_S1x64_S16x64_0_1 : (⟨S1x64, .f32⟩ : BufTy).Contents (Elt F) → (⟨S16x64, .f32⟩ : BufTy).Contents (Elt F)) ((broadcastInDim S1x64 ![1] bcast_S64_S1x64_1 : (⟨S64, .f32⟩ : BufTy).Contents (Elt F) → (⟨S1x64, .f32⟩ : BufTy).Contents (Elt F)) (m ((c.tc : Thread nD τ).loc main_arg13))))) ((broadcastInDim S16x64 ![] bcast_S_S16x64) (constant S_ .f32 0x00000000#32))

/-- `main_v109` as a term of the argument arrays. -/
def res_main_v109 (m : (ℓ : Loc nD τ sig) → Buf (Elt F) ℓ) (c : Dev nD) : FVec F S16x256 .f32 :=
  (addf : (⟨S16x256, .f32⟩ : BufTy).Contents (Elt F) → (⟨S16x256, .f32⟩ : BufTy).Contents (Elt F) → (⟨S16x256, .f32⟩ : BufTy).Contents (Elt F)) (((fun l r => Host.dotGeneral dot_S16x64_S64x256_S16x256_1_0_0_1_n_n none l r) : (⟨S16x64, .f32⟩ : BufTy).Contents (Elt F) → (⟨S64x256, .f32⟩ : BufTy).Contents (Elt F) → (⟨S16x256, .f32⟩ : BufTy).Contents (Elt F)) (res_main_v104 m c) (((transpose S64x256 [1, 0] · transposes_S256x64_S64x256_1_0) : (⟨S256x64, .f32⟩ : BufTy).Contents (Elt F) → (⟨S64x256, .f32⟩ : BufTy).Contents (Elt F)) (m ((c.tc : Thread nD τ).loc main_arg14)))) ((broadcastInDim S16x256 ![0, 1] bcast_S1x256_S16x256_0_1 : (⟨S1x256, .f32⟩ : BufTy).Contents (Elt F) → (⟨S16x256, .f32⟩ : BufTy).Contents (Elt F)) ((broadcastInDim S1x256 ![1] bcast_S256_S1x256_1 : (⟨S256, .f32⟩ : BufTy).Contents (Elt F) → (⟨S1x256, .f32⟩ : BufTy).Contents (Elt F)) (m ((c.tc : Thread nD τ).loc main_arg15))))

/-- `main_v113` as a term of the argument arrays. -/
def res_main_v113 (m : (ℓ : Loc nD τ sig) → Buf (Elt F) ℓ) (c : Dev nD) : FVec F S1x256 .f32 :=
  (Host.divf : (⟨S1x256, .f32⟩ : BufTy).Contents (Elt F) → (⟨S1x256, .f32⟩ : BufTy).Contents (Elt F) → (⟨S1x256, .f32⟩ : BufTy).Contents (Elt F)) ((broadcastInDim S1x256 ![1] bcast_S256_S1x256_1 : (⟨S256, .f32⟩ : BufTy).Contents (Elt F) → (⟨S1x256, .f32⟩ : BufTy).Contents (Elt F)) (((fun x v => Host.reduceAdd x v reducesTo_S16x256_S256_d0 h_S_) : (⟨S16x256, .f32⟩ : BufTy).Contents (Elt F) → (⟨S_, .f32⟩ : BufTy).Contents (Elt F) → (⟨S256, .f32⟩ : BufTy).Contents (Elt F)) (res_main_v109 m c) (constant S_ .f32 0x00000000#32))) ((broadcastInDim S1x256 ![] bcast_S_S1x256 : (⟨S_, .f32⟩ : BufTy).Contents (Elt F) → (⟨S1x256, .f32⟩ : BufTy).Contents (Elt F)) (constant S_ .f32 0x41800000#32))

/-- `main_call8_v5` as a term of the argument arrays. -/
def res_main_call8_v5 (m : (ℓ : Loc nD τ sig) → Buf (Elt F) ℓ) (c : Dev nD) : FVec F S16x256 .f32 :=
  (subf) (res_main_v109 m c) ((broadcastInDim S16x256 ![0, 1] bcast_S1x256_S16x256_0_1) ((Host.divf) ((broadcastInDim S1x256 ![1] bcast_S256_S1x256_1) ((fun x v => Host.reduceAdd x v reducesTo_S16x256_S256_d0 h_S_) (res_main_v109 m c) (constant S_ .f32 0x00000000#32))) ((broadcastInDim S1x256 ![] bcast_S_S1x256) (constant S_ .f32 0x41800000#32))))

/-- `main_call8_v8` as a term of the argument arrays. -/
def res_main_call8_v8 (m : (ℓ : Loc nD τ sig) → Buf (Elt F) ℓ) (c : Dev nD) : FVec F S_ .f32 :=
  (subf) (constant S_ .f32 0x41800000#32) ((sitofp .f32) (constantI S_ 32 0#32))

/-- `main_v114` as a term of the argument arrays. -/
def res_main_v114 (m : (ℓ : Loc nD τ sig) → Buf (Elt F) ℓ) (c : Dev nD) : FVec F S1x256 .f32 :=
  (fun p a b => select (broadcastInDim S1x256 ![] bcast_S_S1x256 p) a b) ((cmpf .ogt) (res_main_call8_v8 m c) (constant S_ .f32 0x00000000#32)) ((Host.divf) ((broadcastInDim S1x256 ![1] bcast_S256_S1x256_1) ((fun x v => Host.reduceAdd x v reducesTo_S16x256_S256_d0 h_S_) ((mulf) (res_main_call8_v5 m c) (res_main_call8_v5 m c)) (constant S_ .f32 0x00000000#32))) ((broadcastInDim S1x256 ![] bcast_S_S1x256) (res_main_call8_v8 m c))) ((broadcastInDim S1x256 ![] bcast_S_S1x256) ((id) (constant S_ .f32 0x7FC00000#32)))

/-- `main_v127` as a term of the argument arrays. -/
def res_main_v127 (m : (ℓ : Loc nD τ sig) → Buf (Elt F) ℓ) (c : Dev nD) : FVec F S16x256 .f32 :=
  (addf : (⟨S16x256, .f32⟩ : BufTy).Contents (Elt F) → (⟨S16x256, .f32⟩ : BufTy).Contents (Elt F) → (⟨S16x256, .f32⟩ : BufTy).Contents (Elt F)) ((mulf : (⟨S16x256, .f32⟩ : BufTy).Contents (Elt F) → (⟨S16x256, .f32⟩ : BufTy).Contents (Elt F) → (⟨S16x256, .f32⟩ : BufTy).Contents (Elt F)) ((Host.divf : (⟨S16x256, .f32⟩ : BufTy).Contents (Elt F) → (⟨S16x256, .f32⟩ : BufTy).Contents (Elt F) → (⟨S16x256, .f32⟩ : BufTy).Contents (Elt F)) ((subf : (⟨S16x256, .f32⟩ : BufTy).Contents (Elt F) → (⟨S16x256, .f32⟩ : BufTy).Contents (Elt F) → (⟨S16x256, .f32⟩ : BufTy).Contents (Elt F)) (res_main_v109 m c) ((broadcastInDim S16x256 ![0, 1] bcast_S1x256_S16x256_0_1 : (⟨S1x256, .f32⟩ : BufTy).Contents (Elt F) → (⟨S16x256, .f32⟩ : BufTy).Contents (Elt F)) (res_main_v113 m c))) ((broadcastInDim S16x256 ![0, 1] bcast_S1x256_S16x256_0_1 : (⟨S1x256, .f32⟩ : BufTy).Contents (Elt F) → (⟨S16x256, .f32⟩ : BufTy).Contents (Elt F)) ((Host.sqrt : (⟨S1x256, .f32⟩ : BufTy).Contents (Elt F) → (⟨S1x256, .f32⟩ : BufTy).Contents (Elt F)) ((addf : (⟨S1x256, .f32⟩ : BufTy).Contents (Elt F) → (⟨S1x256, .f32⟩ : BufTy).Contents (Elt F) → (⟨S1x256, .f32⟩ : BufTy).Contents (Elt F)) (res_main_v114 m c) ((broadcastInDim S1x256 ![] bcast_S_S1x256 : (⟨S_, .f32⟩ : BufTy).Contents (Elt F) → (⟨S1x256, .f32⟩ : BufTy).Contents (Elt F)) (constant S_ .f32 0x3727C5AC#32)))))) ((broadcastInDim S16x256 ![0, 1] bcast_S1x256_S16x256_0_1 : (⟨S1x256, .f32⟩ : BufTy).Contents (Elt F) → (⟨S16x256, .f32⟩ : BufTy).Contents (Elt F)) ((broadcastInDim S1x256 ![1] bcast_S256_S1x256_1 : (⟨S256, .f32⟩ : BufTy).Contents (Elt F) → (⟨S1x256, .f32⟩ : BufTy).Contents (Elt F)) (m ((c.tc : Thread nD τ).loc main_arg16))))) ((broadcastInDim S16x256 ![0, 1] bcast_S1x256_S16x256_0_1 : (⟨S1x256, .f32⟩ : BufTy).Contents (Elt F) → (⟨S16x256, .f32⟩ : BufTy).Contents (Elt F)) ((broadcastInDim S1x256 ![1] bcast_S256_S1x256_1 : (⟨S256, .f32⟩ : BufTy).Contents (Elt F) → (⟨S1x256, .f32⟩ : BufTy).Contents (Elt F)) (m ((c.tc : Thread nD τ).loc main_arg17))))

/-- `main_v128` as a term of the argument arrays. -/
def res_main_v128 (m : (ℓ : Loc nD τ sig) → Buf (Elt F) ℓ) (c : Dev nD) : FVec F S16x1 .f32 :=
  (Host.sqrt) ((broadcastInDim S16x1 ![0] bcast_S16_S16x1_0) ((fun x v => Host.reduceAdd x v reducesTo_S16x256_S16_d1 h_S_) ((mulf) (res_main_v127 m c) (res_main_v127 m c)) (constant S_ .f32 0x00000000#32)))

/-- `main_v132` as a term of the argument arrays. -/
def res_main_v132 (m : (ℓ : Loc nD τ sig) → Buf (Elt F) ℓ) (c : Dev nD) : FVec F S16x256 .f32 :=
  (Host.divf : (⟨S16x256, .f32⟩ : BufTy).Contents (Elt F) → (⟨S16x256, .f32⟩ : BufTy).Contents (Elt F) → (⟨S16x256, .f32⟩ : BufTy).Contents (Elt F)) (res_main_v127 m c) ((broadcastInDim S16x256 ![0, 1] bcast_S16x1_S16x256_0_1 : (⟨S16x1, .f32⟩ : BufTy).Contents (Elt F) → (⟨S16x256, .f32⟩ : BufTy).Contents (Elt F)) ((maximumf : (⟨S16x1, .f32⟩ : BufTy).Contents (Elt F) → (⟨S16x1, .f32⟩ : BufTy).Contents (Elt F) → (⟨S16x1, .f32⟩ : BufTy).Contents (Elt F)) (res_main_v128 m c) ((broadcastInDim S16x1 ![] bcast_S_S16x1 : (⟨S_, .f32⟩ : BufTy).Contents (Elt F) → (⟨S16x1, .f32⟩ : BufTy).Contents (Elt F)) (constant S_ .f32 0x2B8CBCCC#32))))

end Cert.ReferenceIdeal.RefRun

end
-- ==== Proof.RDRun1.lean ====
/- The reference's run read back, part 1: windows 1 to 10 of its operations, cut at the named values; after each window every
   buffer still to be read holds its term of the argument arrays. -/
import proofs.«116939_g89575837925665_cont_sun_c4_16_12_alg».proof.Proof.RefOpsT
import proofs.«116939_g89575837925665_cont_sun_c4_16_12_alg».proof.Proof.RefDefs

noncomputable section

namespace Cert.ReferenceIdeal.RDRun

open Cert.ReferenceIdeal Cert.ReferenceIdeal.Gen Cert.ReferenceIdeal.RefRun Cert.ReferenceIdeal.RefRunT Idealize.ShloMosaic Idealize.ShloMosaic.TcCoe
  Idealize.SL.Sem Idealize.ShloMosaic.StableHlo

variable {F : FTy → Type} [FloatOps F]

/-- The buffers at launch. -/
def val0 (V0 : Valuation τ sig (Elt F)) : Valuation τ sig (Elt F) := V0
theorem val0_main_arg0 (m : (ℓ : Loc nD τ sig) → Buf (Elt F) ℓ) (c : Dev nD) :
    val0 (launchContents m c) (no_index (Proc.devRef .tc main_arg0)) = m ((c.tc : Thread nD τ).loc main_arg0) := rfl
theorem val0_main_arg1 (m : (ℓ : Loc nD τ sig) → Buf (Elt F) ℓ) (c : Dev nD) :
    val0 (launchContents m c) (no_index (Proc.devRef .tc main_arg1)) = m ((c.tc : Thread nD τ).loc main_arg1) := rfl
theorem val0_main_arg2 (m : (ℓ : Loc nD τ sig) → Buf (Elt F) ℓ) (c : Dev nD) :
    val0 (launchContents m c) (no_index (Proc.devRef .tc main_arg2)) = m ((c.tc : Thread nD τ).loc main_arg2) := rfl
theorem val0_main_arg3 (m : (ℓ : Loc nD τ sig) → Buf (Elt F) ℓ) (c : Dev nD) :
    val0 (launchContents m c) (no_index (Proc.devRef .tc main_arg3)) = m ((c.tc : Thread nD τ).loc main_arg3) := rfl
theorem val0_main_arg4 (m : (ℓ : Loc nD τ sig) → Buf (Elt F) ℓ) (c : Dev nD) :
    val0 (launchContents m c) (no_index (Proc.devRef .tc main_arg4)) = m ((c.tc : Thread nD τ).loc main_arg4) := rfl
theorem val0_main_arg5 (m : (ℓ : Loc nD τ sig) → Buf (Elt F) ℓ) (c : Dev nD) :
    val0 (launchContents m c) (no_index (Proc.devRef .tc main_arg5)) = m ((c.tc : Thread nD τ).loc main_arg5) := rfl
theorem val0_main_arg6 (m : (ℓ : Loc nD τ sig) → Buf (Elt F) ℓ) (c : Dev nD) :
    val0 (launchContents m c) (no_index (Proc.devRef .tc main_arg6)) = m ((c.tc : Thread nD τ).loc main_arg6) := rfl
theorem val0_main_arg7 (m : (ℓ : Loc nD τ sig) → Buf (Elt F) ℓ) (c : Dev nD) :
    val0 (launchContents m c) (no_index (Proc.devRef .tc main_arg7)) = m ((c.tc : Thread nD τ).loc main_arg7) := rfl
theorem val0_main_arg8 (m : (ℓ : Loc nD τ sig) → Buf (Elt F) ℓ) (c : Dev nD) :
    val0 (launchContents m c) (no_index (Proc.devRef .tc main_arg8)) = m ((c.tc : Thread nD τ).loc main_arg8) := rfl
theorem val0_main_arg9 (m : (ℓ : Loc nD τ sig) → Buf (Elt F) ℓ) (c : Dev nD) :
    val0 (launchContents m c) (no_index (Proc.devRef .tc main_arg9)) = m ((c.tc : Thread nD τ).loc main_arg9) := rfl
theorem val0_main_arg10 (m : (ℓ : Loc nD τ sig) → Buf (Elt F) ℓ) (c : Dev nD) :
    val0 (launchContents m c) (no_index (Proc.devRef .tc main_arg10)) = m ((c.tc : Thread nD τ).loc main_arg10) := rfl
theorem val0_main_arg11 (m : (ℓ : Loc nD τ sig) → Buf (Elt F) ℓ) (c : Dev nD) :
    val0 (launchContents m c) (no_index (Proc.devRef .tc main_arg11)) = m ((c.tc : Thread nD τ).loc main_arg11) := rfl
theorem val0_main_arg12 (m : (ℓ : Loc nD τ sig) → Buf (Elt F) ℓ) (c : Dev nD) :
    val0 (launchContents m c) (no_index (Proc.devRef .tc main_arg12)) = m ((c.tc : Thread nD τ).loc main_arg12) := rfl
theorem val0_main_arg13 (m : (ℓ : Loc nD τ sig) → Buf (Elt F) ℓ) (c : Dev nD) :
    val0 (launchContents m c) (no_index (Proc.devRef .tc main_arg13)) = m ((c.tc : Thread nD τ).loc main_arg13) := rfl
theorem val0_main_arg14 (m : (ℓ : Loc nD τ sig) → Buf (Elt F) ℓ) (c : Dev nD) :
    val0 (launchContents m c) (no_index (Proc.devRef .tc main_arg14)) = m ((c.tc : Thread nD τ).loc main_arg14) := rfl
theorem val0_main_arg15 (m : (ℓ : Loc nD τ sig) → Buf (Elt F) ℓ) (c : Dev nD) :
    val0 (launchContents m c) (no_index (Proc.devRef .tc main_arg15)) = m ((c.tc : Thread nD τ).loc main_arg15) := rfl
theorem val0_main_arg16 (m : (ℓ : Loc nD τ sig) → Buf (Elt F) ℓ) (c : Dev nD) :
    val0 (launchContents m c) (no_index (Proc.devRef .tc main_arg16)) = m ((c.tc : Thread nD τ).loc main_arg16) := rfl
theorem val0_main_arg17 (m : (ℓ : Loc nD τ sig) → Buf (Elt F) ℓ) (c : Dev nD) :
    val0 (launchContents m c) (no_index (Proc.devRef .tc main_arg17)) = m ((c.tc : Thread nD τ).loc main_arg17) := rfl

/-! ## Window 1: up to `main_v4` -/

/-- The operations of window 1. -/
abbrev win1 : List (HloOp τ sig (Elt F)) :=
  [
    unary main_arg2 main_v0 ((transpose S32x16 [1, 0] · transposes_S16x32_S32x16_1_0) : (⟨S16x32, .f32⟩ : BufTy).Contents (Elt F) → (⟨S32x16, .f32⟩ : BufTy).Contents (Elt F)),
    binary main_arg0 main_v0 main_v1 ((fun l r => Host.dotGeneral dot_S32768x32_S32x16_S32768x16_1_0_0_1_n_n none l r) : (⟨S32768x32, .f32⟩ : BufTy).Contents (Elt F) → (⟨S32x16, .f32⟩ : BufTy).Contents (Elt F) → (⟨S32768x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S32768x16 ![0, 1] bcast_S1x16_S32768x16_0_1 : (⟨S1x16, .f32⟩ : BufTy).Contents (Elt F) → (⟨S32768x16, .f32⟩ : BufTy).Contents (Elt F)),
    binary main_v1 main_v3 main_v4 (addf : (⟨S32768x16, .f32⟩ : BufTy).Contents (Elt F) → (⟨S32768x16, .f32⟩ : BufTy).Contents (Elt F) → (⟨S32768x16, .f32⟩ : BufTy).Contents (Elt F)) ]
/-- The buffers window 1 writes. -/
abbrev win1_W : List (Ref sig .tc) := [main_v0, main_v1, main_v2, main_v3, main_v4]
theorem win1_writes : (win1 : List (HloOp τ sig (Elt F))).Forall fun op => op.writes ⊆ (win1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 1. -/
def val1 (V0 : Valuation τ sig (Elt F)) : Valuation τ sig (Elt F) := after win1 (val0 V0)
/-- A buffer window 1 does not write keeps its contents through it. -/
theorem val1_keep (V0 : Valuation τ sig (Elt F)) (r : Ref sig .tc) (h : r ∉ win1_W) :
    val1 V0 (Proc.devRef .tc r) = val0 V0 (Proc.devRef .tc r) :=
  after_of_writes_sub win1 _ win1_writes h
theorem val1_main_arg0 (m : (ℓ : Loc nD τ sig) → Buf (Elt F) ℓ) (c : Dev nD) :
    val1 (launchContents m c) (no_index (Proc.devRef .tc main_arg0)) = m ((c.tc : Thread nD τ).loc main_arg0) :=
  (val1_keep _ main_arg0 (by decide)).trans (val0_main_arg0 m c)
theorem val1_main_v4 (m : (ℓ : Loc nD τ sig) → Buf (Elt F) ℓ) (c : Dev nD) :
    val1 (launchContents m c) (no_index (Proc.devRef .tc main_v4)) = res_main_v4 m c := by
  unfold val1
  simp only [win1]
  after_results_simp
  all_goals (try simp only [val0_main_arg0 m c, val0_main_arg2 m c, val0_main_arg3 m c])
  all_goals (try simp only [TRef.toBuf, TRef.ofBuf, cast_eq])
  all_goals rfl
theorem val1_main_arg4 (m : (ℓ : Loc nD τ sig) → Buf (Elt F) ℓ) (c : Dev nD) :
    val1 (launchContents m c) (no_index (Proc.devRef .tc main_arg4)) = m ((c.tc : Thread nD τ).loc main_arg4) :=
  (val1_keep _ main_arg4 (by decide)).trans (val0_main_arg4 m c)
theorem val1_main_arg5 (m : (ℓ : Loc nD τ sig) → Buf (Elt F) ℓ) (c : Dev nD) :
    val1 (launchContents m c) (no_index (Proc.devRef .tc main_arg5)) = m ((c.tc : Thread nD τ).loc main_arg5) :=
  (val1_keep _ main_arg5 (by decide)).trans (val0_main_arg5 m c)
theorem val1_main_arg6 (m : (ℓ : Loc nD τ sig) → Buf (Elt F) ℓ) (c : Dev nD) :
    val1 (launchContents m c) (no_index (Proc.devRef .tc main_arg6)) = m ((c.tc : Thread nD τ).loc main_arg6) :=
  (val1_keep _ main_arg6 (by decide)).trans (val0_main_arg6 m c)
theorem val1_main_arg7 (m : (ℓ : Loc nD τ sig) → Buf (Elt F) ℓ) (c : Dev nD) :
    val1 (launchContents m c) (no_index (Proc.devRef .tc main_arg7)) = m ((c.tc : Thread nD τ).loc main_arg7) :=
  (val1_keep _ main_arg7 (by decide)).trans (val0_main_arg7 m c)
theorem val1_main_arg8 (m : (ℓ : Loc nD τ sig) → Buf (Elt F) ℓ) (c : Dev nD) :
    val1 (launchContents m c) (no_index (Proc.devRef .tc main_arg8)) = m ((c.tc : Thread nD τ).loc main_arg8) :=
  (val1_keep _ main_arg8 (by decide)).trans (val0_main_arg8 m c)
theorem val1_main_arg9 (m : (ℓ : Loc nD τ sig) → Buf (Elt F) ℓ) (c : Dev nD) :
    val1 (launchContents m c) (no_index (Proc.devRef .tc main_arg9)) = m ((c.tc : Thread nD τ).loc main_arg9) :=
  (val1_keep _ main_arg9 (by decide)).trans (val0_main_arg9 m c)
theorem val1_main_arg1 (m : (ℓ : Loc nD τ sig) → Buf (Elt F) ℓ) (c : Dev nD) :
    val1 (launchContents m c) (no_index (Proc.devRef .tc main_arg1)) = m ((c.tc : Thread nD τ).loc main_arg1) :=
  (val1_keep _ main_arg1 (by decide)).trans (val0_main_arg1 m c)
theorem val1_main_arg10 (m : (ℓ : Loc nD τ sig) → Buf (Elt F) ℓ) (c : Dev nD) :
    val1 (launchContents m c) (no_index (Proc.devRef .tc main_arg10)) = m ((c.tc : Thread nD τ).loc main_arg10) :=
  (val1_keep _ main_arg10 (by decide)).trans (val0_main_arg10 m c)
theorem val1_main_arg11 (m : (ℓ : Loc nD τ sig) → Buf (Elt F) ℓ) (c : Dev nD) :
    val1 (launchContents m c) (no_index (Proc.devRef .tc main_arg11)) = m ((c.tc : Thread nD τ).loc main_arg11) :=
  (val1_keep _ main_arg11 (by decide)).trans (val0_main_arg11 m c)
theorem val1_main_arg12 (m : (ℓ : Loc nD τ sig) → Buf (Elt F) ℓ) (c : Dev nD) :
    val1 (launchContents m c) (no_index (Proc.devRef .tc main_arg12)) = m ((c.tc : Thread nD τ).loc main_arg12) :=
  (val1_keep _ main_arg12 (by decide)).trans (val0_main_arg12 m c)
theorem val1_main_arg13 (m : (ℓ : Loc nD τ sig) → Buf (Elt F) ℓ) (c : Dev nD) :
    val1 (launchContents m c) (no_index (Proc.devRef .tc main_arg13)) = m ((c.tc : Thread nD τ).loc main_arg13) :=
  (val1_keep _ main_arg13 (by decide)).trans (val0_main_arg13 m c)
theorem val1_main_arg14 (m : (ℓ : Loc nD τ sig) → Buf (Elt F) ℓ) (c : Dev nD) :
    val1 (launchContents m c) (no_index (Proc.devRef .tc main_arg14)) = m ((c.tc : Thread nD τ).loc main_arg14) :=
  (val1_keep _ main_arg14 (by decide)).trans (val0_main_arg14 m c)
theorem val1_main_arg15 (m : (ℓ : Loc nD τ sig) → Buf (Elt F) ℓ) (c : Dev nD) :
    val1 (launchContents m c) (no_index (Proc.devRef .tc main_arg15)) = m ((c.tc : Thread nD τ).loc main_arg15) :=
  (val1_keep _ main_arg15 (by decide)).trans (val0_main_arg15 m c)
theorem val1_main_arg16 (m : (ℓ : Loc nD τ sig) → Buf (Elt F) ℓ) (c : Dev nD) :
    val1 (launchContents m c) (no_index (Proc.devRef .tc main_arg16)) = m ((c.tc : Thread nD τ).loc main_arg16) :=
  (val1_keep _ main_arg16 (by decide)).trans (val0_main_arg16 m c)
theorem val1_main_arg17 (m : (ℓ : Loc nD τ sig) → Buf (Elt F) ℓ) (c : Dev nD) :
    val1 (launchContents m c) (no_index (Proc.devRef .tc main_arg17)) = m ((c.tc : Thread nD τ).loc main_arg17) :=
  (val1_keep _ main_arg17 (by decide)).trans (val0_main_arg17 m c)

/-! ## Window 2: up to `main_v8` -/

/-- The operations of window 2. -/
abbrev win2 : List (HloOp τ sig (Elt F)) :=
  [
    nullary main_cst (constant S_ .f32 0x00000000#32),
    binary main_v4 main_cst main_v5 ((fun x v => Host.reduceAdd x v reducesTo_S32768x16_S16_d0 h_S_) : (⟨S32768x16, .f32⟩ : BufTy).Contents (Elt F) → (⟨S_, .f32⟩ : BufTy).Contents (Elt F) → (⟨S16, .f32⟩ : BufTy).Contents (Elt F)),
    unary main_v5 main_v6 (broadcastInDim S1x16 ![1] bcast_S16_S1x16_1 : (⟨S16, .f32⟩ : BufTy).Contents (Elt F) → (⟨S1x16, .f32⟩ : BufTy).Contents (Elt F)),
    nullary main_cst_0 (constant S_ .f32 0x47000000#32),
    unary main_cst_0 main_v7 (broadcastInDim S1x16 ![] bcast_S_S1x16 : (⟨S_, .f32⟩ : BufTy).Contents (Elt F) → (⟨S1x16, .f32⟩ : BufTy).Contents (Elt F)),
    binary main_v6 main_v7 main_v8 (Host.divf : (⟨S1x16, .f32⟩ : BufTy).Contents (Elt F) → (⟨S1x16, .f32⟩ : BufTy).Contents (Elt F) → (⟨S1x16, .f32⟩ : BufTy).Contents (Elt F)) ]
/-- The buffers window 2 writes. -/
abbrev win2_W : List (Ref sig .tc) := [main_cst, main_v5, main_v6, main_cst_0, main_v7, main_v8]
theorem win2_writes : (win2 : List (HloOp τ sig (Elt F))).Forall fun op => op.writes ⊆ (win2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 2. -/
def val2 (V0 : Valuation τ sig (Elt F)) : Valuation τ sig (Elt F) := after win2 (val1 V0)
/-- A buffer window 2 does not write keeps its contents through it. -/
theorem val2_keep (V0 : Valuation τ sig (Elt F)) (r : Ref sig .tc) (h : r ∉ win2_W) :
    val2 V0 (Proc.devRef .tc r) = val1 V0 (Proc.devRef .tc r) :=
  after_of_writes_sub win2 _ win2_writes h
theorem val2_main_arg0 (m : (ℓ : Loc nD τ sig) → Buf (Elt F) ℓ) (c : Dev nD) :
    val2 (launchContents m c) (no_index (Proc.devRef .tc main_arg0)) = m ((c.tc : Thread nD τ).loc main_arg0) :=
  (val2_keep _ main_arg0 (by decide)).trans (val1_main_arg0 m c)
theorem val2_main_v4 (m : (ℓ : Loc nD τ sig) → Buf (Elt F) ℓ) (c : Dev nD) :
    val2 (launchContents m c) (no_index (Proc.devRef .tc main_v4)) = res_main_v4 m c :=
  (val2_keep _ main_v4 (by decide)).trans (val1_main_v4 m c)
theorem val2_main_v8 (m : (ℓ : Loc nD τ sig) → Buf (Elt F) ℓ) (c : Dev nD) :
    val2 (launchContents m c) (no_index (Proc.devRef .tc main_v8)) = res_main_v8 m c := by
  unfold val2
  simp only [win2]
  after_results_simp
  all_goals (try simp only [val1_main_v4 m c])
  all_goals (try simp only [TRef.toBuf, TRef.ofBuf, cast_eq])
  all_goals rfl
theorem val2_main_arg4 (m : (ℓ : Loc nD τ sig) → Buf (Elt F) ℓ) (c : Dev nD) :
    val2 (launchContents m c) (no_index (Proc.devRef .tc main_arg4)) = m ((c.tc : Thread nD τ).loc main_arg4) :=
  (val2_keep _ main_arg4 (by decide)).trans (val1_main_arg4 m c)
theorem val2_main_arg5 (m : (ℓ : Loc nD τ sig) → Buf (Elt F) ℓ) (c : Dev nD) :
    val2 (launchContents m c) (no_index (Proc.devRef .tc main_arg5)) = m ((c.tc : Thread nD τ).loc main_arg5) :=
  (val2_keep _ main_arg5 (by decide)).trans (val1_main_arg5 m c)
theorem val2_main_arg6 (m : (ℓ : Loc nD τ sig) → Buf (Elt F) ℓ) (c : Dev nD) :
    val2 (launchContents m c) (no_index (Proc.devRef .tc main_arg6)) = m ((c.tc : Thread nD τ).loc main_arg6) :=
  (val2_keep _ main_arg6 (by decide)).trans (val1_main_arg6 m c)
theorem val2_main_arg7 (m : (ℓ : Loc nD τ sig) → Buf (Elt F) ℓ) (c : Dev nD) :
    val2 (launchContents m c) (no_index (Proc.devRef .tc main_arg7)) = m ((c.tc : Thread nD τ).loc main_arg7) :=
  (val2_keep _ main_arg7 (by decide)).trans (val1_main_arg7 m c)
theorem val2_main_arg8 (m : (ℓ : Loc nD τ sig) → Buf (Elt F) ℓ) (c : Dev nD) :
    val2 (launchContents m c) (no_index (Proc.devRef .tc main_arg8)) = m ((c.tc : Thread nD τ).loc main_arg8) :=
  (val2_keep _ main_arg8 (by decide)).trans (val1_main_arg8 m c)
theorem val2_main_arg9 (m : (ℓ : Loc nD τ sig) → Buf (Elt F) ℓ) (c : Dev nD) :
    val2 (launchContents m c) (no_index (Proc.devRef .tc main_arg9)) = m ((c.tc : Thread nD τ).loc main_arg9) :=
  (val2_keep _ main_arg9 (by decide)).trans (val1_main_arg9 m c)
theorem val2_main_arg1 (m : (ℓ : Loc nD τ sig) → Buf (Elt F) ℓ) (c : Dev nD) :
    val2 (launchContents m c) (no_index (Proc.devRef .tc main_arg1)) = m ((c.tc : Thread nD τ).loc main_arg1) :=
  (val2_keep _ main_arg1 (by decide)).trans (val1_main_arg1 m c)
theorem val2_main_arg10 (m : (ℓ : Loc nD τ sig) → Buf (Elt F) ℓ) (c : Dev nD) :
    val2 (launchContents m c) (no_index (Proc.devRef .tc main_arg10)) = m ((c.tc : Thread nD τ).loc main_arg10) :=
  (val2_keep _ main_arg10 (by decide)).trans (val1_main_arg10 m c)
theorem val2_main_arg11 (m : (ℓ : Loc nD τ sig) → Buf (Elt F) ℓ) (c : Dev nD) :
    val2 (launchContents m c) (no_index (Proc.devRef .tc main_arg11)) = m ((c.tc : Thread nD τ).loc main_arg11) :=
  (val2_keep _ main_arg11 (by decide)).trans (val1_main_arg11 m c)
theorem val2_main_arg12 (m : (ℓ : Loc nD τ sig) → Buf (Elt F) ℓ) (c : Dev nD) :
    val2 (launchContents m c) (no_index (Proc.devRef .tc main_arg12)) = m ((c.tc : Thread nD τ).loc main_arg12) :=
  (val2_keep _ main_arg12 (by decide)).trans (val1_main_arg12 m c)
theorem val2_main_arg13 (m : (ℓ : Loc nD τ sig) → Buf (Elt F) ℓ) (c : Dev nD) :
    val2 (launchContents m c) (no_index (Proc.devRef .tc main_arg13)) = m ((c.tc : Thread nD τ).loc main_arg13) :=
  (val2_keep _ main_arg13 (by decide)).trans (val1_main_arg13 m c)
theorem val2_main_arg14 (m : (ℓ : Loc nD τ sig) → Buf (Elt F) ℓ) (c : Dev nD) :
    val2 (launchContents m c) (no_index (Proc.devRef .tc main_arg14)) = m ((c.tc : Thread nD τ).loc main_arg14) :=
  (val2_keep _ main_arg14 (by decide)).trans (val1_main_arg14 m c)
theorem val2_main_arg15 (m : (ℓ : Loc nD τ sig) → Buf (Elt F) ℓ) (c : Dev nD) :
    val2 (launchContents m c) (no_index (Proc.devRef .tc main_arg15)) = m ((c.tc : Thread nD τ).loc main_arg15) :=
  (val2_keep _ main_arg15 (by decide)).trans (val1_main_arg15 m c)
theorem val2_main_arg16 (m : (ℓ : Loc nD τ sig) → Buf (Elt F) ℓ) (c : Dev nD) :
    val2 (launchContents m c) (no_index (Proc.devRef .tc main_arg16)) = m ((c.tc : Thread nD τ).loc main_arg16) :=
  (val2_keep _ main_arg16 (by decide)).trans (val1_main_arg16 m c)
theorem val2_main_arg17 (m : (ℓ : Loc nD τ sig) → Buf (Elt F) ℓ) (c : Dev nD) :
    val2 (launchContents m c) (no_index (Proc.devRef .tc main_arg17)) = m ((c.tc : Thread nD τ).loc main_arg17) :=
  (val2_keep _ main_arg17 (by decide)).trans (val1_main_arg17 m c)

/-! ## Window 3: up to `main_call0_v5` -/

/-- The operations of window 3. -/
abbrev win3 : List (HloOp τ sig (Elt F)) :=
  [
    nullary main_c (constantI S_ 32 0#32),
    TRef.nullary main_call0.cst (constant S_ .f32 0x00000000#32),
    TRef.binary (.of main_v4 : TRef sig ⟨S32768x16, .f32⟩) main_call0.cst main_call0.v0 (fun x v => Host.reduceAdd x v reducesTo_S32768x16_S16_d0 h_S_),
    TRef.unary main_call0.v0 main_call0.v1 (broadcastInDim S1x16 ![1] bcast_S16_S1x16_1),
    TRef.nullary main_call0.cst_0 (constant S_ .f32 0x47000000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S32768x16 ![0, 1] bcast_S1x16_S32768x16_0_1),
    TRef.binary (.of main_v4 : TRef sig ⟨S32768x16, .f32⟩) main_call0.v4 main_call0.v5 subf ]
/-- The buffers window 3 writes. -/
abbrev win3_W : List (Ref sig .tc) := [main_c, main_call0_cst, main_call0_v0, main_call0_v1, main_call0_cst_0, main_call0_v2, main_call0_v3, main_call0_v4, main_call0_v5]
theorem win3_writes : (win3 : List (HloOp τ sig (Elt F))).Forall fun op => op.writes ⊆ (win3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 3. -/
def val3 (V0 : Valuation τ sig (Elt F)) : Valuation τ sig (Elt F) := after win3 (val2 V0)
/-- A buffer window 3 does not write keeps its contents through it. -/
theorem val3_keep (V0 : Valuation τ sig (Elt F)) (r : Ref sig .tc) (h : r ∉ win3_W) :
    val3 V0 (Proc.devRef .tc r) = val2 V0 (Proc.devRef .tc r) :=
  after_of_writes_sub win3 _ win3_writes h
theorem val3_main_arg0 (m : (ℓ : Loc nD τ sig) → Buf (Elt F) ℓ) (c : Dev nD) :
    val3 (launchContents m c) (no_index (Proc.devRef .tc main_arg0)) = m ((c.tc : Thread nD τ).loc main_arg0) :=
  (val3_keep _ main_arg0 (by decide)).trans (val2_main_arg0 m c)
theorem val3_main_v4 (m : (ℓ : Loc nD τ sig) → Buf (Elt F) ℓ) (c : Dev nD) :
    val3 (launchContents m c) (no_index (Proc.devRef .tc main_v4)) = res_main_v4 m c :=
  (val3_keep _ main_v4 (by decide)).trans (val2_main_v4 m c)
theorem val3_main_call0_v5 (m : (ℓ : Loc nD τ sig) → Buf (Elt F) ℓ) (c : Dev nD) :
    val3 (launchContents m c) (no_index (Proc.devRef .tc main_call0_v5)) = res_main_call0_v5 m c := by
  unfold val3
  simp only [win3]
  after_results_simp
  all_goals (try simp only [val2_main_v4 m c])
  all_goals (try simp only [TRef.toBuf, TRef.ofBuf, cast_eq])
  all_goals rfl
theorem val3_main_c (m : (ℓ : Loc nD τ sig) → Buf (Elt F) ℓ) (c : Dev nD) :
    val3 (launchContents m c) (no_index (Proc.devRef .tc main_c)) = constantI S_ 32 0#32 := by
  unfold val3
  simp only [win3]
  after_results_simp
  all_goals (try simp only [val2_main_v4 m c])
  all_goals (try simp only [TRef.toBuf, TRef.ofBuf, cast_eq])
  all_goals rfl
theorem val3_main_v8 (m : (ℓ : Loc nD τ sig) → Buf (Elt F) ℓ) (c : Dev nD) :
    val3 (launchContents m c) (no_index (Proc.devRef .tc main_v8)) = res_main_v8 m c :=
  (val3_keep _ main_v8 (by decide)).trans (val2_main_v8 m c)
theorem val3_main_arg4 (m : (ℓ : Loc nD τ sig) → Buf (Elt F) ℓ) (c : Dev nD) :
    val3 (launchContents m c) (no_index (Proc.devRef .tc main_arg4)) = m ((c.tc : Thread nD τ).loc main_arg4) :=
  (val3_keep _ main_arg4 (by decide)).trans (val2_main_arg4 m c)
theorem val3_main_arg5 (m : (ℓ : Loc nD τ sig) → Buf (Elt F) ℓ) (c : Dev nD) :
    val3 (launchContents m c) (no_index (Proc.devRef .tc main_arg5)) = m ((c.tc : Thread nD τ).loc main_arg5) :=
  (val3_keep _ main_arg5 (by decide)).trans (val2_main_arg5 m c)
theorem val3_main_arg6 (m : (ℓ : Loc nD τ sig) → Buf (Elt F) ℓ) (c : Dev nD) :
    val3 (launchContents m c) (no_index (Proc.devRef .tc main_arg6)) = m ((c.tc : Thread nD τ).loc main_arg6) :=
  (val3_keep _ main_arg6 (by decide)).trans (val2_main_arg6 m c)
theorem val3_main_arg7 (m : (ℓ : Loc nD τ sig) → Buf (Elt F) ℓ) (c : Dev nD) :
    val3 (launchContents m c) (no_index (Proc.devRef .tc main_arg7)) = m ((c.tc : Thread nD τ).loc main_arg7) :=
  (val3_keep _ main_arg7 (by decide)).trans (val2_main_arg7 m c)
theorem val3_main_arg8 (m : (ℓ : Loc nD τ sig) → Buf (Elt F) ℓ) (c : Dev nD) :
    val3 (launchContents m c) (no_index (Proc.devRef .tc main_arg8)) = m ((c.tc : Thread nD τ).loc main_arg8) :=
  (val3_keep _ main_arg8 (by decide)).trans (val2_main_arg8 m c)
theorem val3_main_arg9 (m : (ℓ : Loc nD τ sig) → Buf (Elt F) ℓ) (c : Dev nD) :
    val3 (launchContents m c) (no_index (Proc.devRef .tc main_arg9)) = m ((c.tc : Thread nD τ).loc main_arg9) :=
  (val3_keep _ main_arg9 (by decide)).trans (val2_main_arg9 m c)
theorem val3_main_arg1 (m : (ℓ : Loc nD τ sig) → Buf (Elt F) ℓ) (c : Dev nD) :
    val3 (launchContents m c) (no_index (Proc.devRef .tc main_arg1)) = m ((c.tc : Thread nD τ).loc main_arg1) :=
  (val3_keep _ main_arg1 (by decide)).trans (val2_main_arg1 m c)
theorem val3_main_arg10 (m : (ℓ : Loc nD τ sig) → Buf (Elt F) ℓ) (c : Dev nD) :
    val3 (launchContents m c) (no_index (Proc.devRef .tc main_arg10)) = m ((c.tc : Thread nD τ).loc main_arg10) :=
  (val3_keep _ main_arg10 (by decide)).trans (val2_main_arg10 m c)
theorem val3_main_arg11 (m : (ℓ : Loc nD τ sig) → Buf (Elt F) ℓ) (c : Dev nD) :
    val3 (launchContents m c) (no_index (Proc.devRef .tc main_arg11)) = m ((c.tc : Thread nD τ).loc main_arg11) :=
  (val3_keep _ main_arg11 (by decide)).trans (val2_main_arg11 m c)
theorem val3_main_arg12 (m : (ℓ : Loc nD τ sig) → Buf (Elt F) ℓ) (c : Dev nD) :
    val3 (launchContents m c) (no_index (Proc.devRef .tc main_arg12)) = m ((c.tc : Thread nD τ).loc main_arg12) :=
  (val3_keep _ main_arg12 (by decide)).trans (val2_main_arg12 m c)
theorem val3_main_arg13 (m : (ℓ : Loc nD τ sig) → Buf (Elt F) ℓ) (c : Dev nD) :
    val3 (launchContents m c) (no_index (Proc.devRef .tc main_arg13)) = m ((c.tc : Thread nD τ).loc main_arg13) :=
  (val3_keep _ main_arg13 (by decide)).trans (val2_main_arg13 m c)
theorem val3_main_arg14 (m : (ℓ : Loc nD τ sig) → Buf (Elt F) ℓ) (c : Dev nD) :
    val3 (launchContents m c) (no_index (Proc.devRef .tc main_arg14)) = m ((c.tc : Thread nD τ).loc main_arg14) :=
  (val3_keep _ main_arg14 (by decide)).trans (val2_main_arg14 m c)
theorem val3_main_arg15 (m : (ℓ : Loc nD τ sig) → Buf (Elt F) ℓ) (c : Dev nD) :
    val3 (launchContents m c) (no_index (Proc.devRef .tc main_arg15)) = m ((c.tc : Thread nD τ).loc main_arg15) :=
  (val3_keep _ main_arg15 (by decide)).trans (val2_main_arg15 m c)
theorem val3_main_arg16 (m : (ℓ : Loc nD τ sig) → Buf (Elt F) ℓ) (c : Dev nD) :
    val3 (launchContents m c) (no_index (Proc.devRef .tc main_arg16)) = m ((c.tc : Thread nD τ).loc main_arg16) :=
  (val3_keep _ main_arg16 (by decide)).trans (val2_main_arg16 m c)
theorem val3_main_arg17 (m : (ℓ : Loc nD τ sig) → Buf (Elt F) ℓ) (c : Dev nD) :
    val3 (launchContents m c) (no_index (Proc.devRef .tc main_arg17)) = m ((c.tc : Thread nD τ).loc main_arg17) :=
  (val3_keep _ main_arg17 (by decide)).trans (val2_main_arg17 m c)

/-! ## Window 4: up to `main_call0_v8` -/

/-- The operations of window 4. -/
abbrev win4 : List (HloOp τ sig (Elt F)) :=
  [
    TRef.binary main_call0.v5 main_call0.v5 main_call0.v6 mulf,
    TRef.unary (.of main_c : TRef sig ⟨S_, .i32⟩) main_call0.v7 (sitofp .f32),
    TRef.nullary main_call0.cst_1 (constant S_ .f32 0x47000000#32),
    TRef.binary main_call0.cst_1 main_call0.v7 main_call0.v8 subf ]
/-- The buffers window 4 writes. -/
abbrev win4_W : List (Ref sig .tc) := [main_call0_v6, main_call0_v7, main_call0_cst_1, main_call0_v8]
theorem win4_writes : (win4 : List (HloOp τ sig (Elt F))).Forall fun op => op.writes ⊆ (win4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 4. -/
def val4 (V0 : Valuation τ sig (Elt F)) : Valuation τ sig (Elt F) := after win4 (val3 V0)
/-- A buffer window 4 does not write keeps its contents through it. -/
theorem val4_keep (V0 : Valuation τ sig (Elt F)) (r : Ref sig .tc) (h : r ∉ win4_W) :
    val4 V0 (Proc.devRef .tc r) = val3 V0 (Proc.devRef .tc r) :=
  after_of_writes_sub win4 _ win4_writes h
theorem val4_main_arg0 (m : (ℓ : Loc nD τ sig) → Buf (Elt F) ℓ) (c : Dev nD) :
    val4 (launchContents m c) (no_index (Proc.devRef .tc main_arg0)) = m ((c.tc : Thread nD τ).loc main_arg0) :=
  (val4_keep _ main_arg0 (by decide)).trans (val3_main_arg0 m c)
theorem val4_main_v4 (m : (ℓ : Loc nD τ sig) → Buf (Elt F) ℓ) (c : Dev nD) :
    val4 (launchContents m c) (no_index (Proc.devRef .tc main_v4)) = res_main_v4 m c :=
  (val4_keep _ main_v4 (by decide)).trans (val3_main_v4 m c)
theorem val4_main_call0_v6 (m : (ℓ : Loc nD τ sig) → Buf (Elt F) ℓ) (c : Dev nD) :
    val4 (launchContents m c) (no_index (Proc.devRef .tc main_call0_v6)) = (mulf) (res_main_call0_v5 m c) (res_main_call0_v5 m c) := by
  unfold val4
  simp only [win4]
  after_results_simp
  all_goals (try simp only [val3_main_call0_v5 m c, val3_main_c m c])
  all_goals (try simp only [TRef.toBuf, TRef.ofBuf, cast_eq])
  all_goals rfl
theorem val4_main_call0_v8 (m : (ℓ : Loc nD τ sig) → Buf (Elt F) ℓ) (c : Dev nD) :
    val4 (launchContents m c) (no_index (Proc.devRef .tc main_call0_v8)) = res_main_call0_v8 m c := by
  unfold val4
  simp only [win4]
  after_results_simp
  all_goals (try simp only [val3_main_call0_v5 m c, val3_main_c m c])
  all_goals (try simp only [TRef.toBuf, TRef.ofBuf, cast_eq])
  all_goals rfl
theorem val4_main_v8 (m : (ℓ : Loc nD τ sig) → Buf (Elt F) ℓ) (c : Dev nD) :
    val4 (launchContents m c) (no_index (Proc.devRef .tc main_v8)) = res_main_v8 m c :=
  (val4_keep _ main_v8 (by decide)).trans (val3_main_v8 m c)
theorem val4_main_arg4 (m : (ℓ : Loc nD τ sig) → Buf (Elt F) ℓ) (c : Dev nD) :
    val4 (launchContents m c) (no_index (Proc.devRef .tc main_arg4)) = m ((c.tc : Thread nD τ).loc main_arg4) :=
  (val4_keep _ main_arg4 (by decide)).trans (val3_main_arg4 m c)
theorem val4_main_arg5 (m : (ℓ : Loc nD τ sig) → Buf (Elt F) ℓ) (c : Dev nD) :
    val4 (launchContents m c) (no_index (Proc.devRef .tc main_arg5)) = m ((c.tc : Thread nD τ).loc main_arg5) :=
  (val4_keep _ main_arg5 (by decide)).trans (val3_main_arg5 m c)
theorem val4_main_arg6 (m : (ℓ : Loc nD τ sig) → Buf (Elt F) ℓ) (c : Dev nD) :
    val4 (launchContents m c) (no_index (Proc.devRef .tc main_arg6)) = m ((c.tc : Thread nD τ).loc main_arg6) :=
  (val4_keep _ main_arg6 (by decide)).trans (val3_main_arg6 m c)
theorem val4_main_arg7 (m : (ℓ : Loc nD τ sig) → Buf (Elt F) ℓ) (c : Dev nD) :
    val4 (launchContents m c) (no_index (Proc.devRef .tc main_arg7)) = m ((c.tc : Thread nD τ).loc main_arg7) :=
  (val4_keep _ main_arg7 (by decide)).trans (val3_main_arg7 m c)
theorem val4_main_arg8 (m : (ℓ : Loc nD τ sig) → Buf (Elt F) ℓ) (c : Dev nD) :
    val4 (launchContents m c) (no_index (Proc.devRef .tc main_arg8)) = m ((c.tc : Thread nD τ).loc main_arg8) :=
  (val4_keep _ main_arg8 (by decide)).trans (val3_main_arg8 m c)
theorem val4_main_arg9 (m : (ℓ : Loc nD τ sig) → Buf (Elt F) ℓ) (c : Dev nD) :
    val4 (launchContents m c) (no_index (Proc.devRef .tc main_arg9)) = m ((c.tc : Thread nD τ).loc main_arg9) :=
  (val4_keep _ main_arg9 (by decide)).trans (val3_main_arg9 m c)
theorem val4_main_arg1 (m : (ℓ : Loc nD τ sig) → Buf (Elt F) ℓ) (c : Dev nD) :
    val4 (launchContents m c) (no_index (Proc.devRef .tc main_arg1)) = m ((c.tc : Thread nD τ).loc main_arg1) :=
  (val4_keep _ main_arg1 (by decide)).trans (val3_main_arg1 m c)
theorem val4_main_arg10 (m : (ℓ : Loc nD τ sig) → Buf (Elt F) ℓ) (c : Dev nD) :
    val4 (launchContents m c) (no_index (Proc.devRef .tc main_arg10)) = m ((c.tc : Thread nD τ).loc main_arg10) :=
  (val4_keep _ main_arg10 (by decide)).trans (val3_main_arg10 m c)
theorem val4_main_arg11 (m : (ℓ : Loc nD τ sig) → Buf (Elt F) ℓ) (c : Dev nD) :
    val4 (launchContents m c) (no_index (Proc.devRef .tc main_arg11)) = m ((c.tc : Thread nD τ).loc main_arg11) :=
  (val4_keep _ main_arg11 (by decide)).trans (val3_main_arg11 m c)
theorem val4_main_arg12 (m : (ℓ : Loc nD τ sig) → Buf (Elt F) ℓ) (c : Dev nD) :
    val4 (launchContents m c) (no_index (Proc.devRef .tc main_arg12)) = m ((c.tc : Thread nD τ).loc main_arg12) :=
  (val4_keep _ main_arg12 (by decide)).trans (val3_main_arg12 m c)
theorem val4_main_arg13 (m : (ℓ : Loc nD τ sig) → Buf (Elt F) ℓ) (c : Dev nD) :
    val4 (launchContents m c) (no_index (Proc.devRef .tc main_arg13)) = m ((c.tc : Thread nD τ).loc main_arg13) :=
  (val4_keep _ main_arg13 (by decide)).trans (val3_main_arg13 m c)
theorem val4_main_arg14 (m : (ℓ : Loc nD τ sig) → Buf (Elt F) ℓ) (c : Dev nD) :
    val4 (launchContents m c) (no_index (Proc.devRef .tc main_arg14)) = m ((c.tc : Thread nD τ).loc main_arg14) :=
  (val4_keep _ main_arg14 (by decide)).trans (val3_main_arg14 m c)
theorem val4_main_arg15 (m : (ℓ : Loc nD τ sig) → Buf (Elt F) ℓ) (c : Dev nD) :
    val4 (launchContents m c) (no_index (Proc.devRef .tc main_arg15)) = m ((c.tc : Thread nD τ).loc main_arg15) :=
  (val4_keep _ main_arg15 (by decide)).trans (val3_main_arg15 m c)
theorem val4_main_arg16 (m : (ℓ : Loc nD τ sig) → Buf (Elt F) ℓ) (c : Dev nD) :
    val4 (launchContents m c) (no_index (Proc.devRef .tc main_arg16)) = m ((c.tc : Thread nD τ).loc main_arg16) :=
  (val4_keep _ main_arg16 (by decide)).trans (val3_main_arg16 m c)
theorem val4_main_arg17 (m : (ℓ : Loc nD τ sig) → Buf (Elt F) ℓ) (c : Dev nD) :
    val4 (launchContents m c) (no_index (Proc.devRef .tc main_arg17)) = m ((c.tc : Thread nD τ).loc main_arg17) :=
  (val4_keep _ main_arg17 (by decide)).trans (val3_main_arg17 m c)

/-! ## Window 5: up to `main_v9` -/

/-- The operations of window 5. -/
abbrev win5 : List (HloOp τ sig (Elt F)) :=
  [
    TRef.nullary main_call0.cst_2 (constant S_ .f32 0x00000000#32),
    TRef.binary main_call0.v6 main_call0.cst_2 main_call0.v9 (fun x v => Host.reduceAdd x v reducesTo_S32768x16_S16_d0 h_S_),
    TRef.unary main_call0.v9 main_call0.v10 (broadcastInDim S1x16 ![1] bcast_S16_S1x16_1),
    TRef.unary main_call0.v8 main_call0.v11 (broadcastInDim S1x16 ![] bcast_S_S1x16),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x16 ![] bcast_S_S1x16),
    TRef.ternary main_call0.v13 main_call0.v12 main_call0.call0.v1 main_call0.call0.v2 (fun p a b => select (broadcastInDim S1x16 ![] bcast_S_S1x16 p) a b) ]
/-- The buffers window 5 writes. -/
abbrev win5_W : List (Ref sig .tc) := [main_call0_cst_2, main_call0_v9, main_call0_v10, main_call0_v11, main_call0_v12, main_call0_cst_3, main_call0_v13, main_call0_cst_4, main_call0_call0_v0, main_call0_call0_v1, main_v9]
theorem win5_writes : (win5 : List (HloOp τ sig (Elt F))).Forall fun op => op.writes ⊆ (win5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 5. -/
def val5 (V0 : Valuation τ sig (Elt F)) : Valuation τ sig (Elt F) := after win5 (val4 V0)
/-- A buffer window 5 does not write keeps its contents through it. -/
theorem val5_keep (V0 : Valuation τ sig (Elt F)) (r : Ref sig .tc) (h : r ∉ win5_W) :
    val5 V0 (Proc.devRef .tc r) = val4 V0 (Proc.devRef .tc r) :=
  after_of_writes_sub win5 _ win5_writes h
theorem val5_main_arg0 (m : (ℓ : Loc nD τ sig) → Buf (Elt F) ℓ) (c : Dev nD) :
    val5 (launchContents m c) (no_index (Proc.devRef .tc main_arg0)) = m ((c.tc : Thread nD τ).loc main_arg0) :=
  (val5_keep _ main_arg0 (by decide)).trans (val4_main_arg0 m c)
theorem val5_main_v4 (m : (ℓ : Loc nD τ sig) → Buf (Elt F) ℓ) (c : Dev nD) :
    val5 (launchContents m c) (no_index (Proc.devRef .tc main_v4)) = res_main_v4 m c :=
  (val5_keep _ main_v4 (by decide)).trans (val4_main_v4 m c)
theorem val5_main_v8 (m : (ℓ : Loc nD τ sig) → Buf (Elt F) ℓ) (c : Dev nD) :
    val5 (launchContents m c) (no_index (Proc.devRef .tc main_v8)) = res_main_v8 m c :=
  (val5_keep _ main_v8 (by decide)).trans (val4_main_v8 m c)
theorem val5_main_v9 (m : (ℓ : Loc nD τ sig) → Buf (Elt F) ℓ) (c : Dev nD) :
    val5 (launchContents m c) (no_index (Proc.devRef .tc main_v9)) = res_main_v9 m c := by
  unfold val5
  simp only [win5]
  after_results_simp
  all_goals (try simp only [val4_main_call0_v6 m c, val4_main_call0_v8 m c])
  all_goals (try simp only [TRef.toBuf, TRef.ofBuf, cast_eq])
  all_goals rfl
theorem val5_main_arg4 (m : (ℓ : Loc nD τ sig) → Buf (Elt F) ℓ) (c : Dev nD) :
    val5 (launchContents m c) (no_index (Proc.devRef .tc main_arg4)) = m ((c.tc : Thread nD τ).loc main_arg4) :=
  (val5_keep _ main_arg4 (by decide)).trans (val4_main_arg4 m c)
theorem val5_main_arg5 (m : (ℓ : Loc nD τ sig) → Buf (Elt F) ℓ) (c : Dev nD) :
    val5 (launchContents m c) (no_index (Proc.devRef .tc main_arg5)) = m ((c.tc : Thread nD τ).loc main_arg5) :=
  (val5_keep _ main_arg5 (by decide)).trans (val4_main_arg5 m c)
theorem val5_main_arg6 (m : (ℓ : Loc nD τ sig) → Buf (Elt F) ℓ) (c : Dev nD) :
    val5 (launchContents m c) (no_index (Proc.devRef .tc main_arg6)) = m ((c.tc : Thread nD τ).loc main_arg6) :=
  (val5_keep _ main_arg6 (by decide)).trans (val4_main_arg6 m c)
theorem val5_main_arg7 (m : (ℓ : Loc nD τ sig) → Buf (Elt F) ℓ) (c : Dev nD) :
    val5 (launchContents m c) (no_index (Proc.devRef .tc main_arg7)) = m ((c.tc : Thread nD τ).loc main_arg7) :=
  (val5_keep _ main_arg7 (by decide)).trans (val4_main_arg7 m c)
theorem val5_main_arg8 (m : (ℓ : Loc nD τ sig) → Buf (Elt F) ℓ) (c : Dev nD) :
    val5 (launchContents m c) (no_index (Proc.devRef .tc main_arg8)) = m ((c.tc : Thread nD τ).loc main_arg8) :=
  (val5_keep _ main_arg8 (by decide)).trans (val4_main_arg8 m c)
theorem val5_main_arg9 (m : (ℓ : Loc nD τ sig) → Buf (Elt F) ℓ) (c : Dev nD) :
    val5 (launchContents m c) (no_index (Proc.devRef .tc main_arg9)) = m ((c.tc : Thread nD τ).loc main_arg9) :=
  (val5_keep _ main_arg9 (by decide)).trans (val4_main_arg9 m c)
theorem val5_main_arg1 (m : (ℓ : Loc nD τ sig) → Buf (Elt F) ℓ) (c : Dev nD) :
    val5 (launchContents m c) (no_index (Proc.devRef .tc main_arg1)) = m ((c.tc : Thread nD τ).loc main_arg1) :=
  (val5_keep _ main_arg1 (by decide)).trans (val4_main_arg1 m c)
theorem val5_main_arg10 (m : (ℓ : Loc nD τ sig) → Buf (Elt F) ℓ) (c : Dev nD) :
    val5 (launchContents m c) (no_index (Proc.devRef .tc main_arg10)) = m ((c.tc : Thread nD τ).loc main_arg10) :=
  (val5_keep _ main_arg10 (by decide)).trans (val4_main_arg10 m c)
theorem val5_main_arg11 (m : (ℓ : Loc nD τ sig) → Buf (Elt F) ℓ) (c : Dev nD) :
    val5 (launchContents m c) (no_index (Proc.devRef .tc main_arg11)) = m ((c.tc : Thread nD τ).loc main_arg11) :=
  (val5_keep _ main_arg11 (by decide)).trans (val4_main_arg11 m c)
theorem val5_main_arg12 (m : (ℓ : Loc nD τ sig) → Buf (Elt F) ℓ) (c : Dev nD) :
    val5 (launchContents m c) (no_index (Proc.devRef .tc main_arg12)) = m ((c.tc : Thread nD τ).loc main_arg12) :=
  (val5_keep _ main_arg12 (by decide)).trans (val4_main_arg12 m c)
theorem val5_main_arg13 (m : (ℓ : Loc nD τ sig) → Buf (Elt F) ℓ) (c : Dev nD) :
    val5 (launchContents m c) (no_index (Proc.devRef .tc main_arg13)) = m ((c.tc : Thread nD τ).loc main_arg13) :=
  (val5_keep _ main_arg13 (by decide)).trans (val4_main_arg13 m c)
theorem val5_main_arg14 (m : (ℓ : Loc nD τ sig) → Buf (Elt F) ℓ) (c : Dev nD) :
    val5 (launchContents m c) (no_index (Proc.devRef .tc main_arg14)) = m ((c.tc : Thread nD τ).loc main_arg14) :=
  (val5_keep _ main_arg14 (by decide)).trans (val4_main_arg14 m c)
theorem val5_main_arg15 (m : (ℓ : Loc nD τ sig) → Buf (Elt F) ℓ) (c : Dev nD) :
    val5 (launchContents m c) (no_index (Proc.devRef .tc main_arg15)) = m ((c.tc : Thread nD τ).loc main_arg15) :=
  (val5_keep _ main_arg15 (by decide)).trans (val4_main_arg15 m c)
theorem val5_main_arg16 (m : (ℓ : Loc nD τ sig) → Buf (Elt F) ℓ) (c : Dev nD) :
    val5 (launchContents m c) (no_index (Proc.devRef .tc main_arg16)) = m ((c.tc : Thread nD τ).loc main_arg16) :=
  (val5_keep _ main_arg16 (by decide)).trans (val4_main_arg16 m c)
theorem val5_main_arg17 (m : (ℓ : Loc nD τ sig) → Buf (Elt F) ℓ) (c : Dev nD) :
    val5 (launchContents m c) (no_index (Proc.devRef .tc main_arg17)) = m ((c.tc : Thread nD τ).loc main_arg17) :=
  (val5_keep _ main_arg17 (by decide)).trans (val4_main_arg17 m c)

/-! ## Window 6: up to `main_v22` -/

/-- The operations of window 6. -/
abbrev win6 : List (HloOp τ sig (Elt F)) :=
  [
    unary main_v8 main_v10 (broadcastInDim S32768x16 ![0, 1] bcast_S1x16_S32768x16_0_1 : (⟨S1x16, .f32⟩ : BufTy).Contents (Elt F) → (⟨S32768x16, .f32⟩ : BufTy).Contents (Elt F)),
    binary main_v4 main_v10 main_v11 (subf : (⟨S32768x16, .f32⟩ : BufTy).Contents (Elt F) → (⟨S32768x16, .f32⟩ : BufTy).Contents (Elt F) → (⟨S32768x16, .f32⟩ : BufTy).Contents (Elt F)),
    nullary main_cst_1 (constant S_ .f32 0x3727C5AC#32),
    unary main_cst_1 main_v12 (broadcastInDim S1x16 ![] bcast_S_S1x16 : (⟨S_, .f32⟩ : BufTy).Contents (Elt F) → (⟨S1x16, .f32⟩ : BufTy).Contents (Elt F)),
    binary main_v9 main_v12 main_v13 (addf : (⟨S1x16, .f32⟩ : BufTy).Contents (Elt F) → (⟨S1x16, .f32⟩ : BufTy).Contents (Elt F) → (⟨S1x16, .f32⟩ : BufTy).Contents (Elt F)),
    unary main_v13 main_v14 (Host.sqrt : (⟨S1x16, .f32⟩ : BufTy).Contents (Elt F) → (⟨S1x16, .f32⟩ : BufTy).Contents (Elt F)),
    unary main_v14 main_v15 (broadcastInDim S32768x16 ![0, 1] bcast_S1x16_S32768x16_0_1 : (⟨S1x16, .f32⟩ : BufTy).Contents (Elt F) → (⟨S32768x16, .f32⟩ : BufTy).Contents (Elt F)),
    binary main_v11 main_v15 main_v16 (Host.divf : (⟨S32768x16, .f32⟩ : BufTy).Contents (Elt F) → (⟨S32768x16, .f32⟩ : BufTy).Contents (Elt F) → (⟨S32768x16, .f32⟩ : BufTy).Contents (Elt F)),
    unary main_arg4 main_v17 (broadcastInDim S1x16 ![1] bcast_S16_S1x16_1 : (⟨S16, .f32⟩ : BufTy).Contents (Elt F) → (⟨S1x16, .f32⟩ : BufTy).Contents (Elt F)),
    unary main_v17 main_v18 (broadcastInDim S32768x16 ![0, 1] bcast_S1x16_S32768x16_0_1 : (⟨S1x16, .f32⟩ : BufTy).Contents (Elt F) → (⟨S32768x16, .f32⟩ : BufTy).Contents (Elt F)),
    binary main_v16 main_v18 main_v19 (mulf : (⟨S32768x16, .f32⟩ : BufTy).Contents (Elt F) → (⟨S32768x16, .f32⟩ : BufTy).Contents (Elt F) → (⟨S32768x16, .f32⟩ : BufTy).Contents (Elt F)),
    unary main_arg5 main_v20 (broadcastInDim S1x16 ![1] bcast_S16_S1x16_1 : (⟨S16, .f32⟩ : BufTy).Contents (Elt F) → (⟨S1x16, .f32⟩ : BufTy).Contents (Elt F)),
    unary main_v20 main_v21 (broadcastInDim S32768x16 ![0, 1] bcast_S1x16_S32768x16_0_1 : (⟨S1x16, .f32⟩ : BufTy).Contents (Elt F) → (⟨S32768x16, .f32⟩ : BufTy).Contents (Elt F)),
    binary main_v19 main_v21 main_v22 (addf : (⟨S32768x16, .f32⟩ : BufTy).Contents (Elt F) → (⟨S32768x16, .f32⟩ : BufTy).Contents (Elt F) → (⟨S32768x16, .f32⟩ : BufTy).Contents (Elt F)) ]
/-- The buffers window 6 writes. -/
abbrev win6_W : List (Ref sig .tc) := [main_v10, main_v11, main_cst_1, main_v12, main_v13, main_v14, main_v15, main_v16, main_v17, main_v18, main_v19, main_v20, main_v21, main_v22]
theorem win6_writes : (win6 : List (HloOp τ sig (Elt F))).Forall fun op => op.writes ⊆ (win6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 6. -/
def val6 (V0 : Valuation τ sig (Elt F)) : Valuation τ sig (Elt F) := after win6 (val5 V0)
/-- A buffer window 6 does not write keeps its contents through it. -/
theorem val6_keep (V0 : Valuation τ sig (Elt F)) (r : Ref sig .tc) (h : r ∉ win6_W) :
    val6 V0 (Proc.devRef .tc r) = val5 V0 (Proc.devRef .tc r) :=
  after_of_writes_sub win6 _ win6_writes h
theorem val6_main_arg0 (m : (ℓ : Loc nD τ sig) → Buf (Elt F) ℓ) (c : Dev nD) :
    val6 (launchContents m c) (no_index (Proc.devRef .tc main_arg0)) = m ((c.tc : Thread nD τ).loc main_arg0) :=
  (val6_keep _ main_arg0 (by decide)).trans (val5_main_arg0 m c)
theorem val6_main_v22 (m : (ℓ : Loc nD τ sig) → Buf (Elt F) ℓ) (c : Dev nD) :
    val6 (launchContents m c) (no_index (Proc.devRef .tc main_v22)) = res_main_v22 m c := by
  unfold val6
  simp only [win6]
  after_results_simp
  all_goals (try simp only [val5_main_v4 m c, val5_main_v8 m c, val5_main_v9 m c, val5_main_arg4 m c, val5_main_arg5 m c])
  all_goals (try simp only [TRef.toBuf, TRef.ofBuf, cast_eq])
  all_goals rfl
theorem val6_main_arg6 (m : (ℓ : Loc nD τ sig) → Buf (Elt F) ℓ) (c : Dev nD) :
    val6 (launchContents m c) (no_index (Proc.devRef .tc main_arg6)) = m ((c.tc : Thread nD τ).loc main_arg6) :=
  (val6_keep _ main_arg6 (by decide)).trans (val5_main_arg6 m c)
theorem val6_main_arg7 (m : (ℓ : Loc nD τ sig) → Buf (Elt F) ℓ) (c : Dev nD) :
    val6 (launchContents m c) (no_index (Proc.devRef .tc main_arg7)) = m ((c.tc : Thread nD τ).loc main_arg7) :=
  (val6_keep _ main_arg7 (by decide)).trans (val5_main_arg7 m c)
theorem val6_main_arg8 (m : (ℓ : Loc nD τ sig) → Buf (Elt F) ℓ) (c : Dev nD) :
    val6 (launchContents m c) (no_index (Proc.devRef .tc main_arg8)) = m ((c.tc : Thread nD τ).loc main_arg8) :=
  (val6_keep _ main_arg8 (by decide)).trans (val5_main_arg8 m c)
theorem val6_main_arg9 (m : (ℓ : Loc nD τ sig) → Buf (Elt F) ℓ) (c : Dev nD) :
    val6 (launchContents m c) (no_index (Proc.devRef .tc main_arg9)) = m ((c.tc : Thread nD τ).loc main_arg9) :=
  (val6_keep _ main_arg9 (by decide)).trans (val5_main_arg9 m c)
theorem val6_main_arg1 (m : (ℓ : Loc nD τ sig) → Buf (Elt F) ℓ) (c : Dev nD) :
    val6 (launchContents m c) (no_index (Proc.devRef .tc main_arg1)) = m ((c.tc : Thread nD τ).loc main_arg1) :=
  (val6_keep _ main_arg1 (by decide)).trans (val5_main_arg1 m c)
theorem val6_main_arg10 (m : (ℓ : Loc nD τ sig) → Buf (Elt F) ℓ) (c : Dev nD) :
    val6 (launchContents m c) (no_index (Proc.devRef .tc main_arg10)) = m ((c.tc : Thread nD τ).loc main_arg10) :=
  (val6_keep _ main_arg10 (by decide)).trans (val5_main_arg10 m c)
theorem val6_main_arg11 (m : (ℓ : Loc nD τ sig) → Buf (Elt F) ℓ) (c : Dev nD) :
    val6 (launchContents m c) (no_index (Proc.devRef .tc main_arg11)) = m ((c.tc : Thread nD τ).loc main_arg11) :=
  (val6_keep _ main_arg11 (by decide)).trans (val5_main_arg11 m c)
theorem val6_main_arg12 (m : (ℓ : Loc nD τ sig) → Buf (Elt F) ℓ) (c : Dev nD) :
    val6 (launchContents m c) (no_index (Proc.devRef .tc main_arg12)) = m ((c.tc : Thread nD τ).loc main_arg12) :=
  (val6_keep _ main_arg12 (by decide)).trans (val5_main_arg12 m c)
theorem val6_main_arg13 (m : (ℓ : Loc nD τ sig) → Buf (Elt F) ℓ) (c : Dev nD) :
    val6 (launchContents m c) (no_index (Proc.devRef .tc main_arg13)) = m ((c.tc : Thread nD τ).loc main_arg13) :=
  (val6_keep _ main_arg13 (by decide)).trans (val5_main_arg13 m c)
theorem val6_main_arg14 (m : (ℓ : Loc nD τ sig) → Buf (Elt F) ℓ) (c : Dev nD) :
    val6 (launchContents m c) (no_index (Proc.devRef .tc main_arg14)) = m ((c.tc : Thread nD τ).loc main_arg14) :=
  (val6_keep _ main_arg14 (by decide)).trans (val5_main_arg14 m c)
theorem val6_main_arg15 (m : (ℓ : Loc nD τ sig) → Buf (Elt F) ℓ) (c : Dev nD) :
    val6 (launchContents m c) (no_index (Proc.devRef .tc main_arg15)) = m ((c.tc : Thread nD τ).loc main_arg15) :=
  (val6_keep _ main_arg15 (by decide)).trans (val5_main_arg15 m c)
theorem val6_main_arg16 (m : (ℓ : Loc nD τ sig) → Buf (Elt F) ℓ) (c : Dev nD) :
    val6 (launchContents m c) (no_index (Proc.devRef .tc main_arg16)) = m ((c.tc : Thread nD τ).loc main_arg16) :=
  (val6_keep _ main_arg16 (by decide)).trans (val5_main_arg16 m c)
theorem val6_main_arg17 (m : (ℓ : Loc nD τ sig) → Buf (Elt F) ℓ) (c : Dev nD) :
    val6 (launchContents m c) (no_index (Proc.devRef .tc main_arg17)) = m ((c.tc : Thread nD τ).loc main_arg17) :=
  (val6_keep _ main_arg17 (by decide)).trans (val5_main_arg17 m c)

/-! ## Window 7: up to `main_v23` -/

/-- The operations of window 7. -/
abbrev win7 : List (HloOp τ sig (Elt F)) :=
  [
    TRef.nullary main_call1.cst (constant S_ .f32 0x00000000#32),
    TRef.unary main_call1.cst main_call1.v0 (broadcastInDim S32768x16 ![] bcast_S_S32768x16),
    TRef.binary (.of main_v22 : TRef sig ⟨S32768x16, .f32⟩) main_call1.v0 main_call1.v1 maximumf ]
/-- The buffers window 7 writes. -/
abbrev win7_W : List (Ref sig .tc) := [main_call1_cst, main_call1_v0, main_v23]
theorem win7_writes : (win7 : List (HloOp τ sig (Elt F))).Forall fun op => op.writes ⊆ (win7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 7. -/
def val7 (V0 : Valuation τ sig (Elt F)) : Valuation τ sig (Elt F) := after win7 (val6 V0)
/-- A buffer window 7 does not write keeps its contents through it. -/
theorem val7_keep (V0 : Valuation τ sig (Elt F)) (r : Ref sig .tc) (h : r ∉ win7_W) :
    val7 V0 (Proc.devRef .tc r) = val6 V0 (Proc.devRef .tc r) :=
  after_of_writes_sub win7 _ win7_writes h
theorem val7_main_arg0 (m : (ℓ : Loc nD τ sig) → Buf (Elt F) ℓ) (c : Dev nD) :
    val7 (launchContents m c) (no_index (Proc.devRef .tc main_arg0)) = m ((c.tc : Thread nD τ).loc main_arg0) :=
  (val7_keep _ main_arg0 (by decide)).trans (val6_main_arg0 m c)
theorem val7_main_arg6 (m : (ℓ : Loc nD τ sig) → Buf (Elt F) ℓ) (c : Dev nD) :
    val7 (launchContents m c) (no_index (Proc.devRef .tc main_arg6)) = m ((c.tc : Thread nD τ).loc main_arg6) :=
  (val7_keep _ main_arg6 (by decide)).trans (val6_main_arg6 m c)
theorem val7_main_v23 (m : (ℓ : Loc nD τ sig) → Buf (Elt F) ℓ) (c : Dev nD) :
    val7 (launchContents m c) (no_index (Proc.devRef .tc main_v23)) = res_main_v23 m c := by
  unfold val7
  simp only [win7]
  after_results_simp
  all_goals (try simp only [val6_main_v22 m c])
  all_goals (try simp only [TRef.toBuf, TRef.ofBuf, cast_eq])
  all_goals rfl
theorem val7_main_arg7 (m : (ℓ : Loc nD τ sig) → Buf (Elt F) ℓ) (c : Dev nD) :
    val7 (launchContents m c) (no_index (Proc.devRef .tc main_arg7)) = m ((c.tc : Thread nD τ).loc main_arg7) :=
  (val7_keep _ main_arg7 (by decide)).trans (val6_main_arg7 m c)
theorem val7_main_arg8 (m : (ℓ : Loc nD τ sig) → Buf (Elt F) ℓ) (c : Dev nD) :
    val7 (launchContents m c) (no_index (Proc.devRef .tc main_arg8)) = m ((c.tc : Thread nD τ).loc main_arg8) :=
  (val7_keep _ main_arg8 (by decide)).trans (val6_main_arg8 m c)
theorem val7_main_arg9 (m : (ℓ : Loc nD τ sig) → Buf (Elt F) ℓ) (c : Dev nD) :
    val7 (launchContents m c) (no_index (Proc.devRef .tc main_arg9)) = m ((c.tc : Thread nD τ).loc main_arg9) :=
  (val7_keep _ main_arg9 (by decide)).trans (val6_main_arg9 m c)
theorem val7_main_arg1 (m : (ℓ : Loc nD τ sig) → Buf (Elt F) ℓ) (c : Dev nD) :
    val7 (launchContents m c) (no_index (Proc.devRef .tc main_arg1)) = m ((c.tc : Thread nD τ).loc main_arg1) :=
  (val7_keep _ main_arg1 (by decide)).trans (val6_main_arg1 m c)
theorem val7_main_arg10 (m : (ℓ : Loc nD τ sig) → Buf (Elt F) ℓ) (c : Dev nD) :
    val7 (launchContents m c) (no_index (Proc.devRef .tc main_arg10)) = m ((c.tc : Thread nD τ).loc main_arg10) :=
  (val7_keep _ main_arg10 (by decide)).trans (val6_main_arg10 m c)
theorem val7_main_arg11 (m : (ℓ : Loc nD τ sig) → Buf (Elt F) ℓ) (c : Dev nD) :
    val7 (launchContents m c) (no_index (Proc.devRef .tc main_arg11)) = m ((c.tc : Thread nD τ).loc main_arg11) :=
  (val7_keep _ main_arg11 (by decide)).trans (val6_main_arg11 m c)
theorem val7_main_arg12 (m : (ℓ : Loc nD τ sig) → Buf (Elt F) ℓ) (c : Dev nD) :
    val7 (launchContents m c) (no_index (Proc.devRef .tc main_arg12)) = m ((c.tc : Thread nD τ).loc main_arg12) :=
  (val7_keep _ main_arg12 (by decide)).trans (val6_main_arg12 m c)
theorem val7_main_arg13 (m : (ℓ : Loc nD τ sig) → Buf (Elt F) ℓ) (c : Dev nD) :
    val7 (launchContents m c) (no_index (Proc.devRef .tc main_arg13)) = m ((c.tc : Thread nD τ).loc main_arg13) :=
  (val7_keep _ main_arg13 (by decide)).trans (val6_main_arg13 m c)
theorem val7_main_arg14 (m : (ℓ : Loc nD τ sig) → Buf (Elt F) ℓ) (c : Dev nD) :
    val7 (launchContents m c) (no_index (Proc.devRef .tc main_arg14)) = m ((c.tc : Thread nD τ).loc main_arg14) :=
  (val7_keep _ main_arg14 (by decide)).trans (val6_main_arg14 m c)
theorem val7_main_arg15 (m : (ℓ : Loc nD τ sig) → Buf (Elt F) ℓ) (c : Dev nD) :
    val7 (launchContents m c) (no_index (Proc.devRef .tc main_arg15)) = m ((c.tc : Thread nD τ).loc main_arg15) :=
  (val7_keep _ main_arg15 (by decide)).trans (val6_main_arg15 m c)
theorem val7_main_arg16 (m : (ℓ : Loc nD τ sig) → Buf (Elt F) ℓ) (c : Dev nD) :
    val7 (launchContents m c) (no_index (Proc.devRef .tc main_arg16)) = m ((c.tc : Thread nD τ).loc main_arg16) :=
  (val7_keep _ main_arg16 (by decide)).trans (val6_main_arg16 m c)
theorem val7_main_arg17 (m : (ℓ : Loc nD τ sig) → Buf (Elt F) ℓ) (c : Dev nD) :
    val7 (launchContents m c) (no_index (Proc.devRef .tc main_arg17)) = m ((c.tc : Thread nD τ).loc main_arg17) :=
  (val7_keep _ main_arg17 (by decide)).trans (val6_main_arg17 m c)

/-! ## Window 8: up to `main_v28` -/

/-- The operations of window 8. -/
abbrev win8 : List (HloOp τ sig (Elt F)) :=
  [
    unary main_arg6 main_v24 ((transpose S16x1 [1, 0] · transposes_S1x16_S16x1_1_0) : (⟨S1x16, .f32⟩ : BufTy).Contents (Elt F) → (⟨S16x1, .f32⟩ : BufTy).Contents (Elt F)),
    binary main_v23 main_v24 main_v25 ((fun l r => Host.dotGeneral dot_S32768x16_S16x1_S32768x1_1_0_0_1_n_n none l r) : (⟨S32768x16, .f32⟩ : BufTy).Contents (Elt F) → (⟨S16x1, .f32⟩ : BufTy).Contents (Elt F) → (⟨S32768x1, .f32⟩ : BufTy).Contents (Elt F)),
    unary main_arg7 main_v26 (broadcastInDim S1x1 ![1] bcast_S1_S1x1_1 : (⟨S1, .f32⟩ : BufTy).Contents (Elt F) → (⟨S1x1, .f32⟩ : BufTy).Contents (Elt F)),
    unary main_v26 main_v27 (broadcastInDim S32768x1 ![0, 1] bcast_S1x1_S32768x1_0_1 : (⟨S1x1, .f32⟩ : BufTy).Contents (Elt F) → (⟨S32768x1, .f32⟩ : BufTy).Contents (Elt F)),
    binary main_v25 main_v27 main_v28 (addf : (⟨S32768x1, .f32⟩ : BufTy).Contents (Elt F) → (⟨S32768x1, .f32⟩ : BufTy).Contents (Elt F) → (⟨S32768x1, .f32⟩ : BufTy).Contents (Elt F)) ]
/-- The buffers window 8 writes. -/
abbrev win8_W : List (Ref sig .tc) := [main_v24, main_v25, main_v26, main_v27, main_v28]
theorem win8_writes : (win8 : List (HloOp τ sig (Elt F))).Forall fun op => op.writes ⊆ (win8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 8. -/
def val8 (V0 : Valuation τ sig (Elt F)) : Valuation τ sig (Elt F) := after win8 (val7 V0)
/-- A buffer window 8 does not write keeps its contents through it. -/
theorem val8_keep (V0 : Valuation τ sig (Elt F)) (r : Ref sig .tc) (h : r ∉ win8_W) :
    val8 V0 (Proc.devRef .tc r) = val7 V0 (Proc.devRef .tc r) :=
  after_of_writes_sub win8 _ win8_writes h
theorem val8_main_arg0 (m : (ℓ : Loc nD τ sig) → Buf (Elt F) ℓ) (c : Dev nD) :
    val8 (launchContents m c) (no_index (Proc.devRef .tc main_arg0)) = m ((c.tc : Thread nD τ).loc main_arg0) :=
  (val8_keep _ main_arg0 (by decide)).trans (val7_main_arg0 m c)
theorem val8_main_v28 (m : (ℓ : Loc nD τ sig) → Buf (Elt F) ℓ) (c : Dev nD) :
    val8 (launchContents m c) (no_index (Proc.devRef .tc main_v28)) = res_main_v28 m c := by
  unfold val8
  simp only [win8]
  after_results_simp
  all_goals (try simp only [val7_main_arg6 m c, val7_main_v23 m c, val7_main_arg7 m c])
  all_goals (try simp only [TRef.toBuf, TRef.ofBuf, cast_eq])
  all_goals rfl
theorem val8_main_arg8 (m : (ℓ : Loc nD τ sig) → Buf (Elt F) ℓ) (c : Dev nD) :
    val8 (launchContents m c) (no_index (Proc.devRef .tc main_arg8)) = m ((c.tc : Thread nD τ).loc main_arg8) :=
  (val8_keep _ main_arg8 (by decide)).trans (val7_main_arg8 m c)
theorem val8_main_arg9 (m : (ℓ : Loc nD τ sig) → Buf (Elt F) ℓ) (c : Dev nD) :
    val8 (launchContents m c) (no_index (Proc.devRef .tc main_arg9)) = m ((c.tc : Thread nD τ).loc main_arg9) :=
  (val8_keep _ main_arg9 (by decide)).trans (val7_main_arg9 m c)
theorem val8_main_arg1 (m : (ℓ : Loc nD τ sig) → Buf (Elt F) ℓ) (c : Dev nD) :
    val8 (launchContents m c) (no_index (Proc.devRef .tc main_arg1)) = m ((c.tc : Thread nD τ).loc main_arg1) :=
  (val8_keep _ main_arg1 (by decide)).trans (val7_main_arg1 m c)
theorem val8_main_arg10 (m : (ℓ : Loc nD τ sig) → Buf (Elt F) ℓ) (c : Dev nD) :
    val8 (launchContents m c) (no_index (Proc.devRef .tc main_arg10)) = m ((c.tc : Thread nD τ).loc main_arg10) :=
  (val8_keep _ main_arg10 (by decide)).trans (val7_main_arg10 m c)
theorem val8_main_arg11 (m : (ℓ : Loc nD τ sig) → Buf (Elt F) ℓ) (c : Dev nD) :
    val8 (launchContents m c) (no_index (Proc.devRef .tc main_arg11)) = m ((c.tc : Thread nD τ).loc main_arg11) :=
  (val8_keep _ main_arg11 (by decide)).trans (val7_main_arg11 m c)
theorem val8_main_arg12 (m : (ℓ : Loc nD τ sig) → Buf (Elt F) ℓ) (c : Dev nD) :
    val8 (launchContents m c) (no_index (Proc.devRef .tc main_arg12)) = m ((c.tc : Thread nD τ).loc main_arg12) :=
  (val8_keep _ main_arg12 (by decide)).trans (val7_main_arg12 m c)
theorem val8_main_arg13 (m : (ℓ : Loc nD τ sig) → Buf (Elt F) ℓ) (c : Dev nD) :
    val8 (launchContents m c) (no_index (Proc.devRef .tc main_arg13)) = m ((c.tc : Thread nD τ).loc main_arg13) :=
  (val8_keep _ main_arg13 (by decide)).trans (val7_main_arg13 m c)
theorem val8_main_arg14 (m : (ℓ : Loc nD τ sig) → Buf (Elt F) ℓ) (c : Dev nD) :
    val8 (launchContents m c) (no_index (Proc.devRef .tc main_arg14)) = m ((c.tc : Thread nD τ).loc main_arg14) :=
  (val8_keep _ main_arg14 (by decide)).trans (val7_main_arg14 m c)
theorem val8_main_arg15 (m : (ℓ : Loc nD τ sig) → Buf (Elt F) ℓ) (c : Dev nD) :
    val8 (launchContents m c) (no_index (Proc.devRef .tc main_arg15)) = m ((c.tc : Thread nD τ).loc main_arg15) :=
  (val8_keep _ main_arg15 (by decide)).trans (val7_main_arg15 m c)
theorem val8_main_arg16 (m : (ℓ : Loc nD τ sig) → Buf (Elt F) ℓ) (c : Dev nD) :
    val8 (launchContents m c) (no_index (Proc.devRef .tc main_arg16)) = m ((c.tc : Thread nD τ).loc main_arg16) :=
  (val8_keep _ main_arg16 (by decide)).trans (val7_main_arg16 m c)
theorem val8_main_arg17 (m : (ℓ : Loc nD τ sig) → Buf (Elt F) ℓ) (c : Dev nD) :
    val8 (launchContents m c) (no_index (Proc.devRef .tc main_arg17)) = m ((c.tc : Thread nD τ).loc main_arg17) :=
  (val8_keep _ main_arg17 (by decide)).trans (val7_main_arg17 m c)

/-! ## Window 9: up to `main_v32` -/

/-- The operations of window 9. -/
abbrev win9 : List (HloOp τ sig (Elt F)) :=
  [
    nullary main_cst_2 (constant S_ .f32 0x00000000#32),
    binary main_v28 main_cst_2 main_v29 ((fun x v => Host.reduceAdd x v reducesTo_S32768x1_S1_d0 h_S_) : (⟨S32768x1, .f32⟩ : BufTy).Contents (Elt F) → (⟨S_, .f32⟩ : BufTy).Contents (Elt F) → (⟨S1, .f32⟩ : BufTy).Contents (Elt F)),
    unary main_v29 main_v30 (broadcastInDim S1x1 ![1] bcast_S1_S1x1_1 : (⟨S1, .f32⟩ : BufTy).Contents (Elt F) → (⟨S1x1, .f32⟩ : BufTy).Contents (Elt F)),
    nullary main_cst_3 (constant S_ .f32 0x47000000#32),
    unary main_cst_3 main_v31 (broadcastInDim S1x1 ![] bcast_S_S1x1 : (⟨S_, .f32⟩ : BufTy).Contents (Elt F) → (⟨S1x1, .f32⟩ : BufTy).Contents (Elt F)),
    binary main_v30 main_v31 main_v32 (Host.divf : (⟨S1x1, .f32⟩ : BufTy).Contents (Elt F) → (⟨S1x1, .f32⟩ : BufTy).Contents (Elt F) → (⟨S1x1, .f32⟩ : BufTy).Contents (Elt F)) ]
/-- The buffers window 9 writes. -/
abbrev win9_W : List (Ref sig .tc) := [main_cst_2, main_v29, main_v30, main_cst_3, main_v31, main_v32]
theorem win9_writes : (win9 : List (HloOp τ sig (Elt F))).Forall fun op => op.writes ⊆ (win9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 9. -/
def val9 (V0 : Valuation τ sig (Elt F)) : Valuation τ sig (Elt F) := after win9 (val8 V0)
/-- A buffer window 9 does not write keeps its contents through it. -/
theorem val9_keep (V0 : Valuation τ sig (Elt F)) (r : Ref sig .tc) (h : r ∉ win9_W) :
    val9 V0 (Proc.devRef .tc r) = val8 V0 (Proc.devRef .tc r) :=
  after_of_writes_sub win9 _ win9_writes h
theorem val9_main_arg0 (m : (ℓ : Loc nD τ sig) → Buf (Elt F) ℓ) (c : Dev nD) :
    val9 (launchContents m c) (no_index (Proc.devRef .tc main_arg0)) = m ((c.tc : Thread nD τ).loc main_arg0) :=
  (val9_keep _ main_arg0 (by decide)).trans (val8_main_arg0 m c)
theorem val9_main_v28 (m : (ℓ : Loc nD τ sig) → Buf (Elt F) ℓ) (c : Dev nD) :
    val9 (launchContents m c) (no_index (Proc.devRef .tc main_v28)) = res_main_v28 m c :=
  (val9_keep _ main_v28 (by decide)).trans (val8_main_v28 m c)
theorem val9_main_v32 (m : (ℓ : Loc nD τ sig) → Buf (Elt F) ℓ) (c : Dev nD) :
    val9 (launchContents m c) (no_index (Proc.devRef .tc main_v32)) = res_main_v32 m c := by
  unfold val9
  simp only [win9]
  after_results_simp
  all_goals (try simp only [val8_main_v28 m c])
  all_goals (try simp only [TRef.toBuf, TRef.ofBuf, cast_eq])
  all_goals rfl
theorem val9_main_arg8 (m : (ℓ : Loc nD τ sig) → Buf (Elt F) ℓ) (c : Dev nD) :
    val9 (launchContents m c) (no_index (Proc.devRef .tc main_arg8)) = m ((c.tc : Thread nD τ).loc main_arg8) :=
  (val9_keep _ main_arg8 (by decide)).trans (val8_main_arg8 m c)
theorem val9_main_arg9 (m : (ℓ : Loc nD τ sig) → Buf (Elt F) ℓ) (c : Dev nD) :
    val9 (launchContents m c) (no_index (Proc.devRef .tc main_arg9)) = m ((c.tc : Thread nD τ).loc main_arg9) :=
  (val9_keep _ main_arg9 (by decide)).trans (val8_main_arg9 m c)
theorem val9_main_arg1 (m : (ℓ : Loc nD τ sig) → Buf (Elt F) ℓ) (c : Dev nD) :
    val9 (launchContents m c) (no_index (Proc.devRef .tc main_arg1)) = m ((c.tc : Thread nD τ).loc main_arg1) :=
  (val9_keep _ main_arg1 (by decide)).trans (val8_main_arg1 m c)
theorem val9_main_arg10 (m : (ℓ : Loc nD τ sig) → Buf (Elt F) ℓ) (c : Dev nD) :
    val9 (launchContents m c) (no_index (Proc.devRef .tc main_arg10)) = m ((c.tc : Thread nD τ).loc main_arg10) :=
  (val9_keep _ main_arg10 (by decide)).trans (val8_main_arg10 m c)
theorem val9_main_arg11 (m : (ℓ : Loc nD τ sig) → Buf (Elt F) ℓ) (c : Dev nD) :
    val9 (launchContents m c) (no_index (Proc.devRef .tc main_arg11)) = m ((c.tc : Thread nD τ).loc main_arg11) :=
  (val9_keep _ main_arg11 (by decide)).trans (val8_main_arg11 m c)
theorem val9_main_arg12 (m : (ℓ : Loc nD τ sig) → Buf (Elt F) ℓ) (c : Dev nD) :
    val9 (launchContents m c) (no_index (Proc.devRef .tc main_arg12)) = m ((c.tc : Thread nD τ).loc main_arg12) :=
  (val9_keep _ main_arg12 (by decide)).trans (val8_main_arg12 m c)
theorem val9_main_arg13 (m : (ℓ : Loc nD τ sig) → Buf (Elt F) ℓ) (c : Dev nD) :
    val9 (launchContents m c) (no_index (Proc.devRef .tc main_arg13)) = m ((c.tc : Thread nD τ).loc main_arg13) :=
  (val9_keep _ main_arg13 (by decide)).trans (val8_main_arg13 m c)
theorem val9_main_arg14 (m : (ℓ : Loc nD τ sig) → Buf (Elt F) ℓ) (c : Dev nD) :
    val9 (launchContents m c) (no_index (Proc.devRef .tc main_arg14)) = m ((c.tc : Thread nD τ).loc main_arg14) :=
  (val9_keep _ main_arg14 (by decide)).trans (val8_main_arg14 m c)
theorem val9_main_arg15 (m : (ℓ : Loc nD τ sig) → Buf (Elt F) ℓ) (c : Dev nD) :
    val9 (launchContents m c) (no_index (Proc.devRef .tc main_arg15)) = m ((c.tc : Thread nD τ).loc main_arg15) :=
  (val9_keep _ main_arg15 (by decide)).trans (val8_main_arg15 m c)
theorem val9_main_arg16 (m : (ℓ : Loc nD τ sig) → Buf (Elt F) ℓ) (c : Dev nD) :
    val9 (launchContents m c) (no_index (Proc.devRef .tc main_arg16)) = m ((c.tc : Thread nD τ).loc main_arg16) :=
  (val9_keep _ main_arg16 (by decide)).trans (val8_main_arg16 m c)
theorem val9_main_arg17 (m : (ℓ : Loc nD τ sig) → Buf (Elt F) ℓ) (c : Dev nD) :
    val9 (launchContents m c) (no_index (Proc.devRef .tc main_arg17)) = m ((c.tc : Thread nD τ).loc main_arg17) :=
  (val9_keep _ main_arg17 (by decide)).trans (val8_main_arg17 m c)

/-! ## Window 10: up to `main_call2_v5` -/

/-- The operations of window 10. -/
abbrev win10 : List (HloOp τ sig (Elt F)) :=
  [
    nullary main_c_4 (constantI S_ 32 0#32),
    TRef.nullary main_call2.cst (constant S_ .f32 0x00000000#32),
    TRef.binary (.of main_v28 : TRef sig ⟨S32768x1, .f32⟩) main_call2.cst main_call2.v0 (fun x v => Host.reduceAdd x v reducesTo_S32768x1_S1_d0 h_S_),
    TRef.unary main_call2.v0 main_call2.v1 (broadcastInDim S1x1 ![1] bcast_S1_S1x1_1),
    TRef.nullary main_call2.cst_0 (constant S_ .f32 0x47000000#32),
    TRef.unary main_call2.cst_0 main_call2.v2 (broadcastInDim S1x1 ![] bcast_S_S1x1),
    TRef.binary main_call2.v1 main_call2.v2 main_call2.v3 Host.divf,
    TRef.unary main_call2.v3 main_call2.v4 (broadcastInDim S32768x1 ![0, 1] bcast_S1x1_S32768x1_0_1),
    TRef.binary (.of main_v28 : TRef sig ⟨S32768x1, .f32⟩) main_call2.v4 main_call2.v5 subf ]
/-- The buffers window 10 writes. -/
abbrev win10_W : List (Ref sig .tc) := [main_c_4, main_call2_cst, main_call2_v0, main_call2_v1, main_call2_cst_0, main_call2_v2, main_call2_v3, main_call2_v4, main_call2_v5]
theorem win10_writes : (win10 : List (HloOp τ sig (Elt F))).Forall fun op => op.writes ⊆ (win10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 10. -/
def val10 (V0 : Valuation τ sig (Elt F)) : Valuation τ sig (Elt F) := after win10 (val9 V0)
/-- A buffer window 10 does not write keeps its contents through it. -/
theorem val10_keep (V0 : Valuation τ sig (Elt F)) (r : Ref sig .tc) (h : r ∉ win10_W) :
    val10 V0 (Proc.devRef .tc r) = val9 V0 (Proc.devRef .tc r) :=
  after_of_writes_sub win10 _ win10_writes h
theorem val10_main_arg0 (m : (ℓ : Loc nD τ sig) → Buf (Elt F) ℓ) (c : Dev nD) :
    val10 (launchContents m c) (no_index (Proc.devRef .tc main_arg0)) = m ((c.tc : Thread nD τ).loc main_arg0) :=
  (val10_keep _ main_arg0 (by decide)).trans (val9_main_arg0 m c)
theorem val10_main_v28 (m : (ℓ : Loc nD τ sig) → Buf (Elt F) ℓ) (c : Dev nD) :
    val10 (launchContents m c) (no_index (Proc.devRef .tc main_v28)) = res_main_v28 m c :=
  (val10_keep _ main_v28 (by decide)).trans (val9_main_v28 m c)
theorem val10_main_call2_v5 (m : (ℓ : Loc nD τ sig) → Buf (Elt F) ℓ) (c : Dev nD) :
    val10 (launchContents m c) (no_index (Proc.devRef .tc main_call2_v5)) = res_main_call2_v5 m c := by
  unfold val10
  simp only [win10]
  after_results_simp
  all_goals (try simp only [val9_main_v28 m c])
  all_goals (try simp only [TRef.toBuf, TRef.ofBuf, cast_eq])
  all_goals rfl
theorem val10_main_c_4 (m : (ℓ : Loc nD τ sig) → Buf (Elt F) ℓ) (c : Dev nD) :
    val10 (launchContents m c) (no_index (Proc.devRef .tc main_c_4)) = constantI S_ 32 0#32 := by
  unfold val10
  simp only [win10]
  after_results_simp
  all_goals (try simp only [val9_main_v28 m c])
  all_goals (try simp only [TRef.toBuf, TRef.ofBuf, cast_eq])
  all_goals rfl
theorem val10_main_v32 (m : (ℓ : Loc nD τ sig) → Buf (Elt F) ℓ) (c : Dev nD) :
    val10 (launchContents m c) (no_index (Proc.devRef .tc main_v32)) = res_main_v32 m c :=
  (val10_keep _ main_v32 (by decide)).trans (val9_main_v32 m c)
theorem val10_main_arg8 (m : (ℓ : Loc nD τ sig) → Buf (Elt F) ℓ) (c : Dev nD) :
    val10 (launchContents m c) (no_index (Proc.devRef .tc main_arg8)) = m ((c.tc : Thread nD τ).loc main_arg8) :=
  (val10_keep _ main_arg8 (by decide)).trans (val9_main_arg8 m c)
theorem val10_main_arg9 (m : (ℓ : Loc nD τ sig) → Buf (Elt F) ℓ) (c : Dev nD) :
    val10 (launchContents m c) (no_index (Proc.devRef .tc main_arg9)) = m ((c.tc : Thread nD τ).loc main_arg9) :=
  (val10_keep _ main_arg9 (by decide)).trans (val9_main_arg9 m c)
theorem val10_main_arg1 (m : (ℓ : Loc nD τ sig) → Buf (Elt F) ℓ) (c : Dev nD) :
    val10 (launchContents m c) (no_index (Proc.devRef .tc main_arg1)) = m ((c.tc : Thread nD τ).loc main_arg1) :=
  (val10_keep _ main_arg1 (by decide)).trans (val9_main_arg1 m c)
theorem val10_main_arg10 (m : (ℓ : Loc nD τ sig) → Buf (Elt F) ℓ) (c : Dev nD) :
    val10 (launchContents m c) (no_index (Proc.devRef .tc main_arg10)) = m ((c.tc : Thread nD τ).loc main_arg10) :=
  (val10_keep _ main_arg10 (by decide)).trans (val9_main_arg10 m c)
theorem val10_main_arg11 (m : (ℓ : Loc nD τ sig) → Buf (Elt F) ℓ) (c : Dev nD) :
    val10 (launchContents m c) (no_index (Proc.devRef .tc main_arg11)) = m ((c.tc : Thread nD τ).loc main_arg11) :=
  (val10_keep _ main_arg11 (by decide)).trans (val9_main_arg11 m c)
theorem val10_main_arg12 (m : (ℓ : Loc nD τ sig) → Buf (Elt F) ℓ) (c : Dev nD) :
    val10 (launchContents m c) (no_index (Proc.devRef .tc main_arg12)) = m ((c.tc : Thread nD τ).loc main_arg12) :=
  (val10_keep _ main_arg12 (by decide)).trans (val9_main_arg12 m c)
theorem val10_main_arg13 (m : (ℓ : Loc nD τ sig) → Buf (Elt F) ℓ) (c : Dev nD) :
    val10 (launchContents m c) (no_index (Proc.devRef .tc main_arg13)) = m ((c.tc : Thread nD τ).loc main_arg13) :=
  (val10_keep _ main_arg13 (by decide)).trans (val9_main_arg13 m c)
theorem val10_main_arg14 (m : (ℓ : Loc nD τ sig) → Buf (Elt F) ℓ) (c : Dev nD) :
    val10 (launchContents m c) (no_index (Proc.devRef .tc main_arg14)) = m ((c.tc : Thread nD τ).loc main_arg14) :=
  (val10_keep _ main_arg14 (by decide)).trans (val9_main_arg14 m c)
theorem val10_main_arg15 (m : (ℓ : Loc nD τ sig) → Buf (Elt F) ℓ) (c : Dev nD) :
    val10 (launchContents m c) (no_index (Proc.devRef .tc main_arg15)) = m ((c.tc : Thread nD τ).loc main_arg15) :=
  (val10_keep _ main_arg15 (by decide)).trans (val9_main_arg15 m c)
theorem val10_main_arg16 (m : (ℓ : Loc nD τ sig) → Buf (Elt F) ℓ) (c : Dev nD) :
    val10 (launchContents m c) (no_index (Proc.devRef .tc main_arg16)) = m ((c.tc : Thread nD τ).loc main_arg16) :=
  (val10_keep _ main_arg16 (by decide)).trans (val9_main_arg16 m c)
theorem val10_main_arg17 (m : (ℓ : Loc nD τ sig) → Buf (Elt F) ℓ) (c : Dev nD) :
    val10 (launchContents m c) (no_index (Proc.devRef .tc main_arg17)) = m ((c.tc : Thread nD τ).loc main_arg17) :=
  (val10_keep _ main_arg17 (by decide)).trans (val9_main_arg17 m c)

end Cert.ReferenceIdeal.RDRun

end
-- ==== Proof.RDRun2.lean ====
/- The reference's run read back, part 2: windows 11 to 20 of its operations, cut at the named values; after each window every
   buffer still to be read holds its term of the argument arrays. -/
import proofs.«116939_g89575837925665_cont_sun_c4_16_12_alg».proof.Proof.RDRun1

noncomputable section

namespace Cert.ReferenceIdeal.RDRun

open Cert.ReferenceIdeal Cert.ReferenceIdeal.Gen Cert.ReferenceIdeal.RefRun Cert.ReferenceIdeal.RefRunT Idealize.ShloMosaic Idealize.ShloMosaic.TcCoe
  Idealize.SL.Sem Idealize.ShloMosaic.StableHlo

variable {F : FTy → Type} [FloatOps F]

/-! ## Window 11: up to `main_call2_v8` -/

/-- The operations of window 11. -/
abbrev win11 : List (HloOp τ sig (Elt F)) :=
  [
    TRef.binary main_call2.v5 main_call2.v5 main_call2.v6 mulf,
    TRef.unary (.of main_c_4 : TRef sig ⟨S_, .i32⟩) main_call2.v7 (sitofp .f32),
    TRef.nullary main_call2.cst_1 (constant S_ .f32 0x47000000#32),
    TRef.binary main_call2.cst_1 main_call2.v7 main_call2.v8 subf ]
/-- The buffers window 11 writes. -/
abbrev win11_W : List (Ref sig .tc) := [main_call2_v6, main_call2_v7, main_call2_cst_1, main_call2_v8]
theorem win11_writes : (win11 : List (HloOp τ sig (Elt F))).Forall fun op => op.writes ⊆ (win11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 11. -/
def val11 (V0 : Valuation τ sig (Elt F)) : Valuation τ sig (Elt F) := after win11 (val10 V0)
/-- A buffer window 11 does not write keeps its contents through it. -/
theorem val11_keep (V0 : Valuation τ sig (Elt F)) (r : Ref sig .tc) (h : r ∉ win11_W) :
    val11 V0 (Proc.devRef .tc r) = val10 V0 (Proc.devRef .tc r) :=
  after_of_writes_sub win11 _ win11_writes h
theorem val11_main_arg0 (m : (ℓ : Loc nD τ sig) → Buf (Elt F) ℓ) (c : Dev nD) :
    val11 (launchContents m c) (no_index (Proc.devRef .tc main_arg0)) = m ((c.tc : Thread nD τ).loc main_arg0) :=
  (val11_keep _ main_arg0 (by decide)).trans (val10_main_arg0 m c)
theorem val11_main_v28 (m : (ℓ : Loc nD τ sig) → Buf (Elt F) ℓ) (c : Dev nD) :
    val11 (launchContents m c) (no_index (Proc.devRef .tc main_v28)) = res_main_v28 m c :=
  (val11_keep _ main_v28 (by decide)).trans (val10_main_v28 m c)
theorem val11_main_call2_v6 (m : (ℓ : Loc nD τ sig) → Buf (Elt F) ℓ) (c : Dev nD) :
    val11 (launchContents m c) (no_index (Proc.devRef .tc main_call2_v6)) = (mulf) (res_main_call2_v5 m c) (res_main_call2_v5 m c) := by
  unfold val11
  simp only [win11]
  after_results_simp
  all_goals (try simp only [val10_main_call2_v5 m c, val10_main_c_4 m c])
  all_goals (try simp only [TRef.toBuf, TRef.ofBuf, cast_eq])
  all_goals rfl
theorem val11_main_call2_v8 (m : (ℓ : Loc nD τ sig) → Buf (Elt F) ℓ) (c : Dev nD) :
    val11 (launchContents m c) (no_index (Proc.devRef .tc main_call2_v8)) = res_main_call2_v8 m c := by
  unfold val11
  simp only [win11]
  after_results_simp
  all_goals (try simp only [val10_main_call2_v5 m c, val10_main_c_4 m c])
  all_goals (try simp only [TRef.toBuf, TRef.ofBuf, cast_eq])
  all_goals rfl
theorem val11_main_v32 (m : (ℓ : Loc nD τ sig) → Buf (Elt F) ℓ) (c : Dev nD) :
    val11 (launchContents m c) (no_index (Proc.devRef .tc main_v32)) = res_main_v32 m c :=
  (val11_keep _ main_v32 (by decide)).trans (val10_main_v32 m c)
theorem val11_main_arg8 (m : (ℓ : Loc nD τ sig) → Buf (Elt F) ℓ) (c : Dev nD) :
    val11 (launchContents m c) (no_index (Proc.devRef .tc main_arg8)) = m ((c.tc : Thread nD τ).loc main_arg8) :=
  (val11_keep _ main_arg8 (by decide)).trans (val10_main_arg8 m c)
theorem val11_main_arg9 (m : (ℓ : Loc nD τ sig) → Buf (Elt F) ℓ) (c : Dev nD) :
    val11 (launchContents m c) (no_index (Proc.devRef .tc main_arg9)) = m ((c.tc : Thread nD τ).loc main_arg9) :=
  (val11_keep _ main_arg9 (by decide)).trans (val10_main_arg9 m c)
theorem val11_main_arg1 (m : (ℓ : Loc nD τ sig) → Buf (Elt F) ℓ) (c : Dev nD) :
    val11 (launchContents m c) (no_index (Proc.devRef .tc main_arg1)) = m ((c.tc : Thread nD τ).loc main_arg1) :=
  (val11_keep _ main_arg1 (by decide)).trans (val10_main_arg1 m c)
theorem val11_main_arg10 (m : (ℓ : Loc nD τ sig) → Buf (Elt F) ℓ) (c : Dev nD) :
    val11 (launchContents m c) (no_index (Proc.devRef .tc main_arg10)) = m ((c.tc : Thread nD τ).loc main_arg10) :=
  (val11_keep _ main_arg10 (by decide)).trans (val10_main_arg10 m c)
theorem val11_main_arg11 (m : (ℓ : Loc nD τ sig) → Buf (Elt F) ℓ) (c : Dev nD) :
    val11 (launchContents m c) (no_index (Proc.devRef .tc main_arg11)) = m ((c.tc : Thread nD τ).loc main_arg11) :=
  (val11_keep _ main_arg11 (by decide)).trans (val10_main_arg11 m c)
theorem val11_main_arg12 (m : (ℓ : Loc nD τ sig) → Buf (Elt F) ℓ) (c : Dev nD) :
    val11 (launchContents m c) (no_index (Proc.devRef .tc main_arg12)) = m ((c.tc : Thread nD τ).loc main_arg12) :=
  (val11_keep _ main_arg12 (by decide)).trans (val10_main_arg12 m c)
theorem val11_main_arg13 (m : (ℓ : Loc nD τ sig) → Buf (Elt F) ℓ) (c : Dev nD) :
    val11 (launchContents m c) (no_index (Proc.devRef .tc main_arg13)) = m ((c.tc : Thread nD τ).loc main_arg13) :=
  (val11_keep _ main_arg13 (by decide)).trans (val10_main_arg13 m c)
theorem val11_main_arg14 (m : (ℓ : Loc nD τ sig) → Buf (Elt F) ℓ) (c : Dev nD) :
    val11 (launchContents m c) (no_index (Proc.devRef .tc main_arg14)) = m ((c.tc : Thread nD τ).loc main_arg14) :=
  (val11_keep _ main_arg14 (by decide)).trans (val10_main_arg14 m c)
theorem val11_main_arg15 (m : (ℓ : Loc nD τ sig) → Buf (Elt F) ℓ) (c : Dev nD) :
    val11 (launchContents m c) (no_index (Proc.devRef .tc main_arg15)) = m ((c.tc : Thread nD τ).loc main_arg15) :=
  (val11_keep _ main_arg15 (by decide)).trans (val10_main_arg15 m c)
theorem val11_main_arg16 (m : (ℓ : Loc nD τ sig) → Buf (Elt F) ℓ) (c : Dev nD) :
    val11 (launchContents m c) (no_index (Proc.devRef .tc main_arg16)) = m ((c.tc : Thread nD τ).loc main_arg16) :=
  (val11_keep _ main_arg16 (by decide)).trans (val10_main_arg16 m c)
theorem val11_main_arg17 (m : (ℓ : Loc nD τ sig) → Buf (Elt F) ℓ) (c : Dev nD) :
    val11 (launchContents m c) (no_index (Proc.devRef .tc main_arg17)) = m ((c.tc : Thread nD τ).loc main_arg17) :=
  (val11_keep _ main_arg17 (by decide)).trans (val10_main_arg17 m c)

/-! ## Window 12: up to `main_v33` -/

/-- The operations of window 12. -/
abbrev win12 : List (HloOp τ sig (Elt F)) :=
  [
    TRef.nullary main_call2.cst_2 (constant S_ .f32 0x00000000#32),
    TRef.binary main_call2.v6 main_call2.cst_2 main_call2.v9 (fun x v => Host.reduceAdd x v reducesTo_S32768x1_S1_d0 h_S_),
    TRef.unary main_call2.v9 main_call2.v10 (broadcastInDim S1x1 ![1] bcast_S1_S1x1_1),
    TRef.unary main_call2.v8 main_call2.v11 (broadcastInDim S1x1 ![] bcast_S_S1x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x1 ![] bcast_S_S1x1),
    TRef.ternary main_call2.v13 main_call2.v12 main_call2.call0.v1 main_call2.call0.v2 (fun p a b => select (broadcastInDim S1x1 ![] bcast_S_S1x1 p) a b) ]
/-- The buffers window 12 writes. -/
abbrev win12_W : List (Ref sig .tc) := [main_call2_cst_2, main_call2_v9, main_call2_v10, main_call2_v11, main_call2_v12, main_call2_cst_3, main_call2_v13, main_call2_cst_4, main_call2_call0_v0, main_call2_call0_v1, main_v33]
theorem win12_writes : (win12 : List (HloOp τ sig (Elt F))).Forall fun op => op.writes ⊆ (win12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 12. -/
def val12 (V0 : Valuation τ sig (Elt F)) : Valuation τ sig (Elt F) := after win12 (val11 V0)
/-- A buffer window 12 does not write keeps its contents through it. -/
theorem val12_keep (V0 : Valuation τ sig (Elt F)) (r : Ref sig .tc) (h : r ∉ win12_W) :
    val12 V0 (Proc.devRef .tc r) = val11 V0 (Proc.devRef .tc r) :=
  after_of_writes_sub win12 _ win12_writes h
theorem val12_main_arg0 (m : (ℓ : Loc nD τ sig) → Buf (Elt F) ℓ) (c : Dev nD) :
    val12 (launchContents m c) (no_index (Proc.devRef .tc main_arg0)) = m ((c.tc : Thread nD τ).loc main_arg0) :=
  (val12_keep _ main_arg0 (by decide)).trans (val11_main_arg0 m c)
theorem val12_main_v28 (m : (ℓ : Loc nD τ sig) → Buf (Elt F) ℓ) (c : Dev nD) :
    val12 (launchContents m c) (no_index (Proc.devRef .tc main_v28)) = res_main_v28 m c :=
  (val12_keep _ main_v28 (by decide)).trans (val11_main_v28 m c)
theorem val12_main_v32 (m : (ℓ : Loc nD τ sig) → Buf (Elt F) ℓ) (c : Dev nD) :
    val12 (launchContents m c) (no_index (Proc.devRef .tc main_v32)) = res_main_v32 m c :=
  (val12_keep _ main_v32 (by decide)).trans (val11_main_v32 m c)
theorem val12_main_v33 (m : (ℓ : Loc nD τ sig) → Buf (Elt F) ℓ) (c : Dev nD) :
    val12 (launchContents m c) (no_index (Proc.devRef .tc main_v33)) = res_main_v33 m c := by
  unfold val12
  simp only [win12]
  after_results_simp
  all_goals (try simp only [val11_main_call2_v6 m c, val11_main_call2_v8 m c])
  all_goals (try simp only [TRef.toBuf, TRef.ofBuf, cast_eq])
  all_goals rfl
theorem val12_main_arg8 (m : (ℓ : Loc nD τ sig) → Buf (Elt F) ℓ) (c : Dev nD) :
    val12 (launchContents m c) (no_index (Proc.devRef .tc main_arg8)) = m ((c.tc : Thread nD τ).loc main_arg8) :=
  (val12_keep _ main_arg8 (by decide)).trans (val11_main_arg8 m c)
theorem val12_main_arg9 (m : (ℓ : Loc nD τ sig) → Buf (Elt F) ℓ) (c : Dev nD) :
    val12 (launchContents m c) (no_index (Proc.devRef .tc main_arg9)) = m ((c.tc : Thread nD τ).loc main_arg9) :=
  (val12_keep _ main_arg9 (by decide)).trans (val11_main_arg9 m c)
theorem val12_main_arg1 (m : (ℓ : Loc nD τ sig) → Buf (Elt F) ℓ) (c : Dev nD) :
    val12 (launchContents m c) (no_index (Proc.devRef .tc main_arg1)) = m ((c.tc : Thread nD τ).loc main_arg1) :=
  (val12_keep _ main_arg1 (by decide)).trans (val11_main_arg1 m c)
theorem val12_main_arg10 (m : (ℓ : Loc nD τ sig) → Buf (Elt F) ℓ) (c : Dev nD) :
    val12 (launchContents m c) (no_index (Proc.devRef .tc main_arg10)) = m ((c.tc : Thread nD τ).loc main_arg10) :=
  (val12_keep _ main_arg10 (by decide)).trans (val11_main_arg10 m c)
theorem val12_main_arg11 (m : (ℓ : Loc nD τ sig) → Buf (Elt F) ℓ) (c : Dev nD) :
    val12 (launchContents m c) (no_index (Proc.devRef .tc main_arg11)) = m ((c.tc : Thread nD τ).loc main_arg11) :=
  (val12_keep _ main_arg11 (by decide)).trans (val11_main_arg11 m c)
theorem val12_main_arg12 (m : (ℓ : Loc nD τ sig) → Buf (Elt F) ℓ) (c : Dev nD) :
    val12 (launchContents m c) (no_index (Proc.devRef .tc main_arg12)) = m ((c.tc : Thread nD τ).loc main_arg12) :=
  (val12_keep _ main_arg12 (by decide)).trans (val11_main_arg12 m c)
theorem val12_main_arg13 (m : (ℓ : Loc nD τ sig) → Buf (Elt F) ℓ) (c : Dev nD) :
    val12 (launchContents m c) (no_index (Proc.devRef .tc main_arg13)) = m ((c.tc : Thread nD τ).loc main_arg13) :=
  (val12_keep _ main_arg13 (by decide)).trans (val11_main_arg13 m c)
theorem val12_main_arg14 (m : (ℓ : Loc nD τ sig) → Buf (Elt F) ℓ) (c : Dev nD) :
    val12 (launchContents m c) (no_index (Proc.devRef .tc main_arg14)) = m ((c.tc : Thread nD τ).loc main_arg14) :=
  (val12_keep _ main_arg14 (by decide)).trans (val11_main_arg14 m c)
theorem val12_main_arg15 (m : (ℓ : Loc nD τ sig) → Buf (Elt F) ℓ) (c : Dev nD) :
    val12 (launchContents m c) (no_index (Proc.devRef .tc main_arg15)) = m ((c.tc : Thread nD τ).loc main_arg15) :=
  (val12_keep _ main_arg15 (by decide)).trans (val11_main_arg15 m c)
theorem val12_main_arg16 (m : (ℓ : Loc nD τ sig) → Buf (Elt F) ℓ) (c : Dev nD) :
    val12 (launchContents m c) (no_index (Proc.devRef .tc main_arg16)) = m ((c.tc : Thread nD τ).loc main_arg16) :=
  (val12_keep _ main_arg16 (by decide)).trans (val11_main_arg16 m c)
theorem val12_main_arg17 (m : (ℓ : Loc nD τ sig) → Buf (Elt F) ℓ) (c : Dev nD) :
    val12 (launchContents m c) (no_index (Proc.devRef .tc main_arg17)) = m ((c.tc : Thread nD τ).loc main_arg17) :=
  (val12_keep _ main_arg17 (by decide)).trans (val11_main_arg17 m c)

/-! ## Window 13: up to `main_v46` -/

/-- The operations of window 13. -/
abbrev win13 : List (HloOp τ sig (Elt F)) :=
  [
    unary main_v32 main_v34 (broadcastInDim S32768x1 ![0, 1] bcast_S1x1_S32768x1_0_1 : (⟨S1x1, .f32⟩ : BufTy).Contents (Elt F) → (⟨S32768x1, .f32⟩ : BufTy).Contents (Elt F)),
    binary main_v28 main_v34 main_v35 (subf : (⟨S32768x1, .f32⟩ : BufTy).Contents (Elt F) → (⟨S32768x1, .f32⟩ : BufTy).Contents (Elt F) → (⟨S32768x1, .f32⟩ : BufTy).Contents (Elt F)),
    nullary main_cst_5 (constant S_ .f32 0x3727C5AC#32),
    unary main_cst_5 main_v36 (broadcastInDim S1x1 ![] bcast_S_S1x1 : (⟨S_, .f32⟩ : BufTy).Contents (Elt F) → (⟨S1x1, .f32⟩ : BufTy).Contents (Elt F)),
    binary main_v33 main_v36 main_v37 (addf : (⟨S1x1, .f32⟩ : BufTy).Contents (Elt F) → (⟨S1x1, .f32⟩ : BufTy).Contents (Elt F) → (⟨S1x1, .f32⟩ : BufTy).Contents (Elt F)),
    unary main_v37 main_v38 (Host.sqrt : (⟨S1x1, .f32⟩ : BufTy).Contents (Elt F) → (⟨S1x1, .f32⟩ : BufTy).Contents (Elt F)),
    unary main_v38 main_v39 (broadcastInDim S32768x1 ![0, 1] bcast_S1x1_S32768x1_0_1 : (⟨S1x1, .f32⟩ : BufTy).Contents (Elt F) → (⟨S32768x1, .f32⟩ : BufTy).Contents (Elt F)),
    binary main_v35 main_v39 main_v40 (Host.divf : (⟨S32768x1, .f32⟩ : BufTy).Contents (Elt F) → (⟨S32768x1, .f32⟩ : BufTy).Contents (Elt F) → (⟨S32768x1, .f32⟩ : BufTy).Contents (Elt F)),
    unary main_arg8 main_v41 (broadcastInDim S1x1 ![1] bcast_S1_S1x1_1 : (⟨S1, .f32⟩ : BufTy).Contents (Elt F) → (⟨S1x1, .f32⟩ : BufTy).Contents (Elt F)),
    unary main_v41 main_v42 (broadcastInDim S32768x1 ![0, 1] bcast_S1x1_S32768x1_0_1 : (⟨S1x1, .f32⟩ : BufTy).Contents (Elt F) → (⟨S32768x1, .f32⟩ : BufTy).Contents (Elt F)),
    binary main_v40 main_v42 main_v43 (mulf : (⟨S32768x1, .f32⟩ : BufTy).Contents (Elt F) → (⟨S32768x1, .f32⟩ : BufTy).Contents (Elt F) → (⟨S32768x1, .f32⟩ : BufTy).Contents (Elt F)),
    unary main_arg9 main_v44 (broadcastInDim S1x1 ![1] bcast_S1_S1x1_1 : (⟨S1, .f32⟩ : BufTy).Contents (Elt F) → (⟨S1x1, .f32⟩ : BufTy).Contents (Elt F)),
    unary main_v44 main_v45 (broadcastInDim S32768x1 ![0, 1] bcast_S1x1_S32768x1_0_1 : (⟨S1x1, .f32⟩ : BufTy).Contents (Elt F) → (⟨S32768x1, .f32⟩ : BufTy).Contents (Elt F)),
    binary main_v43 main_v45 main_v46 (addf : (⟨S32768x1, .f32⟩ : BufTy).Contents (Elt F) → (⟨S32768x1, .f32⟩ : BufTy).Contents (Elt F) → (⟨S32768x1, .f32⟩ : BufTy).Contents (Elt F)) ]
/-- The buffers window 13 writes. -/
abbrev win13_W : List (Ref sig .tc) := [main_v34, main_v35, main_cst_5, main_v36, main_v37, main_v38, main_v39, main_v40, main_v41, main_v42, main_v43, main_v44, main_v45, main_v46]
theorem win13_writes : (win13 : List (HloOp τ sig (Elt F))).Forall fun op => op.writes ⊆ (win13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 13. -/
def val13 (V0 : Valuation τ sig (Elt F)) : Valuation τ sig (Elt F) := after win13 (val12 V0)
/-- A buffer window 13 does not write keeps its contents through it. -/
theorem val13_keep (V0 : Valuation τ sig (Elt F)) (r : Ref sig .tc) (h : r ∉ win13_W) :
    val13 V0 (Proc.devRef .tc r) = val12 V0 (Proc.devRef .tc r) :=
  after_of_writes_sub win13 _ win13_writes h
theorem val13_main_arg0 (m : (ℓ : Loc nD τ sig) → Buf (Elt F) ℓ) (c : Dev nD) :
    val13 (launchContents m c) (no_index (Proc.devRef .tc main_arg0)) = m ((c.tc : Thread nD τ).loc main_arg0) :=
  (val13_keep _ main_arg0 (by decide)).trans (val12_main_arg0 m c)
theorem val13_main_arg1 (m : (ℓ : Loc nD τ sig) → Buf (Elt F) ℓ) (c : Dev nD) :
    val13 (launchContents m c) (no_index (Proc.devRef .tc main_arg1)) = m ((c.tc : Thread nD τ).loc main_arg1) :=
  (val13_keep _ main_arg1 (by decide)).trans (val12_main_arg1 m c)
theorem val13_main_v46 (m : (ℓ : Loc nD τ sig) → Buf (Elt F) ℓ) (c : Dev nD) :
    val13 (launchContents m c) (no_index (Proc.devRef .tc main_v46)) = res_main_v46 m c := by
  unfold val13
  simp only [win13]
  after_results_simp
  all_goals (try simp only [val12_main_v28 m c, val12_main_v32 m c, val12_main_v33 m c, val12_main_arg8 m c, val12_main_arg9 m c])
  all_goals (try simp only [TRef.toBuf, TRef.ofBuf, cast_eq])
  all_goals rfl
theorem val13_main_arg10 (m : (ℓ : Loc nD τ sig) → Buf (Elt F) ℓ) (c : Dev nD) :
    val13 (launchContents m c) (no_index (Proc.devRef .tc main_arg10)) = m ((c.tc : Thread nD τ).loc main_arg10) :=
  (val13_keep _ main_arg10 (by decide)).trans (val12_main_arg10 m c)
theorem val13_main_arg11 (m : (ℓ : Loc nD τ sig) → Buf (Elt F) ℓ) (c : Dev nD) :
    val13 (launchContents m c) (no_index (Proc.devRef .tc main_arg11)) = m ((c.tc : Thread nD τ).loc main_arg11) :=
  (val13_keep _ main_arg11 (by decide)).trans (val12_main_arg11 m c)
theorem val13_main_arg12 (m : (ℓ : Loc nD τ sig) → Buf (Elt F) ℓ) (c : Dev nD) :
    val13 (launchContents m c) (no_index (Proc.devRef .tc main_arg12)) = m ((c.tc : Thread nD τ).loc main_arg12) :=
  (val13_keep _ main_arg12 (by decide)).trans (val12_main_arg12 m c)
theorem val13_main_arg13 (m : (ℓ : Loc nD τ sig) → Buf (Elt F) ℓ) (c : Dev nD) :
    val13 (launchContents m c) (no_index (Proc.devRef .tc main_arg13)) = m ((c.tc : Thread nD τ).loc main_arg13) :=
  (val13_keep _ main_arg13 (by decide)).trans (val12_main_arg13 m c)
theorem val13_main_arg14 (m : (ℓ : Loc nD τ sig) → Buf (Elt F) ℓ) (c : Dev nD) :
    val13 (launchContents m c) (no_index (Proc.devRef .tc main_arg14)) = m ((c.tc : Thread nD τ).loc main_arg14) :=
  (val13_keep _ main_arg14 (by decide)).trans (val12_main_arg14 m c)
theorem val13_main_arg15 (m : (ℓ : Loc nD τ sig) → Buf (Elt F) ℓ) (c : Dev nD) :
    val13 (launchContents m c) (no_index (Proc.devRef .tc main_arg15)) = m ((c.tc : Thread nD τ).loc main_arg15) :=
  (val13_keep _ main_arg15 (by decide)).trans (val12_main_arg15 m c)
theorem val13_main_arg16 (m : (ℓ : Loc nD τ sig) → Buf (Elt F) ℓ) (c : Dev nD) :
    val13 (launchContents m c) (no_index (Proc.devRef .tc main_arg16)) = m ((c.tc : Thread nD τ).loc main_arg16) :=
  (val13_keep _ main_arg16 (by decide)).trans (val12_main_arg16 m c)
theorem val13_main_arg17 (m : (ℓ : Loc nD τ sig) → Buf (Elt F) ℓ) (c : Dev nD) :
    val13 (launchContents m c) (no_index (Proc.devRef .tc main_arg17)) = m ((c.tc : Thread nD τ).loc main_arg17) :=
  (val13_keep _ main_arg17 (by decide)).trans (val12_main_arg17 m c)

/-! ## Window 14: up to `main_v47` -/

/-- The operations of window 14. -/
abbrev win14 : List (HloOp τ sig (Elt F)) :=
  [
    TRef.nullary main_call3.call0.c (constantI S_ 32 0#32),
    TRef.unary main_call3.call0.c main_call3.call0.v0 (broadcastInDim S_ ![] bcast_S_S_),
    TRef.binary (.of main_arg1 : TRef sig ⟨S16, .i32⟩) main_call3.call0.v0 main_call3.call0.v1 (fun x v => Host.reduceWindow IntOp.addi ![16] ![1] ![15] ![0] x v reduceWindows_S16_S16_w16s1p15_0 h_S_) ]
/-- The buffers window 14 writes. -/
abbrev win14_W : List (Ref sig .tc) := [main_call3_call0_c, main_call3_call0_v0, main_v47]
theorem win14_writes : (win14 : List (HloOp τ sig (Elt F))).Forall fun op => op.writes ⊆ (win14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 14. -/
def val14 (V0 : Valuation τ sig (Elt F)) : Valuation τ sig (Elt F) := after win14 (val13 V0)
/-- A buffer window 14 does not write keeps its contents through it. -/
theorem val14_keep (V0 : Valuation τ sig (Elt F)) (r : Ref sig .tc) (h : r ∉ win14_W) :
    val14 V0 (Proc.devRef .tc r) = val13 V0 (Proc.devRef .tc r) :=
  after_of_writes_sub win14 _ win14_writes h
theorem val14_main_arg0 (m : (ℓ : Loc nD τ sig) → Buf (Elt F) ℓ) (c : Dev nD) :
    val14 (launchContents m c) (no_index (Proc.devRef .tc main_arg0)) = m ((c.tc : Thread nD τ).loc main_arg0) :=
  (val14_keep _ main_arg0 (by decide)).trans (val13_main_arg0 m c)
theorem val14_main_arg1 (m : (ℓ : Loc nD τ sig) → Buf (Elt F) ℓ) (c : Dev nD) :
    val14 (launchContents m c) (no_index (Proc.devRef .tc main_arg1)) = m ((c.tc : Thread nD τ).loc main_arg1) :=
  (val14_keep _ main_arg1 (by decide)).trans (val13_main_arg1 m c)
theorem val14_main_v47 (m : (ℓ : Loc nD τ sig) → Buf (Elt F) ℓ) (c : Dev nD) :
    val14 (launchContents m c) (no_index (Proc.devRef .tc main_v47)) = res_main_v47 m c := by
  unfold val14
  simp only [win14]
  after_results_simp
  all_goals (try simp only [val13_main_arg1 m c])
  all_goals (try simp only [TRef.toBuf, TRef.ofBuf, cast_eq])
  all_goals rfl
theorem val14_main_v46 (m : (ℓ : Loc nD τ sig) → Buf (Elt F) ℓ) (c : Dev nD) :
    val14 (launchContents m c) (no_index (Proc.devRef .tc main_v46)) = res_main_v46 m c :=
  (val14_keep _ main_v46 (by decide)).trans (val13_main_v46 m c)
theorem val14_main_arg10 (m : (ℓ : Loc nD τ sig) → Buf (Elt F) ℓ) (c : Dev nD) :
    val14 (launchContents m c) (no_index (Proc.devRef .tc main_arg10)) = m ((c.tc : Thread nD τ).loc main_arg10) :=
  (val14_keep _ main_arg10 (by decide)).trans (val13_main_arg10 m c)
theorem val14_main_arg11 (m : (ℓ : Loc nD τ sig) → Buf (Elt F) ℓ) (c : Dev nD) :
    val14 (launchContents m c) (no_index (Proc.devRef .tc main_arg11)) = m ((c.tc : Thread nD τ).loc main_arg11) :=
  (val14_keep _ main_arg11 (by decide)).trans (val13_main_arg11 m c)
theorem val14_main_arg12 (m : (ℓ : Loc nD τ sig) → Buf (Elt F) ℓ) (c : Dev nD) :
    val14 (launchContents m c) (no_index (Proc.devRef .tc main_arg12)) = m ((c.tc : Thread nD τ).loc main_arg12) :=
  (val14_keep _ main_arg12 (by decide)).trans (val13_main_arg12 m c)
theorem val14_main_arg13 (m : (ℓ : Loc nD τ sig) → Buf (Elt F) ℓ) (c : Dev nD) :
    val14 (launchContents m c) (no_index (Proc.devRef .tc main_arg13)) = m ((c.tc : Thread nD τ).loc main_arg13) :=
  (val14_keep _ main_arg13 (by decide)).trans (val13_main_arg13 m c)
theorem val14_main_arg14 (m : (ℓ : Loc nD τ sig) → Buf (Elt F) ℓ) (c : Dev nD) :
    val14 (launchContents m c) (no_index (Proc.devRef .tc main_arg14)) = m ((c.tc : Thread nD τ).loc main_arg14) :=
  (val14_keep _ main_arg14 (by decide)).trans (val13_main_arg14 m c)
theorem val14_main_arg15 (m : (ℓ : Loc nD τ sig) → Buf (Elt F) ℓ) (c : Dev nD) :
    val14 (launchContents m c) (no_index (Proc.devRef .tc main_arg15)) = m ((c.tc : Thread nD τ).loc main_arg15) :=
  (val14_keep _ main_arg15 (by decide)).trans (val13_main_arg15 m c)
theorem val14_main_arg16 (m : (ℓ : Loc nD τ sig) → Buf (Elt F) ℓ) (c : Dev nD) :
    val14 (launchContents m c) (no_index (Proc.devRef .tc main_arg16)) = m ((c.tc : Thread nD τ).loc main_arg16) :=
  (val14_keep _ main_arg16 (by decide)).trans (val13_main_arg16 m c)
theorem val14_main_arg17 (m : (ℓ : Loc nD τ sig) → Buf (Elt F) ℓ) (c : Dev nD) :
    val14 (launchContents m c) (no_index (Proc.devRef .tc main_arg17)) = m ((c.tc : Thread nD τ).loc main_arg17) :=
  (val14_keep _ main_arg17 (by decide)).trans (val13_main_arg17 m c)

/-! ## Window 15: up to `main_v48` -/

/-- The operations of window 15. -/
abbrev win15 : List (HloOp τ sig (Elt F)) :=
  [
    binary main_v47 main_arg1 main_v48 (subi : (⟨S16, .i32⟩ : BufTy).Contents (Elt F) → (⟨S16, .i32⟩ : BufTy).Contents (Elt F) → (⟨S16, .i32⟩ : BufTy).Contents (Elt F)) ]
/-- The buffers window 15 writes. -/
abbrev win15_W : List (Ref sig .tc) := [main_v48]
theorem win15_writes : (win15 : List (HloOp τ sig (Elt F))).Forall fun op => op.writes ⊆ (win15_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers after window 15. -/
def val15 (V0 : Valuation τ sig (Elt F)) : Valuation τ sig (Elt F) := after win15 (val14 V0)
/-- A buffer window 15 does not write keeps its contents through it. -/
theorem val15_keep (V0 : Valuation τ sig (Elt F)) (r : Ref sig .tc) (h : r ∉ win15_W) :
    val15 V0 (Proc.devRef .tc r) = val14 V0 (Proc.devRef .tc r) :=
  after_of_writes_sub win15 _ win15_writes h
theorem val15_main_arg0 (m : (ℓ : Loc nD τ sig) → Buf (Elt F) ℓ) (c : Dev nD) :
    val15 (launchContents m c) (no_index (Proc.devRef .tc main_arg0)) = m ((c.tc : Thread nD τ).loc main_arg0) :=
  (val15_keep _ main_arg0 (by decide)).trans (val14_main_arg0 m c)
theorem val15_main_arg1 (m : (ℓ : Loc nD τ sig) → Buf (Elt F) ℓ) (c : Dev nD) :
    val15 (launchContents m c) (no_index (Proc.devRef .tc main_arg1)) = m ((c.tc : Thread nD τ).loc main_arg1) :=
  (val15_keep _ main_arg1 (by decide)).trans (val14_main_arg1 m c)
theorem val15_main_v47 (m : (ℓ : Loc nD τ sig) → Buf (Elt F) ℓ) (c : Dev nD) :
    val15 (launchContents m c) (no_index (Proc.devRef .tc main_v47)) = res_main_v47 m c :=
  (val15_keep _ main_v47 (by decide)).trans (val14_main_v47 m c)
theorem val15_main_v48 (m : (ℓ : Loc nD τ sig) → Buf (Elt F) ℓ) (c : Dev nD) :
    val15 (launchContents m c) (no_index (Proc.devRef .tc main_v48)) = res_main_v48 m c := by
  unfold val15
  simp only [win15]
  after_results_simp
  all_goals (try simp only [val14_main_arg1 m c, val14_main_v47 m c])
  all_goals (try simp only [TRef.toBuf, TRef.ofBuf, cast_eq])
  all_goals rfl
theorem val15_main_v46 (m : (ℓ : Loc nD τ sig) → Buf (Elt F) ℓ) (c : Dev nD) :
    val15 (launchContents m c) (no_index (Proc.devRef .tc main_v46)) = res_main_v46 m c :=
  (val15_keep _ main_v46 (by decide)).trans (val14_main_v46 m c)
theorem val15_main_arg10 (m : (ℓ : Loc nD τ sig) → Buf (Elt F) ℓ) (c : Dev nD) :
    val15 (launchContents m c) (no_index (Proc.devRef .tc main_arg10)) = m ((c.tc : Thread nD τ).loc main_arg10) :=
  (val15_keep _ main_arg10 (by decide)).trans (val14_main_arg10 m c)
theorem val15_main_arg11 (m : (ℓ : Loc nD τ sig) → Buf (Elt F) ℓ) (c : Dev nD) :
    val15 (launchContents m c) (no_index (Proc.devRef .tc main_arg11)) = m ((c.tc : Thread nD τ).loc main_arg11) :=
  (val15_keep _ main_arg11 (by decide)).trans (val14_main_arg11 m c)
theorem val15_main_arg12 (m : (ℓ : Loc nD τ sig) → Buf (Elt F) ℓ) (c : Dev nD) :
    val15 (launchContents m c) (no_index (Proc.devRef .tc main_arg12)) = m ((c.tc : Thread nD τ).loc main_arg12) :=
  (val15_keep _ main_arg12 (by decide)).trans (val14_main_arg12 m c)
theorem val15_main_arg13 (m : (ℓ : Loc nD τ sig) → Buf (Elt F) ℓ) (c : Dev nD) :
    val15 (launchContents m c) (no_index (Proc.devRef .tc main_arg13)) = m ((c.tc : Thread nD τ).loc main_arg13) :=
  (val15_keep _ main_arg13 (by decide)).trans (val14_main_arg13 m c)
theorem val15_main_arg14 (m : (ℓ : Loc nD τ sig) → Buf (Elt F) ℓ) (c : Dev nD) :
    val15 (launchContents m c) (no_index (Proc.devRef .tc main_arg14)) = m ((c.tc : Thread nD τ).loc main_arg14) :=
  (val15_keep _ main_arg14 (by decide)).trans (val14_main_arg14 m c)
theorem val15_main_arg15 (m : (ℓ : Loc nD τ sig) → Buf (Elt F) ℓ) (c : Dev nD) :
    val15 (launchContents m c) (no_index (Proc.devRef .tc main_arg15)) = m ((c.tc : Thread nD τ).loc main_arg15) :=
  (val15_keep _ main_arg15 (by decide)).trans (val14_main_arg15 m c)
theorem val15_main_arg16 (m : (ℓ : Loc nD τ sig) → Buf (Elt F) ℓ) (c : Dev nD) :
    val15 (launchContents m c) (no_index (Proc.devRef .tc main_arg16)) = m ((c.tc : Thread nD τ).loc main_arg16) :=
  (val15_keep _ main_arg16 (by decide)).trans (val14_main_arg16 m c)
theorem val15_main_arg17 (m : (ℓ : Loc nD τ sig) → Buf (Elt F) ℓ) (c : Dev nD) :
    val15 (launchContents m c) (no_index (Proc.devRef .tc main_arg17)) = m ((c.tc : Thread nD τ).loc main_arg17) :=
  (val15_keep _ main_arg17 (by decide)).trans (val14_main_arg17 m c)

/-! ## Window 16: up to `main_v49` -/

/-- The operations of window 16. -/
abbrev win16 : List (HloOp τ sig (Elt F)) :=
  [
    nullary main_v49 (iotaInDim S32768 32 0) ]
/-- The buffers window 16 writes. -/
abbrev win16_W : List (Ref sig .tc) := [main_v49]
theorem win16_writes : (win16 : List (HloOp τ sig (Elt F))).Forall fun op => op.writes ⊆ (win16_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers after window 16. -/
def val16 (V0 : Valuation τ sig (Elt F)) : Valuation τ sig (Elt F) := after win16 (val15 V0)
/-- A buffer window 16 does not write keeps its contents through it. -/
theorem val16_keep (V0 : Valuation τ sig (Elt F)) (r : Ref sig .tc) (h : r ∉ win16_W) :
    val16 V0 (Proc.devRef .tc r) = val15 V0 (Proc.devRef .tc r) :=
  after_of_writes_sub win16 _ win16_writes h
theorem val16_main_arg0 (m : (ℓ : Loc nD τ sig) → Buf (Elt F) ℓ) (c : Dev nD) :
    val16 (launchContents m c) (no_index (Proc.devRef .tc main_arg0)) = m ((c.tc : Thread nD τ).loc main_arg0) :=
  (val16_keep _ main_arg0 (by decide)).trans (val15_main_arg0 m c)
theorem val16_main_arg1 (m : (ℓ : Loc nD τ sig) → Buf (Elt F) ℓ) (c : Dev nD) :
    val16 (launchContents m c) (no_index (Proc.devRef .tc main_arg1)) = m ((c.tc : Thread nD τ).loc main_arg1) :=
  (val16_keep _ main_arg1 (by decide)).trans (val15_main_arg1 m c)
theorem val16_main_v47 (m : (ℓ : Loc nD τ sig) → Buf (Elt F) ℓ) (c : Dev nD) :
    val16 (launchContents m c) (no_index (Proc.devRef .tc main_v47)) = res_main_v47 m c :=
  (val16_keep _ main_v47 (by decide)).trans (val15_main_v47 m c)
theorem val16_main_v49 (m : (ℓ : Loc nD τ sig) → Buf (Elt F) ℓ) (c : Dev nD) :
    val16 (launchContents m c) (no_index (Proc.devRef .tc main_v49)) = res_main_v49 m c := by
  unfold val16
  simp only [win16]
  after_results_simp
  all_goals (try simp only [TRef.toBuf, TRef.ofBuf, cast_eq])
  all_goals rfl
theorem val16_main_v48 (m : (ℓ : Loc nD τ sig) → Buf (Elt F) ℓ) (c : Dev nD) :
    val16 (launchContents m c) (no_index (Proc.devRef .tc main_v48)) = res_main_v48 m c :=
  (val16_keep _ main_v48 (by decide)).trans (val15_main_v48 m c)
theorem val16_main_v46 (m : (ℓ : Loc nD τ sig) → Buf (Elt F) ℓ) (c : Dev nD) :
    val16 (launchContents m c) (no_index (Proc.devRef .tc main_v46)) = res_main_v46 m c :=
  (val16_keep _ main_v46 (by decide)).trans (val15_main_v46 m c)
theorem val16_main_arg10 (m : (ℓ : Loc nD τ sig) → Buf (Elt F) ℓ) (c : Dev nD) :
    val16 (launchContents m c) (no_index (Proc.devRef .tc main_arg10)) = m ((c.tc : Thread nD τ).loc main_arg10) :=
  (val16_keep _ main_arg10 (by decide)).trans (val15_main_arg10 m c)
theorem val16_main_arg11 (m : (ℓ : Loc nD τ sig) → Buf (Elt F) ℓ) (c : Dev nD) :
    val16 (launchContents m c) (no_index (Proc.devRef .tc main_arg11)) = m ((c.tc : Thread nD τ).loc main_arg11) :=
  (val16_keep _ main_arg11 (by decide)).trans (val15_main_arg11 m c)
theorem val16_main_arg12 (m : (ℓ : Loc nD τ sig) → Buf (Elt F) ℓ) (c : Dev nD) :
    val16 (launchContents m c) (no_index (Proc.devRef .tc main_arg12)) = m ((c.tc : Thread nD τ).loc main_arg12) :=
  (val16_keep _ main_arg12 (by decide)).trans (val15_main_arg12 m c)
theorem val16_main_arg13 (m : (ℓ : Loc nD τ sig) → Buf (Elt F) ℓ) (c : Dev nD) :
    val16 (launchContents m c) (no_index (Proc.devRef .tc main_arg13)) = m ((c.tc : Thread nD τ).loc main_arg13) :=
  (val16_keep _ main_arg13 (by decide)).trans (val15_main_arg13 m c)
theorem val16_main_arg14 (m : (ℓ : Loc nD τ sig) → Buf (Elt F) ℓ) (c : Dev nD) :
    val16 (launchContents m c) (no_index (Proc.devRef .tc main_arg14)) = m ((c.tc : Thread nD τ).loc main_arg14) :=
  (val16_keep _ main_arg14 (by decide)).trans (val15_main_arg14 m c)
theorem val16_main_arg15 (m : (ℓ : Loc nD τ sig) → Buf (Elt F) ℓ) (c : Dev nD) :
    val16 (launchContents m c) (no_index (Proc.devRef .tc main_arg15)) = m ((c.tc : Thread nD τ).loc main_arg15) :=
  (val16_keep _ main_arg15 (by decide)).trans (val15_main_arg15 m c)
theorem val16_main_arg16 (m : (ℓ : Loc nD τ sig) → Buf (Elt F) ℓ) (c : Dev nD) :
    val16 (launchContents m c) (no_index (Proc.devRef .tc main_arg16)) = m ((c.tc : Thread nD τ).loc main_arg16) :=
  (val16_keep _ main_arg16 (by decide)).trans (val15_main_arg16 m c)
theorem val16_main_arg17 (m : (ℓ : Loc nD τ sig) → Buf (Elt F) ℓ) (c : Dev nD) :
    val16 (launchContents m c) (no_index (Proc.devRef .tc main_arg17)) = m ((c.tc : Thread nD τ).loc main_arg17) :=
  (val16_keep _ main_arg17 (by decide)).trans (val15_main_arg17 m c)

/-! ## Window 17: up to `main_v60` -/

/-- The operations of window 17. -/
abbrev win17 : List (HloOp τ sig (Elt F)) :=
  [
    unary main_v49 main_v50 (broadcastInDim S1x32768 ![1] bcast_S32768_S1x32768_1 : (⟨S32768, .i32⟩ : BufTy).Contents (Elt F) → (⟨S1x32768, .i32⟩ : BufTy).Contents (Elt F)),
    unary main_v48 main_v51 (broadcastInDim S16x1 ![0] bcast_S16_S16x1_0 : (⟨S16, .i32⟩ : BufTy).Contents (Elt F) → (⟨S16x1, .i32⟩ : BufTy).Contents (Elt F)),
    unary main_v50 main_v52 (broadcastInDim S16x32768 ![0, 1] bcast_S1x32768_S16x32768_0_1 : (⟨S1x32768, .i32⟩ : BufTy).Contents (Elt F) → (⟨S16x32768, .i32⟩ : BufTy).Contents (Elt F)),
    unary main_v51 main_v53 (broadcastInDim S16x32768 ![0, 1] bcast_S16x1_S16x32768_0_1 : (⟨S16x1, .i32⟩ : BufTy).Contents (Elt F) → (⟨S16x32768, .i32⟩ : BufTy).Contents (Elt F)),
    binary main_v52 main_v53 main_v54 (cmpi .sge : (⟨S16x32768, .i32⟩ : BufTy).Contents (Elt F) → (⟨S16x32768, .i32⟩ : BufTy).Contents (Elt F) → (⟨S16x32768, .i1⟩ : BufTy).Contents (Elt F)),
    unary main_v49 main_v55 (broadcastInDim S1x32768 ![1] bcast_S32768_S1x32768_1 : (⟨S32768, .i32⟩ : BufTy).Contents (Elt F) → (⟨S1x32768, .i32⟩ : BufTy).Contents (Elt F)),
    unary main_v47 main_v56 (broadcastInDim S16x1 ![0] bcast_S16_S16x1_0 : (⟨S16, .i32⟩ : BufTy).Contents (Elt F) → (⟨S16x1, .i32⟩ : BufTy).Contents (Elt F)),
    unary main_v55 main_v57 (broadcastInDim S16x32768 ![0, 1] bcast_S1x32768_S16x32768_0_1 : (⟨S1x32768, .i32⟩ : BufTy).Contents (Elt F) → (⟨S16x32768, .i32⟩ : BufTy).Contents (Elt F)),
    unary main_v56 main_v58 (broadcastInDim S16x32768 ![0, 1] bcast_S16x1_S16x32768_0_1 : (⟨S16x1, .i32⟩ : BufTy).Contents (Elt F) → (⟨S16x32768, .i32⟩ : BufTy).Contents (Elt F)),
    binary main_v57 main_v58 main_v59 (cmpi .slt : (⟨S16x32768, .i32⟩ : BufTy).Contents (Elt F) → (⟨S16x32768, .i32⟩ : BufTy).Contents (Elt F) → (⟨S16x32768, .i1⟩ : BufTy).Contents (Elt F)),
    binary main_v54 main_v59 main_v60 (andi : (⟨S16x32768, .i1⟩ : BufTy).Contents (Elt F) → (⟨S16x32768, .i1⟩ : BufTy).Contents (Elt F) → (⟨S16x32768, .i1⟩ : BufTy).Contents (Elt F)) ]
/-- The buffers window 17 writes. -/
abbrev win17_W : List (Ref sig .tc) := [main_v50, main_v51, main_v52, main_v53, main_v54, main_v55, main_v56, main_v57, main_v58, main_v59, main_v60]
theorem win17_writes : (win17 : List (HloOp τ sig (Elt F))).Forall fun op => op.writes ⊆ (win17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 17. -/
def val17 (V0 : Valuation τ sig (Elt F)) : Valuation τ sig (Elt F) := after win17 (val16 V0)
/-- A buffer window 17 does not write keeps its contents through it. -/
theorem val17_keep (V0 : Valuation τ sig (Elt F)) (r : Ref sig .tc) (h : r ∉ win17_W) :
    val17 V0 (Proc.devRef .tc r) = val16 V0 (Proc.devRef .tc r) :=
  after_of_writes_sub win17 _ win17_writes h
theorem val17_main_arg0 (m : (ℓ : Loc nD τ sig) → Buf (Elt F) ℓ) (c : Dev nD) :
    val17 (launchContents m c) (no_index (Proc.devRef .tc main_arg0)) = m ((c.tc : Thread nD τ).loc main_arg0) :=
  (val17_keep _ main_arg0 (by decide)).trans (val16_main_arg0 m c)
theorem val17_main_arg1 (m : (ℓ : Loc nD τ sig) → Buf (Elt F) ℓ) (c : Dev nD) :
    val17 (launchContents m c) (no_index (Proc.devRef .tc main_arg1)) = m ((c.tc : Thread nD τ).loc main_arg1) :=
  (val17_keep _ main_arg1 (by decide)).trans (val16_main_arg1 m c)
theorem val17_main_v46 (m : (ℓ : Loc nD τ sig) → Buf (Elt F) ℓ) (c : Dev nD) :
    val17 (launchContents m c) (no_index (Proc.devRef .tc main_v46)) = res_main_v46 m c :=
  (val17_keep _ main_v46 (by decide)).trans (val16_main_v46 m c)
theorem val17_main_v60 (m : (ℓ : Loc nD τ sig) → Buf (Elt F) ℓ) (c : Dev nD) :
    val17 (launchContents m c) (no_index (Proc.devRef .tc main_v60)) = res_main_v60 m c := by
  unfold val17
  simp only [win17]
  after_results_simp
  all_goals (try simp only [val16_main_v47 m c, val16_main_v49 m c, val16_main_v48 m c])
  all_goals (try simp only [TRef.toBuf, TRef.ofBuf, cast_eq])
  all_goals rfl
theorem val17_main_arg10 (m : (ℓ : Loc nD τ sig) → Buf (Elt F) ℓ) (c : Dev nD) :
    val17 (launchContents m c) (no_index (Proc.devRef .tc main_arg10)) = m ((c.tc : Thread nD τ).loc main_arg10) :=
  (val17_keep _ main_arg10 (by decide)).trans (val16_main_arg10 m c)
theorem val17_main_arg11 (m : (ℓ : Loc nD τ sig) → Buf (Elt F) ℓ) (c : Dev nD) :
    val17 (launchContents m c) (no_index (Proc.devRef .tc main_arg11)) = m ((c.tc : Thread nD τ).loc main_arg11) :=
  (val17_keep _ main_arg11 (by decide)).trans (val16_main_arg11 m c)
theorem val17_main_arg12 (m : (ℓ : Loc nD τ sig) → Buf (Elt F) ℓ) (c : Dev nD) :
    val17 (launchContents m c) (no_index (Proc.devRef .tc main_arg12)) = m ((c.tc : Thread nD τ).loc main_arg12) :=
  (val17_keep _ main_arg12 (by decide)).trans (val16_main_arg12 m c)
theorem val17_main_arg13 (m : (ℓ : Loc nD τ sig) → Buf (Elt F) ℓ) (c : Dev nD) :
    val17 (launchContents m c) (no_index (Proc.devRef .tc main_arg13)) = m ((c.tc : Thread nD τ).loc main_arg13) :=
  (val17_keep _ main_arg13 (by decide)).trans (val16_main_arg13 m c)
theorem val17_main_arg14 (m : (ℓ : Loc nD τ sig) → Buf (Elt F) ℓ) (c : Dev nD) :
    val17 (launchContents m c) (no_index (Proc.devRef .tc main_arg14)) = m ((c.tc : Thread nD τ).loc main_arg14) :=
  (val17_keep _ main_arg14 (by decide)).trans (val16_main_arg14 m c)
theorem val17_main_arg15 (m : (ℓ : Loc nD τ sig) → Buf (Elt F) ℓ) (c : Dev nD) :
    val17 (launchContents m c) (no_index (Proc.devRef .tc main_arg15)) = m ((c.tc : Thread nD τ).loc main_arg15) :=
  (val17_keep _ main_arg15 (by decide)).trans (val16_main_arg15 m c)
theorem val17_main_arg16 (m : (ℓ : Loc nD τ sig) → Buf (Elt F) ℓ) (c : Dev nD) :
    val17 (launchContents m c) (no_index (Proc.devRef .tc main_arg16)) = m ((c.tc : Thread nD τ).loc main_arg16) :=
  (val17_keep _ main_arg16 (by decide)).trans (val16_main_arg16 m c)
theorem val17_main_arg17 (m : (ℓ : Loc nD τ sig) → Buf (Elt F) ℓ) (c : Dev nD) :
    val17 (launchContents m c) (no_index (Proc.devRef .tc main_arg17)) = m ((c.tc : Thread nD τ).loc main_arg17) :=
  (val17_keep _ main_arg17 (by decide)).trans (val16_main_arg17 m c)

/-! ## Window 18: up to `main_v61` -/

/-- The operations of window 18. -/
abbrev win18 : List (HloOp τ sig (Elt F)) :=
  [
    reshape main_v46 main_v61 rfl shapeCasts_S32768x1_S32768 ]
/-- The buffers window 18 writes. -/
abbrev win18_W : List (Ref sig .tc) := [main_v61]
theorem win18_writes : (win18 : List (HloOp τ sig (Elt F))).Forall fun op => op.writes ⊆ (win18_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers after window 18. -/
def val18 (V0 : Valuation τ sig (Elt F)) : Valuation τ sig (Elt F) := after win18 (val17 V0)
/-- A buffer window 18 does not write keeps its contents through it. -/
theorem val18_keep (V0 : Valuation τ sig (Elt F)) (r : Ref sig .tc) (h : r ∉ win18_W) :
    val18 V0 (Proc.devRef .tc r) = val17 V0 (Proc.devRef .tc r) :=
  after_of_writes_sub win18 _ win18_writes h
theorem val18_main_arg0 (m : (ℓ : Loc nD τ sig) → Buf (Elt F) ℓ) (c : Dev nD) :
    val18 (launchContents m c) (no_index (Proc.devRef .tc main_arg0)) = m ((c.tc : Thread nD τ).loc main_arg0) :=
  (val18_keep _ main_arg0 (by decide)).trans (val17_main_arg0 m c)
theorem val18_main_arg1 (m : (ℓ : Loc nD τ sig) → Buf (Elt F) ℓ) (c : Dev nD) :
    val18 (launchContents m c) (no_index (Proc.devRef .tc main_arg1)) = m ((c.tc : Thread nD τ).loc main_arg1) :=
  (val18_keep _ main_arg1 (by decide)).trans (val17_main_arg1 m c)
theorem val18_main_v61 (m : (ℓ : Loc nD τ sig) → Buf (Elt F) ℓ) (c : Dev nD) :
    val18 (launchContents m c) (no_index (Proc.devRef .tc main_v61)) = res_main_v61 m c := by
  unfold val18
  simp only [win18]
  after_results_simp
  all_goals (try simp only [val17_main_v46 m c])
  all_goals (try simp only [TRef.toBuf, TRef.ofBuf, cast_eq])
  all_goals rfl
theorem val18_main_v60 (m : (ℓ : Loc nD τ sig) → Buf (Elt F) ℓ) (c : Dev nD) :
    val18 (launchContents m c) (no_index (Proc.devRef .tc main_v60)) = res_main_v60 m c :=
  (val18_keep _ main_v60 (by decide)).trans (val17_main_v60 m c)
theorem val18_main_arg10 (m : (ℓ : Loc nD τ sig) → Buf (Elt F) ℓ) (c : Dev nD) :
    val18 (launchContents m c) (no_index (Proc.devRef .tc main_arg10)) = m ((c.tc : Thread nD τ).loc main_arg10) :=
  (val18_keep _ main_arg10 (by decide)).trans (val17_main_arg10 m c)
theorem val18_main_arg11 (m : (ℓ : Loc nD τ sig) → Buf (Elt F) ℓ) (c : Dev nD) :
    val18 (launchContents m c) (no_index (Proc.devRef .tc main_arg11)) = m ((c.tc : Thread nD τ).loc main_arg11) :=
  (val18_keep _ main_arg11 (by decide)).trans (val17_main_arg11 m c)
theorem val18_main_arg12 (m : (ℓ : Loc nD τ sig) → Buf (Elt F) ℓ) (c : Dev nD) :
    val18 (launchContents m c) (no_index (Proc.devRef .tc main_arg12)) = m ((c.tc : Thread nD τ).loc main_arg12) :=
  (val18_keep _ main_arg12 (by decide)).trans (val17_main_arg12 m c)
theorem val18_main_arg13 (m : (ℓ : Loc nD τ sig) → Buf (Elt F) ℓ) (c : Dev nD) :
    val18 (launchContents m c) (no_index (Proc.devRef .tc main_arg13)) = m ((c.tc : Thread nD τ).loc main_arg13) :=
  (val18_keep _ main_arg13 (by decide)).trans (val17_main_arg13 m c)
theorem val18_main_arg14 (m : (ℓ : Loc nD τ sig) → Buf (Elt F) ℓ) (c : Dev nD) :
    val18 (launchContents m c) (no_index (Proc.devRef .tc main_arg14)) = m ((c.tc : Thread nD τ).loc main_arg14) :=
  (val18_keep _ main_arg14 (by decide)).trans (val17_main_arg14 m c)
theorem val18_main_arg15 (m : (ℓ : Loc nD τ sig) → Buf (Elt F) ℓ) (c : Dev nD) :
    val18 (launchContents m c) (no_index (Proc.devRef .tc main_arg15)) = m ((c.tc : Thread nD τ).loc main_arg15) :=
  (val18_keep _ main_arg15 (by decide)).trans (val17_main_arg15 m c)
theorem val18_main_arg16 (m : (ℓ : Loc nD τ sig) → Buf (Elt F) ℓ) (c : Dev nD) :
    val18 (launchContents m c) (no_index (Proc.devRef .tc main_arg16)) = m ((c.tc : Thread nD τ).loc main_arg16) :=
  (val18_keep _ main_arg16 (by decide)).trans (val17_main_arg16 m c)
theorem val18_main_arg17 (m : (ℓ : Loc nD τ sig) → Buf (Elt F) ℓ) (c : Dev nD) :
    val18 (launchContents m c) (no_index (Proc.devRef .tc main_arg17)) = m ((c.tc : Thread nD τ).loc main_arg17) :=
  (val18_keep _ main_arg17 (by decide)).trans (val17_main_arg17 m c)

/-! ## Window 19: up to `main_v63` -/

/-- The operations of window 19. -/
abbrev win19 : List (HloOp τ sig (Elt F)) :=
  [
    unary main_v61 main_v62 (broadcastInDim S1x32768 ![1] bcast_S32768_S1x32768_1 : (⟨S32768, .f32⟩ : BufTy).Contents (Elt F) → (⟨S1x32768, .f32⟩ : BufTy).Contents (Elt F)),
    nullary main_cst_6 (constant S_ .f32 0xFF800000#32),
    TRef.unary (.of main_cst_6 : TRef sig ⟨S_, .f32⟩) main_call4.v0 id,
    TRef.unary (.of main_v62 : TRef sig ⟨S1x32768, .f32⟩) main_call4.v1 (broadcastInDim S16x32768 ![0, 1] bcast_S1x32768_S16x32768_0_1),
    TRef.unary main_call4.v0 main_call4.v2 (broadcastInDim S16x32768 ![] bcast_S_S16x32768),
    TRef.ternary (.of main_v60 : TRef sig ⟨S16x32768, .i1⟩) main_call4.v1 main_call4.v2 main_call4.v3 select ]
/-- The buffers window 19 writes. -/
abbrev win19_W : List (Ref sig .tc) := [main_v62, main_cst_6, main_call4_v0, main_call4_v1, main_call4_v2, main_v63]
theorem win19_writes : (win19 : List (HloOp τ sig (Elt F))).Forall fun op => op.writes ⊆ (win19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 19. -/
def val19 (V0 : Valuation τ sig (Elt F)) : Valuation τ sig (Elt F) := after win19 (val18 V0)
/-- A buffer window 19 does not write keeps its contents through it. -/
theorem val19_keep (V0 : Valuation τ sig (Elt F)) (r : Ref sig .tc) (h : r ∉ win19_W) :
    val19 V0 (Proc.devRef .tc r) = val18 V0 (Proc.devRef .tc r) :=
  after_of_writes_sub win19 _ win19_writes h
theorem val19_main_arg0 (m : (ℓ : Loc nD τ sig) → Buf (Elt F) ℓ) (c : Dev nD) :
    val19 (launchContents m c) (no_index (Proc.devRef .tc main_arg0)) = m ((c.tc : Thread nD τ).loc main_arg0) :=
  (val19_keep _ main_arg0 (by decide)).trans (val18_main_arg0 m c)
theorem val19_main_arg1 (m : (ℓ : Loc nD τ sig) → Buf (Elt F) ℓ) (c : Dev nD) :
    val19 (launchContents m c) (no_index (Proc.devRef .tc main_arg1)) = m ((c.tc : Thread nD τ).loc main_arg1) :=
  (val19_keep _ main_arg1 (by decide)).trans (val18_main_arg1 m c)
theorem val19_main_v61 (m : (ℓ : Loc nD τ sig) → Buf (Elt F) ℓ) (c : Dev nD) :
    val19 (launchContents m c) (no_index (Proc.devRef .tc main_v61)) = res_main_v61 m c :=
  (val19_keep _ main_v61 (by decide)).trans (val18_main_v61 m c)
theorem val19_main_v60 (m : (ℓ : Loc nD τ sig) → Buf (Elt F) ℓ) (c : Dev nD) :
    val19 (launchContents m c) (no_index (Proc.devRef .tc main_v60)) = res_main_v60 m c :=
  (val19_keep _ main_v60 (by decide)).trans (val18_main_v60 m c)
theorem val19_main_v63 (m : (ℓ : Loc nD τ sig) → Buf (Elt F) ℓ) (c : Dev nD) :
    val19 (launchContents m c) (no_index (Proc.devRef .tc main_v63)) = res_main_v63 m c := by
  unfold val19
  simp only [win19]
  after_results_simp
  all_goals (try simp only [val18_main_v61 m c, val18_main_v60 m c])
  all_goals (try simp only [TRef.toBuf, TRef.ofBuf, cast_eq])
  all_goals rfl
theorem val19_main_arg10 (m : (ℓ : Loc nD τ sig) → Buf (Elt F) ℓ) (c : Dev nD) :
    val19 (launchContents m c) (no_index (Proc.devRef .tc main_arg10)) = m ((c.tc : Thread nD τ).loc main_arg10) :=
  (val19_keep _ main_arg10 (by decide)).trans (val18_main_arg10 m c)
theorem val19_main_arg11 (m : (ℓ : Loc nD τ sig) → Buf (Elt F) ℓ) (c : Dev nD) :
    val19 (launchContents m c) (no_index (Proc.devRef .tc main_arg11)) = m ((c.tc : Thread nD τ).loc main_arg11) :=
  (val19_keep _ main_arg11 (by decide)).trans (val18_main_arg11 m c)
theorem val19_main_arg12 (m : (ℓ : Loc nD τ sig) → Buf (Elt F) ℓ) (c : Dev nD) :
    val19 (launchContents m c) (no_index (Proc.devRef .tc main_arg12)) = m ((c.tc : Thread nD τ).loc main_arg12) :=
  (val19_keep _ main_arg12 (by decide)).trans (val18_main_arg12 m c)
theorem val19_main_arg13 (m : (ℓ : Loc nD τ sig) → Buf (Elt F) ℓ) (c : Dev nD) :
    val19 (launchContents m c) (no_index (Proc.devRef .tc main_arg13)) = m ((c.tc : Thread nD τ).loc main_arg13) :=
  (val19_keep _ main_arg13 (by decide)).trans (val18_main_arg13 m c)
theorem val19_main_arg14 (m : (ℓ : Loc nD τ sig) → Buf (Elt F) ℓ) (c : Dev nD) :
    val19 (launchContents m c) (no_index (Proc.devRef .tc main_arg14)) = m ((c.tc : Thread nD τ).loc main_arg14) :=
  (val19_keep _ main_arg14 (by decide)).trans (val18_main_arg14 m c)
theorem val19_main_arg15 (m : (ℓ : Loc nD τ sig) → Buf (Elt F) ℓ) (c : Dev nD) :
    val19 (launchContents m c) (no_index (Proc.devRef .tc main_arg15)) = m ((c.tc : Thread nD τ).loc main_arg15) :=
  (val19_keep _ main_arg15 (by decide)).trans (val18_main_arg15 m c)
theorem val19_main_arg16 (m : (ℓ : Loc nD τ sig) → Buf (Elt F) ℓ) (c : Dev nD) :
    val19 (launchContents m c) (no_index (Proc.devRef .tc main_arg16)) = m ((c.tc : Thread nD τ).loc main_arg16) :=
  (val19_keep _ main_arg16 (by decide)).trans (val18_main_arg16 m c)
theorem val19_main_arg17 (m : (ℓ : Loc nD τ sig) → Buf (Elt F) ℓ) (c : Dev nD) :
    val19 (launchContents m c) (no_index (Proc.devRef .tc main_arg17)) = m ((c.tc : Thread nD τ).loc main_arg17) :=
  (val19_keep _ main_arg17 (by decide)).trans (val18_main_arg17 m c)

/-! ## Window 20: up to `main_v64` -/

/-- The operations of window 20. -/
abbrev win20 : List (HloOp τ sig (Elt F)) :=
  [
    nullary main_cst_7 (constant S_ .f32 0xFF800000#32),
    binary main_v63 main_cst_7 main_v64 ((fun x v => Host.reduce FloatOps.maximumf x v reducesTo_S16x32768_S16_d1 h_S_) : (⟨S16x32768, .f32⟩ : BufTy).Contents (Elt F) → (⟨S_, .f32⟩ : BufTy).Contents (Elt F) → (⟨S16, .f32⟩ : BufTy).Contents (Elt F)) ]
/-- The buffers window 20 writes. -/
abbrev win20_W : List (Ref sig .tc) := [main_cst_7, main_v64]
theorem win20_writes : (win20 : List (HloOp τ sig (Elt F))).Forall fun op => op.writes ⊆ (win20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 20. -/
def val20 (V0 : Valuation τ sig (Elt F)) : Valuation τ sig (Elt F) := after win20 (val19 V0)
/-- A buffer window 20 does not write keeps its contents through it. -/
theorem val20_keep (V0 : Valuation τ sig (Elt F)) (r : Ref sig .tc) (h : r ∉ win20_W) :
    val20 V0 (Proc.devRef .tc r) = val19 V0 (Proc.devRef .tc r) :=
  after_of_writes_sub win20 _ win20_writes h
theorem val20_main_arg0 (m : (ℓ : Loc nD τ sig) → Buf (Elt F) ℓ) (c : Dev nD) :
    val20 (launchContents m c) (no_index (Proc.devRef .tc main_arg0)) = m ((c.tc : Thread nD τ).loc main_arg0) :=
  (val20_keep _ main_arg0 (by decide)).trans (val19_main_arg0 m c)
theorem val20_main_arg1 (m : (ℓ : Loc nD τ sig) → Buf (Elt F) ℓ) (c : Dev nD) :
    val20 (launchContents m c) (no_index (Proc.devRef .tc main_arg1)) = m ((c.tc : Thread nD τ).loc main_arg1) :=
  (val20_keep _ main_arg1 (by decide)).trans (val19_main_arg1 m c)
theorem val20_main_v61 (m : (ℓ : Loc nD τ sig) → Buf (Elt F) ℓ) (c : Dev nD) :
    val20 (launchContents m c) (no_index (Proc.devRef .tc main_v61)) = res_main_v61 m c :=
  (val20_keep _ main_v61 (by decide)).trans (val19_main_v61 m c)
theorem val20_main_v60 (m : (ℓ : Loc nD τ sig) → Buf (Elt F) ℓ) (c : Dev nD) :
    val20 (launchContents m c) (no_index (Proc.devRef .tc main_v60)) = res_main_v60 m c :=
  (val20_keep _ main_v60 (by decide)).trans (val19_main_v60 m c)
theorem val20_main_v64 (m : (ℓ : Loc nD τ sig) → Buf (Elt F) ℓ) (c : Dev nD) :
    val20 (launchContents m c) (no_index (Proc.devRef .tc main_v64)) = res_main_v64 m c := by
  unfold val20
  simp only [win20]
  after_results_simp
  all_goals (try simp only [val19_main_v63 m c])
  all_goals (try simp only [TRef.toBuf, TRef.ofBuf, cast_eq])
  all_goals rfl
theorem val20_main_arg10 (m : (ℓ : Loc nD τ sig) → Buf (Elt F) ℓ) (c : Dev nD) :
    val20 (launchContents m c) (no_index (Proc.devRef .tc main_arg10)) = m ((c.tc : Thread nD τ).loc main_arg10) :=
  (val20_keep _ main_arg10 (by decide)).trans (val19_main_arg10 m c)
theorem val20_main_arg11 (m : (ℓ : Loc nD τ sig) → Buf (Elt F) ℓ) (c : Dev nD) :
    val20 (launchContents m c) (no_index (Proc.devRef .tc main_arg11)) = m ((c.tc : Thread nD τ).loc main_arg11) :=
  (val20_keep _ main_arg11 (by decide)).trans (val19_main_arg11 m c)
theorem val20_main_arg12 (m : (ℓ : Loc nD τ sig) → Buf (Elt F) ℓ) (c : Dev nD) :
    val20 (launchContents m c) (no_index (Proc.devRef .tc main_arg12)) = m ((c.tc : Thread nD τ).loc main_arg12) :=
  (val20_keep _ main_arg12 (by decide)).trans (val19_main_arg12 m c)
theorem val20_main_arg13 (m : (ℓ : Loc nD τ sig) → Buf (Elt F) ℓ) (c : Dev nD) :
    val20 (launchContents m c) (no_index (Proc.devRef .tc main_arg13)) = m ((c.tc : Thread nD τ).loc main_arg13) :=
  (val20_keep _ main_arg13 (by decide)).trans (val19_main_arg13 m c)
theorem val20_main_arg14 (m : (ℓ : Loc nD τ sig) → Buf (Elt F) ℓ) (c : Dev nD) :
    val20 (launchContents m c) (no_index (Proc.devRef .tc main_arg14)) = m ((c.tc : Thread nD τ).loc main_arg14) :=
  (val20_keep _ main_arg14 (by decide)).trans (val19_main_arg14 m c)
theorem val20_main_arg15 (m : (ℓ : Loc nD τ sig) → Buf (Elt F) ℓ) (c : Dev nD) :
    val20 (launchContents m c) (no_index (Proc.devRef .tc main_arg15)) = m ((c.tc : Thread nD τ).loc main_arg15) :=
  (val20_keep _ main_arg15 (by decide)).trans (val19_main_arg15 m c)
theorem val20_main_arg16 (m : (ℓ : Loc nD τ sig) → Buf (Elt F) ℓ) (c : Dev nD) :
    val20 (launchContents m c) (no_index (Proc.devRef .tc main_arg16)) = m ((c.tc : Thread nD τ).loc main_arg16) :=
  (val20_keep _ main_arg16 (by decide)).trans (val19_main_arg16 m c)
theorem val20_main_arg17 (m : (ℓ : Loc nD τ sig) → Buf (Elt F) ℓ) (c : Dev nD) :
    val20 (launchContents m c) (no_index (Proc.devRef .tc main_arg17)) = m ((c.tc : Thread nD τ).loc main_arg17) :=
  (val20_keep _ main_arg17 (by decide)).trans (val19_main_arg17 m c)

end Cert.ReferenceIdeal.RDRun

end
-- ==== Proof.RDRun3.lean ====
/- The reference's run read back, part 3: windows 21 to 30 of its operations, cut at the named values; after each window every
   buffer still to be read holds its term of the argument arrays. -/
import proofs.«116939_g89575837925665_cont_sun_c4_16_12_alg».proof.Proof.RDRun2

noncomputable section

namespace Cert.ReferenceIdeal.RDRun

open Cert.ReferenceIdeal Cert.ReferenceIdeal.Gen Cert.ReferenceIdeal.RefRun Cert.ReferenceIdeal.RefRunT Idealize.ShloMosaic Idealize.ShloMosaic.TcCoe
  Idealize.SL.Sem Idealize.ShloMosaic.StableHlo

variable {F : FTy → Type} [FloatOps F]

/-! ## Window 21: up to `main_v71` -/

/-- The operations of window 21. -/
abbrev win21 : List (HloOp τ sig (Elt F)) :=
  [
    unary main_v64 main_v65 (broadcastInDim S16x1 ![0] bcast_S16_S16x1_0 : (⟨S16, .f32⟩ : BufTy).Contents (Elt F) → (⟨S16x1, .f32⟩ : BufTy).Contents (Elt F)),
    unary main_v61 main_v66 (broadcastInDim S1x32768 ![1] bcast_S32768_S1x32768_1 : (⟨S32768, .f32⟩ : BufTy).Contents (Elt F) → (⟨S1x32768, .f32⟩ : BufTy).Contents (Elt F)),
    unary main_v66 main_v67 (broadcastInDim S16x32768 ![0, 1] bcast_S1x32768_S16x32768_0_1 : (⟨S1x32768, .f32⟩ : BufTy).Contents (Elt F) → (⟨S16x32768, .f32⟩ : BufTy).Contents (Elt F)),
    unary main_v65 main_v68 (broadcastInDim S16x32768 ![0, 1] bcast_S16x1_S16x32768_0_1 : (⟨S16x1, .f32⟩ : BufTy).Contents (Elt F) → (⟨S16x32768, .f32⟩ : BufTy).Contents (Elt F)),
    binary main_v67 main_v68 main_v69 (subf : (⟨S16x32768, .f32⟩ : BufTy).Contents (Elt F) → (⟨S16x32768, .f32⟩ : BufTy).Contents (Elt F) → (⟨S16x32768, .f32⟩ : BufTy).Contents (Elt F)),
    unary main_v69 main_v70 (Host.exp : (⟨S16x32768, .f32⟩ : BufTy).Contents (Elt F) → (⟨S16x32768, .f32⟩ : BufTy).Contents (Elt F)),
    nullary main_cst_8 (constant S_ .f32 0x00000000#32),
    TRef.unary (.of main_cst_8 : TRef sig ⟨S_, .f32⟩) main_call5.v0 id,
    TRef.unary main_call5.v0 main_call5.v1 (broadcastInDim S16x32768 ![] bcast_S_S16x32768),
    TRef.ternary (.of main_v60 : TRef sig ⟨S16x32768, .i1⟩) (.of main_v70 : TRef sig ⟨S16x32768, .f32⟩) main_call5.v1 main_call5.v2 select ]
/-- The buffers window 21 writes. -/
abbrev win21_W : List (Ref sig .tc) := [main_v65, main_v66, main_v67, main_v68, main_v69, main_v70, main_cst_8, main_call5_v0, main_call5_v1, main_v71]
theorem win21_writes : (win21 : List (HloOp τ sig (Elt F))).Forall fun op => op.writes ⊆ (win21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 21. -/
def val21 (V0 : Valuation τ sig (Elt F)) : Valuation τ sig (Elt F) := after win21 (val20 V0)
/-- A buffer window 21 does not write keeps its contents through it. -/
theorem val21_keep (V0 : Valuation τ sig (Elt F)) (r : Ref sig .tc) (h : r ∉ win21_W) :
    val21 V0 (Proc.devRef .tc r) = val20 V0 (Proc.devRef .tc r) :=
  after_of_writes_sub win21 _ win21_writes h
theorem val21_main_arg0 (m : (ℓ : Loc nD τ sig) → Buf (Elt F) ℓ) (c : Dev nD) :
    val21 (launchContents m c) (no_index (Proc.devRef .tc main_arg0)) = m ((c.tc : Thread nD τ).loc main_arg0) :=
  (val21_keep _ main_arg0 (by decide)).trans (val20_main_arg0 m c)
theorem val21_main_arg1 (m : (ℓ : Loc nD τ sig) → Buf (Elt F) ℓ) (c : Dev nD) :
    val21 (launchContents m c) (no_index (Proc.devRef .tc main_arg1)) = m ((c.tc : Thread nD τ).loc main_arg1) :=
  (val21_keep _ main_arg1 (by decide)).trans (val20_main_arg1 m c)
theorem val21_main_v71 (m : (ℓ : Loc nD τ sig) → Buf (Elt F) ℓ) (c : Dev nD) :
    val21 (launchContents m c) (no_index (Proc.devRef .tc main_v71)) = res_main_v71 m c := by
  unfold val21
  simp only [win21]
  after_results_simp
  all_goals (try simp only [val20_main_v61 m c, val20_main_v60 m c, val20_main_v64 m c])
  all_goals (try simp only [TRef.toBuf, TRef.ofBuf, cast_eq])
  all_goals rfl
theorem val21_main_arg10 (m : (ℓ : Loc nD τ sig) → Buf (Elt F) ℓ) (c : Dev nD) :
    val21 (launchContents m c) (no_index (Proc.devRef .tc main_arg10)) = m ((c.tc : Thread nD τ).loc main_arg10) :=
  (val21_keep _ main_arg10 (by decide)).trans (val20_main_arg10 m c)
theorem val21_main_arg11 (m : (ℓ : Loc nD τ sig) → Buf (Elt F) ℓ) (c : Dev nD) :
    val21 (launchContents m c) (no_index (Proc.devRef .tc main_arg11)) = m ((c.tc : Thread nD τ).loc main_arg11) :=
  (val21_keep _ main_arg11 (by decide)).trans (val20_main_arg11 m c)
theorem val21_main_arg12 (m : (ℓ : Loc nD τ sig) → Buf (Elt F) ℓ) (c : Dev nD) :
    val21 (launchContents m c) (no_index (Proc.devRef .tc main_arg12)) = m ((c.tc : Thread nD τ).loc main_arg12) :=
  (val21_keep _ main_arg12 (by decide)).trans (val20_main_arg12 m c)
theorem val21_main_arg13 (m : (ℓ : Loc nD τ sig) → Buf (Elt F) ℓ) (c : Dev nD) :
    val21 (launchContents m c) (no_index (Proc.devRef .tc main_arg13)) = m ((c.tc : Thread nD τ).loc main_arg13) :=
  (val21_keep _ main_arg13 (by decide)).trans (val20_main_arg13 m c)
theorem val21_main_arg14 (m : (ℓ : Loc nD τ sig) → Buf (Elt F) ℓ) (c : Dev nD) :
    val21 (launchContents m c) (no_index (Proc.devRef .tc main_arg14)) = m ((c.tc : Thread nD τ).loc main_arg14) :=
  (val21_keep _ main_arg14 (by decide)).trans (val20_main_arg14 m c)
theorem val21_main_arg15 (m : (ℓ : Loc nD τ sig) → Buf (Elt F) ℓ) (c : Dev nD) :
    val21 (launchContents m c) (no_index (Proc.devRef .tc main_arg15)) = m ((c.tc : Thread nD τ).loc main_arg15) :=
  (val21_keep _ main_arg15 (by decide)).trans (val20_main_arg15 m c)
theorem val21_main_arg16 (m : (ℓ : Loc nD τ sig) → Buf (Elt F) ℓ) (c : Dev nD) :
    val21 (launchContents m c) (no_index (Proc.devRef .tc main_arg16)) = m ((c.tc : Thread nD τ).loc main_arg16) :=
  (val21_keep _ main_arg16 (by decide)).trans (val20_main_arg16 m c)
theorem val21_main_arg17 (m : (ℓ : Loc nD τ sig) → Buf (Elt F) ℓ) (c : Dev nD) :
    val21 (launchContents m c) (no_index (Proc.devRef .tc main_arg17)) = m ((c.tc : Thread nD τ).loc main_arg17) :=
  (val21_keep _ main_arg17 (by decide)).trans (val20_main_arg17 m c)

/-! ## Window 22: up to `main_v72` -/

/-- The operations of window 22. -/
abbrev win22 : List (HloOp τ sig (Elt F)) :=
  [
    nullary main_cst_9 (constant S_ .f32 0x00000000#32),
    binary main_v71 main_cst_9 main_v72 ((fun x v => Host.reduceAdd x v reducesTo_S16x32768_S16_d1 h_S_) : (⟨S16x32768, .f32⟩ : BufTy).Contents (Elt F) → (⟨S_, .f32⟩ : BufTy).Contents (Elt F) → (⟨S16, .f32⟩ : BufTy).Contents (Elt F)) ]
/-- The buffers window 22 writes. -/
abbrev win22_W : List (Ref sig .tc) := [main_cst_9, main_v72]
theorem win22_writes : (win22 : List (HloOp τ sig (Elt F))).Forall fun op => op.writes ⊆ (win22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 22. -/
def val22 (V0 : Valuation τ sig (Elt F)) : Valuation τ sig (Elt F) := after win22 (val21 V0)
/-- A buffer window 22 does not write keeps its contents through it. -/
theorem val22_keep (V0 : Valuation τ sig (Elt F)) (r : Ref sig .tc) (h : r ∉ win22_W) :
    val22 V0 (Proc.devRef .tc r) = val21 V0 (Proc.devRef .tc r) :=
  after_of_writes_sub win22 _ win22_writes h
theorem val22_main_arg0 (m : (ℓ : Loc nD τ sig) → Buf (Elt F) ℓ) (c : Dev nD) :
    val22 (launchContents m c) (no_index (Proc.devRef .tc main_arg0)) = m ((c.tc : Thread nD τ).loc main_arg0) :=
  (val22_keep _ main_arg0 (by decide)).trans (val21_main_arg0 m c)
theorem val22_main_arg1 (m : (ℓ : Loc nD τ sig) → Buf (Elt F) ℓ) (c : Dev nD) :
    val22 (launchContents m c) (no_index (Proc.devRef .tc main_arg1)) = m ((c.tc : Thread nD τ).loc main_arg1) :=
  (val22_keep _ main_arg1 (by decide)).trans (val21_main_arg1 m c)
theorem val22_main_v71 (m : (ℓ : Loc nD τ sig) → Buf (Elt F) ℓ) (c : Dev nD) :
    val22 (launchContents m c) (no_index (Proc.devRef .tc main_v71)) = res_main_v71 m c :=
  (val22_keep _ main_v71 (by decide)).trans (val21_main_v71 m c)
theorem val22_main_v72 (m : (ℓ : Loc nD τ sig) → Buf (Elt F) ℓ) (c : Dev nD) :
    val22 (launchContents m c) (no_index (Proc.devRef .tc main_v72)) = res_main_v72 m c := by
  unfold val22
  simp only [win22]
  after_results_simp
  all_goals (try simp only [val21_main_v71 m c])
  all_goals (try simp only [TRef.toBuf, TRef.ofBuf, cast_eq])
  all_goals rfl
theorem val22_main_arg10 (m : (ℓ : Loc nD τ sig) → Buf (Elt F) ℓ) (c : Dev nD) :
    val22 (launchContents m c) (no_index (Proc.devRef .tc main_arg10)) = m ((c.tc : Thread nD τ).loc main_arg10) :=
  (val22_keep _ main_arg10 (by decide)).trans (val21_main_arg10 m c)
theorem val22_main_arg11 (m : (ℓ : Loc nD τ sig) → Buf (Elt F) ℓ) (c : Dev nD) :
    val22 (launchContents m c) (no_index (Proc.devRef .tc main_arg11)) = m ((c.tc : Thread nD τ).loc main_arg11) :=
  (val22_keep _ main_arg11 (by decide)).trans (val21_main_arg11 m c)
theorem val22_main_arg12 (m : (ℓ : Loc nD τ sig) → Buf (Elt F) ℓ) (c : Dev nD) :
    val22 (launchContents m c) (no_index (Proc.devRef .tc main_arg12)) = m ((c.tc : Thread nD τ).loc main_arg12) :=
  (val22_keep _ main_arg12 (by decide)).trans (val21_main_arg12 m c)
theorem val22_main_arg13 (m : (ℓ : Loc nD τ sig) → Buf (Elt F) ℓ) (c : Dev nD) :
    val22 (launchContents m c) (no_index (Proc.devRef .tc main_arg13)) = m ((c.tc : Thread nD τ).loc main_arg13) :=
  (val22_keep _ main_arg13 (by decide)).trans (val21_main_arg13 m c)
theorem val22_main_arg14 (m : (ℓ : Loc nD τ sig) → Buf (Elt F) ℓ) (c : Dev nD) :
    val22 (launchContents m c) (no_index (Proc.devRef .tc main_arg14)) = m ((c.tc : Thread nD τ).loc main_arg14) :=
  (val22_keep _ main_arg14 (by decide)).trans (val21_main_arg14 m c)
theorem val22_main_arg15 (m : (ℓ : Loc nD τ sig) → Buf (Elt F) ℓ) (c : Dev nD) :
    val22 (launchContents m c) (no_index (Proc.devRef .tc main_arg15)) = m ((c.tc : Thread nD τ).loc main_arg15) :=
  (val22_keep _ main_arg15 (by decide)).trans (val21_main_arg15 m c)
theorem val22_main_arg16 (m : (ℓ : Loc nD τ sig) → Buf (Elt F) ℓ) (c : Dev nD) :
    val22 (launchContents m c) (no_index (Proc.devRef .tc main_arg16)) = m ((c.tc : Thread nD τ).loc main_arg16) :=
  (val22_keep _ main_arg16 (by decide)).trans (val21_main_arg16 m c)
theorem val22_main_arg17 (m : (ℓ : Loc nD τ sig) → Buf (Elt F) ℓ) (c : Dev nD) :
    val22 (launchContents m c) (no_index (Proc.devRef .tc main_arg17)) = m ((c.tc : Thread nD τ).loc main_arg17) :=
  (val22_keep _ main_arg17 (by decide)).trans (val21_main_arg17 m c)

/-! ## Window 23: up to `main_v75` -/

/-- The operations of window 23. -/
abbrev win23 : List (HloOp τ sig (Elt F)) :=
  [
    unary main_v72 main_v73 (broadcastInDim S16x1 ![0] bcast_S16_S16x1_0 : (⟨S16, .f32⟩ : BufTy).Contents (Elt F) → (⟨S16x1, .f32⟩ : BufTy).Contents (Elt F)),
    unary main_v73 main_v74 (broadcastInDim S16x32768 ![0, 1] bcast_S16x1_S16x32768_0_1 : (⟨S16x1, .f32⟩ : BufTy).Contents (Elt F) → (⟨S16x32768, .f32⟩ : BufTy).Contents (Elt F)),
    binary main_v71 main_v74 main_v75 (Host.divf : (⟨S16x32768, .f32⟩ : BufTy).Contents (Elt F) → (⟨S16x32768, .f32⟩ : BufTy).Contents (Elt F) → (⟨S16x32768, .f32⟩ : BufTy).Contents (Elt F)) ]
/-- The buffers window 23 writes. -/
abbrev win23_W : List (Ref sig .tc) := [main_v73, main_v74, main_v75]
theorem win23_writes : (win23 : List (HloOp τ sig (Elt F))).Forall fun op => op.writes ⊆ (win23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 23. -/
def val23 (V0 : Valuation τ sig (Elt F)) : Valuation τ sig (Elt F) := after win23 (val22 V0)
/-- A buffer window 23 does not write keeps its contents through it. -/
theorem val23_keep (V0 : Valuation τ sig (Elt F)) (r : Ref sig .tc) (h : r ∉ win23_W) :
    val23 V0 (Proc.devRef .tc r) = val22 V0 (Proc.devRef .tc r) :=
  after_of_writes_sub win23 _ win23_writes h
theorem val23_main_arg0 (m : (ℓ : Loc nD τ sig) → Buf (Elt F) ℓ) (c : Dev nD) :
    val23 (launchContents m c) (no_index (Proc.devRef .tc main_arg0)) = m ((c.tc : Thread nD τ).loc main_arg0) :=
  (val23_keep _ main_arg0 (by decide)).trans (val22_main_arg0 m c)
theorem val23_main_arg1 (m : (ℓ : Loc nD τ sig) → Buf (Elt F) ℓ) (c : Dev nD) :
    val23 (launchContents m c) (no_index (Proc.devRef .tc main_arg1)) = m ((c.tc : Thread nD τ).loc main_arg1) :=
  (val23_keep _ main_arg1 (by decide)).trans (val22_main_arg1 m c)
theorem val23_main_v75 (m : (ℓ : Loc nD τ sig) → Buf (Elt F) ℓ) (c : Dev nD) :
    val23 (launchContents m c) (no_index (Proc.devRef .tc main_v75)) = res_main_v75 m c := by
  unfold val23
  simp only [win23]
  after_results_simp
  all_goals (try simp only [val22_main_v71 m c, val22_main_v72 m c])
  all_goals (try simp only [TRef.toBuf, TRef.ofBuf, cast_eq])
  all_goals rfl
theorem val23_main_arg10 (m : (ℓ : Loc nD τ sig) → Buf (Elt F) ℓ) (c : Dev nD) :
    val23 (launchContents m c) (no_index (Proc.devRef .tc main_arg10)) = m ((c.tc : Thread nD τ).loc main_arg10) :=
  (val23_keep _ main_arg10 (by decide)).trans (val22_main_arg10 m c)
theorem val23_main_arg11 (m : (ℓ : Loc nD τ sig) → Buf (Elt F) ℓ) (c : Dev nD) :
    val23 (launchContents m c) (no_index (Proc.devRef .tc main_arg11)) = m ((c.tc : Thread nD τ).loc main_arg11) :=
  (val23_keep _ main_arg11 (by decide)).trans (val22_main_arg11 m c)
theorem val23_main_arg12 (m : (ℓ : Loc nD τ sig) → Buf (Elt F) ℓ) (c : Dev nD) :
    val23 (launchContents m c) (no_index (Proc.devRef .tc main_arg12)) = m ((c.tc : Thread nD τ).loc main_arg12) :=
  (val23_keep _ main_arg12 (by decide)).trans (val22_main_arg12 m c)
theorem val23_main_arg13 (m : (ℓ : Loc nD τ sig) → Buf (Elt F) ℓ) (c : Dev nD) :
    val23 (launchContents m c) (no_index (Proc.devRef .tc main_arg13)) = m ((c.tc : Thread nD τ).loc main_arg13) :=
  (val23_keep _ main_arg13 (by decide)).trans (val22_main_arg13 m c)
theorem val23_main_arg14 (m : (ℓ : Loc nD τ sig) → Buf (Elt F) ℓ) (c : Dev nD) :
    val23 (launchContents m c) (no_index (Proc.devRef .tc main_arg14)) = m ((c.tc : Thread nD τ).loc main_arg14) :=
  (val23_keep _ main_arg14 (by decide)).trans (val22_main_arg14 m c)
theorem val23_main_arg15 (m : (ℓ : Loc nD τ sig) → Buf (Elt F) ℓ) (c : Dev nD) :
    val23 (launchContents m c) (no_index (Proc.devRef .tc main_arg15)) = m ((c.tc : Thread nD τ).loc main_arg15) :=
  (val23_keep _ main_arg15 (by decide)).trans (val22_main_arg15 m c)
theorem val23_main_arg16 (m : (ℓ : Loc nD τ sig) → Buf (Elt F) ℓ) (c : Dev nD) :
    val23 (launchContents m c) (no_index (Proc.devRef .tc main_arg16)) = m ((c.tc : Thread nD τ).loc main_arg16) :=
  (val23_keep _ main_arg16 (by decide)).trans (val22_main_arg16 m c)
theorem val23_main_arg17 (m : (ℓ : Loc nD τ sig) → Buf (Elt F) ℓ) (c : Dev nD) :
    val23 (launchContents m c) (no_index (Proc.devRef .tc main_arg17)) = m ((c.tc : Thread nD τ).loc main_arg17) :=
  (val23_keep _ main_arg17 (by decide)).trans (val22_main_arg17 m c)

/-! ## Window 24: up to `main_v76` -/

/-- The operations of window 24. -/
abbrev win24 : List (HloOp τ sig (Elt F)) :=
  [
    binary main_v75 main_arg0 main_v76 ((fun l r => Host.dotGeneral dot_S16x32768_S32768x32_S16x32_1_0_0_1_n_n none l r) : (⟨S16x32768, .f32⟩ : BufTy).Contents (Elt F) → (⟨S32768x32, .f32⟩ : BufTy).Contents (Elt F) → (⟨S16x32, .f32⟩ : BufTy).Contents (Elt F)) ]
/-- The buffers window 24 writes. -/
abbrev win24_W : List (Ref sig .tc) := [main_v76]
theorem win24_writes : (win24 : List (HloOp τ sig (Elt F))).Forall fun op => op.writes ⊆ (win24_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers after window 24. -/
def val24 (V0 : Valuation τ sig (Elt F)) : Valuation τ sig (Elt F) := after win24 (val23 V0)
/-- A buffer window 24 does not write keeps its contents through it. -/
theorem val24_keep (V0 : Valuation τ sig (Elt F)) (r : Ref sig .tc) (h : r ∉ win24_W) :
    val24 V0 (Proc.devRef .tc r) = val23 V0 (Proc.devRef .tc r) :=
  after_of_writes_sub win24 _ win24_writes h
theorem val24_main_arg1 (m : (ℓ : Loc nD τ sig) → Buf (Elt F) ℓ) (c : Dev nD) :
    val24 (launchContents m c) (no_index (Proc.devRef .tc main_arg1)) = m ((c.tc : Thread nD τ).loc main_arg1) :=
  (val24_keep _ main_arg1 (by decide)).trans (val23_main_arg1 m c)
theorem val24_main_v76 (m : (ℓ : Loc nD τ sig) → Buf (Elt F) ℓ) (c : Dev nD) :
    val24 (launchContents m c) (no_index (Proc.devRef .tc main_v76)) = res_main_v76 m c := by
  unfold val24
  simp only [win24]
  after_results_simp
  all_goals (try simp only [val23_main_arg0 m c, val23_main_v75 m c])
  all_goals (try simp only [TRef.toBuf, TRef.ofBuf, cast_eq])
  all_goals rfl
theorem val24_main_arg10 (m : (ℓ : Loc nD τ sig) → Buf (Elt F) ℓ) (c : Dev nD) :
    val24 (launchContents m c) (no_index (Proc.devRef .tc main_arg10)) = m ((c.tc : Thread nD τ).loc main_arg10) :=
  (val24_keep _ main_arg10 (by decide)).trans (val23_main_arg10 m c)
theorem val24_main_arg11 (m : (ℓ : Loc nD τ sig) → Buf (Elt F) ℓ) (c : Dev nD) :
    val24 (launchContents m c) (no_index (Proc.devRef .tc main_arg11)) = m ((c.tc : Thread nD τ).loc main_arg11) :=
  (val24_keep _ main_arg11 (by decide)).trans (val23_main_arg11 m c)
theorem val24_main_arg12 (m : (ℓ : Loc nD τ sig) → Buf (Elt F) ℓ) (c : Dev nD) :
    val24 (launchContents m c) (no_index (Proc.devRef .tc main_arg12)) = m ((c.tc : Thread nD τ).loc main_arg12) :=
  (val24_keep _ main_arg12 (by decide)).trans (val23_main_arg12 m c)
theorem val24_main_arg13 (m : (ℓ : Loc nD τ sig) → Buf (Elt F) ℓ) (c : Dev nD) :
    val24 (launchContents m c) (no_index (Proc.devRef .tc main_arg13)) = m ((c.tc : Thread nD τ).loc main_arg13) :=
  (val24_keep _ main_arg13 (by decide)).trans (val23_main_arg13 m c)
theorem val24_main_arg14 (m : (ℓ : Loc nD τ sig) → Buf (Elt F) ℓ) (c : Dev nD) :
    val24 (launchContents m c) (no_index (Proc.devRef .tc main_arg14)) = m ((c.tc : Thread nD τ).loc main_arg14) :=
  (val24_keep _ main_arg14 (by decide)).trans (val23_main_arg14 m c)
theorem val24_main_arg15 (m : (ℓ : Loc nD τ sig) → Buf (Elt F) ℓ) (c : Dev nD) :
    val24 (launchContents m c) (no_index (Proc.devRef .tc main_arg15)) = m ((c.tc : Thread nD τ).loc main_arg15) :=
  (val24_keep _ main_arg15 (by decide)).trans (val23_main_arg15 m c)
theorem val24_main_arg16 (m : (ℓ : Loc nD τ sig) → Buf (Elt F) ℓ) (c : Dev nD) :
    val24 (launchContents m c) (no_index (Proc.devRef .tc main_arg16)) = m ((c.tc : Thread nD τ).loc main_arg16) :=
  (val24_keep _ main_arg16 (by decide)).trans (val23_main_arg16 m c)
theorem val24_main_arg17 (m : (ℓ : Loc nD τ sig) → Buf (Elt F) ℓ) (c : Dev nD) :
    val24 (launchContents m c) (no_index (Proc.devRef .tc main_arg17)) = m ((c.tc : Thread nD τ).loc main_arg17) :=
  (val24_keep _ main_arg17 (by decide)).trans (val23_main_arg17 m c)

/-! ## Window 25: up to `main_v80` -/

/-- The operations of window 25. -/
abbrev win25 : List (HloOp τ sig (Elt F)) :=
  [
    unary main_arg1 main_v77 (broadcastInDim S16x1 ![0] bcast_S16_S16x1_0 : (⟨S16, .i32⟩ : BufTy).Contents (Elt F) → (⟨S16x1, .i32⟩ : BufTy).Contents (Elt F)),
    unary main_v77 main_v78 (sitofp .f32 : (⟨S16x1, .i32⟩ : BufTy).Contents (Elt F) → (⟨S16x1, .f32⟩ : BufTy).Contents (Elt F)),
    unary main_v78 main_v79 (broadcastInDim S16x32 ![0, 1] bcast_S16x1_S16x32_0_1 : (⟨S16x1, .f32⟩ : BufTy).Contents (Elt F) → (⟨S16x32, .f32⟩ : BufTy).Contents (Elt F)),
    binary main_v76 main_v79 main_v80 (Host.divf : (⟨S16x32, .f32⟩ : BufTy).Contents (Elt F) → (⟨S16x32, .f32⟩ : BufTy).Contents (Elt F) → (⟨S16x32, .f32⟩ : BufTy).Contents (Elt F)) ]
/-- The buffers window 25 writes. -/
abbrev win25_W : List (Ref sig .tc) := [main_v77, main_v78, main_v79, main_v80]
theorem win25_writes : (win25 : List (HloOp τ sig (Elt F))).Forall fun op => op.writes ⊆ (win25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 25. -/
def val25 (V0 : Valuation τ sig (Elt F)) : Valuation τ sig (Elt F) := after win25 (val24 V0)
/-- A buffer window 25 does not write keeps its contents through it. -/
theorem val25_keep (V0 : Valuation τ sig (Elt F)) (r : Ref sig .tc) (h : r ∉ win25_W) :
    val25 V0 (Proc.devRef .tc r) = val24 V0 (Proc.devRef .tc r) :=
  after_of_writes_sub win25 _ win25_writes h
theorem val25_main_arg10 (m : (ℓ : Loc nD τ sig) → Buf (Elt F) ℓ) (c : Dev nD) :
    val25 (launchContents m c) (no_index (Proc.devRef .tc main_arg10)) = m ((c.tc : Thread nD τ).loc main_arg10) :=
  (val25_keep _ main_arg10 (by decide)).trans (val24_main_arg10 m c)
theorem val25_main_v80 (m : (ℓ : Loc nD τ sig) → Buf (Elt F) ℓ) (c : Dev nD) :
    val25 (launchContents m c) (no_index (Proc.devRef .tc main_v80)) = res_main_v80 m c := by
  unfold val25
  simp only [win25]
  after_results_simp
  all_goals (try simp only [val24_main_arg1 m c, val24_main_v76 m c])
  all_goals (try simp only [TRef.toBuf, TRef.ofBuf, cast_eq])
  all_goals rfl
theorem val25_main_arg11 (m : (ℓ : Loc nD τ sig) → Buf (Elt F) ℓ) (c : Dev nD) :
    val25 (launchContents m c) (no_index (Proc.devRef .tc main_arg11)) = m ((c.tc : Thread nD τ).loc main_arg11) :=
  (val25_keep _ main_arg11 (by decide)).trans (val24_main_arg11 m c)
theorem val25_main_arg12 (m : (ℓ : Loc nD τ sig) → Buf (Elt F) ℓ) (c : Dev nD) :
    val25 (launchContents m c) (no_index (Proc.devRef .tc main_arg12)) = m ((c.tc : Thread nD τ).loc main_arg12) :=
  (val25_keep _ main_arg12 (by decide)).trans (val24_main_arg12 m c)
theorem val25_main_arg13 (m : (ℓ : Loc nD τ sig) → Buf (Elt F) ℓ) (c : Dev nD) :
    val25 (launchContents m c) (no_index (Proc.devRef .tc main_arg13)) = m ((c.tc : Thread nD τ).loc main_arg13) :=
  (val25_keep _ main_arg13 (by decide)).trans (val24_main_arg13 m c)
theorem val25_main_arg14 (m : (ℓ : Loc nD τ sig) → Buf (Elt F) ℓ) (c : Dev nD) :
    val25 (launchContents m c) (no_index (Proc.devRef .tc main_arg14)) = m ((c.tc : Thread nD τ).loc main_arg14) :=
  (val25_keep _ main_arg14 (by decide)).trans (val24_main_arg14 m c)
theorem val25_main_arg15 (m : (ℓ : Loc nD τ sig) → Buf (Elt F) ℓ) (c : Dev nD) :
    val25 (launchContents m c) (no_index (Proc.devRef .tc main_arg15)) = m ((c.tc : Thread nD τ).loc main_arg15) :=
  (val25_keep _ main_arg15 (by decide)).trans (val24_main_arg15 m c)
theorem val25_main_arg16 (m : (ℓ : Loc nD τ sig) → Buf (Elt F) ℓ) (c : Dev nD) :
    val25 (launchContents m c) (no_index (Proc.devRef .tc main_arg16)) = m ((c.tc : Thread nD τ).loc main_arg16) :=
  (val25_keep _ main_arg16 (by decide)).trans (val24_main_arg16 m c)
theorem val25_main_arg17 (m : (ℓ : Loc nD τ sig) → Buf (Elt F) ℓ) (c : Dev nD) :
    val25 (launchContents m c) (no_index (Proc.devRef .tc main_arg17)) = m ((c.tc : Thread nD τ).loc main_arg17) :=
  (val25_keep _ main_arg17 (by decide)).trans (val24_main_arg17 m c)

/-! ## Window 26: up to `main_v85` -/

/-- The operations of window 26. -/
abbrev win26 : List (HloOp τ sig (Elt F)) :=
  [
    unary main_arg10 main_v81 ((transpose S32x64 [1, 0] · transposes_S64x32_S32x64_1_0) : (⟨S64x32, .f32⟩ : BufTy).Contents (Elt F) → (⟨S32x64, .f32⟩ : BufTy).Contents (Elt F)),
    binary main_v80 main_v81 main_v82 ((fun l r => Host.dotGeneral dot_S16x32_S32x64_S16x64_1_0_0_1_n_n none l r) : (⟨S16x32, .f32⟩ : BufTy).Contents (Elt F) → (⟨S32x64, .f32⟩ : BufTy).Contents (Elt F) → (⟨S16x64, .f32⟩ : BufTy).Contents (Elt F)),
    unary main_arg11 main_v83 (broadcastInDim S1x64 ![1] bcast_S64_S1x64_1 : (⟨S64, .f32⟩ : BufTy).Contents (Elt F) → (⟨S1x64, .f32⟩ : BufTy).Contents (Elt F)),
    unary main_v83 main_v84 (broadcastInDim S16x64 ![0, 1] bcast_S1x64_S16x64_0_1 : (⟨S1x64, .f32⟩ : BufTy).Contents (Elt F) → (⟨S16x64, .f32⟩ : BufTy).Contents (Elt F)),
    binary main_v82 main_v84 main_v85 (addf : (⟨S16x64, .f32⟩ : BufTy).Contents (Elt F) → (⟨S16x64, .f32⟩ : BufTy).Contents (Elt F) → (⟨S16x64, .f32⟩ : BufTy).Contents (Elt F)) ]
/-- The buffers window 26 writes. -/
abbrev win26_W : List (Ref sig .tc) := [main_v81, main_v82, main_v83, main_v84, main_v85]
theorem win26_writes : (win26 : List (HloOp τ sig (Elt F))).Forall fun op => op.writes ⊆ (win26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 26. -/
def val26 (V0 : Valuation τ sig (Elt F)) : Valuation τ sig (Elt F) := after win26 (val25 V0)
/-- A buffer window 26 does not write keeps its contents through it. -/
theorem val26_keep (V0 : Valuation τ sig (Elt F)) (r : Ref sig .tc) (h : r ∉ win26_W) :
    val26 V0 (Proc.devRef .tc r) = val25 V0 (Proc.devRef .tc r) :=
  after_of_writes_sub win26 _ win26_writes h
theorem val26_main_v85 (m : (ℓ : Loc nD τ sig) → Buf (Elt F) ℓ) (c : Dev nD) :
    val26 (launchContents m c) (no_index (Proc.devRef .tc main_v85)) = res_main_v85 m c := by
  unfold val26
  simp only [win26]
  after_results_simp
  all_goals (try simp only [val25_main_arg10 m c, val25_main_v80 m c, val25_main_arg11 m c])
  all_goals (try simp only [TRef.toBuf, TRef.ofBuf, cast_eq])
  all_goals rfl
theorem val26_main_arg12 (m : (ℓ : Loc nD τ sig) → Buf (Elt F) ℓ) (c : Dev nD) :
    val26 (launchContents m c) (no_index (Proc.devRef .tc main_arg12)) = m ((c.tc : Thread nD τ).loc main_arg12) :=
  (val26_keep _ main_arg12 (by decide)).trans (val25_main_arg12 m c)
theorem val26_main_arg13 (m : (ℓ : Loc nD τ sig) → Buf (Elt F) ℓ) (c : Dev nD) :
    val26 (launchContents m c) (no_index (Proc.devRef .tc main_arg13)) = m ((c.tc : Thread nD τ).loc main_arg13) :=
  (val26_keep _ main_arg13 (by decide)).trans (val25_main_arg13 m c)
theorem val26_main_arg14 (m : (ℓ : Loc nD τ sig) → Buf (Elt F) ℓ) (c : Dev nD) :
    val26 (launchContents m c) (no_index (Proc.devRef .tc main_arg14)) = m ((c.tc : Thread nD τ).loc main_arg14) :=
  (val26_keep _ main_arg14 (by decide)).trans (val25_main_arg14 m c)
theorem val26_main_arg15 (m : (ℓ : Loc nD τ sig) → Buf (Elt F) ℓ) (c : Dev nD) :
    val26 (launchContents m c) (no_index (Proc.devRef .tc main_arg15)) = m ((c.tc : Thread nD τ).loc main_arg15) :=
  (val26_keep _ main_arg15 (by decide)).trans (val25_main_arg15 m c)
theorem val26_main_arg16 (m : (ℓ : Loc nD τ sig) → Buf (Elt F) ℓ) (c : Dev nD) :
    val26 (launchContents m c) (no_index (Proc.devRef .tc main_arg16)) = m ((c.tc : Thread nD τ).loc main_arg16) :=
  (val26_keep _ main_arg16 (by decide)).trans (val25_main_arg16 m c)
theorem val26_main_arg17 (m : (ℓ : Loc nD τ sig) → Buf (Elt F) ℓ) (c : Dev nD) :
    val26 (launchContents m c) (no_index (Proc.devRef .tc main_arg17)) = m ((c.tc : Thread nD τ).loc main_arg17) :=
  (val26_keep _ main_arg17 (by decide)).trans (val25_main_arg17 m c)

/-! ## Window 27: up to `main_v89` -/

/-- The operations of window 27. -/
abbrev win27 : List (HloOp τ sig (Elt F)) :=
  [
    nullary main_cst_10 (constant S_ .f32 0x00000000#32),
    binary main_v85 main_cst_10 main_v86 ((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F)),
    unary main_v86 main_v87 (broadcastInDim S1x64 ![1] bcast_S64_S1x64_1 : (⟨S64, .f32⟩ : BufTy).Contents (Elt F) → (⟨S1x64, .f32⟩ : BufTy).Contents (Elt F)),
    nullary main_cst_11 (constant S_ .f32 0x41800000#32),
    unary main_cst_11 main_v88 (broadcastInDim S1x64 ![] bcast_S_S1x64 : (⟨S_, .f32⟩ : BufTy).Contents (Elt F) → (⟨S1x64, .f32⟩ : BufTy).Contents (Elt F)),
    binary main_v87 main_v88 main_v89 (Host.divf : (⟨S1x64, .f32⟩ : BufTy).Contents (Elt F) → (⟨S1x64, .f32⟩ : BufTy).Contents (Elt F) → (⟨S1x64, .f32⟩ : BufTy).Contents (Elt F)) ]
/-- The buffers window 27 writes. -/
abbrev win27_W : List (Ref sig .tc) := [main_cst_10, main_v86, main_v87, main_cst_11, main_v88, main_v89]
theorem win27_writes : (win27 : List (HloOp τ sig (Elt F))).Forall fun op => op.writes ⊆ (win27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 27. -/
def val27 (V0 : Valuation τ sig (Elt F)) : Valuation τ sig (Elt F) := after win27 (val26 V0)
/-- A buffer window 27 does not write keeps its contents through it. -/
theorem val27_keep (V0 : Valuation τ sig (Elt F)) (r : Ref sig .tc) (h : r ∉ win27_W) :
    val27 V0 (Proc.devRef .tc r) = val26 V0 (Proc.devRef .tc r) :=
  after_of_writes_sub win27 _ win27_writes h
theorem val27_main_v85 (m : (ℓ : Loc nD τ sig) → Buf (Elt F) ℓ) (c : Dev nD) :
    val27 (launchContents m c) (no_index (Proc.devRef .tc main_v85)) = res_main_v85 m c :=
  (val27_keep _ main_v85 (by decide)).trans (val26_main_v85 m c)
theorem val27_main_v89 (m : (ℓ : Loc nD τ sig) → Buf (Elt F) ℓ) (c : Dev nD) :
    val27 (launchContents m c) (no_index (Proc.devRef .tc main_v89)) = res_main_v89 m c := by
  unfold val27
  simp only [win27]
  after_results_simp
  all_goals (try simp only [val26_main_v85 m c])
  all_goals (try simp only [TRef.toBuf, TRef.ofBuf, cast_eq])
  all_goals rfl
theorem val27_main_arg12 (m : (ℓ : Loc nD τ sig) → Buf (Elt F) ℓ) (c : Dev nD) :
    val27 (launchContents m c) (no_index (Proc.devRef .tc main_arg12)) = m ((c.tc : Thread nD τ).loc main_arg12) :=
  (val27_keep _ main_arg12 (by decide)).trans (val26_main_arg12 m c)
theorem val27_main_arg13 (m : (ℓ : Loc nD τ sig) → Buf (Elt F) ℓ) (c : Dev nD) :
    val27 (launchContents m c) (no_index (Proc.devRef .tc main_arg13)) = m ((c.tc : Thread nD τ).loc main_arg13) :=
  (val27_keep _ main_arg13 (by decide)).trans (val26_main_arg13 m c)
theorem val27_main_arg14 (m : (ℓ : Loc nD τ sig) → Buf (Elt F) ℓ) (c : Dev nD) :
    val27 (launchContents m c) (no_index (Proc.devRef .tc main_arg14)) = m ((c.tc : Thread nD τ).loc main_arg14) :=
  (val27_keep _ main_arg14 (by decide)).trans (val26_main_arg14 m c)
theorem val27_main_arg15 (m : (ℓ : Loc nD τ sig) → Buf (Elt F) ℓ) (c : Dev nD) :
    val27 (launchContents m c) (no_index (Proc.devRef .tc main_arg15)) = m ((c.tc : Thread nD τ).loc main_arg15) :=
  (val27_keep _ main_arg15 (by decide)).trans (val26_main_arg15 m c)
theorem val27_main_arg16 (m : (ℓ : Loc nD τ sig) → Buf (Elt F) ℓ) (c : Dev nD) :
    val27 (launchContents m c) (no_index (Proc.devRef .tc main_arg16)) = m ((c.tc : Thread nD τ).loc main_arg16) :=
  (val27_keep _ main_arg16 (by decide)).trans (val26_main_arg16 m c)
theorem val27_main_arg17 (m : (ℓ : Loc nD τ sig) → Buf (Elt F) ℓ) (c : Dev nD) :
    val27 (launchContents m c) (no_index (Proc.devRef .tc main_arg17)) = m ((c.tc : Thread nD τ).loc main_arg17) :=
  (val27_keep _ main_arg17 (by decide)).trans (val26_main_arg17 m c)

/-! ## Window 28: up to `main_call6_v5` -/

/-- The operations of window 28. -/
abbrev win28 : List (HloOp τ sig (Elt F)) :=
  [
    nullary main_c_12 (constantI S_ 32 0#32),
    TRef.nullary main_call6.cst (constant S_ .f32 0x00000000#32),
    TRef.binary (.of main_v85 : TRef sig ⟨S16x64, .f32⟩) main_call6.cst main_call6.v0 (fun x v => Host.reduceAdd x v reducesTo_S16x64_S64_d0 h_S_),
    TRef.unary main_call6.v0 main_call6.v1 (broadcastInDim S1x64 ![1] bcast_S64_S1x64_1),
    TRef.nullary main_call6.cst_0 (constant S_ .f32 0x41800000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S16x64 ![0, 1] bcast_S1x64_S16x64_0_1),
    TRef.binary (.of main_v85 : TRef sig ⟨S16x64, .f32⟩) main_call6.v4 main_call6.v5 subf ]
/-- The buffers window 28 writes. -/
abbrev win28_W : List (Ref sig .tc) := [main_c_12, main_call6_cst, main_call6_v0, main_call6_v1, main_call6_cst_0, main_call6_v2, main_call6_v3, main_call6_v4, main_call6_v5]
theorem win28_writes : (win28 : List (HloOp τ sig (Elt F))).Forall fun op => op.writes ⊆ (win28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 28. -/
def val28 (V0 : Valuation τ sig (Elt F)) : Valuation τ sig (Elt F) := after win28 (val27 V0)
/-- A buffer window 28 does not write keeps its contents through it. -/
theorem val28_keep (V0 : Valuation τ sig (Elt F)) (r : Ref sig .tc) (h : r ∉ win28_W) :
    val28 V0 (Proc.devRef .tc r) = val27 V0 (Proc.devRef .tc r) :=
  after_of_writes_sub win28 _ win28_writes h
theorem val28_main_v85 (m : (ℓ : Loc nD τ sig) → Buf (Elt F) ℓ) (c : Dev nD) :
    val28 (launchContents m c) (no_index (Proc.devRef .tc main_v85)) = res_main_v85 m c :=
  (val28_keep _ main_v85 (by decide)).trans (val27_main_v85 m c)
theorem val28_main_call6_v5 (m : (ℓ : Loc nD τ sig) → Buf (Elt F) ℓ) (c : Dev nD) :
    val28 (launchContents m c) (no_index (Proc.devRef .tc main_call6_v5)) = res_main_call6_v5 m c := by
  unfold val28
  simp only [win28]
  after_results_simp
  all_goals (try simp only [val27_main_v85 m c])
  all_goals (try simp only [TRef.toBuf, TRef.ofBuf, cast_eq])
  all_goals rfl
theorem val28_main_c_12 (m : (ℓ : Loc nD τ sig) → Buf (Elt F) ℓ) (c : Dev nD) :
    val28 (launchContents m c) (no_index (Proc.devRef .tc main_c_12)) = constantI S_ 32 0#32 := by
  unfold val28
  simp only [win28]
  after_results_simp
  all_goals (try simp only [val27_main_v85 m c])
  all_goals (try simp only [TRef.toBuf, TRef.ofBuf, cast_eq])
  all_goals rfl
theorem val28_main_v89 (m : (ℓ : Loc nD τ sig) → Buf (Elt F) ℓ) (c : Dev nD) :
    val28 (launchContents m c) (no_index (Proc.devRef .tc main_v89)) = res_main_v89 m c :=
  (val28_keep _ main_v89 (by decide)).trans (val27_main_v89 m c)
theorem val28_main_arg12 (m : (ℓ : Loc nD τ sig) → Buf (Elt F) ℓ) (c : Dev nD) :
    val28 (launchContents m c) (no_index (Proc.devRef .tc main_arg12)) = m ((c.tc : Thread nD τ).loc main_arg12) :=
  (val28_keep _ main_arg12 (by decide)).trans (val27_main_arg12 m c)
theorem val28_main_arg13 (m : (ℓ : Loc nD τ sig) → Buf (Elt F) ℓ) (c : Dev nD) :
    val28 (launchContents m c) (no_index (Proc.devRef .tc main_arg13)) = m ((c.tc : Thread nD τ).loc main_arg13) :=
  (val28_keep _ main_arg13 (by decide)).trans (val27_main_arg13 m c)
theorem val28_main_arg14 (m : (ℓ : Loc nD τ sig) → Buf (Elt F) ℓ) (c : Dev nD) :
    val28 (launchContents m c) (no_index (Proc.devRef .tc main_arg14)) = m ((c.tc : Thread nD τ).loc main_arg14) :=
  (val28_keep _ main_arg14 (by decide)).trans (val27_main_arg14 m c)
theorem val28_main_arg15 (m : (ℓ : Loc nD τ sig) → Buf (Elt F) ℓ) (c : Dev nD) :
    val28 (launchContents m c) (no_index (Proc.devRef .tc main_arg15)) = m ((c.tc : Thread nD τ).loc main_arg15) :=
  (val28_keep _ main_arg15 (by decide)).trans (val27_main_arg15 m c)
theorem val28_main_arg16 (m : (ℓ : Loc nD τ sig) → Buf (Elt F) ℓ) (c : Dev nD) :
    val28 (launchContents m c) (no_index (Proc.devRef .tc main_arg16)) = m ((c.tc : Thread nD τ).loc main_arg16) :=
  (val28_keep _ main_arg16 (by decide)).trans (val27_main_arg16 m c)
theorem val28_main_arg17 (m : (ℓ : Loc nD τ sig) → Buf (Elt F) ℓ) (c : Dev nD) :
    val28 (launchContents m c) (no_index (Proc.devRef .tc main_arg17)) = m ((c.tc : Thread nD τ).loc main_arg17) :=
  (val28_keep _ main_arg17 (by decide)).trans (val27_main_arg17 m c)

/-! ## Window 29: up to `main_call6_v8` -/

/-- The operations of window 29. -/
abbrev win29 : List (HloOp τ sig (Elt F)) :=
  [
    TRef.binary main_call6.v5 main_call6.v5 main_call6.v6 mulf,
    TRef.unary (.of main_c_12 : TRef sig ⟨S_, .i32⟩) main_call6.v7 (sitofp .f32),
    TRef.nullary main_call6.cst_1 (constant S_ .f32 0x41800000#32),
    TRef.binary main_call6.cst_1 main_call6.v7 main_call6.v8 subf ]
/-- The buffers window 29 writes. -/
abbrev win29_W : List (Ref sig .tc) := [main_call6_v6, main_call6_v7, main_call6_cst_1, main_call6_v8]
theorem win29_writes : (win29 : List (HloOp τ sig (Elt F))).Forall fun op => op.writes ⊆ (win29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 29. -/
def val29 (V0 : Valuation τ sig (Elt F)) : Valuation τ sig (Elt F) := after win29 (val28 V0)
/-- A buffer window 29 does not write keeps its contents through it. -/
theorem val29_keep (V0 : Valuation τ sig (Elt F)) (r : Ref sig .tc) (h : r ∉ win29_W) :
    val29 V0 (Proc.devRef .tc r) = val28 V0 (Proc.devRef .tc r) :=
  after_of_writes_sub win29 _ win29_writes h
theorem val29_main_v85 (m : (ℓ : Loc nD τ sig) → Buf (Elt F) ℓ) (c : Dev nD) :
    val29 (launchContents m c) (no_index (Proc.devRef .tc main_v85)) = res_main_v85 m c :=
  (val29_keep _ main_v85 (by decide)).trans (val28_main_v85 m c)
theorem val29_main_call6_v6 (m : (ℓ : Loc nD τ sig) → Buf (Elt F) ℓ) (c : Dev nD) :
    val29 (launchContents m c) (no_index (Proc.devRef .tc main_call6_v6)) = (mulf) (res_main_call6_v5 m c) (res_main_call6_v5 m c) := by
  unfold val29
  simp only [win29]
  after_results_simp
  all_goals (try simp only [val28_main_call6_v5 m c, val28_main_c_12 m c])
  all_goals (try simp only [TRef.toBuf, TRef.ofBuf, cast_eq])
  all_goals rfl
theorem val29_main_call6_v8 (m : (ℓ : Loc nD τ sig) → Buf (Elt F) ℓ) (c : Dev nD) :
    val29 (launchContents m c) (no_index (Proc.devRef .tc main_call6_v8)) = res_main_call6_v8 m c := by
  unfold val29
  simp only [win29]
  after_results_simp
  all_goals (try simp only [val28_main_call6_v5 m c, val28_main_c_12 m c])
  all_goals (try simp only [TRef.toBuf, TRef.ofBuf, cast_eq])
  all_goals rfl
theorem val29_main_v89 (m : (ℓ : Loc nD τ sig) → Buf (Elt F) ℓ) (c : Dev nD) :
    val29 (launchContents m c) (no_index (Proc.devRef .tc main_v89)) = res_main_v89 m c :=
  (val29_keep _ main_v89 (by decide)).trans (val28_main_v89 m c)
theorem val29_main_arg12 (m : (ℓ : Loc nD τ sig) → Buf (Elt F) ℓ) (c : Dev nD) :
    val29 (launchContents m c) (no_index (Proc.devRef .tc main_arg12)) = m ((c.tc : Thread nD τ).loc main_arg12) :=
  (val29_keep _ main_arg12 (by decide)).trans (val28_main_arg12 m c)
theorem val29_main_arg13 (m : (ℓ : Loc nD τ sig) → Buf (Elt F) ℓ) (c : Dev nD) :
    val29 (launchContents m c) (no_index (Proc.devRef .tc main_arg13)) = m ((c.tc : Thread nD τ).loc main_arg13) :=
  (val29_keep _ main_arg13 (by decide)).trans (val28_main_arg13 m c)
theorem val29_main_arg14 (m : (ℓ : Loc nD τ sig) → Buf (Elt F) ℓ) (c : Dev nD) :
    val29 (launchContents m c) (no_index (Proc.devRef .tc main_arg14)) = m ((c.tc : Thread nD τ).loc main_arg14) :=
  (val29_keep _ main_arg14 (by decide)).trans (val28_main_arg14 m c)
theorem val29_main_arg15 (m : (ℓ : Loc nD τ sig) → Buf (Elt F) ℓ) (c : Dev nD) :
    val29 (launchContents m c) (no_index (Proc.devRef .tc main_arg15)) = m ((c.tc : Thread nD τ).loc main_arg15) :=
  (val29_keep _ main_arg15 (by decide)).trans (val28_main_arg15 m c)
theorem val29_main_arg16 (m : (ℓ : Loc nD τ sig) → Buf (Elt F) ℓ) (c : Dev nD) :
    val29 (launchContents m c) (no_index (Proc.devRef .tc main_arg16)) = m ((c.tc : Thread nD τ).loc main_arg16) :=
  (val29_keep _ main_arg16 (by decide)).trans (val28_main_arg16 m c)
theorem val29_main_arg17 (m : (ℓ : Loc nD τ sig) → Buf (Elt F) ℓ) (c : Dev nD) :
    val29 (launchContents m c) (no_index (Proc.devRef .tc main_arg17)) = m ((c.tc : Thread nD τ).loc main_arg17) :=
  (val29_keep _ main_arg17 (by decide)).trans (val28_main_arg17 m c)

/-! ## Window 30: up to `main_v90` -/

/-- The operations of window 30. -/
abbrev win30 : List (HloOp τ sig (Elt F)) :=
  [
    TRef.nullary main_call6.cst_2 (constant S_ .f32 0x00000000#32),
    TRef.binary main_call6.v6 main_call6.cst_2 main_call6.v9 (fun x v => Host.reduceAdd x v reducesTo_S16x64_S64_d0 h_S_),
    TRef.unary main_call6.v9 main_call6.v10 (broadcastInDim S1x64 ![1] bcast_S64_S1x64_1),
    TRef.unary main_call6.v8 main_call6.v11 (broadcastInDim S1x64 ![] bcast_S_S1x64),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x64 ![] bcast_S_S1x64),
    TRef.ternary main_call6.v13 main_call6.v12 main_call6.call0.v1 main_call6.call0.v2 (fun p a b => select (broadcastInDim S1x64 ![] bcast_S_S1x64 p) a b) ]
/-- The buffers window 30 writes. -/
abbrev win30_W : List (Ref sig .tc) := [main_call6_cst_2, main_call6_v9, main_call6_v10, main_call6_v11, main_call6_v12, main_call6_cst_3, main_call6_v13, main_call6_cst_4, main_call6_call0_v0, main_call6_call0_v1, main_v90]
theorem win30_writes : (win30 : List (HloOp τ sig (Elt F))).Forall fun op => op.writes ⊆ (win30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 30. -/
def val30 (V0 : Valuation τ sig (Elt F)) : Valuation τ sig (Elt F) := after win30 (val29 V0)
/-- A buffer window 30 does not write keeps its contents through it. -/
theorem val30_keep (V0 : Valuation τ sig (Elt F)) (r : Ref sig .tc) (h : r ∉ win30_W) :
    val30 V0 (Proc.devRef .tc r) = val29 V0 (Proc.devRef .tc r) :=
  after_of_writes_sub win30 _ win30_writes h
theorem val30_main_v85 (m : (ℓ : Loc nD τ sig) → Buf (Elt F) ℓ) (c : Dev nD) :
    val30 (launchContents m c) (no_index (Proc.devRef .tc main_v85)) = res_main_v85 m c :=
  (val30_keep _ main_v85 (by decide)).trans (val29_main_v85 m c)
theorem val30_main_v89 (m : (ℓ : Loc nD τ sig) → Buf (Elt F) ℓ) (c : Dev nD) :
    val30 (launchContents m c) (no_index (Proc.devRef .tc main_v89)) = res_main_v89 m c :=
  (val30_keep _ main_v89 (by decide)).trans (val29_main_v89 m c)
theorem val30_main_v90 (m : (ℓ : Loc nD τ sig) → Buf (Elt F) ℓ) (c : Dev nD) :
    val30 (launchContents m c) (no_index (Proc.devRef .tc main_v90)) = res_main_v90 m c := by
  unfold val30
  simp only [win30]
  after_results_simp
  all_goals (try simp only [val29_main_call6_v6 m c, val29_main_call6_v8 m c])
  all_goals (try simp only [TRef.toBuf, TRef.ofBuf, cast_eq])
  all_goals rfl
theorem val30_main_arg12 (m : (ℓ : Loc nD τ sig) → Buf (Elt F) ℓ) (c : Dev nD) :
    val30 (launchContents m c) (no_index (Proc.devRef .tc main_arg12)) = m ((c.tc : Thread nD τ).loc main_arg12) :=
  (val30_keep _ main_arg12 (by decide)).trans (val29_main_arg12 m c)
theorem val30_main_arg13 (m : (ℓ : Loc nD τ sig) → Buf (Elt F) ℓ) (c : Dev nD) :
    val30 (launchContents m c) (no_index (Proc.devRef .tc main_arg13)) = m ((c.tc : Thread nD τ).loc main_arg13) :=
  (val30_keep _ main_arg13 (by decide)).trans (val29_main_arg13 m c)
theorem val30_main_arg14 (m : (ℓ : Loc nD τ sig) → Buf (Elt F) ℓ) (c : Dev nD) :
    val30 (launchContents m c) (no_index (Proc.devRef .tc main_arg14)) = m ((c.tc : Thread nD τ).loc main_arg14) :=
  (val30_keep _ main_arg14 (by decide)).trans (val29_main_arg14 m c)
theorem val30_main_arg15 (m : (ℓ : Loc nD τ sig) → Buf (Elt F) ℓ) (c : Dev nD) :
    val30 (launchContents m c) (no_index (Proc.devRef .tc main_arg15)) = m ((c.tc : Thread nD τ).loc main_arg15) :=
  (val30_keep _ main_arg15 (by decide)).trans (val29_main_arg15 m c)
theorem val30_main_arg16 (m : (ℓ : Loc nD τ sig) → Buf (Elt F) ℓ) (c : Dev nD) :
    val30 (launchContents m c) (no_index (Proc.devRef .tc main_arg16)) = m ((c.tc : Thread nD τ).loc main_arg16) :=
  (val30_keep _ main_arg16 (by decide)).trans (val29_main_arg16 m c)
theorem val30_main_arg17 (m : (ℓ : Loc nD τ sig) → Buf (Elt F) ℓ) (c : Dev nD) :
    val30 (launchContents m c) (no_index (Proc.devRef .tc main_arg17)) = m ((c.tc : Thread nD τ).loc main_arg17) :=
  (val30_keep _ main_arg17 (by decide)).trans (val29_main_arg17 m c)

end Cert.ReferenceIdeal.RDRun

end
-- ==== Proof.RDRun4.lean ====
/- The reference's run read back, part 4: windows 31 to 39 of its operations, cut at the named values; after each window every
   buffer still to be read holds its term of the argument arrays. -/
import proofs.«116939_g89575837925665_cont_sun_c4_16_12_alg».proof.Proof.RDRun3

noncomputable section

namespace Cert.ReferenceIdeal.RDRun

open Cert.ReferenceIdeal Cert.ReferenceIdeal.Gen Cert.ReferenceIdeal.RefRun Cert.ReferenceIdeal.RefRunT Idealize.ShloMosaic Idealize.ShloMosaic.TcCoe
  Idealize.SL.Sem Idealize.ShloMosaic.StableHlo

variable {F : FTy → Type} [FloatOps F]

/-! ## Window 31: up to `main_v104` -/

/-- The operations of window 31. -/
abbrev win31 : List (HloOp τ sig (Elt F)) :=
  [
    unary main_v89 main_v91 (broadcastInDim S16x64 ![0, 1] bcast_S1x64_S16x64_0_1 : (⟨S1x64, .f32⟩ : BufTy).Contents (Elt F) → (⟨S16x64, .f32⟩ : BufTy).Contents (Elt F)),
    binary main_v85 main_v91 main_v92 (subf : (⟨S16x64, .f32⟩ : BufTy).Contents (Elt F) → (⟨S16x64, .f32⟩ : BufTy).Contents (Elt F) → (⟨S16x64, .f32⟩ : BufTy).Contents (Elt F)),
    nullary main_cst_13 (constant S_ .f32 0x3727C5AC#32),
    unary main_cst_13 main_v93 (broadcastInDim S1x64 ![] bcast_S_S1x64 : (⟨S_, .f32⟩ : BufTy).Contents (Elt F) → (⟨S1x64, .f32⟩ : BufTy).Contents (Elt F)),
    binary main_v90 main_v93 main_v94 (addf : (⟨S1x64, .f32⟩ : BufTy).Contents (Elt F) → (⟨S1x64, .f32⟩ : BufTy).Contents (Elt F) → (⟨S1x64, .f32⟩ : BufTy).Contents (Elt F)),
    unary main_v94 main_v95 (Host.sqrt : (⟨S1x64, .f32⟩ : BufTy).Contents (Elt F) → (⟨S1x64, .f32⟩ : BufTy).Contents (Elt F)),
    unary main_v95 main_v96 (broadcastInDim S16x64 ![0, 1] bcast_S1x64_S16x64_0_1 : (⟨S1x64, .f32⟩ : BufTy).Contents (Elt F) → (⟨S16x64, .f32⟩ : BufTy).Contents (Elt F)),
    binary main_v92 main_v96 main_v97 (Host.divf : (⟨S16x64, .f32⟩ : BufTy).Contents (Elt F) → (⟨S16x64, .f32⟩ : BufTy).Contents (Elt F) → (⟨S16x64, .f32⟩ : BufTy).Contents (Elt F)),
    unary main_arg12 main_v98 (broadcastInDim S1x64 ![1] bcast_S64_S1x64_1 : (⟨S64, .f32⟩ : BufTy).Contents (Elt F) → (⟨S1x64, .f32⟩ : BufTy).Contents (Elt F)),
    unary main_v98 main_v99 (broadcastInDim S16x64 ![0, 1] bcast_S1x64_S16x64_0_1 : (⟨S1x64, .f32⟩ : BufTy).Contents (Elt F) → (⟨S16x64, .f32⟩ : BufTy).Contents (Elt F)),
    binary main_v97 main_v99 main_v100 (mulf : (⟨S16x64, .f32⟩ : BufTy).Contents (Elt F) → (⟨S16x64, .f32⟩ : BufTy).Contents (Elt F) → (⟨S16x64, .f32⟩ : BufTy).Contents (Elt F)),
    unary main_arg13 main_v101 (broadcastInDim S1x64 ![1] bcast_S64_S1x64_1 : (⟨S64, .f32⟩ : BufTy).Contents (Elt F) → (⟨S1x64, .f32⟩ : BufTy).Contents (Elt F)),
    unary main_v101 main_v102 (broadcastInDim S16x64 ![0, 1] bcast_S1x64_S16x64_0_1 : (⟨S1x64, .f32⟩ : BufTy).Contents (Elt F) → (⟨S16x64, .f32⟩ : BufTy).Contents (Elt F)),
    binary main_v100 main_v102 main_v103 (addf : (⟨S16x64, .f32⟩ : BufTy).Contents (Elt F) → (⟨S16x64, .f32⟩ : BufTy).Contents (Elt F) → (⟨S16x64, .f32⟩ : BufTy).Contents (Elt F)),
    TRef.nullary main_call7.cst (constant S_ .f32 0x00000000#32),
    TRef.unary main_call7.cst main_call7.v0 (broadcastInDim S16x64 ![] bcast_S_S16x64),
    TRef.binary (.of main_v103 : TRef sig ⟨S16x64, .f32⟩) main_call7.v0 main_call7.v1 maximumf ]
/-- The buffers window 31 writes. -/
abbrev win31_W : List (Ref sig .tc) := [main_v91, main_v92, main_cst_13, main_v93, main_v94, main_v95, main_v96, main_v97, main_v98, main_v99, main_v100, main_v101, main_v102, main_v103, main_call7_cst, main_call7_v0, main_v104]
theorem win31_writes : (win31 : List (HloOp τ sig (Elt F))).Forall fun op => op.writes ⊆ (win31_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 31. -/
def val31 (V0 : Valuation τ sig (Elt F)) : Valuation τ sig (Elt F) := after win31 (val30 V0)
/-- A buffer window 31 does not write keeps its contents through it. -/
theorem val31_keep (V0 : Valuation τ sig (Elt F)) (r : Ref sig .tc) (h : r ∉ win31_W) :
    val31 V0 (Proc.devRef .tc r) = val30 V0 (Proc.devRef .tc r) :=
  after_of_writes_sub win31 _ win31_writes h
theorem val31_main_arg14 (m : (ℓ : Loc nD τ sig) → Buf (Elt F) ℓ) (c : Dev nD) :
    val31 (launchContents m c) (no_index (Proc.devRef .tc main_arg14)) = m ((c.tc : Thread nD τ).loc main_arg14) :=
  (val31_keep _ main_arg14 (by decide)).trans (val30_main_arg14 m c)
theorem val31_main_v104 (m : (ℓ : Loc nD τ sig) → Buf (Elt F) ℓ) (c : Dev nD) :
    val31 (launchContents m c) (no_index (Proc.devRef .tc main_v104)) = res_main_v104 m c := by
  unfold val31
  simp only [win31]
  after_results_simp
  all_goals (try simp only [val30_main_v85 m c, val30_main_v89 m c, val30_main_v90 m c, val30_main_arg12 m c, val30_main_arg13 m c])
  all_goals (try simp only [TRef.toBuf, TRef.ofBuf, cast_eq])
  all_goals rfl
theorem val31_main_arg15 (m : (ℓ : Loc nD τ sig) → Buf (Elt F) ℓ) (c : Dev nD) :
    val31 (launchContents m c) (no_index (Proc.devRef .tc main_arg15)) = m ((c.tc : Thread nD τ).loc main_arg15) :=
  (val31_keep _ main_arg15 (by decide)).trans (val30_main_arg15 m c)
theorem val31_main_arg16 (m : (ℓ : Loc nD τ sig) → Buf (Elt F) ℓ) (c : Dev nD) :
    val31 (launchContents m c) (no_index (Proc.devRef .tc main_arg16)) = m ((c.tc : Thread nD τ).loc main_arg16) :=
  (val31_keep _ main_arg16 (by decide)).trans (val30_main_arg16 m c)
theorem val31_main_arg17 (m : (ℓ : Loc nD τ sig) → Buf (Elt F) ℓ) (c : Dev nD) :
    val31 (launchContents m c) (no_index (Proc.devRef .tc main_arg17)) = m ((c.tc : Thread nD τ).loc main_arg17) :=
  (val31_keep _ main_arg17 (by decide)).trans (val30_main_arg17 m c)

/-! ## Window 32: up to `main_v109` -/

/-- The operations of window 32. -/
abbrev win32 : List (HloOp τ sig (Elt F)) :=
  [
    unary main_arg14 main_v105 ((transpose S64x256 [1, 0] · transposes_S256x64_S64x256_1_0) : (⟨S256x64, .f32⟩ : BufTy).Contents (Elt F) → (⟨S64x256, .f32⟩ : BufTy).Contents (Elt F)),
    binary main_v104 main_v105 main_v106 ((fun l r => Host.dotGeneral dot_S16x64_S64x256_S16x256_1_0_0_1_n_n none l r) : (⟨S16x64, .f32⟩ : BufTy).Contents (Elt F) → (⟨S64x256, .f32⟩ : BufTy).Contents (Elt F) → (⟨S16x256, .f32⟩ : BufTy).Contents (Elt F)),
    unary main_arg15 main_v107 (broadcastInDim S1x256 ![1] bcast_S256_S1x256_1 : (⟨S256, .f32⟩ : BufTy).Contents (Elt F) → (⟨S1x256, .f32⟩ : BufTy).Contents (Elt F)),
    unary main_v107 main_v108 (broadcastInDim S16x256 ![0, 1] bcast_S1x256_S16x256_0_1 : (⟨S1x256, .f32⟩ : BufTy).Contents (Elt F) → (⟨S16x256, .f32⟩ : BufTy).Contents (Elt F)),
    binary main_v106 main_v108 main_v109 (addf : (⟨S16x256, .f32⟩ : BufTy).Contents (Elt F) → (⟨S16x256, .f32⟩ : BufTy).Contents (Elt F) → (⟨S16x256, .f32⟩ : BufTy).Contents (Elt F)) ]
/-- The buffers window 32 writes. -/
abbrev win32_W : List (Ref sig .tc) := [main_v105, main_v106, main_v107, main_v108, main_v109]
theorem win32_writes : (win32 : List (HloOp τ sig (Elt F))).Forall fun op => op.writes ⊆ (win32_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 32. -/
def val32 (V0 : Valuation τ sig (Elt F)) : Valuation τ sig (Elt F) := after win32 (val31 V0)
/-- A buffer window 32 does not write keeps its contents through it. -/
theorem val32_keep (V0 : Valuation τ sig (Elt F)) (r : Ref sig .tc) (h : r ∉ win32_W) :
    val32 V0 (Proc.devRef .tc r) = val31 V0 (Proc.devRef .tc r) :=
  after_of_writes_sub win32 _ win32_writes h
theorem val32_main_v109 (m : (ℓ : Loc nD τ sig) → Buf (Elt F) ℓ) (c : Dev nD) :
    val32 (launchContents m c) (no_index (Proc.devRef .tc main_v109)) = res_main_v109 m c := by
  unfold val32
  simp only [win32]
  after_results_simp
  all_goals (try simp only [val31_main_arg14 m c, val31_main_v104 m c, val31_main_arg15 m c])
  all_goals (try simp only [TRef.toBuf, TRef.ofBuf, cast_eq])
  all_goals rfl
theorem val32_main_arg16 (m : (ℓ : Loc nD τ sig) → Buf (Elt F) ℓ) (c : Dev nD) :
    val32 (launchContents m c) (no_index (Proc.devRef .tc main_arg16)) = m ((c.tc : Thread nD τ).loc main_arg16) :=
  (val32_keep _ main_arg16 (by decide)).trans (val31_main_arg16 m c)
theorem val32_main_arg17 (m : (ℓ : Loc nD τ sig) → Buf (Elt F) ℓ) (c : Dev nD) :
    val32 (launchContents m c) (no_index (Proc.devRef .tc main_arg17)) = m ((c.tc : Thread nD τ).loc main_arg17) :=
  (val32_keep _ main_arg17 (by decide)).trans (val31_main_arg17 m c)

/-! ## Window 33: up to `main_v113` -/

/-- The operations of window 33. -/
abbrev win33 : List (HloOp τ sig (Elt F)) :=
  [
    nullary main_cst_14 (constant S_ .f32 0x00000000#32),
    binary main_v109 main_cst_14 main_v110 ((fun x v => Host.reduceAdd x v reducesTo_S16x256_S256_d0 h_S_) : (⟨S16x256, .f32⟩ : BufTy).Contents (Elt F) → (⟨S_, .f32⟩ : BufTy).Contents (Elt F) → (⟨S256, .f32⟩ : BufTy).Contents (Elt F)),
    unary main_v110 main_v111 (broadcastInDim S1x256 ![1] bcast_S256_S1x256_1 : (⟨S256, .f32⟩ : BufTy).Contents (Elt F) → (⟨S1x256, .f32⟩ : BufTy).Contents (Elt F)),
    nullary main_cst_15 (constant S_ .f32 0x41800000#32),
    unary main_cst_15 main_v112 (broadcastInDim S1x256 ![] bcast_S_S1x256 : (⟨S_, .f32⟩ : BufTy).Contents (Elt F) → (⟨S1x256, .f32⟩ : BufTy).Contents (Elt F)),
    binary main_v111 main_v112 main_v113 (Host.divf : (⟨S1x256, .f32⟩ : BufTy).Contents (Elt F) → (⟨S1x256, .f32⟩ : BufTy).Contents (Elt F) → (⟨S1x256, .f32⟩ : BufTy).Contents (Elt F)) ]
/-- The buffers window 33 writes. -/
abbrev win33_W : List (Ref sig .tc) := [main_cst_14, main_v110, main_v111, main_cst_15, main_v112, main_v113]
theorem win33_writes : (win33 : List (HloOp τ sig (Elt F))).Forall fun op => op.writes ⊆ (win33_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 33. -/
def val33 (V0 : Valuation τ sig (Elt F)) : Valuation τ sig (Elt F) := after win33 (val32 V0)
/-- A buffer window 33 does not write keeps its contents through it. -/
theorem val33_keep (V0 : Valuation τ sig (Elt F)) (r : Ref sig .tc) (h : r ∉ win33_W) :
    val33 V0 (Proc.devRef .tc r) = val32 V0 (Proc.devRef .tc r) :=
  after_of_writes_sub win33 _ win33_writes h
theorem val33_main_v109 (m : (ℓ : Loc nD τ sig) → Buf (Elt F) ℓ) (c : Dev nD) :
    val33 (launchContents m c) (no_index (Proc.devRef .tc main_v109)) = res_main_v109 m c :=
  (val33_keep _ main_v109 (by decide)).trans (val32_main_v109 m c)
theorem val33_main_v113 (m : (ℓ : Loc nD τ sig) → Buf (Elt F) ℓ) (c : Dev nD) :
    val33 (launchContents m c) (no_index (Proc.devRef .tc main_v113)) = res_main_v113 m c := by
  unfold val33
  simp only [win33]
  after_results_simp
  all_goals (try simp only [val32_main_v109 m c])
  all_goals (try simp only [TRef.toBuf, TRef.ofBuf, cast_eq])
  all_goals rfl
theorem val33_main_arg16 (m : (ℓ : Loc nD τ sig) → Buf (Elt F) ℓ) (c : Dev nD) :
    val33 (launchContents m c) (no_index (Proc.devRef .tc main_arg16)) = m ((c.tc : Thread nD τ).loc main_arg16) :=
  (val33_keep _ main_arg16 (by decide)).trans (val32_main_arg16 m c)
theorem val33_main_arg17 (m : (ℓ : Loc nD τ sig) → Buf (Elt F) ℓ) (c : Dev nD) :
    val33 (launchContents m c) (no_index (Proc.devRef .tc main_arg17)) = m ((c.tc : Thread nD τ).loc main_arg17) :=
  (val33_keep _ main_arg17 (by decide)).trans (val32_main_arg17 m c)

/-! ## Window 34: up to `main_call8_v5` -/

/-- The operations of window 34. -/
abbrev win34 : List (HloOp τ sig (Elt F)) :=
  [
    nullary main_c_16 (constantI S_ 32 0#32),
    TRef.nullary main_call8.cst (constant S_ .f32 0x00000000#32),
    TRef.binary (.of main_v109 : TRef sig ⟨S16x256, .f32⟩) main_call8.cst main_call8.v0 (fun x v => Host.reduceAdd x v reducesTo_S16x256_S256_d0 h_S_),
    TRef.unary main_call8.v0 main_call8.v1 (broadcastInDim S1x256 ![1] bcast_S256_S1x256_1),
    TRef.nullary main_call8.cst_0 (constant S_ .f32 0x41800000#32),
    TRef.unary main_call8.cst_0 main_call8.v2 (broadcastInDim S1x256 ![] bcast_S_S1x256),
    TRef.binary main_call8.v1 main_call8.v2 main_call8.v3 Host.divf,
    TRef.unary main_call8.v3 main_call8.v4 (broadcastInDim S16x256 ![0, 1] bcast_S1x256_S16x256_0_1),
    TRef.binary (.of main_v109 : TRef sig ⟨S16x256, .f32⟩) main_call8.v4 main_call8.v5 subf ]
/-- The buffers window 34 writes. -/
abbrev win34_W : List (Ref sig .tc) := [main_c_16, main_call8_cst, main_call8_v0, main_call8_v1, main_call8_cst_0, main_call8_v2, main_call8_v3, main_call8_v4, main_call8_v5]
theorem win34_writes : (win34 : List (HloOp τ sig (Elt F))).Forall fun op => op.writes ⊆ (win34_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 34. -/
def val34 (V0 : Valuation τ sig (Elt F)) : Valuation τ sig (Elt F) := after win34 (val33 V0)
/-- A buffer window 34 does not write keeps its contents through it. -/
theorem val34_keep (V0 : Valuation τ sig (Elt F)) (r : Ref sig .tc) (h : r ∉ win34_W) :
    val34 V0 (Proc.devRef .tc r) = val33 V0 (Proc.devRef .tc r) :=
  after_of_writes_sub win34 _ win34_writes h
theorem val34_main_v109 (m : (ℓ : Loc nD τ sig) → Buf (Elt F) ℓ) (c : Dev nD) :
    val34 (launchContents m c) (no_index (Proc.devRef .tc main_v109)) = res_main_v109 m c :=
  (val34_keep _ main_v109 (by decide)).trans (val33_main_v109 m c)
theorem val34_main_call8_v5 (m : (ℓ : Loc nD τ sig) → Buf (Elt F) ℓ) (c : Dev nD) :
    val34 (launchContents m c) (no_index (Proc.devRef .tc main_call8_v5)) = res_main_call8_v5 m c := by
  unfold val34
  simp only [win34]
  after_results_simp
  all_goals (try simp only [val33_main_v109 m c])
  all_goals (try simp only [TRef.toBuf, TRef.ofBuf, cast_eq])
  all_goals rfl
theorem val34_main_c_16 (m : (ℓ : Loc nD τ sig) → Buf (Elt F) ℓ) (c : Dev nD) :
    val34 (launchContents m c) (no_index (Proc.devRef .tc main_c_16)) = constantI S_ 32 0#32 := by
  unfold val34
  simp only [win34]
  after_results_simp
  all_goals (try simp only [val33_main_v109 m c])
  all_goals (try simp only [TRef.toBuf, TRef.ofBuf, cast_eq])
  all_goals rfl
theorem val34_main_v113 (m : (ℓ : Loc nD τ sig) → Buf (Elt F) ℓ) (c : Dev nD) :
    val34 (launchContents m c) (no_index (Proc.devRef .tc main_v113)) = res_main_v113 m c :=
  (val34_keep _ main_v113 (by decide)).trans (val33_main_v113 m c)
theorem val34_main_arg16 (m : (ℓ : Loc nD τ sig) → Buf (Elt F) ℓ) (c : Dev nD) :
    val34 (launchContents m c) (no_index (Proc.devRef .tc main_arg16)) = m ((c.tc : Thread nD τ).loc main_arg16) :=
  (val34_keep _ main_arg16 (by decide)).trans (val33_main_arg16 m c)
theorem val34_main_arg17 (m : (ℓ : Loc nD τ sig) → Buf (Elt F) ℓ) (c : Dev nD) :
    val34 (launchContents m c) (no_index (Proc.devRef .tc main_arg17)) = m ((c.tc : Thread nD τ).loc main_arg17) :=
  (val34_keep _ main_arg17 (by decide)).trans (val33_main_arg17 m c)

/-! ## Window 35: up to `main_call8_v8` -/

/-- The operations of window 35. -/
abbrev win35 : List (HloOp τ sig (Elt F)) :=
  [
    TRef.binary main_call8.v5 main_call8.v5 main_call8.v6 mulf,
    TRef.unary (.of main_c_16 : TRef sig ⟨S_, .i32⟩) main_call8.v7 (sitofp .f32),
    TRef.nullary main_call8.cst_1 (constant S_ .f32 0x41800000#32),
    TRef.binary main_call8.cst_1 main_call8.v7 main_call8.v8 subf ]
/-- The buffers window 35 writes. -/
abbrev win35_W : List (Ref sig .tc) := [main_call8_v6, main_call8_v7, main_call8_cst_1, main_call8_v8]
theorem win35_writes : (win35 : List (HloOp τ sig (Elt F))).Forall fun op => op.writes ⊆ (win35_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 35. -/
def val35 (V0 : Valuation τ sig (Elt F)) : Valuation τ sig (Elt F) := after win35 (val34 V0)
/-- A buffer window 35 does not write keeps its contents through it. -/
theorem val35_keep (V0 : Valuation τ sig (Elt F)) (r : Ref sig .tc) (h : r ∉ win35_W) :
    val35 V0 (Proc.devRef .tc r) = val34 V0 (Proc.devRef .tc r) :=
  after_of_writes_sub win35 _ win35_writes h
theorem val35_main_v109 (m : (ℓ : Loc nD τ sig) → Buf (Elt F) ℓ) (c : Dev nD) :
    val35 (launchContents m c) (no_index (Proc.devRef .tc main_v109)) = res_main_v109 m c :=
  (val35_keep _ main_v109 (by decide)).trans (val34_main_v109 m c)
theorem val35_main_call8_v6 (m : (ℓ : Loc nD τ sig) → Buf (Elt F) ℓ) (c : Dev nD) :
    val35 (launchContents m c) (no_index (Proc.devRef .tc main_call8_v6)) = (mulf) (res_main_call8_v5 m c) (res_main_call8_v5 m c) := by
  unfold val35
  simp only [win35]
  after_results_simp
  all_goals (try simp only [val34_main_call8_v5 m c, val34_main_c_16 m c])
  all_goals (try simp only [TRef.toBuf, TRef.ofBuf, cast_eq])
  all_goals rfl
theorem val35_main_call8_v8 (m : (ℓ : Loc nD τ sig) → Buf (Elt F) ℓ) (c : Dev nD) :
    val35 (launchContents m c) (no_index (Proc.devRef .tc main_call8_v8)) = res_main_call8_v8 m c := by
  unfold val35
  simp only [win35]
  after_results_simp
  all_goals (try simp only [val34_main_call8_v5 m c, val34_main_c_16 m c])
  all_goals (try simp only [TRef.toBuf, TRef.ofBuf, cast_eq])
  all_goals rfl
theorem val35_main_v113 (m : (ℓ : Loc nD τ sig) → Buf (Elt F) ℓ) (c : Dev nD) :
    val35 (launchContents m c) (no_index (Proc.devRef .tc main_v113)) = res_main_v113 m c :=
  (val35_keep _ main_v113 (by decide)).trans (val34_main_v113 m c)
theorem val35_main_arg16 (m : (ℓ : Loc nD τ sig) → Buf (Elt F) ℓ) (c : Dev nD) :
    val35 (launchContents m c) (no_index (Proc.devRef .tc main_arg16)) = m ((c.tc : Thread nD τ).loc main_arg16) :=
  (val35_keep _ main_arg16 (by decide)).trans (val34_main_arg16 m c)
theorem val35_main_arg17 (m : (ℓ : Loc nD τ sig) → Buf (Elt F) ℓ) (c : Dev nD) :
    val35 (launchContents m c) (no_index (Proc.devRef .tc main_arg17)) = m ((c.tc : Thread nD τ).loc main_arg17) :=
  (val35_keep _ main_arg17 (by decide)).trans (val34_main_arg17 m c)

/-! ## Window 36: up to `main_v114` -/

/-- The operations of window 36. -/
abbrev win36 : List (HloOp τ sig (Elt F)) :=
  [
    TRef.nullary main_call8.cst_2 (constant S_ .f32 0x00000000#32),
    TRef.binary main_call8.v6 main_call8.cst_2 main_call8.v9 (fun x v => Host.reduceAdd x v reducesTo_S16x256_S256_d0 h_S_),
    TRef.unary main_call8.v9 main_call8.v10 (broadcastInDim S1x256 ![1] bcast_S256_S1x256_1),
    TRef.unary main_call8.v8 main_call8.v11 (broadcastInDim S1x256 ![] bcast_S_S1x256),
    TRef.binary main_call8.v10 main_call8.v11 main_call8.v12 Host.divf,
    TRef.nullary main_call8.cst_3 (constant S_ .f32 0x00000000#32),
    TRef.binary main_call8.v8 main_call8.cst_3 main_call8.v13 (cmpf .ogt),
    TRef.nullary main_call8.cst_4 (constant S_ .f32 0x7FC00000#32),
    TRef.unary main_call8.cst_4 main_call8.call0.v0 id,
    TRef.unary main_call8.call0.v0 main_call8.call0.v1 (broadcastInDim S1x256 ![] bcast_S_S1x256),
    TRef.ternary main_call8.v13 main_call8.v12 main_call8.call0.v1 main_call8.call0.v2 (fun p a b => select (broadcastInDim S1x256 ![] bcast_S_S1x256 p) a b) ]
/-- The buffers window 36 writes. -/
abbrev win36_W : List (Ref sig .tc) := [main_call8_cst_2, main_call8_v9, main_call8_v10, main_call8_v11, main_call8_v12, main_call8_cst_3, main_call8_v13, main_call8_cst_4, main_call8_call0_v0, main_call8_call0_v1, main_v114]
theorem win36_writes : (win36 : List (HloOp τ sig (Elt F))).Forall fun op => op.writes ⊆ (win36_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 36. -/
def val36 (V0 : Valuation τ sig (Elt F)) : Valuation τ sig (Elt F) := after win36 (val35 V0)
/-- A buffer window 36 does not write keeps its contents through it. -/
theorem val36_keep (V0 : Valuation τ sig (Elt F)) (r : Ref sig .tc) (h : r ∉ win36_W) :
    val36 V0 (Proc.devRef .tc r) = val35 V0 (Proc.devRef .tc r) :=
  after_of_writes_sub win36 _ win36_writes h
theorem val36_main_v109 (m : (ℓ : Loc nD τ sig) → Buf (Elt F) ℓ) (c : Dev nD) :
    val36 (launchContents m c) (no_index (Proc.devRef .tc main_v109)) = res_main_v109 m c :=
  (val36_keep _ main_v109 (by decide)).trans (val35_main_v109 m c)
theorem val36_main_v113 (m : (ℓ : Loc nD τ sig) → Buf (Elt F) ℓ) (c : Dev nD) :
    val36 (launchContents m c) (no_index (Proc.devRef .tc main_v113)) = res_main_v113 m c :=
  (val36_keep _ main_v113 (by decide)).trans (val35_main_v113 m c)
theorem val36_main_v114 (m : (ℓ : Loc nD τ sig) → Buf (Elt F) ℓ) (c : Dev nD) :
    val36 (launchContents m c) (no_index (Proc.devRef .tc main_v114)) = res_main_v114 m c := by
  unfold val36
  simp only [win36]
  after_results_simp
  all_goals (try simp only [val35_main_call8_v6 m c, val35_main_call8_v8 m c])
  all_goals (try simp only [TRef.toBuf, TRef.ofBuf, cast_eq])
  all_goals rfl
theorem val36_main_arg16 (m : (ℓ : Loc nD τ sig) → Buf (Elt F) ℓ) (c : Dev nD) :
    val36 (launchContents m c) (no_index (Proc.devRef .tc main_arg16)) = m ((c.tc : Thread nD τ).loc main_arg16) :=
  (val36_keep _ main_arg16 (by decide)).trans (val35_main_arg16 m c)
theorem val36_main_arg17 (m : (ℓ : Loc nD τ sig) → Buf (Elt F) ℓ) (c : Dev nD) :
    val36 (launchContents m c) (no_index (Proc.devRef .tc main_arg17)) = m ((c.tc : Thread nD τ).loc main_arg17) :=
  (val36_keep _ main_arg17 (by decide)).trans (val35_main_arg17 m c)

/-! ## Window 37: up to `main_v127` -/

/-- The operations of window 37. -/
abbrev win37 : List (HloOp τ sig (Elt F)) :=
  [
    unary main_v113 main_v115 (broadcastInDim S16x256 ![0, 1] bcast_S1x256_S16x256_0_1 : (⟨S1x256, .f32⟩ : BufTy).Contents (Elt F) → (⟨S16x256, .f32⟩ : BufTy).Contents (Elt F)),
    binary main_v109 main_v115 main_v116 (subf : (⟨S16x256, .f32⟩ : BufTy).Contents (Elt F) → (⟨S16x256, .f32⟩ : BufTy).Contents (Elt F) → (⟨S16x256, .f32⟩ : BufTy).Contents (Elt F)),
    nullary main_cst_17 (constant S_ .f32 0x3727C5AC#32),
    unary main_cst_17 main_v117 (broadcastInDim S1x256 ![] bcast_S_S1x256 : (⟨S_, .f32⟩ : BufTy).Contents (Elt F) → (⟨S1x256, .f32⟩ : BufTy).Contents (Elt F)),
    binary main_v114 main_v117 main_v118 (addf : (⟨S1x256, .f32⟩ : BufTy).Contents (Elt F) → (⟨S1x256, .f32⟩ : BufTy).Contents (Elt F) → (⟨S1x256, .f32⟩ : BufTy).Contents (Elt F)),
    unary main_v118 main_v119 (Host.sqrt : (⟨S1x256, .f32⟩ : BufTy).Contents (Elt F) → (⟨S1x256, .f32⟩ : BufTy).Contents (Elt F)),
    unary main_v119 main_v120 (broadcastInDim S16x256 ![0, 1] bcast_S1x256_S16x256_0_1 : (⟨S1x256, .f32⟩ : BufTy).Contents (Elt F) → (⟨S16x256, .f32⟩ : BufTy).Contents (Elt F)),
    binary main_v116 main_v120 main_v121 (Host.divf : (⟨S16x256, .f32⟩ : BufTy).Contents (Elt F) → (⟨S16x256, .f32⟩ : BufTy).Contents (Elt F) → (⟨S16x256, .f32⟩ : BufTy).Contents (Elt F)),
    unary main_arg16 main_v122 (broadcastInDim S1x256 ![1] bcast_S256_S1x256_1 : (⟨S256, .f32⟩ : BufTy).Contents (Elt F) → (⟨S1x256, .f32⟩ : BufTy).Contents (Elt F)),
    unary main_v122 main_v123 (broadcastInDim S16x256 ![0, 1] bcast_S1x256_S16x256_0_1 : (⟨S1x256, .f32⟩ : BufTy).Contents (Elt F) → (⟨S16x256, .f32⟩ : BufTy).Contents (Elt F)),
    binary main_v121 main_v123 main_v124 (mulf : (⟨S16x256, .f32⟩ : BufTy).Contents (Elt F) → (⟨S16x256, .f32⟩ : BufTy).Contents (Elt F) → (⟨S16x256, .f32⟩ : BufTy).Contents (Elt F)),
    unary main_arg17 main_v125 (broadcastInDim S1x256 ![1] bcast_S256_S1x256_1 : (⟨S256, .f32⟩ : BufTy).Contents (Elt F) → (⟨S1x256, .f32⟩ : BufTy).Contents (Elt F)),
    unary main_v125 main_v126 (broadcastInDim S16x256 ![0, 1] bcast_S1x256_S16x256_0_1 : (⟨S1x256, .f32⟩ : BufTy).Contents (Elt F) → (⟨S16x256, .f32⟩ : BufTy).Contents (Elt F)),
    binary main_v124 main_v126 main_v127 (addf : (⟨S16x256, .f32⟩ : BufTy).Contents (Elt F) → (⟨S16x256, .f32⟩ : BufTy).Contents (Elt F) → (⟨S16x256, .f32⟩ : BufTy).Contents (Elt F)) ]
/-- The buffers window 37 writes. -/
abbrev win37_W : List (Ref sig .tc) := [main_v115, main_v116, main_cst_17, main_v117, main_v118, main_v119, main_v120, main_v121, main_v122, main_v123, main_v124, main_v125, main_v126, main_v127]
theorem win37_writes : (win37 : List (HloOp τ sig (Elt F))).Forall fun op => op.writes ⊆ (win37_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 37. -/
def val37 (V0 : Valuation τ sig (Elt F)) : Valuation τ sig (Elt F) := after win37 (val36 V0)
/-- A buffer window 37 does not write keeps its contents through it. -/
theorem val37_keep (V0 : Valuation τ sig (Elt F)) (r : Ref sig .tc) (h : r ∉ win37_W) :
    val37 V0 (Proc.devRef .tc r) = val36 V0 (Proc.devRef .tc r) :=
  after_of_writes_sub win37 _ win37_writes h
theorem val37_main_v127 (m : (ℓ : Loc nD τ sig) → Buf (Elt F) ℓ) (c : Dev nD) :
    val37 (launchContents m c) (no_index (Proc.devRef .tc main_v127)) = res_main_v127 m c := by
  unfold val37
  simp only [win37]
  after_results_simp
  all_goals (try simp only [val36_main_v109 m c, val36_main_v113 m c, val36_main_v114 m c, val36_main_arg16 m c, val36_main_arg17 m c])
  all_goals (try simp only [TRef.toBuf, TRef.ofBuf, cast_eq])
  all_goals rfl

/-! ## Window 38: up to `main_v128` -/

/-- The operations of window 38. -/
abbrev win38 : List (HloOp τ sig (Elt F)) :=
  [
    TRef.binary (.of main_v127 : TRef sig ⟨S16x256, .f32⟩) (.of main_v127 : TRef sig ⟨S16x256, .f32⟩) main_call9.v0 mulf,
    TRef.nullary main_call9.cst (constant S_ .f32 0x00000000#32),
    TRef.binary main_call9.v0 main_call9.cst main_call9.v1 (fun x v => Host.reduceAdd x v reducesTo_S16x256_S16_d1 h_S_),
    TRef.unary main_call9.v1 main_call9.v2 (broadcastInDim S16x1 ![0] bcast_S16_S16x1_0),
    TRef.unary main_call9.v2 main_call9.v3 Host.sqrt ]
/-- The buffers window 38 writes. -/
abbrev win38_W : List (Ref sig .tc) := [main_call9_v0, main_call9_cst, main_call9_v1, main_call9_v2, main_v128]
theorem win38_writes : (win38 : List (HloOp τ sig (Elt F))).Forall fun op => op.writes ⊆ (win38_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 38. -/
def val38 (V0 : Valuation τ sig (Elt F)) : Valuation τ sig (Elt F) := after win38 (val37 V0)
/-- A buffer window 38 does not write keeps its contents through it. -/
theorem val38_keep (V0 : Valuation τ sig (Elt F)) (r : Ref sig .tc) (h : r ∉ win38_W) :
    val38 V0 (Proc.devRef .tc r) = val37 V0 (Proc.devRef .tc r) :=
  after_of_writes_sub win38 _ win38_writes h
theorem val38_main_v127 (m : (ℓ : Loc nD τ sig) → Buf (Elt F) ℓ) (c : Dev nD) :
    val38 (launchContents m c) (no_index (Proc.devRef .tc main_v127)) = res_main_v127 m c :=
  (val38_keep _ main_v127 (by decide)).trans (val37_main_v127 m c)
theorem val38_main_v128 (m : (ℓ : Loc nD τ sig) → Buf (Elt F) ℓ) (c : Dev nD) :
    val38 (launchContents m c) (no_index (Proc.devRef .tc main_v128)) = res_main_v128 m c := by
  unfold val38
  simp only [win38]
  after_results_simp
  all_goals (try simp only [val37_main_v127 m c])
  all_goals (try simp only [TRef.toBuf, TRef.ofBuf, cast_eq])
  all_goals rfl

/-! ## Window 39: up to `main_v132` -/

/-- The operations of window 39. -/
abbrev win39 : List (HloOp τ sig (Elt F)) :=
  [
    nullary main_cst_18 (constant S_ .f32 0x2B8CBCCC#32),
    unary main_cst_18 main_v129 (broadcastInDim S16x1 ![] bcast_S_S16x1 : (⟨S_, .f32⟩ : BufTy).Contents (Elt F) → (⟨S16x1, .f32⟩ : BufTy).Contents (Elt F)),
    binary main_v128 main_v129 main_v130 (maximumf : (⟨S16x1, .f32⟩ : BufTy).Contents (Elt F) → (⟨S16x1, .f32⟩ : BufTy).Contents (Elt F) → (⟨S16x1, .f32⟩ : BufTy).Contents (Elt F)),
    unary main_v130 main_v131 (broadcastInDim S16x256 ![0, 1] bcast_S16x1_S16x256_0_1 : (⟨S16x1, .f32⟩ : BufTy).Contents (Elt F) → (⟨S16x256, .f32⟩ : BufTy).Contents (Elt F)),
    binary main_v127 main_v131 main_v132 (Host.divf : (⟨S16x256, .f32⟩ : BufTy).Contents (Elt F) → (⟨S16x256, .f32⟩ : BufTy).Contents (Elt F) → (⟨S16x256, .f32⟩ : BufTy).Contents (Elt F)) ]
/-- The buffers window 39 writes. -/
abbrev win39_W : List (Ref sig .tc) := [main_cst_18, main_v129, main_v130, main_v131, main_v132]
theorem win39_writes : (win39 : List (HloOp τ sig (Elt F))).Forall fun op => op.writes ⊆ (win39_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers after window 39. -/
def val39 (V0 : Valuation τ sig (Elt F)) : Valuation τ sig (Elt F) := after win39 (val38 V0)
/-- A buffer window 39 does not write keeps its contents through it. -/
theorem val39_keep (V0 : Valuation τ sig (Elt F)) (r : Ref sig .tc) (h : r ∉ win39_W) :
    val39 V0 (Proc.devRef .tc r) = val38 V0 (Proc.devRef .tc r) :=
  after_of_writes_sub win39 _ win39_writes h
theorem val39_main_v132 (m : (ℓ : Loc nD τ sig) → Buf (Elt F) ℓ) (c : Dev nD) :
    val39 (launchContents m c) (no_index (Proc.devRef .tc main_v132)) = res_main_v132 m c := by
  unfold val39
  simp only [win39]
  after_results_simp
  all_goals (try simp only [val38_main_v127 m c, val38_main_v128 m c])
  all_goals (try simp only [TRef.toBuf, TRef.ofBuf, cast_eq])
  all_goals rfl

end Cert.ReferenceIdeal.RDRun

end
-- ==== Proof.RDRun.lean ====
/- The reference's run read back: the operations are the windows one after the other, so the result buffer ends at its named term
   of the argument arrays, and no operation writes an argument. -/
import proofs.«116939_g89575837925665_cont_sun_c4_16_12_alg».proof.Proof.RDRun4

noncomputable section

namespace Cert.ReferenceIdeal.RDRun

open Cert.ReferenceIdeal Cert.ReferenceIdeal.Gen Cert.ReferenceIdeal.RefRun Cert.ReferenceIdeal.RefRunT Idealize.ShloMosaic Idealize.ShloMosaic.TcCoe
  Idealize.SL.Sem Idealize.ShloMosaic.StableHlo

variable {F : FTy → Type} [FloatOps F]

/-- Two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
/-- The operations are the windows in order. -/
theorem ops_eq : (ops : List (HloOp τ sig (Elt F))) = win1 ++ (win2 ++ (win3 ++ (win4 ++ (win5 ++ (win6 ++ (win7 ++ (win8 ++ (win9 ++ (win10 ++ (win11 ++ (win12 ++ (win13 ++ (win14 ++ (win15 ++ (win16 ++ (win17 ++ (win18 ++ (win19 ++ (win20 ++ (win21 ++ (win22 ++ (win23 ++ (win24 ++ (win25 ++ (win26 ++ (win27 ++ (win28 ++ (win29 ++ (win30 ++ (win31 ++ (win32 ++ (win33 ++ (win34 ++ (win35 ++ (win36 ++ (win37 ++ (win38 ++ (win39)))))))))))))))))))))))))))))))))))))) := rfl

/-- After all the operations the buffers are those after the last window. -/
theorem after_ops (V0 : Valuation τ sig (Elt F)) : after ops V0 = val39 V0 := by
  rw [ops_eq]
  simp only [after_append]
  rfl

/-- THE RESULT BUFFER ends at its named term of the argument arrays. -/
theorem out_eq (m : (ℓ : Loc nD τ sig) → Buf (Elt F) ℓ) (c : Dev nD) :
    after ops (launchContents m c) (main_v132 : DevRef τ sig) = res_main_v132 m c := by
  rw [after_ops]
  exact val39_main_v132 m c

/-- A buffer no window writes keeps its contents through all the operations. -/
theorem kept_of (V : Valuation τ sig (Elt F)) (r : Ref sig .tc)
    (h : r ∉ win1_W ++ (win2_W ++ (win3_W ++ (win4_W ++ (win5_W ++ (win6_W ++ (win7_W ++ (win8_W ++ (win9_W ++ (win10_W ++ (win11_W ++ (win12_W ++ (win13_W ++ (win14_W ++ (win15_W ++ (win16_W ++ (win17_W ++ (win18_W ++ (win19_W ++ (win20_W ++ (win21_W ++ (win22_W ++ (win23_W ++ (win24_W ++ (win25_W ++ (win26_W ++ (win27_W ++ (win28_W ++ (win29_W ++ (win30_W ++ (win31_W ++ (win32_W ++ (win33_W ++ (win34_W ++ (win35_W ++ (win36_W ++ (win37_W ++ (win38_W ++ (win39_W))))))))))))))))))))))))))))))))))))))) :
    after ops V (Proc.devRef .tc r) = V (Proc.devRef .tc r) := by
  rw [after_ops]
  have h1 : r ∉ win1_W := fun hm => h (List.mem_append.mpr (Or.inl hm))
  replace h := fun hm => h (List.mem_append.mpr (Or.inr hm))
  have h2 : r ∉ win2_W := fun hm => h (List.mem_append.mpr (Or.inl hm))
  replace h := fun hm => h (List.mem_append.mpr (Or.inr hm))
  have h3 : r ∉ win3_W := fun hm => h (List.mem_append.mpr (Or.inl hm))
  replace h := fun hm => h (List.mem_append.mpr (Or.inr hm))
  have h4 : r ∉ win4_W := fun hm => h (List.mem_append.mpr (Or.inl hm))
  replace h := fun hm => h (List.mem_append.mpr (Or.inr hm))
  have h5 : r ∉ win5_W := fun hm => h (List.mem_append.mpr (Or.inl hm))
  replace h := fun hm => h (List.mem_append.mpr (Or.inr hm))
  have h6 : r ∉ win6_W := fun hm => h (List.mem_append.mpr (Or.inl hm))
  replace h := fun hm => h (List.mem_append.mpr (Or.inr hm))
  have h7 : r ∉ win7_W := fun hm => h (List.mem_append.mpr (Or.inl hm))
  replace h := fun hm => h (List.mem_append.mpr (Or.inr hm))
  have h8 : r ∉ win8_W := fun hm => h (List.mem_append.mpr (Or.inl hm))
  replace h := fun hm => h (List.mem_append.mpr (Or.inr hm))
  have h9 : r ∉ win9_W := fun hm => h (List.mem_append.mpr (Or.inl hm))
  replace h := fun hm => h (List.mem_append.mpr (Or.inr hm))
  have h10 : r ∉ win10_W := fun hm => h (List.mem_append.mpr (Or.inl hm))
  replace h := fun hm => h (List.mem_append.mpr (Or.inr hm))
  have h11 : r ∉ win11_W := fun hm => h (List.mem_append.mpr (Or.inl hm))
  replace h := fun hm => h (List.mem_append.mpr (Or.inr hm))
  have h12 : r ∉ win12_W := fun hm => h (List.mem_append.mpr (Or.inl hm))
  replace h := fun hm => h (List.mem_append.mpr (Or.inr hm))
  have h13 : r ∉ win13_W := fun hm => h (List.mem_append.mpr (Or.inl hm))
  replace h := fun hm => h (List.mem_append.mpr (Or.inr hm))
  have h14 : r ∉ win14_W := fun hm => h (List.mem_append.mpr (Or.inl hm))
  replace h := fun hm => h (List.mem_append.mpr (Or.inr hm))
  have h15 : r ∉ win15_W := fun hm => h (List.mem_append.mpr (Or.inl hm))
  replace h := fun hm => h (List.mem_append.mpr (Or.inr hm))
  have h16 : r ∉ win16_W := fun hm => h (List.mem_append.mpr (Or.inl hm))
  replace h := fun hm => h (List.mem_append.mpr (Or.inr hm))
  have h17 : r ∉ win17_W := fun hm => h (List.mem_append.mpr (Or.inl hm))
  replace h := fun hm => h (List.mem_append.mpr (Or.inr hm))
  have h18 : r ∉ win18_W := fun hm => h (List.mem_append.mpr (Or.inl hm))
  replace h := fun hm => h (List.mem_append.mpr (Or.inr hm))
  have h19 : r ∉ win19_W := fun hm => h (List.mem_append.mpr (Or.inl hm))
  replace h := fun hm => h (List.mem_append.mpr (Or.inr hm))
  have h20 : r ∉ win20_W := fun hm => h (List.mem_append.mpr (Or.inl hm))
  replace h := fun hm => h (List.mem_append.mpr (Or.inr hm))
  have h21 : r ∉ win21_W := fun hm => h (List.mem_append.mpr (Or.inl hm))
  replace h := fun hm => h (List.mem_append.mpr (Or.inr hm))
  have h22 : r ∉ win22_W := fun hm => h (List.mem_append.mpr (Or.inl hm))
  replace h := fun hm => h (List.mem_append.mpr (Or.inr hm))
  have h23 : r ∉ win23_W := fun hm => h (List.mem_append.mpr (Or.inl hm))
  replace h := fun hm => h (List.mem_append.mpr (Or.inr hm))
  have h24 : r ∉ win24_W := fun hm => h (List.mem_append.mpr (Or.inl hm))
  replace h := fun hm => h (List.mem_append.mpr (Or.inr hm))
  have h25 : r ∉ win25_W := fun hm => h (List.mem_append.mpr (Or.inl hm))
  replace h := fun hm => h (List.mem_append.mpr (Or.inr hm))
  have h26 : r ∉ win26_W := fun hm => h (List.mem_append.mpr (Or.inl hm))
  replace h := fun hm => h (List.mem_append.mpr (Or.inr hm))
  have h27 : r ∉ win27_W := fun hm => h (List.mem_append.mpr (Or.inl hm))
  replace h := fun hm => h (List.mem_append.mpr (Or.inr hm))
  have h28 : r ∉ win28_W := fun hm => h (List.mem_append.mpr (Or.inl hm))
  replace h := fun hm => h (List.mem_append.mpr (Or.inr hm))
  have h29 : r ∉ win29_W := fun hm => h (List.mem_append.mpr (Or.inl hm))
  replace h := fun hm => h (List.mem_append.mpr (Or.inr hm))
  have h30 : r ∉ win30_W := fun hm => h (List.mem_append.mpr (Or.inl hm))
  replace h := fun hm => h (List.mem_append.mpr (Or.inr hm))
  have h31 : r ∉ win31_W := fun hm => h (List.mem_append.mpr (Or.inl hm))
  replace h := fun hm => h (List.mem_append.mpr (Or.inr hm))
  have h32 : r ∉ win32_W := fun hm => h (List.mem_append.mpr (Or.inl hm))
  replace h := fun hm => h (List.mem_append.mpr (Or.inr hm))
  have h33 : r ∉ win33_W := fun hm => h (List.mem_append.mpr (Or.inl hm))
  replace h := fun hm => h (List.mem_append.mpr (Or.inr hm))
  have h34 : r ∉ win34_W := fun hm => h (List.mem_append.mpr (Or.inl hm))
  replace h := fun hm => h (List.mem_append.mpr (Or.inr hm))
  have h35 : r ∉ win35_W := fun hm => h (List.mem_append.mpr (Or.inl hm))
  replace h := fun hm => h (List.mem_append.mpr (Or.inr hm))
  have h36 : r ∉ win36_W := fun hm => h (List.mem_append.mpr (Or.inl hm))
  replace h := fun hm => h (List.mem_append.mpr (Or.inr hm))
  have h37 : r ∉ win37_W := fun hm => h (List.mem_append.mpr (Or.inl hm))
  replace h := fun hm => h (List.mem_append.mpr (Or.inr hm))
  have h38 : r ∉ win38_W := fun hm => h (List.mem_append.mpr (Or.inl hm))
  replace h := fun hm => h (List.mem_append.mpr (Or.inr hm))
  exact (((((((((((((((((((((((((((((((((((((((val39_keep V r h).trans (val38_keep V r h38)).trans (val37_keep V r h37)).trans (val36_keep V r h36)).trans (val35_keep V r h35)).trans (val34_keep V r h34)).trans (val33_keep V r h33)).trans (val32_keep V r h32)).trans (val31_keep V r h31)).trans (val30_keep V r h30)).trans (val29_keep V r h29)).trans (val28_keep V r h28)).trans (val27_keep V r h27)).trans (val26_keep V r h26)).trans (val25_keep V r h25)).trans (val24_keep V r h24)).trans (val23_keep V r h23)).trans (val22_keep V r h22)).trans (val21_keep V r h21)).trans (val20_keep V r h20)).trans (val19_keep V r h19)).trans (val18_keep V r h18)).trans (val17_keep V r h17)).trans (val16_keep V r h16)).trans (val15_keep V r h15)).trans (val14_keep V r h14)).trans (val13_keep V r h13)).trans (val12_keep V r h12)).trans (val11_keep V r h11)).trans (val10_keep V r h10)).trans (val9_keep V r h9)).trans (val8_keep V r h8)).trans (val7_keep V r h7)).trans (val6_keep V r h6)).trans (val5_keep V r h5)).trans (val4_keep V r h4)).trans (val3_keep V r h3)).trans (val2_keep V r h2)).trans (val1_keep V r h1))

/-- No operation writes argument 0. -/
theorem kept0 (V : Valuation τ sig (Elt F)) : after ops V (main_arg0 : DevRef τ sig) = V (main_arg0 : DevRef τ sig) :=
  kept_of V main_arg0 (by decide)

/-- No operation writes argument 1. -/
theorem kept1 (V : Valuation τ sig (Elt F)) : after ops V (main_arg1 : DevRef τ sig) = V (main_arg1 : DevRef τ sig) :=
  kept_of V main_arg1 (by decide)

/-- No operation writes argument 2. -/
theorem kept2 (V : Valuation τ sig (Elt F)) : after ops V (main_arg2 : DevRef τ sig) = V (main_arg2 : DevRef τ sig) :=
  kept_of V main_arg2 (by decide)

/-- No operation writes argument 3. -/
theorem kept3 (V : Valuation τ sig (Elt F)) : after ops V (main_arg3 : DevRef τ sig) = V (main_arg3 : DevRef τ sig) :=
  kept_of V main_arg3 (by decide)

/-- No operation writes argument 4. -/
theorem kept4 (V : Valuation τ sig (Elt F)) : after ops V (main_arg4 : DevRef τ sig) = V (main_arg4 : DevRef τ sig) :=
  kept_of V main_arg4 (by decide)

/-- No operation writes argument 5. -/
theorem kept5 (V : Valuation τ sig (Elt F)) : after ops V (main_arg5 : DevRef τ sig) = V (main_arg5 : DevRef τ sig) :=
  kept_of V main_arg5 (by decide)

/-- No operation writes argument 6. -/
theorem kept6 (V : Valuation τ sig (Elt F)) : after ops V (main_arg6 : DevRef τ sig) = V (main_arg6 : DevRef τ sig) :=
  kept_of V main_arg6 (by decide)

/-- No operation writes argument 7. -/
theorem kept7 (V : Valuation τ sig (Elt F)) : after ops V (main_arg7 : DevRef τ sig) = V (main_arg7 : DevRef τ sig) :=
  kept_of V main_arg7 (by decide)

/-- No operation writes argument 8. -/
theorem kept8 (V : Valuation τ sig (Elt F)) : after ops V (main_arg8 : DevRef τ sig) = V (main_arg8 : DevRef τ sig) :=
  kept_of V main_arg8 (by decide)

/-- No operation writes argument 9. -/
theorem kept9 (V : Valuation τ sig (Elt F)) : after ops V (main_arg9 : DevRef τ sig) = V (main_arg9 : DevRef τ sig) :=
  kept_of V main_arg9 (by decide)

/-- No operation writes argument 10. -/
theorem kept10 (V : Valuation τ sig (Elt F)) : after ops V (main_arg10 : DevRef τ sig) = V (main_arg10 : DevRef τ sig) :=
  kept_of V main_arg10 (by decide)

/-- No operation writes argument 11. -/
theorem kept11 (V : Valuation τ sig (Elt F)) : after ops V (main_arg11 : DevRef τ sig) = V (main_arg11 : DevRef τ sig) :=
  kept_of V main_arg11 (by decide)

/-- No operation writes argument 12. -/
theorem kept12 (V : Valuation τ sig (Elt F)) : after ops V (main_arg12 : DevRef τ sig) = V (main_arg12 : DevRef τ sig) :=
  kept_of V main_arg12 (by decide)

/-- No operation writes argument 13. -/
theorem kept13 (V : Valuation τ sig (Elt F)) : after ops V (main_arg13 : DevRef τ sig) = V (main_arg13 : DevRef τ sig) :=
  kept_of V main_arg13 (by decide)

/-- No operation writes argument 14. -/
theorem kept14 (V : Valuation τ sig (Elt F)) : after ops V (main_arg14 : DevRef τ sig) = V (main_arg14 : DevRef τ sig) :=
  kept_of V main_arg14 (by decide)

/-- No operation writes argument 15. -/
theorem kept15 (V : Valuation τ sig (Elt F)) : after ops V (main_arg15 : DevRef τ sig) = V (main_arg15 : DevRef τ sig) :=
  kept_of V main_arg15 (by decide)

/-- No operation writes argument 16. -/
theorem kept16 (V : Valuation τ sig (Elt F)) : after ops V (main_arg16 : DevRef τ sig) = V (main_arg16 : DevRef τ sig) :=
  kept_of V main_arg16 (by decide)

/-- No operation writes argument 17. -/
theorem kept17 (V : Valuation τ sig (Elt F)) : after ops V (main_arg17 : DevRef τ sig) = V (main_arg17 : DevRef τ sig) :=
  kept_of V main_arg17 (by decide)

end Cert.ReferenceIdeal.RDRun

end
-- ==== Proof.RefRun.lean ====
/- The reference's run read back: every weakly fair execution ends with the result buffer at the named term of the argument
   arrays and every argument unchanged. -/
import proofs.«116939_g89575837925665_cont_sun_c4_16_12_alg».proof.Proof.RDRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The run of @main with its result named and its arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = res_main_v132 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v132).trans (Cert.ReferenceIdeal.RDRun.out_eq m c),
      (h c main_arg0).trans (Cert.ReferenceIdeal.RDRun.kept0 _),
      (h c main_arg1).trans (Cert.ReferenceIdeal.RDRun.kept1 _),
      (h c main_arg2).trans (Cert.ReferenceIdeal.RDRun.kept2 _),
      (h c main_arg3).trans (Cert.ReferenceIdeal.RDRun.kept3 _),
      (h c main_arg4).trans (Cert.ReferenceIdeal.RDRun.kept4 _),
      (h c main_arg5).trans (Cert.ReferenceIdeal.RDRun.kept5 _),
      (h c main_arg6).trans (Cert.ReferenceIdeal.RDRun.kept6 _),
      (h c main_arg7).trans (Cert.ReferenceIdeal.RDRun.kept7 _),
      (h c main_arg8).trans (Cert.ReferenceIdeal.RDRun.kept8 _),
      (h c main_arg9).trans (Cert.ReferenceIdeal.RDRun.kept9 _),
      (h c main_arg10).trans (Cert.ReferenceIdeal.RDRun.kept10 _),
      (h c main_arg11).trans (Cert.ReferenceIdeal.RDRun.kept11 _),
      (h c main_arg12).trans (Cert.ReferenceIdeal.RDRun.kept12 _),
      (h c main_arg13).trans (Cert.ReferenceIdeal.RDRun.kept13 _),
      (h c main_arg14).trans (Cert.ReferenceIdeal.RDRun.kept14 _),
      (h c main_arg15).trans (Cert.ReferenceIdeal.RDRun.kept15 _),
      (h c main_arg16).trans (Cert.ReferenceIdeal.RDRun.kept16 _),
      (h c main_arg17).trans (Cert.ReferenceIdeal.RDRun.kept17 _)⟩)
    (Cert.ReferenceIdeal.RefRunT.run_main m ρ)

end Cert.ReferenceIdeal.RefRun

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.RCLib.lean ====
/- The host's batch normalisation of the columns of a matrix, read at an index on the extended reals.

   For a matrix X of n rows and k columns a host program takes the column sums (a reduction along axis 0), keeps them as
   a row [1, k], divides by a count word: the column means. The biased variance is the column sum of the squared
   distances from the mean divided by the count again, chosen by a select on "count > 0". The normalised value at (i, c)
   is the distance from the mean divided by the root of variance plus an offset word, times a scale, plus a shift, both
   vectors [k] broadcast through [1, k] to [n, k]. Each step is read at coordinates; nothing asks the entries of X to
   be finite. -/
import proofs.«116939_g89575837925665_cont_sun_c4_16_12_alg».proof.Proof.LibHostKeepdims
import proofs.«116939_g89575837925665_cont_sun_c4_16_12_alg».proof.Proof.Spec

noncomputable section

open scoped BigOperators

namespace Cert.RCLib

open Idealize.ShloMosaic Idealize.ShloMosaic.ValueIdx

variable {n k : ℕ}

/-- The host's sum of an [n, k] matrix along its columns, read at column c: the initial value plus the column's sum. -/
theorem hostReduceAdd_cols_apply {φ : FTy} {u : Shape} (x : FVec Ideal ⟨2, ![n, k]⟩ φ) (init : u.Idx → Ideal φ)
    (h' : (⟨2, ![n, k]⟩ : Shape).ReducesTo [0] ⟨1, ![k]⟩) (h : (⟨2, ![n, k]⟩ : Shape).Reduces [0] ⟨1, ![k]⟩)
    (hu : 0 < u.numel) (c : Fin k) :
    Host.reduceAdd x init h' hu (ix1 c) = init (Shape.Idx.first hu) + ∑ r : Fin n, x (ix2 r c) := by
  simp only [Host.reduceAdd, Ideal.hostReduceAdd_def]
  rw [Ideal.hostReduceAdd_single h' h]
  refine congrArg (_ + ·) (Finset.sum_congr rfl fun r _ => congrArg x (funext fun ax => Fin.ext ?_))
  match ax with
  | ⟨0, _⟩ => rfl
  | ⟨1, _⟩ => rfl

/-- A rank-0 array has one index. -/
theorem idx0_eq (j j' : (⟨0, ![]⟩ : Shape).Idx) : j = j' := funext fun a => a.elim0

/-- The count of a variance as the host prints it, a count word minus the integer 0 as a float, is the word's value. -/
theorem count_apply (W : BitVec 32) (j : (⟨0, ![]⟩ : Shape).Idx) :
    (subf (constant (F := Ideal) ⟨0, ![]⟩ .f32 W) (sitofp .f32 (constantI ⟨0, ![]⟩ 32 0#32)) : FVec Ideal ⟨0, ![]⟩ .f32) j
      = Ideal.ofBits .f32 W := by
  show Ideal.ofBits .f32 W - (((0#32 : BitVec 32).toInt : ℝ) : EReal) = _
  have : (((0#32 : BitVec 32).toInt : ℝ) : EReal) = 0 := by
    rw [show (0#32 : BitVec 32).toInt = 0 by decide]; norm_num
  rw [this, sub_zero]

/-- The word 0x47000000 is the real 32768. -/
theorem ofBits_32768 : Ideal.ofBits .f32 0x47000000#32 = ((32768 : ℝ) : EReal) := by
  simp [Ideal.ofBits, Ideal.ieee, -EReal.coe_mul]; norm_num

/-- The word 0x41800000 is the real 16. -/
theorem ofBits_16 : Ideal.ofBits .f32 0x41800000#32 = ((16 : ℝ) : EReal) := by
  simp [Ideal.ofBits, Ideal.ieee, -EReal.coe_mul]; norm_num

/-- "32768 > 0" holds. -/
theorem cmp_32768 : Ideal.cmp .ogt (Ideal.ofBits .f32 0x47000000#32) (Ideal.ofBits .f32 0x00000000#32) = 1#1 := by
  rw [ofBits_32768, Ideal.ofBits_zero_f32]
  have : (0 : EReal) < ((32768 : ℝ) : EReal) := by exact_mod_cast (by norm_num : (0 : ℝ) < 32768)
  simp [Ideal.cmp, this]

/-- "16 > 0" holds. -/
theorem cmp_16 : Ideal.cmp .ogt (Ideal.ofBits .f32 0x41800000#32) (Ideal.ofBits .f32 0x00000000#32) = 1#1 := by
  rw [ofBits_16, Ideal.ofBits_zero_f32]
  have : (0 : EReal) < ((16 : ℝ) : EReal) := by exact_mod_cast (by norm_num : (0 : ℝ) < 16)
  simp [Ideal.cmp, this]

section Norm

/-- The host's column means kept as a row: at column c, the mean of the column by the count word. -/
theorem hostMean_apply (X : FVec Ideal ⟨2, ![n, k]⟩ .f32) (W : BitVec 32)
    (h' : (⟨2, ![n, k]⟩ : Shape).ReducesTo [0] ⟨1, ![k]⟩) (h : (⟨2, ![n, k]⟩ : Shape).Reduces [0] ⟨1, ![k]⟩)
    (hu : 0 < (⟨0, ![]⟩ : Shape).numel)
    (d1 : Fin 1 → Fin 2) (hb1 : (⟨1, ![k]⟩ : Shape).BroadcastsInDim ⟨2, ![1, k]⟩ d1) (hd1 : d1 0 = 1)
    (d0 : Fin 0 → Fin 2) (hb0 : (⟨0, ![]⟩ : Shape).BroadcastsInDim ⟨2, ![1, k]⟩ d0) (u : Fin 1) (c : Fin k) :
    Host.divf (F := Ideal) (broadcastInDim ⟨2, ![1, k]⟩ d1 hb1 (Host.reduceAdd (F := Ideal) X (constant (F := Ideal) ⟨0, ![]⟩ .f32 0x00000000#32) h' hu))
        (broadcastInDim ⟨2, ![1, k]⟩ d0 hb0 (constant (F := Ideal) ⟨0, ![]⟩ .f32 W)) (ix2 u c)
      = Cert.Spec.mean (Ideal.ofBits .f32 W) (fun i : Fin n => X (ix2 i c)) := by
  show Ideal.div _ _ = _
  rw [broadcastInDim_b_1b_apply d1 hb1 hd1, broadcastInDim_scalar_apply, hostReduceAdd_cols_apply X _ h' h hu]
  rw [constant_apply, constant_apply, Ideal.ofBits_zero_f32, zero_add]
  rfl

/-- A row [1, k] subtracted from every row of the matrix. -/
theorem hostCentre_apply (X : FVec Ideal ⟨2, ![n, k]⟩ .f32)
    (d2 : Fin 2 → Fin 2) (hb2 : (⟨2, ![1, k]⟩ : Shape).BroadcastsInDim ⟨2, ![n, k]⟩ d2) (hd2 : d2 1 = 1)
    (M : FVec Ideal ⟨2, ![1, k]⟩ .f32) (i : Fin n) (c : Fin k) :
    (subf X (broadcastInDim ⟨2, ![n, k]⟩ d2 hb2 M) : FVec Ideal ⟨2, ![n, k]⟩ .f32) (ix2 i c) = X (ix2 i c) - M (ix2 0 c) := by
  rw [subf_apply, broadcastInDim_1b_ab_apply d2 hb2 hd2]

/-- The host's biased variance of the columns, from the centred matrix C: the select on "count > 0" takes the quotient. -/
theorem hostVar_apply (W : BitVec 32)
    (h' : (⟨2, ![n, k]⟩ : Shape).ReducesTo [0] ⟨1, ![k]⟩) (h : (⟨2, ![n, k]⟩ : Shape).Reduces [0] ⟨1, ![k]⟩)
    (hu : 0 < (⟨0, ![]⟩ : Shape).numel)
    (d1 : Fin 1 → Fin 2) (hb1 : (⟨1, ![k]⟩ : Shape).BroadcastsInDim ⟨2, ![1, k]⟩ d1) (hd1 : d1 0 = 1)
    (d0 : Fin 0 → Fin 2) (hb0 : (⟨0, ![]⟩ : Shape).BroadcastsInDim ⟨2, ![1, k]⟩ d0)
    (C : FVec Ideal ⟨2, ![n, k]⟩ .f32) (cnt nanv : FVec Ideal ⟨0, ![]⟩ .f32)
    (hcnt : ∀ j, cnt j = Ideal.ofBits .f32 W)
    (hW : Ideal.cmp .ogt (Ideal.ofBits .f32 W) (Ideal.ofBits .f32 0x00000000#32) = 1#1) (u : Fin 1) (c : Fin k) :
    (select (broadcastInDim ⟨2, ![1, k]⟩ d0 hb0 (cmpf .ogt cnt (constant (F := Ideal) ⟨0, ![]⟩ .f32 0x00000000#32)))
        (Host.divf (F := Ideal) (broadcastInDim ⟨2, ![1, k]⟩ d1 hb1 (Host.reduceAdd (F := Ideal) (mulf C C) (constant (F := Ideal) ⟨0, ![]⟩ .f32 0x00000000#32) h' hu))
          (broadcastInDim ⟨2, ![1, k]⟩ d0 hb0 cnt))
        (broadcastInDim ⟨2, ![1, k]⟩ d0 hb0 nanv) : FVec Ideal ⟨2, ![1, k]⟩ .f32) (ix2 u c)
      = Ideal.div (∑ i : Fin n, C (ix2 i c) * C (ix2 i c)) (Ideal.ofBits .f32 W) := by
  rw [select_apply, broadcastInDim_scalar_apply, cmpf_apply, hcnt, constant_apply, Ideal.cmpf_def, hW]
  show Ideal.div _ _ = _
  rw [broadcastInDim_b_1b_apply d1 hb1 hd1, broadcastInDim_scalar_apply, hostReduceAdd_cols_apply _ _ h' h hu, hcnt]
  rw [constant_apply, Ideal.ofBits_zero_f32, zero_add]
  rfl

/-- The normalised matrix at (i, c), from a row of means M and a row of variances V. -/
theorem hostBn_apply (X : FVec Ideal ⟨2, ![n, k]⟩ .f32)
    (d1 : Fin 1 → Fin 2) (hb1 : (⟨1, ![k]⟩ : Shape).BroadcastsInDim ⟨2, ![1, k]⟩ d1) (hd1 : d1 0 = 1)
    (d0 : Fin 0 → Fin 2) (hb0 : (⟨0, ![]⟩ : Shape).BroadcastsInDim ⟨2, ![1, k]⟩ d0)
    (d2 : Fin 2 → Fin 2) (hb2 : (⟨2, ![1, k]⟩ : Shape).BroadcastsInDim ⟨2, ![n, k]⟩ d2) (hd2 : d2 1 = 1)
    (M V : FVec Ideal ⟨2, ![1, k]⟩ .f32) (E : BitVec 32) (g be : FVec Ideal ⟨1, ![k]⟩ .f32) (i : Fin n) (c : Fin k) :
    (addf (mulf (Host.divf (F := Ideal) (subf X (broadcastInDim ⟨2, ![n, k]⟩ d2 hb2 M))
            (broadcastInDim ⟨2, ![n, k]⟩ d2 hb2 (Host.sqrt (F := Ideal) (addf V (broadcastInDim ⟨2, ![1, k]⟩ d0 hb0 (constant (F := Ideal) ⟨0, ![]⟩ .f32 E))))))
          (broadcastInDim ⟨2, ![n, k]⟩ d2 hb2 (broadcastInDim ⟨2, ![1, k]⟩ d1 hb1 g)))
        (broadcastInDim ⟨2, ![n, k]⟩ d2 hb2 (broadcastInDim ⟨2, ![1, k]⟩ d1 hb1 be)) : FVec Ideal ⟨2, ![n, k]⟩ .f32) (ix2 i c)
      = Ideal.div (X (ix2 i c) - M (ix2 0 c)) (Ideal.sqrt (V (ix2 0 c) + Ideal.ofBits .f32 E)) * g (ix1 c) + be (ix1 c) := by
  rw [addf_apply, mulf_apply]
  rw [broadcastInDim_1b_ab_apply d2 hb2 hd2, broadcastInDim_1b_ab_apply d2 hb2 hd2,
    broadcastInDim_b_1b_apply d1 hb1 hd1, broadcastInDim_b_1b_apply d1 hb1 hd1]
  show Ideal.div _ _ * _ + _ = _
  rw [hostCentre_apply X d2 hb2 hd2, broadcastInDim_1b_ab_apply d2 hb2 hd2]
  show Ideal.div _ (Ideal.sqrt (V (ix2 0 c) + _)) * _ + _ = _
  rw [broadcastInDim_scalar_apply, constant_apply]

/-- The three readings put together: with M the means and V the variances of X's columns by the count word, the
    normalised matrix is the specification's batch normalisation of column c at row i. -/
theorem bn_of_parts (W : BitVec 32) (f : Fin n → EReal) (m v : EReal) (g be : EReal) (i : Fin n)
    (hm : m = Cert.Spec.mean (Ideal.ofBits .f32 W) f) (hv : v = Cert.Spec.var (Ideal.ofBits .f32 W) f) :
    Ideal.div (f i - m) (Ideal.sqrt (v + Ideal.ofBits .f32 0x3727C5AC#32)) * g + be
      = Cert.Spec.bn (Ideal.ofBits .f32 W) f g be i := by
  rw [hm, hv]; rfl

end Norm

end Cert.RCLib

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RCLin.lean ====
/- A host program's linear layer x · Wᵀ + b read at an index on the extended reals: the weight matrix [o, d] transposed to
   [d, o], the product of [n, d] by [d, o], and the bias [o] broadcast through [1, o] to [n, o]. At (i, j) it is the sum
   over the d inputs of x(i, ·) · W(j, ·), plus b(j). -/
import proofs.«116939_g89575837925665_cont_sun_c4_16_12_alg».proof.Proof.LibHostKeepdims
import proofs.«116939_g89575837925665_cont_sun_c4_16_12_alg».proof.Proof.LibHostMatmulNN

noncomputable section

open scoped BigOperators

namespace Cert.RCLin

open Idealize.ShloMosaic Idealize.ShloMosaic.ValueIdx

variable {n d o : ℕ}

theorem hostLinear_apply (dd : DotDims ⟨2, ![n, d]⟩ ⟨2, ![d, o]⟩ ⟨2, ![n, o]⟩)
    (hlc : dd.lhsContracting = [1]) (hrc : dd.rhsContracting = [0])
    (hln : dd.lhsNonContracting = [0]) (hrn : dd.rhsNonContracting = [1])
    (hlb : dd.lhsBatch = []) (hrb : dd.rhsBatch = [])
    (prec : Option ContractPrecision)
    (ht : (⟨2, ![o, d]⟩ : Shape).Transposes [1, 0] ⟨2, ![d, o]⟩)
    (d1 : Fin 1 → Fin 2) (hb1 : (⟨1, ![o]⟩ : Shape).BroadcastsInDim ⟨2, ![1, o]⟩ d1) (hd1 : d1 0 = 1)
    (d2 : Fin 2 → Fin 2) (hb2 : (⟨2, ![1, o]⟩ : Shape).BroadcastsInDim ⟨2, ![n, o]⟩ d2) (hd2 : d2 1 = 1)
    (x : FVec Ideal ⟨2, ![n, d]⟩ .f32) (W : FVec Ideal ⟨2, ![o, d]⟩ .f32) (b : FVec Ideal ⟨1, ![o]⟩ .f32)
    (i : Fin n) (j : Fin o) :
    (addf (Host.dotGeneral (F := Ideal) dd prec x (transpose ⟨2, ![d, o]⟩ [1, 0] W ht))
        (broadcastInDim ⟨2, ![n, o]⟩ d2 hb2 (broadcastInDim ⟨2, ![1, o]⟩ d1 hb1 b)) : FVec Ideal ⟨2, ![n, o]⟩ .f32) (ix2 i j)
      = (∑ e : Fin d, x (ix2 i e) * W (ix2 j e)) + b (ix1 j) := by
  rw [addf_apply, Cert.LibHostMatmulNN.hostDot_nn_apply dd hlc hrc hln hrn hlb hrb,
    broadcastInDim_1b_ab_apply d2 hb2 hd2, broadcastInDim_b_1b_apply d1 hb1 hd1]
  refine congrArg (· + _) (Finset.sum_congr rfl fun e _ => ?_)
  rw [transpose_ix2_apply]

end Cert.RCLin

end
-- ==== Proof.RefArgs.lean ====
/- The reference's eighteen argument arrays on a device, gathered in the specification's record. -/
import proofs.«116939_g89575837925665_cont_sun_c4_16_12_alg».proof.Proof.RefDefs
import proofs.«116939_g89575837925665_cont_sun_c4_16_12_alg».proof.Proof.Spec

noncomputable section

namespace Cert.ReferenceIdeal.RefRun

open Cert.ReferenceIdeal Idealize.ShloMosaic Idealize.ShloMosaic.TcCoe Idealize.SL.Sem

/-- The argument arrays as the reference finds them on device `c`. -/
def rargs (m : (ℓ : Loc nD τ sig) → Buf (Elt Ideal) ℓ) (c : Dev nD) : Cert.Spec.Args where
  x := m ((c.tc : Thread nD τ).loc main_arg0)
  len := m ((c.tc : Thread nD τ).loc main_arg1)
  W1 := m ((c.tc : Thread nD τ).loc main_arg2)
  b1 := m ((c.tc : Thread nD τ).loc main_arg3)
  g1 := m ((c.tc : Thread nD τ).loc main_arg4)
  be1 := m ((c.tc : Thread nD τ).loc main_arg5)
  W2 := m ((c.tc : Thread nD τ).loc main_arg6)
  b2 := m ((c.tc : Thread nD τ).loc main_arg7)
  g2 := m ((c.tc : Thread nD τ).loc main_arg8)
  be2 := m ((c.tc : Thread nD τ).loc main_arg9)
  Wf1 := m ((c.tc : Thread nD τ).loc main_arg10)
  bf1 := m ((c.tc : Thread nD τ).loc main_arg11)
  gf1 := m ((c.tc : Thread nD τ).loc main_arg12)
  bef1 := m ((c.tc : Thread nD τ).loc main_arg13)
  Wf2 := m ((c.tc : Thread nD τ).loc main_arg14)
  bf2 := m ((c.tc : Thread nD τ).loc main_arg15)
  gf2 := m ((c.tc : Thread nD τ).loc main_arg16)
  bef2 := m ((c.tc : Thread nD τ).loc main_arg17)

end Cert.ReferenceIdeal.RefRun

end
-- ==== Proof.RCS1.lean ====
/- The reference's first linear map x · W1ᵀ + b1, read at point i and channel ch: the specification's s1. -/
import proofs.«116939_g89575837925665_cont_sun_c4_16_12_alg».proof.Proof.RCLin
import proofs.«116939_g89575837925665_cont_sun_c4_16_12_alg».proof.Proof.RefArgs

noncomputable section

open scoped BigOperators

namespace Cert.ReferenceIdeal.RefHead

open Cert.ReferenceIdeal Cert.ReferenceIdeal.Gen Cert.ReferenceIdeal.RefRun Idealize.ShloMosaic Idealize.ShloMosaic.TcCoe Idealize.SL.Sem Idealize.ShloMosaic.ValueIdx Cert.Spec

/-- The first linear map at (i, ch). -/
theorem v4_eq (m : (ℓ : Loc nD τ sig) → Buf (Elt Ideal) ℓ) (c : Dev nD) (i : Fin 32768) (ch : Fin 16) :
    res_main_v4 (F := Ideal) m c (ix2 i ch) = s1 (rargs m c) i ch := by
  unfold res_main_v4
  exact Cert.RCLin.hostLinear_apply dot_S32768x32_S32x16_S32768x16_1_0_0_1_n_n rfl rfl rfl rfl rfl rfl none
    transposes_S16x32_S32x16_1_0 ![1] bcast_S16_S1x16_1 rfl ![0, 1] bcast_S1x16_S32768x16_0_1 rfl _ _ _ i ch

end Cert.ReferenceIdeal.RefHead

end
-- ==== Proof.RCNorm1.lean ====
/- The reference's first normalisation over the 32768 points, channel by channel, and the clip at zero: the
   specification's o1. The mean and the biased variance of channel ch are those of the column i' ↦ s1 i' ch. -/
import proofs.«116939_g89575837925665_cont_sun_c4_16_12_alg».proof.Proof.RCLib
import proofs.«116939_g89575837925665_cont_sun_c4_16_12_alg».proof.Proof.RCS1

noncomputable section

open scoped BigOperators

namespace Cert.ReferenceIdeal.RefHead

open Cert.ReferenceIdeal Cert.ReferenceIdeal.Gen Cert.ReferenceIdeal.RefRun Idealize.ShloMosaic Idealize.ShloMosaic.TcCoe Idealize.SL.Sem Idealize.ShloMosaic.ValueIdx Cert.Spec

variable (m : (ℓ : Loc nD τ sig) → Buf (Elt Ideal) ℓ) (c : Dev nD)

/-- The channel means. -/
theorem v8_eq (u : Fin 1) (ch : Fin 16) :
    res_main_v8 (F := Ideal) m c (ix2 u ch) = Spec.mean nPts (fun i' => s1 (rargs m c) i' ch) := by
  unfold res_main_v8
  refine (Cert.RCLib.hostMean_apply (res_main_v4 m c) 0x47000000#32 reducesTo_S32768x16_S16_d0 (by decide) h_S_
    ![1] bcast_S16_S1x16_1 rfl ![] bcast_S_S1x16 u ch).trans ?_
  exact congrArg (Spec.mean nPts) (funext fun i' => v4_eq m c i' ch)

/-- The centred values inside the variance. -/
theorem call0_v5_eq (i : Fin 32768) (ch : Fin 16) :
    res_main_call0_v5 (F := Ideal) m c (ix2 i ch)
      = s1 (rargs m c) i ch - Spec.mean nPts (fun i' => s1 (rargs m c) i' ch) := by
  unfold res_main_call0_v5
  refine (Cert.RCLib.hostCentre_apply (res_main_v4 m c) ![0, 1] bcast_S1x16_S32768x16_0_1 rfl _ i ch).trans ?_
  rw [v4_eq]
  exact congrArg (_ - ·) (v8_eq m c 0 ch)

/-- The channel variances. -/
theorem v9_eq (u : Fin 1) (ch : Fin 16) :
    res_main_v9 (F := Ideal) m c (ix2 u ch) = Spec.var nPts (fun i' => s1 (rargs m c) i' ch) := by
  unfold res_main_v9
  refine (Cert.RCLib.hostVar_apply 0x47000000#32 reducesTo_S32768x16_S16_d0 (by decide) h_S_
    ![1] bcast_S16_S1x16_1 rfl ![] bcast_S_S1x16 (res_main_call0_v5 m c) (res_main_call0_v8 m c) _
    (fun j => Cert.RCLib.count_apply _ j) Cert.RCLib.cmp_32768 u ch).trans ?_
  simp only [call0_v5_eq]
  rfl

/-- The normalised values. -/
theorem v22_eq (i : Fin 32768) (ch : Fin 16) :
    res_main_v22 (F := Ideal) m c (ix2 i ch)
      = bn nPts (fun i' => s1 (rargs m c) i' ch) ((rargs m c).g1 (ix1 ch)) ((rargs m c).be1 (ix1 ch)) i := by
  unfold res_main_v22
  refine (Cert.RCLib.hostBn_apply (res_main_v4 m c) ![1] bcast_S16_S1x16_1 rfl ![] bcast_S_S1x16
    ![0, 1] bcast_S1x16_S32768x16_0_1 rfl (res_main_v8 m c) (res_main_v9 m c) 0x3727C5AC#32 _ _ i ch).trans ?_
  rw [v4_eq, v8_eq, v9_eq]
  rfl

/-- Clipped at zero: o1. -/
theorem v23_eq (i : Fin 32768) (ch : Fin 16) :
    res_main_v23 (F := Ideal) m c (ix2 i ch) = o1 (rargs m c) i ch := by
  unfold res_main_v23
  rw [maximumf_apply, v22_eq, broadcastInDim_scalar_apply, constant_apply, Ideal.ofBits_zero_f32]
  rfl

end Cert.ReferenceIdeal.RefHead

end
-- ==== Proof.RCS2.lean ====
/- The reference's second linear map o1 · W2ᵀ + b2, one number per point: the specification's s2. -/
import proofs.«116939_g89575837925665_cont_sun_c4_16_12_alg».proof.Proof.RCLin
import proofs.«116939_g89575837925665_cont_sun_c4_16_12_alg».proof.Proof.RCNorm1

noncomputable section

open scoped BigOperators

namespace Cert.ReferenceIdeal.RefHead

open Cert.ReferenceIdeal Cert.ReferenceIdeal.Gen Cert.ReferenceIdeal.RefRun Idealize.ShloMosaic Idealize.ShloMosaic.TcCoe Idealize.SL.Sem Idealize.ShloMosaic.ValueIdx Cert.Spec

variable (m : (ℓ : Loc nD τ sig) → Buf (Elt Ideal) ℓ) (c : Dev nD)

/-- The second linear map at point i. -/
theorem v28_eq (i : Fin 32768) (u : Fin 1) :
    res_main_v28 (F := Ideal) m c (ix2 i u) = s2 (rargs m c) i := by
  unfold res_main_v28
  refine (Cert.RCLin.hostLinear_apply dot_S32768x16_S16x1_S32768x1_1_0_0_1_n_n rfl rfl rfl rfl rfl rfl none
    transposes_S1x16_S16x1_1_0 ![1] bcast_S1_S1x1_1 rfl ![0, 1] bcast_S1x1_S32768x1_0_1 rfl
    (res_main_v23 m c) _ _ i u).trans ?_
  obtain rfl : u = 0 := Subsingleton.elim _ _
  simp only [v23_eq]
  rfl

end Cert.ReferenceIdeal.RefHead

end
-- ==== Proof.RefHead.lean ====
/- The reference's attention score. The second linear map's one column is normalised over the 32768 points (mean and
   biased variance of i' ↦ s2 i'), and the column [32768, 1] is read as a vector [32768]: the specification's att. -/
import proofs.«116939_g89575837925665_cont_sun_c4_16_12_alg».proof.Proof.RCLib
import proofs.«116939_g89575837925665_cont_sun_c4_16_12_alg».proof.Proof.RCS2

noncomputable section

open scoped BigOperators

namespace Cert.ReferenceIdeal.RefHead

open Cert.ReferenceIdeal Cert.ReferenceIdeal.Gen Cert.ReferenceIdeal.RefRun Idealize.ShloMosaic Idealize.ShloMosaic.TcCoe Idealize.SL.Sem Idealize.ShloMosaic.ValueIdx Cert.Spec

variable (m : (ℓ : Loc nD τ sig) → Buf (Elt Ideal) ℓ) (c : Dev nD)

/-- The mean of the scores. -/
theorem v32_eq (u v : Fin 1) :
    res_main_v32 (F := Ideal) m c (ix2 u v) = Spec.mean nPts (fun i' => s2 (rargs m c) i') := by
  unfold res_main_v32
  refine (Cert.RCLib.hostMean_apply (res_main_v28 m c) 0x47000000#32 reducesTo_S32768x1_S1_d0 (by decide) h_S_
    ![1] bcast_S1_S1x1_1 rfl ![] bcast_S_S1x1 u v).trans ?_
  exact congrArg (Spec.mean nPts) (funext fun i' => v28_eq m c i' v)

/-- The centred scores inside the variance. -/
theorem call2_v5_eq (i : Fin 32768) (v : Fin 1) :
    res_main_call2_v5 (F := Ideal) m c (ix2 i v)
      = s2 (rargs m c) i - Spec.mean nPts (fun i' => s2 (rargs m c) i') := by
  unfold res_main_call2_v5
  refine (Cert.RCLib.hostCentre_apply (res_main_v28 m c) ![0, 1] bcast_S1x1_S32768x1_0_1 rfl _ i v).trans ?_
  rw [v28_eq]
  exact congrArg (_ - ·) (v32_eq m c 0 v)

/-- The variance of the scores. -/
theorem v33_eq (u v : Fin 1) :
    res_main_v33 (F := Ideal) m c (ix2 u v) = Spec.var nPts (fun i' => s2 (rargs m c) i') := by
  unfold res_main_v33
  refine (Cert.RCLib.hostVar_apply 0x47000000#32 reducesTo_S32768x1_S1_d0 (by decide) h_S_
    ![1] bcast_S1_S1x1_1 rfl ![] bcast_S_S1x1 (res_main_call2_v5 m c) (res_main_call2_v8 m c) _
    (fun j => Cert.RCLib.count_apply _ j) Cert.RCLib.cmp_32768 u v).trans ?_
  simp only [call2_v5_eq]
  rfl

/-- The normalised scores as a column. -/
theorem v46_eq (i : Fin 32768) (v : Fin 1) :
    res_main_v46 (F := Ideal) m c (ix2 i v) = att (rargs m c) i := by
  unfold res_main_v46
  refine (Cert.RCLib.hostBn_apply (res_main_v28 m c) ![1] bcast_S1_S1x1_1 rfl ![] bcast_S_S1x1
    ![0, 1] bcast_S1x1_S32768x1_0_1 rfl (res_main_v32 m c) (res_main_v33 m c) 0x3727C5AC#32 _ _ i v).trans ?_
  obtain rfl : v = 0 := Subsingleton.elim _ _
  rw [v28_eq, v32_eq, v33_eq]
  rfl

/-- The attention score of point i. -/
theorem att_eq (m : (ℓ : Loc nD τ sig) → Buf (Elt Ideal) ℓ) (c : Dev nD) (i : Fin 32768) :
    res_main_v61 (F := Ideal) m c (ix1 i) = att (rargs m c) i := by
  unfold res_main_v61
  exact (shapeCast_a1_a_apply (res_main_v46 m c) shapeCasts_S32768x1_S32768 i).trans (v46_eq m c i 0)

end Cert.ReferenceIdeal.RefHead

end
-- ==== Proof.RDBase.lean ====
/- Host operations read at an index on the extended reals, and the two count words: the quotient, root and exponential
   of a host program element by element; the host's sum of a matrix down its columns; the words of 16 and 32768 as
   positive reals, so that the count "word minus the integer zero" of a variance is the word itself and compares above zero. -/
import Idealize.ShloMosaic.Lib.ValueLayout
import Idealize.ShloMosaic.PureOps.Ideal.Laws

noncomputable section

open scoped BigOperators

namespace Cert.RDBase

open Idealize.ShloMosaic Idealize.ShloMosaic.ValueIdx

section Pointwise
variable {s : Shape} {φ : FTy}

/-- The host's quotient at an index is the division of the elements. -/
theorem hdivf_apply (a b : FVec Ideal s φ) (i : s.Idx) : Host.divf a b i = Ideal.div (a i) (b i) := rfl
/-- The host's square root at an index. -/
theorem hsqrt_apply (a : FVec Ideal s φ) (i : s.Idx) : Host.sqrt a i = Ideal.sqrt (a i) := rfl
/-- The host's exponential at an index. -/
theorem hexp_apply (a : FVec Ideal s φ) (i : s.Idx) : Host.exp a i = Ideal.exp (a i) := rfl
/-- A signed integer converted to a float is that integer. -/
theorem sitofp_ideal {w : Nat} (x : IVec s w) (i : s.Idx) :
    (sitofp φ x : FVec Ideal s φ) i = (((x i).toInt : ℝ) : EReal) := rfl

end Pointwise

/-- The host's sum of an `[a, b]` matrix down its columns, read at column `c`: the initial value plus the sum over
    the column. -/
theorem hostReduceAdd_cols_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduceAdd x init h' hu (ix1 c) = init (Shape.Idx.first hu) + ∑ p : Fin a, x (ix2 p c) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-! ## The count words -/

/-- The word of 16 is the real 16. -/
theorem ofBits_16 : Ideal.ofBits .f32 0x41800000#32 = ((16 : ℝ) : EReal) := by
  simp [Ideal.ofBits, Ideal.ieee, -EReal.coe_mul]; norm_num
/-- The word of 32768 is the real 32768. -/
theorem ofBits_32768 : Ideal.ofBits .f32 0x47000000#32 = ((32768 : ℝ) : EReal) := by
  simp [Ideal.ofBits, Ideal.ieee, -EReal.coe_mul]; norm_num

/-- A word less the integer zero is the word. -/
theorem sub_sitofp_zero (x : EReal) : x - (((0#32 : BitVec 32).toInt : ℝ) : EReal) = x := by
  have : (((0#32 : BitVec 32).toInt : ℝ) : EReal) = 0 := by simp
  rw [this, sub_zero]

/-- A positive value compares above the zero word. -/
theorem cmp_ogt_zero {x : EReal} (hx : 0 < x) : Ideal.cmp .ogt x (Ideal.ofBits .f32 0x00000000#32) = 1#1 := by
  rw [Ideal.ofBits_zero_f32]
  simp [Ideal.cmp, hx]

theorem pos_16 : (0 : EReal) < Ideal.ofBits .f32 0x41800000#32 := by
  rw [ofBits_16]; exact EReal.coe_pos.mpr (by norm_num)
theorem pos_32768 : (0 : EReal) < Ideal.ofBits .f32 0x47000000#32 := by
  rw [ofBits_32768]; exact EReal.coe_pos.mpr (by norm_num)

end Cert.RDBase

end
-- ==== Proof.RDSeg.lean ====
/- The reference's segment softmax read by coordinates: the masked scores and their row maximum, the masked exponentials, their row sums and the weights. -/
import proofs.«116939_g89575837925665_cont_sun_c4_16_12_alg».proof.Proof.RefArgs
import proofs.«116939_g89575837925665_cont_sun_c4_16_12_alg».proof.Proof.LibHostKeepdims
import proofs.«116939_g89575837925665_cont_sun_c4_16_12_alg».proof.Proof.LibRowMin
import proofs.«116939_g89575837925665_cont_sun_c4_16_12_alg».proof.Proof.RDBase

noncomputable section

open scoped BigOperators

namespace Cert.ReferenceIdeal.RefTail

open Cert.ReferenceIdeal Cert.ReferenceIdeal.Gen Cert.ReferenceIdeal.RefRun Idealize.ShloMosaic Idealize.ShloMosaic.ValueIdx
  Idealize.ShloMosaic.TcCoe Idealize.SL.Sem Cert.Spec Cert.LibRowMin Cert.RDBase

variable (m : (ℓ : Loc nD τ sig) → Buf (Elt Ideal) ℓ) (c : Dev nD)

/-- The masked score: the point's score inside the segment, the bottom element outside. -/
theorem v63_apply (b : Fin 16) (i : Fin 32768) :
    res_main_v63 (F := Ideal) m c (ix2 b i)
      = Scalar.select (res_main_v60 (F := Ideal) m c (ix2 b i)) (res_main_v61 (F := Ideal) m c (ix1 i)) ⊥ := by
  unfold res_main_v63
  rw [select_apply, broadcastInDim_1b_ab_apply ![0, 1] _ rfl, broadcastInDim_b_1b_apply ![1] _ rfl,
    broadcastInDim_scalar_apply, id_eq, constant_apply, ofBits_neg_inf]

/-- The row maximum of the masked scores is their supremum over the points. -/
theorem v64_apply (b : Fin 16) :
    res_main_v64 (F := Ideal) m c (ix1 b)
      = Finset.univ.sup fun i : Fin 32768 => res_main_v63 (F := Ideal) m c (ix2 b i) := by
  unfold res_main_v64
  refine (hostReduce_max_rows_apply _ _ _ (by decide) _ b).trans ?_
  rw [constant_apply, ofBits_neg_inf]
  exact fold_max_bot _

/-- The masked exponential: inside the segment the exponential of the score less the row maximum, zero outside. -/
theorem v71_apply (b : Fin 16) (i : Fin 32768) :
    res_main_v71 (F := Ideal) m c (ix2 b i)
      = Scalar.select (res_main_v60 (F := Ideal) m c (ix2 b i))
          (Ideal.exp (res_main_v61 (F := Ideal) m c (ix1 i) - res_main_v64 (F := Ideal) m c (ix1 b))) 0 := by
  unfold res_main_v71
  rw [select_apply, broadcastInDim_scalar_apply, id_eq, constant_apply, Ideal.ofBits_zero_f32]
  rw [hexp_apply, subf_apply, broadcastInDim_1b_ab_apply ![0, 1] _ rfl, broadcastInDim_b_1b_apply ![1] _ rfl,
    broadcastInDim_a1_ab_apply ![0, 1] _ rfl, broadcastInDim_a_a1_apply ![0] _ rfl]

/-- The row sums of the masked exponentials. -/
theorem v72_apply (b : Fin 16) :
    res_main_v72 (F := Ideal) m c (ix1 b) = ∑ i : Fin 32768, res_main_v71 (F := Ideal) m c (ix2 b i) := by
  unfold res_main_v72
  refine (hostReduceAdd_rows_apply _ _ _ (by decide) _ b).trans ?_
  rw [constant_apply, Ideal.ofBits_zero_f32, zero_add]

/-- The weights: each masked exponential divided by its row's sum. -/
theorem v75_apply (b : Fin 16) (i : Fin 32768) :
    res_main_v75 (F := Ideal) m c (ix2 b i)
      = Ideal.div (res_main_v71 (F := Ideal) m c (ix2 b i)) (res_main_v72 (F := Ideal) m c (ix1 b)) := by
  unfold res_main_v75
  rw [hdivf_apply, broadcastInDim_a1_ab_apply ![0, 1] _ rfl, broadcastInDim_a_a1_apply ![0] _ rfl]

/-! ## Against the specification, given the score and the mask -/

section Spec
variable (hatt : ∀ i : Fin 32768, res_main_v61 (F := Ideal) m c (ix1 i) = att (rargs m c) i)
  (hmask : ∀ (b : Fin 16) (i : Fin 32768), res_main_v60 (F := Ideal) m c (ix2 b i) = 1 ↔ inSeg (rargs m c) b i)
include hatt hmask

open Classical in
/-- A select on the mask's bit is the choice on membership of the segment. -/
theorem select_mask {α : Type} (b : Fin 16) (i : Fin 32768) (x y : α) :
    Scalar.select (res_main_v60 (F := Ideal) m c (ix2 b i)) x y = if inSeg (rargs m c) b i then x else y := by
  by_cases h : inSeg (rargs m c) b i
  · rw [if_pos h, (hmask b i).mpr h]; exact select_one x y
  · rw [if_neg h, eq_zero_of_ne_one (mt (hmask b i).mp h), select_zero]

/-- The row maximum is the segment's largest score. -/
theorem v64_eq (b : Fin 16) : res_main_v64 (F := Ideal) m c (ix1 b) = segMax (rargs m c) b := by
  rw [v64_apply]
  unfold segMax
  refine congrArg _ (funext fun i => ?_)
  rw [v63_apply, select_mask m c hatt hmask, hatt]

/-- The masked exponential is the unnormalised weight. -/
theorem v71_eq (b : Fin 16) (i : Fin 32768) : res_main_v71 (F := Ideal) m c (ix2 b i) = ew (rargs m c) b i := by
  rw [v71_apply, select_mask m c hatt hmask, hatt, v64_eq m c hatt hmask]
  rfl

/-- The weight. -/
theorem v75_eq (b : Fin 16) (i : Fin 32768) : res_main_v75 (F := Ideal) m c (ix2 b i) = w (rargs m c) b i := by
  rw [v75_apply, v72_apply, v71_eq m c hatt hmask]
  unfold w
  exact congrArg _ (Finset.sum_congr rfl fun i' _ => v71_eq m c hatt hmask b i')

end Spec

end Cert.ReferenceIdeal.RefTail

end
-- ==== Proof.RDPool.lean ====
/- The reference's weighted feature means and the first layer of the head, read by coordinates. -/
import proofs.«116939_g89575837925665_cont_sun_c4_16_12_alg».proof.Proof.RDSeg
import proofs.«116939_g89575837925665_cont_sun_c4_16_12_alg».proof.Proof.LibHostMatmulNN

noncomputable section

open scoped BigOperators

namespace Cert.ReferenceIdeal.RefTail

open Cert.ReferenceIdeal Cert.ReferenceIdeal.Gen Cert.ReferenceIdeal.RefRun Idealize.ShloMosaic Idealize.ShloMosaic.ValueIdx
  Idealize.ShloMosaic.TcCoe Idealize.SL.Sem Cert.Spec Cert.LibRowMin Cert.RDBase

variable (m : (ℓ : Loc nD τ sig) → Buf (Elt Ideal) ℓ) (c : Dev nD)

open Cert.LibHostMatmulNN

/-- The weights times the features: at segment `b`, feature `d`, the sum over the points. -/
theorem v76_apply (b : Fin 16) (d : Fin 32) :
    res_main_v76 (F := Ideal) m c (ix2 b d)
      = ∑ i : Fin 32768, res_main_v75 (F := Ideal) m c (ix2 b i) * (rargs m c).x (ix2 i d) := by
  unfold res_main_v76
  exact hostDot_nn_apply _ rfl rfl rfl rfl rfl rfl none _ _ b d

/-- Divided by the segment's length, the word read as a signed integer. -/
theorem v80_apply (b : Fin 16) (d : Fin 32) :
    res_main_v80 (F := Ideal) m c (ix2 b d)
      = Ideal.div (res_main_v76 (F := Ideal) m c (ix2 b d)) (((lenZ (rargs m c) b : ℤ) : ℝ) : EReal) := by
  unfold res_main_v80
  rw [hdivf_apply, broadcastInDim_a1_ab_apply ![0, 1] _ rfl, sitofp_ideal, broadcastInDim_a_a1_apply ![0] _ rfl]
  rfl

/-- The first layer of the head: the means times the transposed weights, plus the bias. -/
theorem v85_apply (b : Fin 16) (j : Fin 64) :
    res_main_v85 (F := Ideal) m c (ix2 b j)
      = (∑ d : Fin 32, res_main_v80 (F := Ideal) m c (ix2 b d) * (rargs m c).Wf1 (ix2 j d)) + (rargs m c).bf1 (ix1 j) := by
  unfold res_main_v85
  rw [addf_apply, broadcastInDim_1b_ab_apply ![0, 1] _ rfl, broadcastInDim_b_1b_apply ![1] _ rfl]
  refine congrArg (· + _) ?_
  refine (hostDot_nn_apply _ rfl rfl rfl rfl rfl rfl none _ _ b j).trans ?_
  refine Finset.sum_congr rfl fun d _ => ?_
  refine congrArg (fun t => res_main_v80 (F := Ideal) m c (ix2 b d) * t) ?_
  exact transpose_ab_ba_apply _ _ d j

section Spec
variable (hatt : ∀ i : Fin 32768, res_main_v61 (F := Ideal) m c (ix1 i) = att (rargs m c) i)
  (hmask : ∀ (b : Fin 16) (i : Fin 32768), res_main_v60 (F := Ideal) m c (ix2 b i) = 1 ↔ inSeg (rargs m c) b i)
include hatt hmask

/-- The weighted mean of a feature over a segment, divided by the segment's length. -/
theorem v80_eq (b : Fin 16) (d : Fin 32) : res_main_v80 (F := Ideal) m c (ix2 b d) = r (rargs m c) b d := by
  rw [v80_apply, v76_apply]
  unfold r
  simp only [v75_eq m c hatt hmask]

/-- The first layer of the head. -/
theorem v85_eq (b : Fin 16) (j : Fin 64) : res_main_v85 (F := Ideal) m c (ix2 b j) = z1 (rargs m c) b j := by
  rw [v85_apply]
  unfold z1
  simp only [v80_eq m c hatt hmask]

end Spec

end Cert.ReferenceIdeal.RefTail

end
-- ==== Proof.RDHead1.lean ====
/- The first normalisation of the head (over the 16 rows, per column) read by coordinates. -/
import proofs.«116939_g89575837925665_cont_sun_c4_16_12_alg».proof.Proof.RDPool

noncomputable section

open scoped BigOperators

namespace Cert.ReferenceIdeal.RefTail

open Cert.ReferenceIdeal Cert.ReferenceIdeal.Gen Cert.ReferenceIdeal.RefRun Idealize.ShloMosaic Idealize.ShloMosaic.ValueIdx
  Idealize.ShloMosaic.TcCoe Idealize.SL.Sem Cert.Spec Cert.LibRowMin Cert.RDBase

variable (m : (ℓ : Loc nD τ sig) → Buf (Elt Ideal) ℓ) (c : Dev nD)

/-- The mean over the 16 rows, per column. -/
theorem v89_apply (j : Fin 64) :
    res_main_v89 (F := Ideal) m c (ix2 (0 : Fin 1) j)
      = mean nRows (fun b : Fin 16 => res_main_v85 (F := Ideal) m c (ix2 b j)) := by
  unfold res_main_v89
  rw [hdivf_apply, broadcastInDim_b_1b_apply ![1] _ rfl, broadcastInDim_scalar_apply, constant_apply]
  unfold Spec.mean
  refine congrArg (Ideal.div · _) ?_
  refine (hostReduceAdd_cols_apply _ _ _ (by decide) _ j).trans ?_
  rw [constant_apply, Ideal.ofBits_zero_f32, zero_add]

/-- The centred values inside the variance. -/
theorem call6_v5_apply (b : Fin 16) (j : Fin 64) :
    res_main_call6_v5 (F := Ideal) m c (ix2 b j)
      = res_main_v85 (F := Ideal) m c (ix2 b j) - mean nRows (fun b' : Fin 16 => res_main_v85 (F := Ideal) m c (ix2 b' j)) := by
  unfold res_main_call6_v5
  rw [subf_apply, broadcastInDim_1b_ab_apply ![0, 1] _ rfl]
  exact congrArg (_ - ·) (v89_apply m c j)

/-- The variance's count: the word of 16 less the integer zero, the word itself. -/
theorem call6_v8_apply : res_main_call6_v8 (F := Ideal) m c ix0 = nRows := by
  unfold res_main_call6_v8
  rw [subf_apply, constant_apply, sitofp_ideal]
  exact sub_sitofp_zero _

/-- The biased variance over the 16 rows, per column: the count is positive, so the select takes the quotient. -/
theorem v90_apply (j : Fin 64) :
    res_main_v90 (F := Ideal) m c (ix2 (0 : Fin 1) j)
      = var nRows (fun b : Fin 16 => res_main_v85 (F := Ideal) m c (ix2 b j)) := by
  unfold res_main_v90
  beta_reduce
  simp only [select_apply, hdivf_apply, broadcastInDim_scalar_apply, cmpf_apply, Ideal.cmpf_def, constant_apply, call6_v8_apply]
  rw [cmp_ogt_zero pos_16, select_one, broadcastInDim_b_1b_apply ![1] _ rfl]
  unfold Spec.var
  refine congrArg (Ideal.div · _) ?_
  refine (hostReduceAdd_cols_apply _ _ _ (by decide) _ j).trans ?_
  rw [constant_apply, Ideal.ofBits_zero_f32, zero_add]
  refine Finset.sum_congr rfl fun b _ => ?_
  rw [mulf_apply, call6_v5_apply]

/-- The normalised values, clipped at zero. -/
theorem v104_apply (b : Fin 16) (j : Fin 64) :
    res_main_v104 (F := Ideal) m c (ix2 b j)
      = max (bn nRows (fun b' : Fin 16 => res_main_v85 (F := Ideal) m c (ix2 b' j)) ((rargs m c).gf1 (ix1 j))
          ((rargs m c).bef1 (ix1 j)) b) 0 := by
  unfold res_main_v104
  simp only [maximumf_apply, addf_apply, mulf_apply, hdivf_apply, subf_apply, hsqrt_apply, constant_apply,
    broadcastInDim_scalar_apply, broadcastInDim_1b_ab_apply ![0, 1] _ rfl, broadcastInDim_b_1b_apply ![1] _ rfl,
    Ideal.ofBits_zero_f32]
  rw [v89_apply, v90_apply]
  rfl

section Spec
variable (hatt : ∀ i : Fin 32768, res_main_v61 (F := Ideal) m c (ix1 i) = att (rargs m c) i)
  (hmask : ∀ (b : Fin 16) (i : Fin 32768), res_main_v60 (F := Ideal) m c (ix2 b i) = 1 ↔ inSeg (rargs m c) b i)
include hatt hmask

/-- The first layer of the head, normalised and clipped. -/
theorem v104_eq (b : Fin 16) (j : Fin 64) : res_main_v104 (F := Ideal) m c (ix2 b j) = h1 (rargs m c) b j := by
  rw [v104_apply]
  unfold h1
  rw [show (fun b' : Fin 16 => res_main_v85 (F := Ideal) m c (ix2 b' j)) = fun b' => z1 (rargs m c) b' j from
    funext fun b' => v85_eq m c hatt hmask b' j]

end Spec

end Cert.ReferenceIdeal.RefTail

end
-- ==== Proof.RDHead2.lean ====
/- The second layer of the head and its normalisation (over the 16 rows, per column) read by coordinates. -/
import proofs.«116939_g89575837925665_cont_sun_c4_16_12_alg».proof.Proof.RDHead1

noncomputable section

open scoped BigOperators

namespace Cert.ReferenceIdeal.RefTail

open Cert.ReferenceIdeal Cert.ReferenceIdeal.Gen Cert.ReferenceIdeal.RefRun Idealize.ShloMosaic Idealize.ShloMosaic.ValueIdx
  Idealize.ShloMosaic.TcCoe Idealize.SL.Sem Cert.Spec Cert.LibRowMin Cert.RDBase

variable (m : (ℓ : Loc nD τ sig) → Buf (Elt Ideal) ℓ) (c : Dev nD)

open Cert.LibHostMatmulNN

/-- The second layer of the head: the clipped values times the transposed weights, plus the bias. -/
theorem v109_apply (b : Fin 16) (k : Fin 256) :
    res_main_v109 (F := Ideal) m c (ix2 b k)
      = (∑ j : Fin 64, res_main_v104 (F := Ideal) m c (ix2 b j) * (rargs m c).Wf2 (ix2 k j)) + (rargs m c).bf2 (ix1 k) := by
  unfold res_main_v109
  rw [addf_apply, broadcastInDim_1b_ab_apply ![0, 1] _ rfl, broadcastInDim_b_1b_apply ![1] _ rfl]
  refine congrArg (· + _) ?_
  refine (hostDot_nn_apply _ rfl rfl rfl rfl rfl rfl none _ _ b k).trans ?_
  refine Finset.sum_congr rfl fun j _ => ?_
  refine congrArg (fun t => res_main_v104 (F := Ideal) m c (ix2 b j) * t) ?_
  exact transpose_ab_ba_apply _ _ j k

/-- The mean over the 16 rows, per column. -/
theorem v113_apply (j : Fin 256) :
    res_main_v113 (F := Ideal) m c (ix2 (0 : Fin 1) j)
      = mean nRows (fun b : Fin 16 => res_main_v109 (F := Ideal) m c (ix2 b j)) := by
  unfold res_main_v113
  rw [hdivf_apply, broadcastInDim_b_1b_apply ![1] _ rfl, broadcastInDim_scalar_apply, constant_apply]
  unfold Spec.mean
  refine congrArg (Ideal.div · _) ?_
  refine (hostReduceAdd_cols_apply _ _ _ (by decide) _ j).trans ?_
  rw [constant_apply, Ideal.ofBits_zero_f32, zero_add]

/-- The centred values inside the variance. -/
theorem call8_v5_apply (b : Fin 16) (j : Fin 256) :
    res_main_call8_v5 (F := Ideal) m c (ix2 b j)
      = res_main_v109 (F := Ideal) m c (ix2 b j) - mean nRows (fun b' : Fin 16 => res_main_v109 (F := Ideal) m c (ix2 b' j)) := by
  unfold res_main_call8_v5
  rw [subf_apply, broadcastInDim_1b_ab_apply ![0, 1] _ rfl]
  exact congrArg (_ - ·) (v113_apply m c j)

/-- The variance's count: the word of 16 less the integer zero, the word itself. -/
theorem call8_v8_apply : res_main_call8_v8 (F := Ideal) m c ix0 = nRows := by
  unfold res_main_call8_v8
  rw [subf_apply, constant_apply, sitofp_ideal]
  exact sub_sitofp_zero _

/-- The biased variance over the 16 rows, per column: the count is positive, so the select takes the quotient. -/
theorem v114_apply (j : Fin 256) :
    res_main_v114 (F := Ideal) m c (ix2 (0 : Fin 1) j)
      = var nRows (fun b : Fin 16 => res_main_v109 (F := Ideal) m c (ix2 b j)) := by
  unfold res_main_v114
  beta_reduce
  simp only [select_apply, hdivf_apply, broadcastInDim_scalar_apply, cmpf_apply, Ideal.cmpf_def, constant_apply, call8_v8_apply]
  rw [cmp_ogt_zero pos_16, select_one, broadcastInDim_b_1b_apply ![1] _ rfl]
  unfold Spec.var
  refine congrArg (Ideal.div · _) ?_
  refine (hostReduceAdd_cols_apply _ _ _ (by decide) _ j).trans ?_
  rw [constant_apply, Ideal.ofBits_zero_f32, zero_add]
  refine Finset.sum_congr rfl fun b _ => ?_
  rw [mulf_apply, call8_v5_apply]

/-- The normalised values. -/
theorem v127_apply (b : Fin 16) (j : Fin 256) :
    res_main_v127 (F := Ideal) m c (ix2 b j)
      = bn nRows (fun b' : Fin 16 => res_main_v109 (F := Ideal) m c (ix2 b' j)) ((rargs m c).gf2 (ix1 j))
          ((rargs m c).bef2 (ix1 j)) b := by
  unfold res_main_v127
  simp only [maximumf_apply, addf_apply, mulf_apply, hdivf_apply, subf_apply, hsqrt_apply, constant_apply,
    broadcastInDim_scalar_apply, broadcastInDim_1b_ab_apply ![0, 1] _ rfl, broadcastInDim_b_1b_apply ![1] _ rfl,
    Ideal.ofBits_zero_f32]
  rw [v113_apply, v114_apply]
  rfl

section Spec
variable (hatt : ∀ i : Fin 32768, res_main_v61 (F := Ideal) m c (ix1 i) = att (rargs m c) i)
  (hmask : ∀ (b : Fin 16) (i : Fin 32768), res_main_v60 (F := Ideal) m c (ix2 b i) = 1 ↔ inSeg (rargs m c) b i)
include hatt hmask

/-- The second layer of the head. -/
theorem v109_eq (b : Fin 16) (k : Fin 256) : res_main_v109 (F := Ideal) m c (ix2 b k) = z2 (rargs m c) b k := by
  rw [v109_apply]
  unfold z2
  simp only [v104_eq m c hatt hmask]

/-- The second layer of the head, normalised. -/
theorem v127_eq (b : Fin 16) (k : Fin 256) : res_main_v127 (F := Ideal) m c (ix2 b k) = h2 (rargs m c) b k := by
  rw [v127_apply]
  unfold h2
  rw [show (fun b' : Fin 16 => res_main_v109 (F := Ideal) m c (ix2 b' k)) = fun b' => z2 (rargs m c) b' k from
    funext fun b' => v109_eq m c hatt hmask b' k]

end Spec

end Cert.ReferenceIdeal.RefTail

end
-- ==== Proof.RefTail.lean ====
/- The reference's result against the specification, given the attention score and the segment mask: every row of the
   normalised second layer divided by its Euclidean norm, the norm not below the floor. -/
import proofs.«116939_g89575837925665_cont_sun_c4_16_12_alg».proof.Proof.RDHead2

noncomputable section

open scoped BigOperators

namespace Cert.ReferenceIdeal.RefTail

open Cert.ReferenceIdeal Cert.ReferenceIdeal.Gen Cert.ReferenceIdeal.RefRun Idealize.ShloMosaic Idealize.ShloMosaic.ValueIdx
  Idealize.ShloMosaic.TcCoe Idealize.SL.Sem Cert.Spec Cert.LibRowMin Cert.RDBase

variable (m : (ℓ : Loc nD τ sig) → Buf (Elt Ideal) ℓ) (c : Dev nD)

/-- The rows' norms: the root of the row's sum of squares, kept as a column. -/
theorem v128_apply (b : Fin 16) :
    res_main_v128 (F := Ideal) m c (ix2 b (0 : Fin 1))
      = Ideal.sqrt (∑ k : Fin 256, res_main_v127 (F := Ideal) m c (ix2 b k) * res_main_v127 (F := Ideal) m c (ix2 b k)) := by
  unfold res_main_v128
  rw [hsqrt_apply, broadcastInDim_a_a1_apply ![0] _ rfl]
  refine congrArg Ideal.sqrt ?_
  refine (hostReduceAdd_rows_apply _ _ _ (by decide) _ b).trans ?_
  rw [constant_apply, Ideal.ofBits_zero_f32, zero_add]
  rfl

/-- The result: each value divided by its row's norm, the norm not below the floor. -/
theorem v132_apply (b : Fin 16) (k : Fin 256) :
    res_main_v132 (F := Ideal) m c (ix2 b k)
      = Ideal.div (res_main_v127 (F := Ideal) m c (ix2 b k)) (max (res_main_v128 (F := Ideal) m c (ix2 b (0 : Fin 1))) floor) := by
  unfold res_main_v132
  rw [hdivf_apply, broadcastInDim_a1_ab_apply ![0, 1] _ rfl, maximumf_apply, broadcastInDim_scalar_apply, constant_apply]

/-- THE REFERENCE'S RESULT IS THE SPECIFICATION'S, given the attention score and the segment mask. -/
theorem out_eq (m : (ℓ : Loc nD τ sig) → Buf (Elt Ideal) ℓ) (c : Dev nD)
    (hatt : ∀ i : Fin 32768, res_main_v61 (F := Ideal) m c (ix1 i) = att (rargs m c) i)
    (hmask : ∀ (b : Fin 16) (i : Fin 32768), res_main_v60 (F := Ideal) m c (ix2 b i) = 1 ↔ inSeg (rargs m c) b i)
    (b : Fin 16) (k : Fin 256) : res_main_v132 (F := Ideal) m c (ix2 b k) = out (rargs m c) b k := by
  rw [v132_apply, v128_apply, v127_eq m c hatt hmask]
  unfold out
  rw [show (fun k' : Fin 256 => res_main_v127 (F := Ideal) m c (ix2 b k') * res_main_v127 (F := Ideal) m c (ix2 b k'))
      = fun k' => h2 (rargs m c) b k' * h2 (rargs m c) b k' from
    funext fun k' => by rw [v127_eq m c hatt hmask]]

end Cert.ReferenceIdeal.RefTail

end
-- ==== Proof.RESum.lean ====
/- Wrapping sums of 32-bit words read as integers: a left fold of wrapping additions is the integer sum modulo 2^32,
   and the running sum of sixteen words, as a padded window fold, at position b is the sum of the first b + 1 words. -/
import Idealize.ShloMosaic.PureOps.Ideal
import Idealize.ShloMosaic.Lib.ValueIdx
import Idealize.ShloMosaic.Lib.Affine
import Idealize.ShloMosaic.PureOps.Reduce

open scoped BigOperators
open Idealize.ShloMosaic Idealize.ShloMosaic.ValueIdx

namespace Cert.REInt

/-- A left fold of wrapping additions of words given by integers is the word of the integer sum. -/
theorem foldl_addi_ofInt {ι : Type} (z : ι → ℤ) : ∀ (l : List ι) (acc : ℤ),
    l.foldl (fun r n => IntOp.addi r (BitVec.ofInt 32 (z n))) (BitVec.ofInt 32 acc) = BitVec.ofInt 32 (acc + (l.map z).sum)
  | [], acc => by simp
  | a :: l, acc => by
    rw [List.foldl_cons]
    show List.foldl _ (BitVec.ofInt 32 acc + BitVec.ofInt 32 (z a)) l = _
    rw [← BitVec.ofInt_add, foldl_addi_ofInt z l, List.map_cons, List.sum_cons, add_assoc]

/-- A left fold of wrapping additions of words is the word of the sum of their signed readings. -/
theorem foldl_addi_toInt {ι : Type} (x : ι → BitVec 32) (l : List ι) (acc : ℤ) :
    l.foldl (fun r n => IntOp.addi r (x n)) (BitVec.ofInt 32 acc) = BitVec.ofInt 32 (acc + (l.map fun n => (x n).toInt).sum) := by
  have e : (fun (r : BitVec 32) (n : ι) => IntOp.addi r (x n)) = fun r n => IntOp.addi r (BitVec.ofInt 32 ((x n).toInt)) := by
    funext r n; rw [BitVec.ofInt_toInt]
  rw [e]
  exact foldl_addi_ofInt (fun n => (x n).toInt) l acc

/-- A sum over the indices of a vector is the sum over its coordinate. -/
theorem sum_idx1 {M : Type*} [AddCommMonoid M] {n : ℕ} (f : (⟨1, ![n]⟩ : Shape).Idx → M) :
    ∑ i, f i = ∑ k : Fin n, f (ix1 k) :=
  Fintype.sum_equiv ⟨fun i => i 0, fun k => ix1 k, fun i => (eq_ix1 i).symm, fun _ => rfl⟩ _ _ (fun i => congrArg f (eq_ix1 i))

/-- A wrapping sum of all the words of an array, from zero, is the word of the sum of their signed readings. -/
theorem reduce_addi_all {s t u : Shape} {axes : List (Fin s.rank)} [Subsingleton t.Idx] (X : s.Idx → BitVec 32)
    (init : u.Idx → BitVec 32) (h : s.ReducesTo axes t) (hu : 0 < u.numel) (hinit : ∀ j, init j = 0#32) (j : t.Idx) :
    Host.reduce IntOp.addi X init h hu j = BitVec.ofInt 32 (∑ i : s.Idx, (X i).toInt) := by
  rw [Host.reduce_eq_foldl, hinit, List.filter_eq_self.2 (fun i _ => decide_eq_true (Subsingleton.elim _ _))]
  show List.foldl _ (BitVec.ofInt 32 0) _ = _
  rw [foldl_addi_toInt, zero_add, List.map_map, ← Fin.sum_univ_def]
  exact congrArg _ (Equiv.sum_comp s.rowMajor.symm (fun i => (X i).toInt))

/-- The signed minimum of two words reads as the minimum of their signed readings. -/
theorem toInt_minsi (x y : BitVec 32) : (IntOp.minsi x y).toInt = min x.toInt y.toInt := by
  unfold IntOp.minsi
  by_cases h : x.slt y = true
  · rw [if_pos h]
    rw [BitVec.slt_iff_toInt_lt] at h
    omega
  · rw [if_neg h]
    rw [BitVec.slt_iff_toInt_lt] at h
    omega

/-- The word at position k read as a signed integer, zero past the end. -/
def L (len : (⟨1, ![16]⟩ : Shape).Idx → BitVec 32) (k : ℕ) : ℤ := if h : k < 16 then (len (ix1 ⟨k, h⟩)).toInt else 0

/-- The term of the running sum's fold: position n of the window at b reads word b + n - 15, zero where that is padding. -/
def zz (len : (⟨1, ![16]⟩ : Shape).Idx → BitVec 32) (b k : ℕ) : ℤ := if 15 ≤ b + k then L len (b + k - 15) else 0

theorem sum_zz (len : (⟨1, ![16]⟩ : Shape).Idx → BitVec 32) (b : Fin 16) :
    ∑ k ∈ Finset.range 16, zz len b.val k = ∑ j : Fin 16, if j ≤ b then (len (ix1 j)).toInt else 0 := by
  have e : ∀ j : Fin 16, (if j ≤ b then (len (ix1 j)).toInt else 0) = (fun k : ℕ => if k ≤ b.val then L len k else 0) j.val := by
    intro j
    show _ = if j.val ≤ b.val then L len j.val else 0
    rw [L, dif_pos j.isLt]
    rfl
  rw [Finset.sum_congr rfl (fun j _ => e j), Fin.sum_univ_eq_sum_range (fun k : ℕ => if k ≤ b.val then L len k else 0) 16]
  unfold zz
  rw [← Finset.sum_filter, ← Finset.sum_filter]
  have hb := b.isLt
  refine Finset.sum_nbij' (fun k => b.val + k - 15) (fun j => j + 15 - b.val) ?_ ?_ ?_ ?_ ?_
  · intro x hx; simp only [Finset.mem_filter, Finset.mem_range] at hx ⊢; omega
  · intro x hx; simp only [Finset.mem_filter, Finset.mem_range] at hx ⊢; omega
  · intro x hx; simp only [Finset.mem_filter, Finset.mem_range] at hx ⊢; omega
  · intro x hx; simp only [Finset.mem_filter, Finset.mem_range] at hx ⊢; omega
  · intro x hx; rfl

theorem cumsum_apply (len : (⟨1, ![16]⟩ : Shape).Idx → BitVec 32) (init : (⟨0, ![]⟩ : Shape).Idx → BitVec 32)
    (h : (⟨1, ![16]⟩ : Shape).ReduceWindows ![16] ![1] ![15] ![0] ⟨1, ![16]⟩) (hu : 0 < (⟨0, ![]⟩ : Shape).numel)
    (hinit : ∀ j, init j = 0#32) (b : Fin 16) :
    Host.reduceWindow IntOp.addi ![16] ![1] ![15] ![0] len init h hu (ix1 b)
      = BitVec.ofInt 32 (∑ j : Fin 16, if j ≤ b then (len (ix1 j)).toInt else 0) := by
  unfold Host.reduceWindow
  dsimp only
  rw [hinit]
  have hN : (⟨1, ![16]⟩ : Shape).numel = 16 := by decide
  have hrm : ∀ n : Fin (⟨1, ![16]⟩ : Shape).numel, (((⟨1, ![16]⟩ : Shape).rowMajor.symm n 0 : Fin _) : ℕ) = n.val := by
    intro n
    have := Shape.rowMajor_val_one ((⟨1, ![16]⟩ : Shape).rowMajor.symm n)
    rw [Equiv.apply_symm_apply] at this
    exact this.symm
  refine Eq.trans (congrArg (fun f => List.foldl f (0#32) (List.finRange _))
    (?_ : _ = fun r (n : Fin (⟨1, ![16]⟩ : Shape).numel) => IntOp.addi r (BitVec.ofInt 32 (zz len b.val n.val)))) ?_
  · funext r n
    refine congrArg (IntOp.addi r) ?_
    have hn : n.val < 16 := by have := n.isLt; omega
    have hb := b.isLt
    split
    · rename_i hin
      have h0 : 15 ≤ b.val * 1 + ((⟨1, ![16]⟩ : Shape).rowMajor.symm n 0).val ∧ b.val * 1 + ((⟨1, ![16]⟩ : Shape).rowMajor.symm n 0).val - 15 < 16 := hin 0
      rw [hrm] at h0
      have hlt : b.val + n.val - 15 < 16 := by omega
      rw [zz, if_pos (by omega), L, dif_pos hlt, BitVec.ofInt_toInt]
      refine congrArg len (funext fun a => Fin.ext ?_)
      match a with
      | ⟨0, _⟩ =>
        show b.val * 1 + ((⟨1, ![16]⟩ : Shape).rowMajor.symm n 0).val - 15 = b.val + n.val - 15
        rw [hrm]; omega
    · rename_i hin
      have hc : ¬ 15 ≤ b.val + n.val := by
        intro hc
        apply hin
        intro a
        match a with
        | ⟨0, _⟩ =>
          show 15 ≤ b.val * 1 + ((⟨1, ![16]⟩ : Shape).rowMajor.symm n 0).val ∧ b.val * 1 + ((⟨1, ![16]⟩ : Shape).rowMajor.symm n 0).val - 15 < 16
          rw [hrm]; omega
      rw [zz, if_neg hc]
      rfl
  · show List.foldl _ (BitVec.ofInt 32 0) _ = _
    rw [foldl_addi_ofInt (fun n : Fin (⟨1, ![16]⟩ : Shape).numel => zz len b.val n.val), zero_add, ← Fin.sum_univ_def,
      Fin.sum_univ_eq_sum_range (fun k => zz len b.val k), hN, sum_zz]

end Cert.REInt
-- ==== Proof.REEnd.lean ====
/- Integer facts about the segment ends: with nonnegative lengths the ends grow, a segment's length is at most its end,
   each end is the previous end plus the length, and a word given by an integer inside the signed 32-bit range reads
   back as that integer. -/
import proofs.«116939_g89575837925665_cont_sun_c4_16_12_alg».proof.Proof.Spec

open scoped BigOperators

namespace Cert.REEnd

open Cert.Spec

/-- A word given by an integer inside the signed range reads back as that integer. -/
theorem toInt_ofInt_of_range (z : ℤ) (h1 : -2147483648 ≤ z) (h2 : z < 2147483648) : (BitVec.ofInt 32 z).toInt = z := by
  rw [BitVec.toInt_ofInt, Int.bmod_def]; omega

/-- A natural number below 2^31 as a word reads back as itself. -/
theorem toInt_ofNat_of_lt (n : ℕ) (h : n < 2147483648) : (BitVec.ofNat 32 n).toInt = (n : ℤ) := by
  rw [BitVec.toInt_ofNat', Int.bmod_def]; omega

/-- A wrapping difference whose integer difference is inside the signed range reads as that difference. -/
theorem toInt_sub_of_range (x y : BitVec 32) (h1 : -2147483648 ≤ x.toInt - y.toInt) (h2 : x.toInt - y.toInt < 2147483648) :
    (x - y).toInt = x.toInt - y.toInt := by
  rw [BitVec.toInt_sub, Int.bmod_def]; omega

variable (a : Args)

/-- With nonnegative lengths the ends grow. -/
theorem endZ_mono (h0 : ∀ j, 0 ≤ lenZ a j) {b b' : Fin 16} (hb : b ≤ b') : endZ a b ≤ endZ a b' := by
  unfold endZ
  refine Finset.sum_le_sum fun j _ => ?_
  by_cases h1 : j ≤ b
  · rw [if_pos h1, if_pos (le_trans h1 hb)]
  · rw [if_neg h1]
    split
    · exact h0 j
    · exact le_rfl

/-- With nonnegative lengths a segment's length is at most its end. -/
theorem lenZ_le_endZ (h0 : ∀ j, 0 ≤ lenZ a j) (b : Fin 16) : lenZ a b ≤ endZ a b := by
  unfold endZ
  have h := Finset.single_le_sum (f := fun j : Fin 16 => if j ≤ b then lenZ a j else 0)
    (fun j _ => by
      show 0 ≤ if j ≤ b then lenZ a j else 0
      split
      · exact h0 j
      · exact le_rfl) (Finset.mem_univ b)
  rw [if_pos le_rfl] at h
  exact h

/-- Each end is the previous end plus the segment's length. -/
theorem endZ_succ (b b' : Fin 16) (hb : b.val + 1 = b'.val) : endZ a b' = endZ a b + lenZ a b' := by
  unfold endZ
  have e : ∀ j : Fin 16, (if j ≤ b' then lenZ a j else 0) = (if j ≤ b then lenZ a j else 0) + (if j = b' then lenZ a j else 0) := by
    intro j
    by_cases h1 : j ≤ b
    · have h2 : j ≤ b' := by rw [Fin.le_def] at h1 ⊢; omega
      have h3 : ¬ j = b' := by intro h; rw [h, Fin.le_def] at h1; omega
      rw [if_pos h1, if_pos h2, if_neg h3, add_zero]
    · by_cases h3 : j = b'
      · rw [if_neg h1, if_pos h3, if_pos (le_of_eq h3), zero_add]
      · have h2 : ¬ j ≤ b' := by
          intro h
          rw [Fin.le_def] at h1 h
          exact h3 (Fin.ext (by omega))
        rw [if_neg h1, if_neg h2, if_neg h3, add_zero]
  rw [Finset.sum_congr rfl (fun j _ => e j), Finset.sum_add_distrib, Finset.sum_ite_eq' Finset.univ b' (fun j => lenZ a j),
    if_pos (Finset.mem_univ b')]

/-- The fifteenth end is the sum of the first fifteen lengths. -/
theorem endZ_fourteen : endZ a 14 = ∑ k : Fin 15, lenZ a k.castSucc := by
  unfold endZ
  rw [Fin.sum_univ_castSucc]
  have e1 : (if (Fin.last 15 : Fin 16) ≤ 14 then lenZ a (Fin.last 15) else 0) = 0 := if_neg (by decide)
  rw [e1, add_zero]
  refine Finset.sum_congr rfl fun k _ => if_pos ?_
  rw [Fin.le_def]
  show k.val ≤ 14
  have := k.isLt
  omega

/-- The first end is the first length. -/
theorem endZ_zero : endZ a 0 = lenZ a 0 := by
  unfold endZ
  have e : ∀ j : Fin 16, (if j ≤ 0 then lenZ a j else 0) = (if j = 0 then lenZ a j else 0) := by
    intro j
    by_cases h : j = 0
    · rw [if_pos h, if_pos (le_of_eq h)]
    · have h2 : ¬ j ≤ 0 := by
        intro h'
        exact h (Fin.le_zero_iff'.mp h')
      rw [if_neg h, if_neg h2]
  rw [Finset.sum_congr rfl (fun j _ => e j), Finset.sum_ite_eq' Finset.univ (0 : Fin 16) (fun j => lenZ a j), if_pos (Finset.mem_univ _)]

end Cert.REEnd
-- ==== Proof.RefMask.lean ====
/- The reference's segment mask, read at (b, i). The reference sums the lengths with wrapping 32-bit additions, takes
   starts = ends - lengths, and tests start ≤ i < end with signed comparisons of words. When every length is at least 1
   and the whole sum stays within the signed range, every end's word reads as the exact end and every start's word as
   end minus length, so the mask's bit is 1 exactly when point i lies in segment b. -/
import proofs.«116939_g89575837925665_cont_sun_c4_16_12_alg».proof.Proof.RefArgs
import proofs.«116939_g89575837925665_cont_sun_c4_16_12_alg».proof.Proof.LibHostKeepdims
import proofs.«116939_g89575837925665_cont_sun_c4_16_12_alg».proof.Proof.RESum
import proofs.«116939_g89575837925665_cont_sun_c4_16_12_alg».proof.Proof.REEnd

noncomputable section

namespace Cert.ReferenceIdeal.RefMask

open Cert.ReferenceIdeal Cert.ReferenceIdeal.RefRun Idealize.ShloMosaic Idealize.ShloMosaic.ValueIdx Cert.Spec
open Idealize.ShloMosaic.TcCoe Idealize.SL.Sem Cert.ReferenceIdeal.Facts₀

/-- The conjunction of a signed "at least" and a signed "below" on words, read at an index where the three words are known. -/
theorem and_cmp_iff {s : Shape} (A B C : IVec s 32) (j : s.Idx) (x y z : BitVec 32) (hA : A j = x) (hB : B j = y) (hC : C j = z) :
    andi (cmpi .sge A B) (cmpi .slt A C) j = 1 ↔ y.toInt ≤ x.toInt ∧ x.toInt < z.toInt := by
  show IntOp.andi (IntOp.cmpi .sge (A j) (B j)) (IntOp.cmpi .slt (A j) (C j)) = 1#1 ↔ _
  rw [hA, hB, hC, IntOp.andi_eq_one, IntOp.cmpi_sge, IntOp.cmpi_slt]

variable (m : (ℓ : Loc nD τ sig) → Buf (Elt Ideal) ℓ) (c : Dev nD)

/-- The wrapping running sum at b is the word of the exact end. -/
theorem ends_word (b : Fin 16) : res_main_v47 (F := Ideal) m c (ix1 b) = BitVec.ofInt 32 (endZ (rargs m c) b) := by
  unfold res_main_v47
  have hinit : ∀ j, (broadcastInDim S_ ![] bcast_S_S_ (constantI S_ 32 0#32)) j = 0#32 := fun _ => rfl
  refine (Cert.REInt.cumsum_apply (rargs m c).len (broadcastInDim S_ ![] bcast_S_S_ (constantI S_ 32 0#32))
    reduceWindows_S16_S16_w16s1p15_0 h_S_ hinit b).trans ?_
  rfl

theorem le_fifteen (b : Fin 16) : b ≤ (15 : Fin 16) := by
  rw [Fin.le_def]
  have := b.isLt
  show b.val ≤ 15
  omega

/-- Under the condition on the lengths the end's word reads as the exact end. -/
theorem ends_toInt (hlen : LenOK (rargs m c)) (b : Fin 16) :
    (res_main_v47 (F := Ideal) m c (ix1 b)).toInt = endZ (rargs m c) b := by
  rw [ends_word]
  have h0 : ∀ j, 0 ≤ lenZ (rargs m c) j := fun j => le_trans (by decide) (hlen.1 j)
  have h1 := Cert.REEnd.lenZ_le_endZ _ h0 b
  have h2 := Cert.REEnd.endZ_mono _ h0 (le_fifteen b)
  have h3 := hlen.2.2
  have h4 := hlen.1 b
  exact Cert.REEnd.toInt_ofInt_of_range _ (by omega) (by omega)

/-- Under the condition on the lengths the start's word reads as end minus length. -/
theorem starts_toInt (hlen : LenOK (rargs m c)) (b : Fin 16) :
    (res_main_v48 (F := Ideal) m c (ix1 b)).toInt = endZ (rargs m c) b - lenZ (rargs m c) b := by
  have h0 : ∀ j, 0 ≤ lenZ (rargs m c) j := fun j => le_trans (by decide) (hlen.1 j)
  have h1 := Cert.REEnd.lenZ_le_endZ _ h0 b
  have h2 := Cert.REEnd.endZ_mono _ h0 (le_fifteen b)
  have h3 := hlen.2.2
  have h4 := hlen.1 b
  have he := ends_toInt m c hlen b
  have hl : ((rargs m c).len (ix1 b)).toInt = lenZ (rargs m c) b := rfl
  show (res_main_v47 (F := Ideal) m c (ix1 b) - (rargs m c).len (ix1 b)).toInt = _
  rw [Cert.REEnd.toInt_sub_of_range _ _ (by omega) (by omega), he, hl]

/-- The mask's bit at (b, i) is 1 exactly when point i lies in segment b. -/
theorem mask_iff (hlen : LenOK (rargs m c)) (b : Fin 16) (i : Fin 32768) :
    res_main_v60 (F := Ideal) m c (ix2 b i) = 1 ↔ inSeg (rargs m c) b i := by
  unfold res_main_v60
  refine (and_cmp_iff _ _ _ (ix2 b i) (BitVec.ofNat 32 i.val) (res_main_v48 (F := Ideal) m c (ix1 b))
    (res_main_v47 (F := Ideal) m c (ix1 b)) ?_ ?_ ?_).trans ?_
  · exact (broadcastInDim_1b_ab_apply _ _ rfl _ b i).trans ((broadcastInDim_b_1b_apply _ _ rfl _ 0 i).trans rfl)
  · exact (broadcastInDim_a1_ab_apply _ _ rfl _ b i).trans (broadcastInDim_a_a1_apply _ _ rfl _ b 0)
  · exact (broadcastInDim_a1_ab_apply _ _ rfl _ b i).trans (broadcastInDim_a_a1_apply _ _ rfl _ b 0)
  · rw [starts_toInt m c hlen, ends_toInt m c hlen, Cert.REEnd.toInt_ofNat_of_lt _ (by have := i.isLt; omega)]
    exact Iff.rfl

end Cert.ReferenceIdeal.RefMask

end
-- ==== Proof.PreLen.lean ====
/- What the added precondition says of the segment lengths. The predicate's last conjunct is the bit
   all(length ≥ 1) ∧ head < 32768 ∧ all(length[15:16] ≤ 2147483647 - head), head the wrapping 32-bit sum of the first
   fifteen lengths each clipped at 32768. With every length at least 1 each clipped term lies in [1, 32768], so the sum
   of fifteen of them does not wrap; head < 32768 then puts every clipped term below 32768, so nothing was clipped and
   head is the exact sum of the first fifteen lengths; the ends up to the fifteenth are at most that sum; and the last
   comparison, whose right side does not wrap either, bounds the whole sum by 2147483647. -/
import proofs.«116939_g89575837925665_cont_sun_c4_16_12_alg».proof.Pre_finite_inputs
import proofs.«116939_g89575837925665_cont_sun_c4_16_12_alg».proof.Proof.Spec
import proofs.«116939_g89575837925665_cont_sun_c4_16_12_alg».proof.Proof.RESum
import proofs.«116939_g89575837925665_cont_sun_c4_16_12_alg».proof.Proof.REEnd
import Idealize.ShloMosaic.Lib.ReduceAll

noncomputable section

open scoped BigOperators

namespace Cert.PreLen

open Idealize.ShloMosaic Idealize.ShloMosaic.ValueIdx Cert.Spec Cert.Pre_finite_inputs Cert.Pre_finite_inputs.Facts

/-- The scalar shape has one index. -/
instance : Subsingleton S_.Idx := ⟨fun a b => funext fun d => d.elim0⟩

variable [Facts]

/-- The first fifteen lengths, each clipped at 32768, summed with wrapping additions. -/
def head (len : IVec S16 32) : BitVec 32 :=
  Host.reduce IntOp.addi (minsi (extractStridedSlice S15 ![0] len slices_S16_S15_0)
    (broadcastInDim S15 ![] bcast_S_S15 (constantI S_ 32 32768#32))) (constantI S_ 32 0#32) reducesTo_S15_S_d0 h_S_ ix0

/-- Element k of the slice [0:15] is element k. -/
theorem slice15_apply (len : IVec S16 32) (k : Fin 15) :
    extractStridedSlice S15 ![0] len slices_S16_S15_0 (ix1 k) = len (ix1 k.castSucc) :=
  congrArg len (funext fun a => match a with
    | ⟨0, _⟩ => Fin.ext (by show 0 + k.val = k.val; omega))

/-- The one element of the slice [15:16] is element 15. -/
theorem slice1_apply (len : IVec S16 32) :
    extractStridedSlice S1 ![15] len slices_S16_S1_15 (ix1 (0 : Fin 1)) = len (ix1 (15 : Fin 16)) :=
  congrArg len (funext fun a => match a with
    | ⟨0, _⟩ => Fin.ext (by show 15 + 0 = 15; rfl))

/-- The last conjunct of the predicate, split into its three comparisons on words. -/
theorem decode (len : IVec S16 32) (v83 : IVec S_ 1)
    (h : fn_part5 (F := Ideal) len v83 (extractStridedSlice S15 ![0] len slices_S16_S15_0)
      (extractStridedSlice S1 ![15] len slices_S16_S1_15) ix0 = 1#1) :
    (∀ b : Fin 16, 1 ≤ (len (ix1 b)).toInt) ∧ (head len).toInt < 32768
      ∧ (len (ix1 (15 : Fin 16))).toInt ≤ (2147483647#32 - head len).toInt := by
  dsimp only [fn_part5] at h
  obtain ⟨-, h98⟩ := IntOp.andi_eq_one.1 h
  obtain ⟨h93, h97⟩ := IntOp.andi_eq_one.1 h98
  obtain ⟨h91, h92⟩ := IntOp.andi_eq_one.1 h93
  refine ⟨fun b => ?_, ?_, ?_⟩
  · have h1 : (1#32 : BitVec 32).toInt ≤ (len (ix1 b)).toInt :=
      IntOp.cmpi_sge.1 (Host.reduce_andi_all _ _ _ _ ix0 h91 (ix1 b))
    have e1 : (1#32 : BitVec 32).toInt = 1 := by decide
    omega
  · have h2 : (head len).toInt < (32768#32 : BitVec 32).toInt := IntOp.cmpi_slt.1 h92
    have e2 : (32768#32 : BitVec 32).toInt = 32768 := by decide
    omega
  · have h3 := IntOp.cmpi_sle.1 (Host.reduce_andi_all _ _ _ _ ix0 h97 (ix1 (0 : Fin 1)))
    refine le_trans (le_of_eq (congrArg BitVec.toInt (slice1_apply len).symm)) (le_trans h3 (le_of_eq ?_))
    refine congrArg BitVec.toInt ?_
    exact congrArg (subi (constantI S_ 32 2147483647#32) (fun j => head len)) (Subsingleton.elim _ ix0)

/-- The head is the word of the sum of the first fifteen lengths, each clipped at 32768. -/
theorem head_word (len : IVec S16 32) :
    head len = BitVec.ofInt 32 (∑ k : Fin 15, min (len (ix1 k.castSucc)).toInt 32768) := by
  unfold head
  refine (Cert.REInt.reduce_addi_all _ _ reducesTo_S15_S_d0 h_S_ (fun _ => rfl) ix0).trans ?_
  rw [Cert.REInt.sum_idx1]
  refine congrArg _ (Finset.sum_congr rfl fun k _ => ?_)
  show (IntOp.minsi (extractStridedSlice S15 ![0] len slices_S16_S15_0 (ix1 k)) (32768#32)).toInt = _
  rw [Cert.REInt.toInt_minsi, slice15_apply, (by decide : (32768#32 : BitVec 32).toInt = 32768)]

/-- From the three comparisons to the statement about the exact ends. -/
theorem lenOK_of_facts (a : Args)
    (h : (∀ b : Fin 16, 1 ≤ (a.len (ix1 b)).toInt) ∧ (head a.len).toInt < 32768
      ∧ (a.len (ix1 (15 : Fin 16))).toInt ≤ (2147483647#32 - head a.len).toInt) : LenOK a := by
  obtain ⟨hpos, hhead, hlast⟩ := h
  have hpos' : ∀ b : Fin 16, 1 ≤ lenZ a b := hpos
  have h0 : ∀ j, 0 ≤ lenZ a j := fun j => le_trans (by decide) (hpos' j)
  -- the clipped terms and their sum
  have ht1 : ∀ k : Fin 15, 1 ≤ min (lenZ a k.castSucc) 32768 := fun k => le_min (hpos' _) (by decide)
  have ht2 : ∀ k : Fin 15, min (lenZ a k.castSucc) 32768 ≤ 32768 := fun k => min_le_right _ _
  have hS0 : 0 ≤ ∑ k : Fin 15, min (lenZ a k.castSucc) 32768 :=
    Finset.sum_nonneg fun k _ => le_trans (by decide) (ht1 k)
  have hS1 : ∑ k : Fin 15, min (lenZ a k.castSucc) 32768 ≤ 491520 := by
    have := Finset.sum_le_card_nsmul (Finset.univ : Finset (Fin 15)) (fun k => min (lenZ a k.castSucc) 32768) 32768
      (fun k _ => ht2 k)
    rw [Finset.card_univ, Fintype.card_fin, nsmul_eq_mul] at this
    exact le_trans this (by norm_num)
  -- the head reads as that sum
  have hw : (head a.len).toInt = ∑ k : Fin 15, min (lenZ a k.castSucc) 32768 := by
    rw [head_word]
    show (BitVec.ofInt 32 (∑ k : Fin 15, min (lenZ a k.castSucc) 32768)).toInt = _
    exact Cert.REEnd.toInt_ofInt_of_range _ (by omega) (by omega)
  rw [hw] at hhead
  -- nothing was clipped
  have hk : ∀ k : Fin 15, min (lenZ a k.castSucc) 32768 = lenZ a k.castSucc := by
    intro k
    have := Finset.single_le_sum (f := fun k : Fin 15 => min (lenZ a k.castSucc) 32768)
      (fun j _ => le_trans (by decide) (ht1 j)) (Finset.mem_univ k)
    have h1 : min (lenZ a k.castSucc) 32768 < 32768 := lt_of_le_of_lt this hhead
    exact min_eq_left (le_of_lt (lt_of_not_ge fun hge => by rw [min_eq_right hge] at h1; exact lt_irrefl _ h1))
  have hS : ∑ k : Fin 15, min (lenZ a k.castSucc) 32768 = endZ a 14 := by
    rw [Cert.REEnd.endZ_fourteen]
    exact Finset.sum_congr rfl fun k _ => hk k
  rw [hS] at hhead hw
  refine ⟨hpos', fun b hb => ?_, ?_⟩
  · have hb14 : b ≤ (14 : Fin 16) := by
      rw [Fin.le_def]
      show b.val ≤ 14
      omega
    exact lt_of_le_of_lt (Cert.REEnd.endZ_mono a h0 hb14) hhead
  · have e15 : endZ a 15 = endZ a 14 + lenZ a 15 := Cert.REEnd.endZ_succ a 14 15 rfl
    have hc : (2147483647#32 : BitVec 32).toInt = 2147483647 := by decide
    have hsub : (2147483647#32 - head a.len).toInt = 2147483647 - endZ a 14 := by
      have h14 : 0 ≤ endZ a 14 := le_trans (h0 14) (Cert.REEnd.lenZ_le_endZ a h0 14)
      rw [Cert.REEnd.toInt_sub_of_range _ _ (by omega) (by omega), hc, hw]
    have hl : lenZ a 15 ≤ 2147483647 - endZ a 14 := by
      rw [← hsub]
      exact hlast
    omega

/-- The precondition gives the condition on the lengths. -/
theorem lenOK_of_pre (a : Cert.Spec.Args)
    (h : Cert.Pre_finite_inputs.fn (F := Ideal) a.x a.len a.W1 a.b1 a.g1 a.be1 a.W2 a.b2 a.g2 a.be2 a.Wf1 a.bf1 a.gf1 a.bef1
      a.Wf2 a.bf2 a.gf2 a.bef2 = (fun _ => 1#1)) : Cert.Spec.LenOK a := by
  have e := congrFun h ix0
  dsimp only [fn, fn_part1, fn_part2, fn_part3, fn_part4] at e
  exact lenOK_of_facts a (decode a.len _ e)

end Cert.PreLen

end
-- ==== Proof.lean ====
/- The five conjuncts of `Cert.Claim`.
   Kernel: one ungridded call holding the whole 32768 x 32 point array; pointwise convolutions with batch statistics over the
   points give one attention score per point, a softmax of the scores inside each of 16 contiguous segments weights the
   points of the segment, the weighted means go through two linear layers with batch statistics over the 16 rows, and every
   row is divided by its Euclidean norm. Reference: the same network in jnp, points along rows. -/
import proofs.«116939_g89575837925665_cont_sun_c4_16_12_alg».proof.Defs
import proofs.«116939_g89575837925665_cont_sun_c4_16_12_alg».proof.Proof.Gen.Kernel
import proofs.«116939_g89575837925665_cont_sun_c4_16_12_alg».proof.Proof.Gen.Kernel.Skeleton
import proofs.«116939_g89575837925665_cont_sun_c4_16_12_alg».proof.Proof.Gen.Kernel.Launch
import proofs.«116939_g89575837925665_cont_sun_c4_16_12_alg».proof.Proof.Gen.Kernel.Points
import proofs.«116939_g89575837925665_cont_sun_c4_16_12_alg».proof.Proof.Gen.Kernel.Frame
import proofs.«116939_g89575837925665_cont_sun_c4_16_12_alg».proof.Proof.Gen.KernelIdeal
import proofs.«116939_g89575837925665_cont_sun_c4_16_12_alg».proof.Proof.Gen.KernelIdeal.Skeleton
import proofs.«116939_g89575837925665_cont_sun_c4_16_12_alg».proof.Proof.Gen.KernelIdeal.Launch
import proofs.«116939_g89575837925665_cont_sun_c4_16_12_alg».proof.Proof.Gen.KernelIdeal.Points
import proofs.«116939_g89575837925665_cont_sun_c4_16_12_alg».proof.Proof.Gen.KernelIdeal.Frame
import proofs.«116939_g89575837925665_cont_sun_c4_16_12_alg».proof.Proof.Gen.KernelIdeal.Value
import proofs.«116939_g89575837925665_cont_sun_c4_16_12_alg».proof.Proof.Gen.ReferenceIdeal
import proofs.«116939_g89575837925665_cont_sun_c4_16_12_alg».proof.Proof.Gen.Pre_finite_inputs
import proofs.«116939_g89575837925665_cont_sun_c4_16_12_alg».proof.Proof.Spec
import proofs.«116939_g89575837925665_cont_sun_c4_16_12_alg».proof.Proof.KernelOut
import proofs.«116939_g89575837925665_cont_sun_c4_16_12_alg».proof.Proof.RefRun
import proofs.«116939_g89575837925665_cont_sun_c4_16_12_alg».proof.Proof.RefHead
import proofs.«116939_g89575837925665_cont_sun_c4_16_12_alg».proof.Proof.RefTail
import proofs.«116939_g89575837925665_cont_sun_c4_16_12_alg».proof.Proof.RefMask
import proofs.«116939_g89575837925665_cont_sun_c4_16_12_alg».proof.Proof.PreLen
import Idealize.ShloMosaic.Adequacy
import Idealize.ShloMosaic.Init

noncomputable section

namespace Cert.Proof

open Idealize.ShloMosaic Idealize.ShloMosaic.ValueIdx Idealize.SL.Sem

/-- Memories that agree on the eighteen arguments give the two programs the same argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RefRun.rargs m' c = Cert.KernelIdeal.Out.kargs m c := by
  obtain ⟨h0, h1, h2, h3, h4, h5, h6, h7, h8, h9, h10, h11, h12, h13, h14, h15, h16, h17⟩ := h
  unfold Cert.ReferenceIdeal.RefRun.rargs Cert.KernelIdeal.Out.kargs
  rw [h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_,
    ⟨IdealRules.truncf_extf.statement _ _ _, IdealRules.truncf_extf.statement _ _ _⟩, ?_⟩
  · -- the reference's frame: its run with the result dropped
    exact fun m ρ _ => (θ_run Cert.ReferenceIdeal.defs _ _).mono (fun _ h c => (h c).2)
      (Cert.ReferenceIdeal.RefRun.run (F := Ideal) m ρ)
  · -- both results are the specification's array of one argument record
    intro m ρ m' ρ' hpre hagree
    refine ⟨fun c => Cert.Spec.outArr (Cert.KernelIdeal.Out.kargs m c), Cert.KernelIdeal.Out.run m ρ, ?_⟩
    refine (θ_run Cert.ReferenceIdeal.defs _ _).mono (fun _ h c => ⟨(h c).1.trans ?_, (h c).2⟩)
      (Cert.ReferenceIdeal.RefRun.run (F := Ideal) m' ρ')
    have hargs := args_agree m m' c (hagree c)
    have hlen : Cert.Spec.LenOK (Cert.ReferenceIdeal.RefRun.rargs m' c) := by
      rw [hargs]; exact Cert.PreLen.lenOK_of_pre (Cert.KernelIdeal.Out.kargs m c) (hpre c)
    funext j
    obtain ⟨b, k, rfl⟩ : ∃ (b : Fin 16) (k : Fin 256), j = ix2 b k := ⟨j 0, j 1, eq_ix2 j⟩
    rw [Cert.ReferenceIdeal.RefTail.out_eq m' c (Cert.ReferenceIdeal.RefHead.att_eq m' c)
      (Cert.ReferenceIdeal.RefMask.mask_iff m' c hlen) b k, hargs]
    rfl⟩

end Cert.Proof

end
